-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v29 : IVec S_ 1) (main_v33 : IVec S1600000 1) (main_c_11 : IVec S_ 1) : IVec S_ 1 :=
  let main_v34 : IVec S_ 1 := (fun x v => Host.reduce IntOp.andi x v reducesTo_S1600000_S_d0 h_S_) main_v33 main_c_11
  let main_v35 : IVec S_ 1 := andi main_v29 main_v34
  main_v35

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_c_9 : IVec S_ 1 := constantI S_ 1 1#1
  let main_v28 : IVec S_ 1 := (fun x v => Host.reduce IntOp.andi x v reducesTo_S1600000_S_d0 h_S_) main_v27 main_c_9
  let main_v29 : IVec S_ 1 := andi main_v23 main_v28
  let main_v30 : IVec S1x1600000 32 := (extractStridedSlice S1x1600000 ![0, 0] · slices_S2x1600000_S1x1600000_0_0) main_arg1
  let main_v31 : IVec S1600000 32 := shapeCast S1600000 main_v30 shapeCasts_S1x1600000_S1600000
  let main_c_10 : IVec S_ 32 := constantI S_ 32 100000#32
  let main_v32 : IVec S1600000 32 := broadcastInDim S1600000 ![] bcast_S_S1600000 main_c_10
  let main_v33 : IVec S1600000 1 := cmpi .slt main_v31 main_v32
  let main_c_11 : IVec S_ 1 := constantI S_ 1 1#1
  fn_part2 (F := F) main_v29 main_v33 main_c_11

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1701888 : Shape := ⟨1, ![1701888]⟩
abbrev S1x1701888 : Shape := ⟨2, ![1, 1701888]⟩
abbrev S100352x128 : Shape := ⟨2, ![100352, 128]⟩
abbrev S2048x128 : Shape := ⟨2, ![2048, 128]⟩
abbrev S1701888x128 : Shape := ⟨2, ![1701888, 128]⟩
abbrev S1x2048 : Shape := ⟨2, ![1, 2048]⟩
abbrev S2048x2048 : Shape := ⟨2, ![2048, 2048]⟩
abbrev S1x128 : Shape := ⟨2, ![1, 128]⟩
abbrev S100352x64 : Shape := ⟨2, ![100352, 64]⟩
abbrev S2048x64 : Shape := ⟨2, ![2048, 64]⟩
abbrev S1701888x64 : Shape := ⟨2, ![1701888, 64]⟩
abbrev S1x64 : Shape := ⟨2, ![1, 64]⟩
abbrev S100000x64 : Shape := ⟨2, ![100000, 64]⟩

abbrev nBuf : Space → Nat
  | .hbm => 70
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S_, .i32⟩
  | .hbm, ⟨48, _⟩ => ⟨S1701888, .i32⟩
  | .hbm, ⟨49, _⟩ => ⟨S_, .i32⟩
  | .hbm, ⟨50, _⟩ => ⟨S_, .i32⟩
  | .hbm, ⟨51, _⟩ => ⟨S1701888, .i32⟩
  | .hbm, ⟨52, _⟩ => ⟨S_, .i32⟩
  | .hbm, ⟨53, _⟩ => ⟨S_, .f32⟩
  | .hbm, ⟨54, _⟩ => ⟨S1701888, .f32⟩
  | .hbm, ⟨55, _⟩ => ⟨S1x1701888, .i32⟩
  | .hbm, ⟨56, _⟩ => ⟨S1x1701888, .i32⟩
  | .hbm, ⟨57, _⟩ => ⟨S1x1701888, .f32⟩
  | .hbm, ⟨58, _⟩ => ⟨S_, .i32⟩
  | .hbm, ⟨59, _⟩ => ⟨S_, .f32⟩
  | .hbm, ⟨60, _⟩ => ⟨S100352x128, .f32⟩
  | .hbm, ⟨61, _⟩ => ⟨S100352x128, .f32⟩
  | .hbm, ⟨62, _⟩ => ⟨S1701888x128, .f32⟩
  | .hbm, ⟨63, _⟩ => ⟨S1x128, .f32⟩
  | .hbm, ⟨64, _⟩ => ⟨S100352x128, .f32⟩
  | .hbm, ⟨65, _⟩ => ⟨S100352x64, .f32⟩
  | .hbm, ⟨66, _⟩ => ⟨S1701888x64, .f32⟩
  | .hbm, ⟨67, _⟩ => ⟨S1x64, .f32⟩
  | .hbm, ⟨68, _⟩ => ⟨S100352x64, .f32⟩
  | .hbm, ⟨69, _⟩ => ⟨S100000x64, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x2048, .i32⟩
  | .local _ .vmem, ⟨8, _⟩ => ⟨S1x2048, .i32⟩
  | .local _ .vmem, ⟨9, _⟩ => ⟨S1x2048, .f32⟩
  | .local _ .vmem, ⟨10, _⟩ => ⟨S1x2048, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x2048, .i32⟩
  | .local _ .vmem, ⟨17, _⟩ => ⟨S1x2048, .i32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S128x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S1x2048, .i32⟩
  | .local _ .vmem, ⟨30, _⟩ => ⟨S1x2048, .i32⟩
  | .local _ .vmem, ⟨31, _⟩ => ⟨S1x2048, .f32⟩
  | .local _ .vmem, ⟨32, _⟩ => ⟨S1x2048, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S2048x64, .f32⟩
  | .local _ .vmem, ⟨37, _⟩ => ⟨S2048x64, .f32⟩
  | .local _ .vmem, ⟨38, _⟩ => ⟨S1x2048, .i32⟩
  | .local _ .vmem, ⟨39, _⟩ => ⟨S1x2048, .i32⟩
  | .local _ .vmem, ⟨40, _⟩ => ⟨S1x64, .f32⟩
  | .local _ .vmem, ⟨41, _⟩ => ⟨S2048x64, .f32⟩
  | .local _ .vmem, ⟨42, _⟩ => ⟨S2048x64, .f32⟩
  | .local _ .vmem, ⟨43, _⟩ => ⟨S2048x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call1_v0 : Ref sig .tc := ⟨.hbm, 47, rfl⟩
abbrev main_v30 : Ref sig .tc := ⟨.hbm, 48, rfl⟩
abbrev main_c_7 : Ref sig .tc := ⟨.hbm, 49, rfl⟩
abbrev main_call2_v0 : Ref sig .tc := ⟨.hbm, 50, rfl⟩
abbrev main_v31 : Ref sig .tc := ⟨.hbm, 51, rfl⟩
abbrev main_c_8 : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_call4_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![831, 49], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 831], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![831, 49], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![49, 831], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x2048 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S1700000_S1701888_018880 : S1700000.Pads (![0] : Fin 1 → Nat) ![1888] ![0] S1701888
  h_S_ : 0 < S_.numel
  shapeCasts_S1701888_S1x1701888 : S1701888.ShapeCasts S1x1701888
  pads_S100000x128_S100352x128_03520_000 : S100000x128.Pads (![0, 0] : Fin 2 → Nat) ![352, 0] ![0, 0] S100352x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  iota_S2048x2048_d0_w32 : S2048x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S100352x64_S100000x64_0_0 : S100352x64.Slices ![0, 0] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2048x128_S128x128_S2048x128_1_0_0_1_n_n_wf : DotDims.WF S2048x128 S128x128 S2048x128 [1] [0] [0] [1] [] []
  dot_S2048x2048_S2048x128_S2048x128_0_0_1_1_n_n_wf : DotDims.WF S2048x2048 S2048x128 S2048x128 [0] [0] [1] [1] [] []
  dot_S2048x2048_S2048x128_S2048x128_1_0_0_1_n_n_wf : DotDims.WF S2048x2048 S2048x128 S2048x128 [1] [0] [0] [1] [] []
  dot_S2048x128_S128x64_S2048x64_1_0_0_1_n_n_wf : DotDims.WF S2048x128 S128x64 S2048x64 [1] [0] [0] [1] [] []
  dot_S2048x2048_S2048x64_S2048x64_0_0_1_1_n_n_wf : DotDims.WF S2048x2048 S2048x64 S2048x64 [0] [0] [1] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S100352x128.size a
  hwx0_2 : ∀ i : grid0.Coords, EltTy.bits .f32 = 32 ∨ (Rect.block (s := S100352x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1701888.size a
  hwx1_1 : ∀ i : grid1.Coords, EltTy.bits .i32 = 32 ∨ (Rect.block (s := S1x1701888) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x1701888.size a
  hwx1_2 : ∀ i : grid1.Coords, EltTy.bits .f32 = 32 ∨ (Rect.block (s := S1x1701888) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S1701888x128.size a
  hwx1_3 : ∀ i : grid1.Coords, EltTy.bits .f32 = 32 ∨ (Rect.block (s := S1701888x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S1701888x128.size a
  hwx2_0 : ∀ i : grid2.Coords, EltTy.bits .f32 = 32 ∨ (Rect.block (s := S1701888x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x1701888.size a
  hwx2_1 : ∀ i : grid2.Coords, EltTy.bits .i32 = 32 ∨ (Rect.block (s := S1x1701888) S1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S100352x128.size a
  hwx2_3 : ∀ i : grid2.Coords, EltTy.bits .f32 = 32 ∨ (Rect.block (s := S100352x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S100352x128.size a
  hwx3_0 : ∀ i : grid3.Coords, EltTy.bits .f32 = 32 ∨ (Rect.block (s := S100352x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S100352x64.size a
  hwx3_2 : ∀ i : grid3.Coords, EltTy.bits .f32 = 32 ∨ (Rect.block (s := S100352x64) S2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S100352x64.size a
  hwx4_0 : ∀ i : grid4.Coords, EltTy.bits .f32 = 32 ∨ (Rect.block (s := S100352x64) S2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x1701888.size a
  hwx4_1 : ∀ i : grid4.Coords, EltTy.bits .i32 = 32 ∨ (Rect.block (s := S1x1701888) S1x2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x1701888.size a
  hwx4_2 : ∀ i : grid4.Coords, EltTy.bits .f32 = 32 ∨ (Rect.block (s := S1x1701888) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S1701888x64.size a
  hwx4_3 : ∀ i : grid4.Coords, EltTy.bits .f32 = 32 ∨ (Rect.block (s := S1701888x64) S2048x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S1701888x64.size a
  hwx5_0 : ∀ i : grid5.Coords, EltTy.bits .f32 = 32 ∨ (Rect.block (s := S1701888x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x1701888.size a
  hwx5_1 : ∀ i : grid5.Coords, EltTy.bits .i32 = 32 ∨ (Rect.block (s := S1x1701888) S1x2048.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x64.size a ≤ S100352x64.size a
  hwx5_3 : ∀ i : grid5.Coords, EltTy.bits .f32 = 32 ∨ (Rect.block (s := S100352x64) S2048x64.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_0_0_1_1_n_n : DotDims S2048x2048 S2048x128 S2048x128 where
  lhsContracting := [0]
  rhsContracting := [0]
  lhsNonContracting := [1]
  rhsNonContracting := [1]
  lhsBatch := []
  rhsBatch := []
  wf := dot_S2048x2048_S2048x128_S2048x128_0_0_1_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v36) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v42) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S1x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S2048x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K.Sched.lean ====
/-
  Names for what the pipeline hands a kernel body at a grid point: each window's current staging buffer, and the body's
  call on them (the scratch operand whole, beside the windows).
-/
import proofs.«101950_j12489764897128_2_alg».proof.Proof.Gen.Kernel.Launch

noncomputable section

namespace Cert.Kernel.Hand

open Cert.Kernel Cert.Kernel.Gen
open Idealize.ShloMosaic Idealize.ShloMosaic.TcCoe
open Idealize.SL Idealize.SL.Sem

variable {F : FTy → Type} [FloatOps F]

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev bodyAt0 (t : Fin cfg0.N) : Prog (TpuEff nD τ sig (Elt F) Λ₀ .tc) PUnit :=
  cc0__proj_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev bodyAt3 (t : Fin cfg3.N) : Prog (TpuEff nD τ sig (Elt F) Λ₀ .tc) PUnit :=
  cc3__proj_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)
abbrev bodyAt5 (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

end Cert.Kernel.Hand

end
-- ==== Proof.K.Proj0.lean ====
/-
  The dense projection y = x · W of layer 1 as one pipelined region: the frame half. At every grid point the body
  loads its row block of x and the whole of W and stores their product into the output block; the proof data below
  records, per window and point, what the staging buffers hold after the body.
-/
import proofs.«101950_j12489764897128_2_alg».proof.Proof.Gen.Kernel.Launch
import proofs.«101950_j12489764897128_2_alg».proof.Proof.Gen.Kernel.Skeleton
import proofs.«101950_j12489764897128_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The projection region 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's current staging buffer holds the whole weight matrix at every point: it is fetched once and its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0
abbrev r0_2 : Rect S2048x128 := Rect.unit (s := S2048x128) ![0, 0] S2048x128.size inb_S2048x128_S2048x128_0_0

/-! ## What the body leaves in the output window's buffer -/

/-- The output buffer after the body, from the two input blocks: its one store, of the product of what was loaded. -/
def out0_2 (x0 : Vec F S2048x128 .f32) (x1 : Vec F S128x128 .f32) : Vec F S2048x128 .f32 :=
  View.canon [⟨r0_2, k0_pay1 (View.ld x0 r0_0) (View.ld x1 r0_1)⟩]

/-- The one store is of the whole buffer, so it covers it. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-! ## The body's triple -/

set_option maxHeartbeats 1000000 in
/-- The kernel body on whole staging memrefs, the inputs' at contents `x0`, `x1` and the output's at anything, runs to
    the continuation holding the inputs' as they were and the output's at `out0_2 x0 x1`: two loads of the inputs, a
    load of the output that is not used, and the store. -/
theorem sound_kernel0 (c : Dev nD) (E : Set ℕ) (i : grid0.Coords) (arg0 : Memref sig .tc .vmem S2048x128 .f32) (harg0 : arg0.IsWhole) (arg1 : Memref sig .tc .vmem S128x128 .f32) (harg1 : arg1.IsWhole) (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them (`V`); after the body at point `t`
    each input's buffer at its block and the output's at the product of the two input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant is the same at every point, so the region is entered with it -/
theorem hin0 (c : Dev nD) : Pipeline.ΦA spec0 c ⊢ (dat0 V c).Φ 0 := by
  rw [show (dat0 V c).Φ 0 = Pipeline.ΦA spec0 c from rfl]

/-- and left with it. -/
theorem hout0 (c : Dev nD) : (dat0 V c).Φ (Fin.last cfg0.N) ⊢ Pipeline.ΦA spec0 c := by
  rw [show (dat0 V c).Φ (Fin.last cfg0.N) = Pipeline.ΦA spec0 c from rfl]

/-- Full shares and nothing owed, by definition. -/
theorem q_eq0 (c : Dev nD) (w : Fin cfg0.W) : (dat0 V c).q w = fullShare := rfl
theorem owed_eq0 (c : Dev nD) (t) : (dat0 V c).owed t = 0 := rfl

/-- An input window's array is untouched by the region. -/
theorem kept0_0 (c : Dev nD) : (dat0 V c).arrAt 0 cfg0.N = V c (Pipeline.arrRef spec0 0) :=
  ((dat0 V c).arrAt_in 0 rfl _).trans (A_eq0 V c 0)
theorem kept0_1 (c : Dev nD) : (dat0 V c).arrAt 1 cfg0.N = V c (Pipeline.arrRef spec0 1) :=
  ((dat0 V c).arrAt_in 1 rfl _).trans (A_eq0 V c 1)

end Cert.Kernel.Hand

end
-- ==== Proof.K.Gather1Runs.lean ====
import proofs.«101950_j12489764897128_2_alg».proof.Proof.Gen.Kernel.Launch
import proofs.«101950_j12489764897128_2_alg».proof.Proof.Gen.Kernel.Skeleton
import proofs.«101950_j12489764897128_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gather body of region 1: its branch condition and its two whole-body runs

The body resets its accumulator where the node-block coordinate (the inner one) is zero, adds the block's
contribution to it, and copies it to the output block. -/

/-- The body's one branch: taken when the node-block coordinate is zero. -/
abbrev cond1 (i : grid1.Coords) : Prop := (Scalar.cmpi .ne (Scalar.extui (Scalar.cmpi .eq (BitVec.ofNat 32 (i 1).val) 0#32)) 0#32) = 1#1

/-- The condition as a function of the inner coordinate's value alone, decided over its 49 values. -/
theorem cond_val1 : ∀ n : Fin 49, ((Scalar.cmpi .ne (Scalar.extui (Scalar.cmpi .eq (BitVec.ofNat 32 n.val) 0#32)) 0#32) = 1#1) ↔ n.val = 0 := by
  decide +kernel

/-- The inner coordinate of point `t` is `t mod 49`: the inner axis has stride one. -/
theorem coord_inner1 (t : Fin cfg1.N) : ((grid1.coords t) 1).val = t.val % 49 := by
  show t.val / grid1.stride 1 % 49 = t.val % 49
  rw [show grid1.stride 1 = 1 from by decide, Nat.div_one]

/-- The branch is taken at the points that are multiples of 49. -/
theorem hcond1 (t : Fin cfg1.N) : cond1 (grid1.coords t) ↔ t.val % 49 = 0 :=
  (cond_val1 ((grid1.coords t) 1)).trans (by rw [coord_inner1 t])

/-- The scratch accumulator, whole. -/
abbrev scM1 : Memref sig .tc .vmem S2048x128 .f32 := Memref.whole cc1_scratch0

set_option maxHeartbeats 2000000 in
/-- The body where the branch is taken: the inputs' memrefs at their contents, the output's and the accumulator's at
    anything; it ends with the inputs as they were and the output and the accumulator each with the pieces its stores
    wrote (last first), which the run finds. -/
noncomputable def kernelRun1_A (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i)
    (x0 : Vec F S2048x128 .f32) (x1 : Vec F S1x2048 .i32) (x2 : Vec F S1x2048 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the accumulator at the contents `xs` the point before left. -/
noncomputable def kernelRun1_B (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i)
    (x0 : Vec F S2048x128 .f32) (x1 : Vec F S1x2048 .i32) (x2 : Vec F S1x2048 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Gather1.lean ====
import proofs.«101950_j12489764897128_2_alg».proof.Proof.K.Gather1Runs

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the gather call): what its accumulator and output block hold point by point, its proof data, its body obligation -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point -/

abbrev ms1_0 (t : Fin cfg1.N) : Memref sig .tc .vmem S2048x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)

/-! ## The runs' pieces cover the output block and the accumulator -/

theorem cover1_A (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i) (x0 : Vec F S2048x128 .f32) (x1 : Vec F S1x2048 .i32) (x2 : Vec F S1x2048 .f32) (y : S2048x128.Idx) :
    ∃ pc ∈ (kernelRun1_A c i arg2 harg2 arg3 harg3 arg4 harg4 arg5 harg5 arg6 harg6 hc x0 x1 x2).1, y ∈ pc.1.set :=
  View.cover_of_tiledL (kernelRun1_A c i arg2 harg2 arg3 harg3 arg4 harg4 arg5 harg5 arg6 harg6 hc x0 x1 x2).1 S2048x128.size (by sl_kernel_rfl) y

theorem scover1_A (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i) (x0 : Vec F S2048x128 .f32) (x1 : Vec F S1x2048 .i32) (x2 : Vec F S1x2048 .f32) (y : S2048x128.Idx) :
    ∃ pc ∈ (kernelRun1_A c i arg2 harg2 arg3 harg3 arg4 harg4 arg5 harg5 arg6 harg6 hc x0 x1 x2).2.1, y ∈ pc.1.set :=
  View.cover_of_tiledL (kernelRun1_A c i arg2 harg2 arg3 harg3 arg4 harg4 arg5 harg5 arg6 harg6 hc x0 x1 x2).2.1 S2048x128.size (by sl_kernel_rfl) y

theorem cover1_B (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i) (x0 : Vec F S2048x128 .f32) (x1 : Vec F S1x2048 .i32) (x2 : Vec F S1x2048 .f32) (xs : Vec F S2048x128 .f32) (y : S2048x128.Idx) :
    ∃ pc ∈ (kernelRun1_B c i arg2 harg2 arg3 harg3 arg4 harg4 arg5 harg5 arg6 harg6 hc x0 x1 x2 xs).1, y ∈ pc.1.set :=
  View.cover_of_tiledL (kernelRun1_B c i arg2 harg2 arg3 harg3 arg4 harg4 arg5 harg5 arg6 harg6 hc x0 x1 x2 xs).1 S2048x128.size (by sl_kernel_rfl) y

theorem scover1_B (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i) (x0 : Vec F S2048x128 .f32) (x1 : Vec F S1x2048 .i32) (x2 : Vec F S1x2048 .f32) (xs : Vec F S2048x128 .f32) (y : S2048x128.Idx) :
    ∃ pc ∈ (kernelRun1_B c i arg2 harg2 arg3 harg3 arg4 harg4 arg5 harg5 arg6 harg6 hc x0 x1 x2 xs).2.1, y ∈ pc.1.set :=
  View.cover_of_tiledL (kernelRun1_B c i arg2 harg2 arg3 harg3 arg4 harg4 arg5 harg5 arg6 harg6 hc x0 x1 x2 xs).2.1 S2048x128.size (by sl_kernel_rfl) y

/-! ## What the output block and the accumulator hold after each point -/

/-- After a point where the accumulator is reset: (the output block, the accumulator), each the run's pieces read back. -/
def ptA1 (c : Dev nD) (t : Fin cfg1.N) (h : t.val % 49 = 0) : Vec F S2048x128 .f32 × Vec F S2048x128 .f32 :=
  (View.canon (kernelRun1_A c (grid1.coords t) (ms1_0 t) (hs1_0 t) (ms1_1 t) (hs1_1 t) (ms1_2 t) (hs1_2 t) (ms1_3 t) (hs1_3 t) scM1 (Memref.isWhole_whole _) ((hcond1 t).mpr h) (iblk1 V c 0 t) (iblk1 V c 1 t) (iblk1 V c 2 t)).1,
   View.canon (kernelRun1_A c (grid1.coords t) (ms1_0 t) (hs1_0 t) (ms1_1 t) (hs1_1 t) (ms1_2 t) (hs1_2 t) (ms1_3 t) (hs1_3 t) scM1 (Memref.isWhole_whole _) ((hcond1 t).mpr h) (iblk1 V c 0 t) (iblk1 V c 1 t) (iblk1 V c 2 t)).2.1)

/-- After a point where it is not, over the accumulator's contents `xs` before the point. -/
def ptB1 (c : Dev nD) (t : Fin cfg1.N) (h : ¬t.val % 49 = 0) (xs : Vec F S2048x128 .f32) : Vec F S2048x128 .f32 × Vec F S2048x128 .f32 :=
  (View.canon (kernelRun1_B c (grid1.coords t) (ms1_0 t) (hs1_0 t) (ms1_1 t) (hs1_1 t) (ms1_2 t) (hs1_2 t) (ms1_3 t) (hs1_3 t) scM1 (Memref.isWhole_whole _) (fun hc => h ((hcond1 t).mp hc)) (iblk1 V c 0 t) (iblk1 V c 1 t) (iblk1 V c 2 t) xs).1,
   View.canon (kernelRun1_B c (grid1.coords t) (ms1_0 t) (hs1_0 t) (ms1_1 t) (hs1_1 t) (ms1_2 t) (hs1_2 t) (ms1_3 t) (hs1_3 t) scM1 (Memref.isWhole_whole _) (fun hc => h ((hcond1 t).mp hc)) (iblk1 V c 0 t) (iblk1 V c 1 t) (iblk1 V c 2 t) xs).2.1)

/-- THE ACCUMULATION: (the output's staging buffer, the accumulator) after the body at position `n`, by recursion on the
    position — at a multiple of 49 the reset case, elsewhere the other case over what the position before left. -/
def outsAt1 (c : Dev nD) : (n : ℕ) → n < cfg1.N → Vec F S2048x128 .f32 × Vec F S2048x128 .f32
  | 0, hn => ptA1 V c ⟨0, hn⟩ (Nat.zero_mod _)
  | n + 1, hn =>
    if h0 : (n + 1) % 49 = 0 then ptA1 V c ⟨n + 1, hn⟩ h0
    else ptB1 V c ⟨n + 1, hn⟩ h0 (outsAt1 c n (Nat.lt_of_succ_lt hn)).2

theorem outsAt1_A (c : Dev nD) (t : Fin cfg1.N) (h0 : t.val % 49 = 0) :
    outsAt1 V c t.val t.isLt = ptA1 V c t h0 := by
  obtain ⟨n, hn⟩ := t
  cases n with
  | zero => exact rfl
  | succ n => exact dif_pos h0

theorem outsAt1_B (c : Dev nD) (t : Fin cfg1.N) (h0 : ¬t.val % 49 = 0) :
    outsAt1 V c t.val t.isLt = ptB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-! ## The region invariant -/

/-- Before position `n`: at the first the launch's (every scoped buffer that is no staging buffer at anything, the
    generator register at some state); afterwards the accumulator at what the position before left in it, the other
    scoped buffers at anything, the register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The launch's invariant with the accumulator split off as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The proof data -/

/-- The proof data of the region's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
/-- The body at any point: the inputs' memrefs hold their blocks; the position says which case the point is in; the
    invariant hands the body the accumulator (at anything at the first point, else at what the point before left) and
    takes it back at this point's contents, the other scoped buffers and the register riding along untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases h0 : t.val % 49 = 0
  · rw [outsAt1_A V c t h0]
    unfold ptA1; dsimp only
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_A c _ _ _ _ _ _ _ _ _ _ _ _ _ _ _)
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_A c _ _ _ _ _ _ _ _ _ _ _ _ _ _ _)
  · rw [outsAt1_B V c t h0]
    unfold ptB1; dsimp only
    have hz : t.val ≠ 0 := fun e => h0 (by rw [e])
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun hc => h0 ((hcond1 t).mp hc)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_B c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 40719 := N_1; omega)

/-- An input's array is untouched by the region. -/
theorem kept1 (c : Dev nD) (w : Fin cfg1.W) (hw : (cfg1.win w).isOut = false) :
    (dat1 V c).arrAt w cfg1.N = V c (Pipeline.arrRef spec1 w) :=
  ((dat1 V c).arrAt_in w hw _).trans (A_eq1 V c w)

end Cert.Kernel.Hand

end
-- ==== Proof.K.Scatter2Runs.lean ====
import proofs.«101950_j12489764897128_2_alg».proof.Proof.Gen.Kernel.Launch
import proofs.«101950_j12489764897128_2_alg».proof.Proof.Gen.Kernel.Skeleton
import proofs.«101950_j12489764897128_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter body of region 2: its branch condition and its two runs -/

/-- The body's one branch: taken when the edge-block coordinate (the inner one) is zero. -/
abbrev cond2 (i : grid2.Coords) : Prop := (Scalar.cmpi .ne (Scalar.extui (Scalar.cmpi .eq (BitVec.ofNat 32 (i 1).val) 0#32)) 0#32) = 1#1

/-- On a coordinate below 831 the branch condition says the coordinate is zero (decided over the 831 values). -/
theorem cond2_fin : ∀ k : Fin 831, ((Scalar.cmpi .ne (Scalar.extui (Scalar.cmpi .eq (BitVec.ofNat 32 k.val) 0#32)) 0#32) = 1#1) ↔ k.val = 0 := by
  decide +kernel

/-- The inner coordinate of point `t` is `t mod 831` (the last axis runs fastest). -/
theorem coord2_inner (t : Fin cfg2.N) : ((grid2.coords t) 1).val = t.val % 831 := by
  show t.val / grid2.stride 1 % 831 = t.val % 831
  rw [show grid2.stride 1 = 1 from by decide, Nat.div_one]

/-- The outer coordinate of point `t` is `t / 831`. -/
theorem coord2_outer (t : Fin cfg2.N) : ((grid2.coords t) 0).val = t.val / 831 := by
  show t.val / grid2.stride 0 % 49 = t.val / 831
  rw [show grid2.stride 0 = 831 from by decide]
  have h : t.val < 40719 := lt_of_lt_of_eq t.isLt (show cfg2.N = 40719 from N_2)
  exact Nat.mod_eq_of_lt (by omega)

/-- The branch is taken exactly at the points whose inner coordinate is zero. -/
theorem hcond2 (t : Fin cfg2.N) : cond2 (grid2.coords t) ↔ t.val % 831 = 0 :=
  (cond2_fin ((grid2.coords t) 1)).trans (by rw [coord2_inner])

/-- The scratch operand: a whole scoped buffer of the kernel's own, passed beside the windows. -/
abbrev scM2 : Memref sig .tc .vmem S2048x128 .f32 := Memref.whole cc2_scratch0
/-- The scratch as a view: what it holds is stated through it. -/
abbrev VS2 : View sig .tc .vmem S2048x128 .f32 := (scM2).view
/-- One staging buffer of the output window, through which its contents are stated (the choice does not matter). -/
abbrev VO2_3 : View sig .tc .vmem S2048x128 .f32 := (Memref.whole cc2_stg3_0 : Memref sig .tc .vmem S2048x128 .f32).view

/-- The region's invariant with the scratch operand as a memref owned at some contents, beside the other scoped
    buffers (unopened) and the generator register. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

set_option maxHeartbeats 2000000 in
/-- The body where the branch is taken (inner coordinate zero): the scratch is found at anything, zeroed, then
    accumulated into; the output block is stored whole. The pieces each buffer ends with are the witness. -/
noncomputable def kernelRun2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i)
    (x0 : Vec F S2048x128 .f32) (x1 : Vec F S1x2048 .i32) (x2 : Vec F S1x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the scratch is found at what the point before left (`xs`) and
    accumulated into; the output block is stored whole. -/
noncomputable def kernelRun2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i)
    (x0 : Vec F S2048x128 .f32) (x1 : Vec F S1x2048 .i32) (x2 : Vec F S1x128 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Scatter2.lean ====
import proofs.«101950_j12489764897128_2_alg».proof.Proof.Gen.Kernel.Launch
import proofs.«101950_j12489764897128_2_alg».proof.Proof.Gen.Kernel.Skeleton
import proofs.«101950_j12489764897128_2_alg».proof.Proof.K.Sched
import proofs.«101950_j12489764897128_2_alg».proof.Proof.K.Scatter2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the scatter kernel, a scratch accumulator carried along the inner grid axis): the frame half -/

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point -/

abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)

/-! ## What each case leaves in the output block and in the scratch -/

/-- With the branch taken, the pieces stored into the output block tile it. -/
theorem cover2_A_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) (y : S2048x128.Idx) :
    ∃ pc ∈ (kernelRun2_A c i arg2 harg2 arg3 harg3 arg4 harg4 arg5 harg5 arg6 harg6 hc x0 x1 x2).1, y ∈ pc.1.set :=
  View.cover_of_tiledL (kernelRun2_A c i arg2 harg2 arg3 harg3 arg4 harg4 arg5 harg5 arg6 harg6 hc x0 x1 x2).1 S2048x128.size (by sl_kernel_rfl) y

/-- What that case leaves in the output's staging buffer: its pieces read back. -/
def out2_A_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) : Vec F S2048x128 .f32 :=
  VO2_3.read (Elt F) (VO2_3.writes (Elt F) VO2_3.junk (kernelRun2_A c i arg2 harg2 arg3 harg3 arg4 harg4 arg5 harg5 arg6 harg6 hc x0 x1 x2).1)

/-- With the branch taken, the pieces stored into the scratch tile it. -/
theorem scover2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) (y : S2048x128.Idx) :
    ∃ pc ∈ (kernelRun2_A c i arg2 harg2 arg3 harg3 arg4 harg4 arg5 harg5 arg6 harg6 hc x0 x1 x2).2.1, y ∈ pc.1.set :=
  View.cover_of_tiledL (kernelRun2_A c i arg2 harg2 arg3 harg3 arg4 harg4 arg5 harg5 arg6 harg6 hc x0 x1 x2).2.1 S2048x128.size (by sl_kernel_rfl) y

/-- What that case leaves in the scratch: its pieces read back. -/
def sout2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) : Vec F S2048x128 .f32 :=
  VS2.read (Elt F) (VS2.writes (Elt F) VS2.junk (kernelRun2_A c i arg2 harg2 arg3 harg3 arg4 harg4 arg5 harg5 arg6 harg6 hc x0 x1 x2).2.1)

/-- With the branch not taken, the pieces stored into the output block tile it. -/
theorem cover2_B_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) (y : S2048x128.Idx) :
    ∃ pc ∈ (kernelRun2_B c i arg2 harg2 arg3 harg3 arg4 harg4 arg5 harg5 arg6 harg6 hc x0 x1 x2 xs).1, y ∈ pc.1.set :=
  View.cover_of_tiledL (kernelRun2_B c i arg2 harg2 arg3 harg3 arg4 harg4 arg5 harg5 arg6 harg6 hc x0 x1 x2 xs).1 S2048x128.size (by sl_kernel_rfl) y

/-- What that case leaves in the output's staging buffer: its pieces read back. -/
def out2_B_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) : Vec F S2048x128 .f32 :=
  VO2_3.read (Elt F) (VO2_3.writes (Elt F) VO2_3.junk (kernelRun2_B c i arg2 harg2 arg3 harg3 arg4 harg4 arg5 harg5 arg6 harg6 hc x0 x1 x2 xs).1)

/-- With the branch not taken, the pieces stored into the scratch tile it. -/
theorem scover2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) (y : S2048x128.Idx) :
    ∃ pc ∈ (kernelRun2_B c i arg2 harg2 arg3 harg3 arg4 harg4 arg5 harg5 arg6 harg6 hc x0 x1 x2 xs).2.1, y ∈ pc.1.set :=
  View.cover_of_tiledL (kernelRun2_B c i arg2 harg2 arg3 harg3 arg4 harg4 arg5 harg5 arg6 harg6 hc x0 x1 x2 xs).2.1 S2048x128.size (by sl_kernel_rfl) y

/-- What that case leaves in the scratch: its pieces read back. -/
def sout2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) : Vec F S2048x128 .f32 :=
  VS2.read (Elt F) (VS2.writes (Elt F) VS2.junk (kernelRun2_B c i arg2 harg2 arg3 harg3 arg4 harg4 arg5 harg5 arg6 harg6 hc x0 x1 x2 xs).2.1)

/-! ## What the output block and the scratch hold after each point -/

/-- One point: the case its inner coordinate selects, run at the point's memrefs and input blocks, over what the
    scratch held (`prev`, read only when the branch is not taken). The pair is (output block, scratch). -/
def step2 (c : Dev nD) (t : Fin cfg2.N) (prev : Vec F S2048x128 .f32) : Vec F S2048x128 .f32 × Vec F S2048x128 .f32 :=
  if h0 : t.val % 831 = 0 then
    (out2_A_3 c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t),
     sout2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t))
  else
    (out2_B_3 c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) prev,
     sout2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) prev)

/-- The accumulation: after the body at position `n`, the output block and the scratch, each point run over the
    scratch the point before left. -/
def outsAt2 (c : Dev nD) : (n : ℕ) → n < cfg2.N → Vec F S2048x128 .f32 × Vec F S2048x128 .f32
  | 0, hn => step2 V c ⟨0, hn⟩ (VS2.read (Elt F) VS2.junk)
  | n + 1, hn => step2 V c ⟨n + 1, hn⟩ (outsAt2 c n (Nat.lt_of_succ_lt hn)).2

/-- At a point whose inner coordinate is zero: the reset case's contents. -/
theorem outsAt2_A (c : Dev nD) (t : Fin cfg2.N) (h0 : t.val % 831 = 0) :
    outsAt2 V c t.val t.isLt = (out2_A_3 c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t),
      sout2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t)) := by
  obtain ⟨n, hn⟩ := t
  cases n with
  | zero => show step2 V c ⟨0, hn⟩ _ = _; unfold step2; exact dif_pos h0
  | succ n => show step2 V c ⟨n + 1, hn⟩ _ = _; unfold step2; exact dif_pos h0

/-- At any other point: the accumulating case's contents, over what the point before left in the scratch. -/
theorem outsAt2_B (c : Dev nD) (t : Fin cfg2.N) (h0 : ¬t.val % 831 = 0) :
    outsAt2 V c t.val t.isLt = (out2_B_3 c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) (outsAt2 V c (t.val - 1) (Nat.lt_of_le_of_lt (Nat.sub_le _ _) t.isLt)).2,
      sout2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => show step2 V c ⟨n + 1, hn⟩ _ = _; unfold step2; exact dif_neg h0

/-! ## The region invariant -/

/-- Before position `n`: before the first point what the launch hands the region; afterwards the scratch at what the
    point before left in it, the other scoped buffers unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 4800000 in
/-- The body at any point: the inputs' memrefs hold their blocks; the inner coordinate says which case the point is
    in; the invariant hands the body the scratch (at anything at the first point, at what the point before left
    afterwards) and takes it back at this point's contents; the other scoped buffers, the generator register and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3]
  by_cases h0 : t.val % 831 = 0
  · rw [outsAt2_A V c t h0]
    unfold out2_A_3 sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
  · rw [outsAt2_B V c t h0]
    unfold out2_B_3 sout2_B; (try dsimp only)
    have hz : t.val ≠ 0 := fun e => h0 (by rw [e])
    rw [PhiS2_castSucc V c t, PhiS2_pos V c _ _ hz]
    iintro ⟨⟨⟨HS, HR⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover2_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 40719 := N_2; omega)

/-- An input window's array is, after the region, as the region found it. -/
theorem kept2 (c : Dev nD) (w : Fin cfg2.W) (hw : (cfg2.win w).isOut = false) :
    (dat2 V c).arrAt w cfg2.N = V c (Pipeline.arrRef spec2 w) :=
  ((dat2 V c).arrAt_in w hw _).trans (A_eq2 V c w)

end Cert.Kernel.Hand

end
-- ==== Proof.K.Proj3.lean ====
/-
  The dense projection y = x · W of layer 2 as one pipelined region: the frame half. At every grid point the body
  loads its row block of x and the whole of W and stores their product into the output block; the proof data below
  records, per window and point, what the staging buffers hold after the body.
-/
import proofs.«101950_j12489764897128_2_alg».proof.Proof.Gen.Kernel.Launch
import proofs.«101950_j12489764897128_2_alg».proof.Proof.Gen.Kernel.Skeleton
import proofs.«101950_j12489764897128_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The projection region 3, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's current staging buffer holds the whole weight matrix at every point: it is fetched once and its
    block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2048x128 := Rect.unit (s := S2048x128) ![0, 0] S2048x128.size inb_S2048x128_S2048x128_0_0
abbrev r3_1 : Rect S128x64 := Rect.unit (s := S128x64) ![0, 0] S128x64.size inb_S128x64_S128x64_0_0
abbrev r3_2 : Rect S2048x64 := Rect.unit (s := S2048x64) ![0, 0] S2048x64.size inb_S2048x64_S2048x64_0_0

/-! ## What the body leaves in the output window's buffer -/

/-- The output buffer after the body, from the two input blocks: its one store, of the product of what was loaded. -/
def out3_2 (x0 : Vec F S2048x128 .f32) (x1 : Vec F S128x64 .f32) : Vec F S2048x64 .f32 :=
  View.canon [⟨r3_2, k3_pay1 (View.ld x0 r3_0) (View.ld x1 r3_1)⟩]

/-- The one store is of the whole buffer, so it covers it. -/
theorem cover3_2 (p0 : Vec F S2048x64 .f32) (y : S2048x64.Idx) :
    ∃ pc ∈ ([⟨r3_2, p0⟩] : List (View.Piece (Elt F) S2048x64 .f32)), y ∈ pc.1.set :=
  View.cover_of_tiled [⟨r3_2, p0⟩] S2048x64.size (by rfl) y

/-! ## The body's triple -/

set_option maxHeartbeats 1000000 in
/-- The kernel body on whole staging memrefs, the inputs' at contents `x0`, `x1` and the output's at anything, runs to
    the continuation holding the inputs' as they were and the output's at `out3_2 x0 x1`: two loads of the inputs, a
    load of the output that is not used, and the store. -/
theorem sound_kernel3 (c : Dev nD) (E : Set ℕ) (i : grid3.Coords) (arg0 : Memref sig .tc .vmem S2048x128 .f32) (harg0 : arg0.IsWhole) (arg1 : Memref sig .tc .vmem S128x64 .f32) (harg1 : arg1.IsWhole) (arg2 : Memref sig .tc .vmem S2048x64 .f32) (harg2 : arg2.IsWhole)
    (x0 : Vec F S2048x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__proj_kernel i arg0 harg0 arg1 harg1 arg2 harg2) K := by
  simp only [cc3__proj_kernel_eq_skeleton]; unfold cc3__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core `c`: the arrays as the region finds them (`V`); after the body at point `t`
    each input's buffer at its block and the output's at the product of the two input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The invariant is the same at every point, so the region is entered with it -/
theorem hin3 (c : Dev nD) : Pipeline.ΦA spec3 c ⊢ (dat3 V c).Φ 0 := by
  rw [show (dat3 V c).Φ 0 = Pipeline.ΦA spec3 c from rfl]

/-- and left with it. -/
theorem hout3 (c : Dev nD) : (dat3 V c).Φ (Fin.last cfg3.N) ⊢ Pipeline.ΦA spec3 c := by
  rw [show (dat3 V c).Φ (Fin.last cfg3.N) = Pipeline.ΦA spec3 c from rfl]

/-- Full shares and nothing owed, by definition. -/
theorem q_eq3 (c : Dev nD) (w : Fin cfg3.W) : (dat3 V c).q w = fullShare := rfl
theorem owed_eq3 (c : Dev nD) (t) : (dat3 V c).owed t = 0 := rfl

/-- An input window's array is untouched by the region. -/
theorem kept3_0 (c : Dev nD) : (dat3 V c).arrAt 0 cfg3.N = V c (Pipeline.arrRef spec3 0) :=
  ((dat3 V c).arrAt_in 0 rfl _).trans (A_eq3 V c 0)
theorem kept3_1 (c : Dev nD) : (dat3 V c).arrAt 1 cfg3.N = V c (Pipeline.arrRef spec3 1) :=
  ((dat3 V c).arrAt_in 1 rfl _).trans (A_eq3 V c 1)

end Cert.Kernel.Hand

end
-- ==== Proof.K.Gather4Runs.lean ====
import proofs.«101950_j12489764897128_2_alg».proof.Proof.Gen.Kernel.Launch
import proofs.«101950_j12489764897128_2_alg».proof.Proof.Gen.Kernel.Skeleton
import proofs.«101950_j12489764897128_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gather body of region 4: its branch condition and its two whole-body runs

The body resets its accumulator where the node-block coordinate (the inner one) is zero, adds the block's
contribution to it, and copies it to the output block. -/

/-- The body's one branch: taken when the node-block coordinate is zero. -/
abbrev cond4 (i : grid4.Coords) : Prop := (Scalar.cmpi .ne (Scalar.extui (Scalar.cmpi .eq (BitVec.ofNat 32 (i 1).val) 0#32)) 0#32) = 1#1

/-- The condition as a function of the inner coordinate's value alone, decided over its 49 values. -/
theorem cond_val4 : ∀ n : Fin 49, ((Scalar.cmpi .ne (Scalar.extui (Scalar.cmpi .eq (BitVec.ofNat 32 n.val) 0#32)) 0#32) = 1#1) ↔ n.val = 0 := by
  decide +kernel

/-- The inner coordinate of point `t` is `t mod 49`: the inner axis has stride one. -/
theorem coord_inner4 (t : Fin cfg4.N) : ((grid4.coords t) 1).val = t.val % 49 := by
  show t.val / grid4.stride 1 % 49 = t.val % 49
  rw [show grid4.stride 1 = 1 from by decide, Nat.div_one]

/-- The branch is taken at the points that are multiples of 49. -/
theorem hcond4 (t : Fin cfg4.N) : cond4 (grid4.coords t) ↔ t.val % 49 = 0 :=
  (cond_val4 ((grid4.coords t) 1)).trans (by rw [coord_inner4 t])

/-- The scratch accumulator, whole. -/
abbrev scM4 : Memref sig .tc .vmem S2048x64 .f32 := Memref.whole cc4_scratch0

set_option maxHeartbeats 2000000 in
/-- The body where the branch is taken: the inputs' memrefs at their contents, the output's and the accumulator's at
    anything; it ends with the inputs as they were and the output and the accumulator each with the pieces its stores
    wrote (last first), which the run finds. -/
noncomputable def kernelRun4_A (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i)
    (x0 : Vec F S2048x64 .f32) (x1 : Vec F S1x2048 .i32) (x2 : Vec F S1x2048 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the accumulator at the contents `xs` the point before left. -/
noncomputable def kernelRun4_B (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i)
    (x0 : Vec F S2048x64 .f32) (x1 : Vec F S1x2048 .i32) (x2 : Vec F S1x2048 .f32) (xs : Vec F S2048x64 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Gather4.lean ====
import proofs.«101950_j12489764897128_2_alg».proof.Proof.K.Gather4Runs

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (the gather call): what its accumulator and output block hold point by point, its proof data, its body obligation -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for any proof data
    whose array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The staging memrefs at a point -/

abbrev ms4_0 (t : Fin cfg4.N) : Memref sig .tc .vmem S2048x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x2048 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)

/-! ## The runs' pieces cover the output block and the accumulator -/

theorem cover4_A (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i) (x0 : Vec F S2048x64 .f32) (x1 : Vec F S1x2048 .i32) (x2 : Vec F S1x2048 .f32) (y : S2048x64.Idx) :
    ∃ pc ∈ (kernelRun4_A c i arg2 harg2 arg3 harg3 arg4 harg4 arg5 harg5 arg6 harg6 hc x0 x1 x2).1, y ∈ pc.1.set :=
  View.cover_of_tiledL (kernelRun4_A c i arg2 harg2 arg3 harg3 arg4 harg4 arg5 harg5 arg6 harg6 hc x0 x1 x2).1 S2048x64.size (by sl_kernel_rfl) y

theorem scover4_A (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i) (x0 : Vec F S2048x64 .f32) (x1 : Vec F S1x2048 .i32) (x2 : Vec F S1x2048 .f32) (y : S2048x64.Idx) :
    ∃ pc ∈ (kernelRun4_A c i arg2 harg2 arg3 harg3 arg4 harg4 arg5 harg5 arg6 harg6 hc x0 x1 x2).2.1, y ∈ pc.1.set :=
  View.cover_of_tiledL (kernelRun4_A c i arg2 harg2 arg3 harg3 arg4 harg4 arg5 harg5 arg6 harg6 hc x0 x1 x2).2.1 S2048x64.size (by sl_kernel_rfl) y

theorem cover4_B (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i) (x0 : Vec F S2048x64 .f32) (x1 : Vec F S1x2048 .i32) (x2 : Vec F S1x2048 .f32) (xs : Vec F S2048x64 .f32) (y : S2048x64.Idx) :
    ∃ pc ∈ (kernelRun4_B c i arg2 harg2 arg3 harg3 arg4 harg4 arg5 harg5 arg6 harg6 hc x0 x1 x2 xs).1, y ∈ pc.1.set :=
  View.cover_of_tiledL (kernelRun4_B c i arg2 harg2 arg3 harg3 arg4 harg4 arg5 harg5 arg6 harg6 hc x0 x1 x2 xs).1 S2048x64.size (by sl_kernel_rfl) y

theorem scover4_B (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i) (x0 : Vec F S2048x64 .f32) (x1 : Vec F S1x2048 .i32) (x2 : Vec F S1x2048 .f32) (xs : Vec F S2048x64 .f32) (y : S2048x64.Idx) :
    ∃ pc ∈ (kernelRun4_B c i arg2 harg2 arg3 harg3 arg4 harg4 arg5 harg5 arg6 harg6 hc x0 x1 x2 xs).2.1, y ∈ pc.1.set :=
  View.cover_of_tiledL (kernelRun4_B c i arg2 harg2 arg3 harg3 arg4 harg4 arg5 harg5 arg6 harg6 hc x0 x1 x2 xs).2.1 S2048x64.size (by sl_kernel_rfl) y

/-! ## What the output block and the accumulator hold after each point -/

/-- After a point where the accumulator is reset: (the output block, the accumulator), each the run's pieces read back. -/
def ptA4 (c : Dev nD) (t : Fin cfg4.N) (h : t.val % 49 = 0) : Vec F S2048x64 .f32 × Vec F S2048x64 .f32 :=
  (View.canon (kernelRun4_A c (grid4.coords t) (ms4_0 t) (hs4_0 t) (ms4_1 t) (hs4_1 t) (ms4_2 t) (hs4_2 t) (ms4_3 t) (hs4_3 t) scM4 (Memref.isWhole_whole _) ((hcond4 t).mpr h) (iblk4 V c 0 t) (iblk4 V c 1 t) (iblk4 V c 2 t)).1,
   View.canon (kernelRun4_A c (grid4.coords t) (ms4_0 t) (hs4_0 t) (ms4_1 t) (hs4_1 t) (ms4_2 t) (hs4_2 t) (ms4_3 t) (hs4_3 t) scM4 (Memref.isWhole_whole _) ((hcond4 t).mpr h) (iblk4 V c 0 t) (iblk4 V c 1 t) (iblk4 V c 2 t)).2.1)

/-- After a point where it is not, over the accumulator's contents `xs` before the point. -/
def ptB4 (c : Dev nD) (t : Fin cfg4.N) (h : ¬t.val % 49 = 0) (xs : Vec F S2048x64 .f32) : Vec F S2048x64 .f32 × Vec F S2048x64 .f32 :=
  (View.canon (kernelRun4_B c (grid4.coords t) (ms4_0 t) (hs4_0 t) (ms4_1 t) (hs4_1 t) (ms4_2 t) (hs4_2 t) (ms4_3 t) (hs4_3 t) scM4 (Memref.isWhole_whole _) (fun hc => h ((hcond4 t).mp hc)) (iblk4 V c 0 t) (iblk4 V c 1 t) (iblk4 V c 2 t) xs).1,
   View.canon (kernelRun4_B c (grid4.coords t) (ms4_0 t) (hs4_0 t) (ms4_1 t) (hs4_1 t) (ms4_2 t) (hs4_2 t) (ms4_3 t) (hs4_3 t) scM4 (Memref.isWhole_whole _) (fun hc => h ((hcond4 t).mp hc)) (iblk4 V c 0 t) (iblk4 V c 1 t) (iblk4 V c 2 t) xs).2.1)

/-- THE ACCUMULATION: (the output's staging buffer, the accumulator) after the body at position `n`, by recursion on the
    position — at a multiple of 49 the reset case, elsewhere the other case over what the position before left. -/
def outsAt4 (c : Dev nD) : (n : ℕ) → n < cfg4.N → Vec F S2048x64 .f32 × Vec F S2048x64 .f32
  | 0, hn => ptA4 V c ⟨0, hn⟩ (Nat.zero_mod _)
  | n + 1, hn =>
    if h0 : (n + 1) % 49 = 0 then ptA4 V c ⟨n + 1, hn⟩ h0
    else ptB4 V c ⟨n + 1, hn⟩ h0 (outsAt4 c n (Nat.lt_of_succ_lt hn)).2

theorem outsAt4_A (c : Dev nD) (t : Fin cfg4.N) (h0 : t.val % 49 = 0) :
    outsAt4 V c t.val t.isLt = ptA4 V c t h0 := by
  obtain ⟨n, hn⟩ := t
  cases n with
  | zero => exact rfl
  | succ n => exact dif_pos h0

theorem outsAt4_B (c : Dev nD) (t : Fin cfg4.N) (h0 : ¬t.val % 49 = 0) :
    outsAt4 V c t.val t.isLt = ptB4 V c t h0 (outsAt4 V c (t.val - 1) (Nat.lt_of_le_of_lt (Nat.sub_le _ _) t.isLt)).2 := by
  obtain ⟨n, hn⟩ := t
  cases n with
  | zero => exact absurd (Nat.zero_mod _) h0
  | succ n => exact dif_neg h0

/-! ## The region invariant -/

/-- Before position `n`: at the first the launch's (every scoped buffer that is no staging buffer at anything, the
    generator register at some state); afterwards the accumulator at what the position before left in it, the other
    scoped buffers at anything, the register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The launch's invariant with the accumulator split off as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The proof data -/

/-- The proof data of the region's pipeline on core `c`: the arrays as the region finds them; after the body at point
    `t` each input's buffer at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

set_option maxHeartbeats 4800000 in
/-- The body at any point: the inputs' memrefs hold their blocks; the position says which case the point is in; the
    invariant hands the body the accumulator (at anything at the first point, else at what the point before left) and
    takes it back at this point's contents, the other scoped buffers and the register riding along untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3]
  by_cases h0 : t.val % 49 = 0
  · rw [outsAt4_A V c t h0]
    unfold ptA4; dsimp only
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4 t).mpr h0) (iblk4 V c 0 t) (iblk4 V c 1 t) (iblk4 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover4_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_A c _ _ _ _ _ _ _ _ _ _ _ _ _ _ _)
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4 t).mpr h0) (iblk4 V c 0 t) (iblk4 V c 1 t) (iblk4 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover4_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_A c _ _ _ _ _ _ _ _ _ _ _ _ _ _ _)
  · rw [outsAt4_B V c t h0]
    unfold ptB4; dsimp only
    have hz : t.val ≠ 0 := fun e => h0 (by rw [e])
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_B c (grid4.coords t) _ _ _ _ _ _ _ _ _ _ (fun hc => h0 ((hcond4 t).mp hc)) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover4_B c _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_B c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 40719 := N_4; omega)

/-- An input's array is untouched by the region. -/
theorem kept4 (c : Dev nD) (w : Fin cfg4.W) (hw : (cfg4.win w).isOut = false) :
    (dat4 V c).arrAt w cfg4.N = V c (Pipeline.arrRef spec4 w) :=
  ((dat4 V c).arrAt_in w hw _).trans (A_eq4 V c w)

end Cert.Kernel.Hand

end
-- ==== Proof.K.Scatter5Runs.lean ====
import proofs.«101950_j12489764897128_2_alg».proof.Proof.Gen.Kernel.Launch
import proofs.«101950_j12489764897128_2_alg».proof.Proof.Gen.Kernel.Skeleton
import proofs.«101950_j12489764897128_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter body of region 5: its branch condition and its two runs -/

/-- The body's one branch: taken when the edge-block coordinate (the inner one) is zero. -/
abbrev cond5 (i : grid5.Coords) : Prop := (Scalar.cmpi .ne (Scalar.extui (Scalar.cmpi .eq (BitVec.ofNat 32 (i 1).val) 0#32)) 0#32) = 1#1

/-- On a coordinate below 831 the branch condition says the coordinate is zero (decided over the 831 values). -/
theorem cond5_fin : ∀ k : Fin 831, ((Scalar.cmpi .ne (Scalar.extui (Scalar.cmpi .eq (BitVec.ofNat 32 k.val) 0#32)) 0#32) = 1#1) ↔ k.val = 0 := by
  decide +kernel

/-- The inner coordinate of point `t` is `t mod 831` (the last axis runs fastest). -/
theorem coord5_inner (t : Fin cfg5.N) : ((grid5.coords t) 1).val = t.val % 831 := by
  show t.val / grid5.stride 1 % 831 = t.val % 831
  rw [show grid5.stride 1 = 1 from by decide, Nat.div_one]

/-- The outer coordinate of point `t` is `t / 831`. -/
theorem coord5_outer (t : Fin cfg5.N) : ((grid5.coords t) 0).val = t.val / 831 := by
  show t.val / grid5.stride 0 % 49 = t.val / 831
  rw [show grid5.stride 0 = 831 from by decide]
  have h : t.val < 40719 := lt_of_lt_of_eq t.isLt (show cfg5.N = 40719 from N_5)
  exact Nat.mod_eq_of_lt (by omega)

/-- The branch is taken exactly at the points whose inner coordinate is zero. -/
theorem hcond5 (t : Fin cfg5.N) : cond5 (grid5.coords t) ↔ t.val % 831 = 0 :=
  (cond5_fin ((grid5.coords t) 1)).trans (by rw [coord5_inner])

/-- The scratch operand: a whole scoped buffer of the kernel's own, passed beside the windows. -/
abbrev scM5 : Memref sig .tc .vmem S2048x64 .f32 := Memref.whole cc5_scratch0
/-- The scratch as a view: what it holds is stated through it. -/
abbrev VS5 : View sig .tc .vmem S2048x64 .f32 := (scM5).view
/-- One staging buffer of the output window, through which its contents are stated (the choice does not matter). -/
abbrev VO5_3 : View sig .tc .vmem S2048x64 .f32 := (Memref.whole cc5_stg3_0 : Memref sig .tc .vmem S2048x64 .f32).view

/-- The region's invariant with the scratch operand as a memref owned at some contents, beside the other scoped
    buffers (unopened) and the generator register. -/
theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

set_option maxHeartbeats 2000000 in
/-- The body where the branch is taken (inner coordinate zero): the scratch is found at anything, zeroed, then
    accumulated into; the output block is stored whole. The pieces each buffer ends with are the witness. -/
noncomputable def kernelRun5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i)
    (x0 : Vec F S2048x64 .f32) (x1 : Vec F S1x2048 .i32) (x2 : Vec F S1x64 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the scratch is found at what the point before left (`xs`) and
    accumulated into; the output block is stored whole. -/
noncomputable def kernelRun5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i)
    (x0 : Vec F S2048x64 .f32) (x1 : Vec F S1x2048 .i32) (x2 : Vec F S1x64 .f32) (xs : Vec F S2048x64 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Scatter5.lean ====
import proofs.«101950_j12489764897128_2_alg».proof.Proof.Gen.Kernel.Launch
import proofs.«101950_j12489764897128_2_alg».proof.Proof.Gen.Kernel.Skeleton
import proofs.«101950_j12489764897128_2_alg».proof.Proof.K.Sched
import proofs.«101950_j12489764897128_2_alg».proof.Proof.K.Scatter5Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (the scatter kernel, a scratch accumulator carried along the inner grid axis): the frame half -/

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The staging memrefs at a point -/

abbrev ms5_0 (t : Fin cfg5.N) : Memref sig .tc .vmem S2048x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2048 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x64 .f32 := win5_3.stage (cfg5.slots t 3)
abbrev hs5_3 (t : Fin cfg5.N) : (ms5_3 t).IsWhole := hstage5_3 ((cfg5.slots t 3).cast nbuf5_3)

/-! ## What each case leaves in the output block and in the scratch -/

/-- With the branch taken, the pieces stored into the output block tile it. -/
theorem cover5_A_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) (y : S2048x64.Idx) :
    ∃ pc ∈ (kernelRun5_A c i arg2 harg2 arg3 harg3 arg4 harg4 arg5 harg5 arg6 harg6 hc x0 x1 x2).1, y ∈ pc.1.set :=
  View.cover_of_tiledL (kernelRun5_A c i arg2 harg2 arg3 harg3 arg4 harg4 arg5 harg5 arg6 harg6 hc x0 x1 x2).1 S2048x64.size (by sl_kernel_rfl) y

/-- What that case leaves in the output's staging buffer: its pieces read back. -/
def out5_A_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) : Vec F S2048x64 .f32 :=
  VO5_3.read (Elt F) (VO5_3.writes (Elt F) VO5_3.junk (kernelRun5_A c i arg2 harg2 arg3 harg3 arg4 harg4 arg5 harg5 arg6 harg6 hc x0 x1 x2).1)

/-- With the branch taken, the pieces stored into the scratch tile it. -/
theorem scover5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) (y : S2048x64.Idx) :
    ∃ pc ∈ (kernelRun5_A c i arg2 harg2 arg3 harg3 arg4 harg4 arg5 harg5 arg6 harg6 hc x0 x1 x2).2.1, y ∈ pc.1.set :=
  View.cover_of_tiledL (kernelRun5_A c i arg2 harg2 arg3 harg3 arg4 harg4 arg5 harg5 arg6 harg6 hc x0 x1 x2).2.1 S2048x64.size (by sl_kernel_rfl) y

/-- What that case leaves in the scratch: its pieces read back. -/
def sout5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) : Vec F S2048x64 .f32 :=
  VS5.read (Elt F) (VS5.writes (Elt F) VS5.junk (kernelRun5_A c i arg2 harg2 arg3 harg3 arg4 harg4 arg5 harg5 arg6 harg6 hc x0 x1 x2).2.1)

/-- With the branch not taken, the pieces stored into the output block tile it. -/
theorem cover5_B_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) (y : S2048x64.Idx) :
    ∃ pc ∈ (kernelRun5_B c i arg2 harg2 arg3 harg3 arg4 harg4 arg5 harg5 arg6 harg6 hc x0 x1 x2 xs).1, y ∈ pc.1.set :=
  View.cover_of_tiledL (kernelRun5_B c i arg2 harg2 arg3 harg3 arg4 harg4 arg5 harg5 arg6 harg6 hc x0 x1 x2 xs).1 S2048x64.size (by sl_kernel_rfl) y

/-- What that case leaves in the output's staging buffer: its pieces read back. -/
def out5_B_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) : Vec F S2048x64 .f32 :=
  VO5_3.read (Elt F) (VO5_3.writes (Elt F) VO5_3.junk (kernelRun5_B c i arg2 harg2 arg3 harg3 arg4 harg4 arg5 harg5 arg6 harg6 hc x0 x1 x2 xs).1)

/-- With the branch not taken, the pieces stored into the scratch tile it. -/
theorem scover5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) (y : S2048x64.Idx) :
    ∃ pc ∈ (kernelRun5_B c i arg2 harg2 arg3 harg3 arg4 harg4 arg5 harg5 arg6 harg6 hc x0 x1 x2 xs).2.1, y ∈ pc.1.set :=
  View.cover_of_tiledL (kernelRun5_B c i arg2 harg2 arg3 harg3 arg4 harg4 arg5 harg5 arg6 harg6 hc x0 x1 x2 xs).2.1 S2048x64.size (by sl_kernel_rfl) y

/-- What that case leaves in the scratch: its pieces read back. -/
def sout5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) : Vec F S2048x64 .f32 :=
  VS5.read (Elt F) (VS5.writes (Elt F) VS5.junk (kernelRun5_B c i arg2 harg2 arg3 harg3 arg4 harg4 arg5 harg5 arg6 harg6 hc x0 x1 x2 xs).2.1)

/-! ## What the output block and the scratch hold after each point -/

/-- One point: the case its inner coordinate selects, run at the point's memrefs and input blocks, over what the
    scratch held (`prev`, read only when the branch is not taken). The pair is (output block, scratch). -/
def step5 (c : Dev nD) (t : Fin cfg5.N) (prev : Vec F S2048x64 .f32) : Vec F S2048x64 .f32 × Vec F S2048x64 .f32 :=
  if h0 : t.val % 831 = 0 then
    (out5_A_3 c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t),
     sout5_A c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t))
  else
    (out5_B_3 c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) prev,
     sout5_B c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) prev)

/-- The accumulation: after the body at position `n`, the output block and the scratch, each point run over the
    scratch the point before left. -/
def outsAt5 (c : Dev nD) : (n : ℕ) → n < cfg5.N → Vec F S2048x64 .f32 × Vec F S2048x64 .f32
  | 0, hn => step5 V c ⟨0, hn⟩ (VS5.read (Elt F) VS5.junk)
  | n + 1, hn => step5 V c ⟨n + 1, hn⟩ (outsAt5 c n (Nat.lt_of_succ_lt hn)).2

/-- At a point whose inner coordinate is zero: the reset case's contents. -/
theorem outsAt5_A (c : Dev nD) (t : Fin cfg5.N) (h0 : t.val % 831 = 0) :
    outsAt5 V c t.val t.isLt = (out5_A_3 c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t),
      sout5_A c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t)) := by
  obtain ⟨n, hn⟩ := t
  cases n with
  | zero => show step5 V c ⟨0, hn⟩ _ = _; unfold step5; exact dif_pos h0
  | succ n => show step5 V c ⟨n + 1, hn⟩ _ = _; unfold step5; exact dif_pos h0

/-- At any other point: the accumulating case's contents, over what the point before left in the scratch. -/
theorem outsAt5_B (c : Dev nD) (t : Fin cfg5.N) (h0 : ¬t.val % 831 = 0) :
    outsAt5 V c t.val t.isLt = (out5_B_3 c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) (outsAt5 V c (t.val - 1) (Nat.lt_of_le_of_lt (Nat.sub_le _ _) t.isLt)).2,
      sout5_B c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact absurd (Nat.zero_mod _) h0
  | succ n => show step5 V c ⟨n + 1, hn⟩ _ = _; unfold step5; exact dif_neg h0

/-! ## The region invariant -/

/-- Before position `n`: before the first point what the launch hands the region; afterwards the scratch at what the
    point before left in it, the other scoped buffers unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of pipeline 5 on core `c`: the arrays as the region finds them; after the body at point `t` each
    input's buffer at its block and the output's at `outsAt5`'s first component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t))

set_option maxHeartbeats 4800000 in
/-- The body at any point: the inputs' memrefs hold their blocks; the inner coordinate says which case the point is
    in; the invariant hands the body the scratch (at anything at the first point, at what the point before left
    afterwards) and takes it back at this point's contents; the other scoped buffers, the generator register and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [after5_0, after5_1, after5_2, after5_3]
  by_cases h0 : t.val % 831 = 0
  · rw [outsAt5_A V c t h0]
    unfold out5_A_3 sout5_A; (try dsimp only)
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5 t).mpr h0) (iblk5 V c 0 t) (iblk5 V c 1 t) (iblk5 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_A_3 c _ _ _ _ _ _ _ _ _ _ _ _ _ _ _)
    · rw [PhiS5_castSucc V c t, PhiS5_pos V c _ _ hz]
      iintro ⟨⟨⟨HS, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5 t).mpr h0) (iblk5 V c 0 t) (iblk5 V c 1 t) (iblk5 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_A_3 c _ _ _ _ _ _ _ _ _ _ _ _ _ _ _)
  · rw [outsAt5_B V c t h0]
    unfold out5_B_3 sout5_B; (try dsimp only)
    have hz : t.val ≠ 0 := fun e => h0 (by rw [e])
    rw [PhiS5_castSucc V c t, PhiS5_pos V c _ _ hz]
    iintro ⟨⟨⟨HS, HR⟩, Hg⟩, Ho, ⟨%d0, H0⟩, ⟨%d1, H1⟩, ⟨%d2, H2⟩, ⟨%d3, H3⟩⟩
    iapply ((kernelRun5_B c (grid5.coords t) _ _ _ _ _ _ _ _ _ _ (fun h => h0 ((hcond5 t).mp h)) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover5_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the launch's back: the scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 40719 := N_5; omega)

/-- An input window's array is, after the region, as the region found it. -/
theorem kept5 (c : Dev nD) (w : Fin cfg5.W) (hw : (cfg5.win w).isOut = false) :
    (dat5 V c).arrAt w cfg5.N = V c (Pipeline.arrRef spec5 w) :=
  ((dat5 V c).arrAt_in w hw _).trans (A_eq5 V c w)

end Cert.Kernel.Hand

end
-- ==== Proof.K.Run.lean ====
import proofs.«101950_j12489764897128_2_alg».proof.Proof.Gen.Kernel.Launch
import proofs.«101950_j12489764897128_2_alg».proof.Proof.Gen.Kernel.Skeleton
import proofs.«101950_j12489764897128_2_alg».proof.Proof.K.Sched
import proofs.«101950_j12489764897128_2_alg».proof.Proof.Gen.Kernel.Regions
import proofs.«101950_j12489764897128_2_alg».proof.Proof.K.Proj0
import proofs.«101950_j12489764897128_2_alg».proof.Proof.K.Gather1
import proofs.«101950_j12489764897128_2_alg».proof.Proof.K.Scatter2
import proofs.«101950_j12489764897128_2_alg».proof.Proof.K.Proj3
import proofs.«101950_j12489764897128_2_alg».proof.Proof.K.Gather4
import proofs.«101950_j12489764897128_2_alg».proof.Proof.K.Scatter5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: ten host stretches, regions 0 and 1, a host stretch, regions 2, 3 and 4, a host stretch, region 5,
    a host stretch

## The buffer contents at each boundary: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)
/-- After the host stretch `hostOps0_8`. -/
abbrev W9 : Dev nD → Valuation τ sig (Elt F) := fun c => StableHlo.after hostOps0_8 (W8 m ρ c)
/-- After the host stretch `hostOps0_9`. -/
abbrev W10 : Dev nD → Valuation τ sig (Elt F) := fun c => StableHlo.after hostOps0_9 (W9 m ρ c)
/-- Region 0's entry contents read at the TensorCore's references. -/
abbrev V10 : (c : Dev nD) → (b : Ref sig .tc) → Buf (Elt F) ((c : Thread nD τ).loc b) := fun c b => W10 m ρ c b
/-- At region 0's exit: its arrays at what its write-backs leave, every other buffer as entered. -/
def W11 (c : Dev nD) : Valuation τ sig (Elt F) :=
  Pipeline.withArrays spec0 c (W10 m ρ c) fun w => (dat0 (V10 m ρ) c).arrAt w cfg0.N
theorem W11_arr (c : Dev nD) (w : Fin cfg0.W) :
    W11 m ρ c (Proc.devRef .tc (Pipeline.arrRef spec0 w)) = (dat0 (V10 m ρ) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m ρ c (Proc.devRef .tc b) = W10 m ρ c (Proc.devRef .tc b) := by
  unfold W11; exact Pipeline.withArrays_of_ne spec0 c _ _ b hb
abbrev X11 : (c : Dev nD) → (b : Ref sig .tc) → Buf (Elt F) ((c : Thread nD τ).loc b) := fun c b => W11 m ρ c b
theorem hF0 (c : Dev nD) (w : Fin cfg0.W) : (dat0 (V10 m ρ) c).arrAt w cfg0.N = X11 m ρ c (Pipeline.arrRef spec0 w) :=
  (W11_arr m ρ c w).symm
theorem hrest0 (c : Dev nD) : ∀ b, b ∉ Finset.univ.image (Pipeline.arrRef spec0) → X11 m ρ c b = V10 m ρ c b :=
  fun b hb => W11_of_ne m ρ c b fun w e => hb (Finset.mem_image.mpr ⟨w, Finset.mem_univ _, e⟩)
/-- Region 1's entry contents read at the TensorCore's references. -/
abbrev V11 : (c : Dev nD) → (b : Ref sig .tc) → Buf (Elt F) ((c : Thread nD τ).loc b) := fun c b => W11 m ρ c b
/-- At region 1's exit: its arrays at what its write-backs leave, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev X12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = X12 m ρ c (Pipeline.arrRef spec1 w) :=
  (W12_arr m ρ c w).symm
theorem hrest1 (c : Dev nD) : ∀ b, b ∉ Finset.univ.image (Pipeline.arrRef spec1) → X12 m ρ c b = V11 m ρ c b :=
  fun b hb => W12_of_ne m ρ c b fun w e => hb (Finset.mem_image.mpr ⟨w, Finset.mem_univ _, e⟩)
/-- After the host stretch `hostOps2`. -/
abbrev W13 : Dev nD → Valuation τ sig (Elt F) := fun c => StableHlo.after hostOps2 (W12 m ρ c)
/-- Region 2's entry contents read at the TensorCore's references. -/
abbrev V13 : (c : Dev nD) → (b : Ref sig .tc) → Buf (Elt F) ((c : Thread nD τ).loc b) := fun c b => W13 m ρ c b
/-- At region 2's exit: its arrays at what its write-backs leave, every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev X14 : (c : Dev nD) → (b : Ref sig .tc) → Buf (Elt F) ((c : Thread nD τ).loc b) := fun c b => W14 m ρ c b
theorem hF2 (c : Dev nD) (w : Fin cfg2.W) : (dat2 (V13 m ρ) c).arrAt w cfg2.N = X14 m ρ c (Pipeline.arrRef spec2 w) :=
  (W14_arr m ρ c w).symm
theorem hrest2 (c : Dev nD) : ∀ b, b ∉ Finset.univ.image (Pipeline.arrRef spec2) → X14 m ρ c b = V13 m ρ c b :=
  fun b hb => W14_of_ne m ρ c b fun w e => hb (Finset.mem_image.mpr ⟨w, Finset.mem_univ _, e⟩)
/-- Region 3's entry contents read at the TensorCore's references. -/
abbrev V14 : (c : Dev nD) → (b : Ref sig .tc) → Buf (Elt F) ((c : Thread nD τ).loc b) := fun c b => W14 m ρ c b
/-- At region 3's exit: its arrays at what its write-backs leave, every other buffer as entered. -/
def W15 (c : Dev nD) : Valuation τ sig (Elt F) :=
  Pipeline.withArrays spec3 c (W14 m ρ c) fun w => (dat3 (V14 m ρ) c).arrAt w cfg3.N
theorem W15_arr (c : Dev nD) (w : Fin cfg3.W) :
    W15 m ρ c (Proc.devRef .tc (Pipeline.arrRef spec3 w)) = (dat3 (V14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev X15 : (c : Dev nD) → (b : Ref sig .tc) → Buf (Elt F) ((c : Thread nD τ).loc b) := fun c b => W15 m ρ c b
theorem hF3 (c : Dev nD) (w : Fin cfg3.W) : (dat3 (V14 m ρ) c).arrAt w cfg3.N = X15 m ρ c (Pipeline.arrRef spec3 w) :=
  (W15_arr m ρ c w).symm
theorem hrest3 (c : Dev nD) : ∀ b, b ∉ Finset.univ.image (Pipeline.arrRef spec3) → X15 m ρ c b = V14 m ρ c b :=
  fun b hb => W15_of_ne m ρ c b fun w e => hb (Finset.mem_image.mpr ⟨w, Finset.mem_univ _, e⟩)
/-- Region 4's entry contents read at the TensorCore's references. -/
abbrev V15 : (c : Dev nD) → (b : Ref sig .tc) → Buf (Elt F) ((c : Thread nD τ).loc b) := fun c b => W15 m ρ c b
/-- At region 4's exit: its arrays at what its write-backs leave, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev X16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = X16 m ρ c (Pipeline.arrRef spec4 w) :=
  (W16_arr m ρ c w).symm
theorem hrest4 (c : Dev nD) : ∀ b, b ∉ Finset.univ.image (Pipeline.arrRef spec4) → X16 m ρ c b = V15 m ρ c b :=
  fun b hb => W16_of_ne m ρ c b fun w e => hb (Finset.mem_image.mpr ⟨w, Finset.mem_univ _, e⟩)
/-- After the host stretch `hostOps5`. -/
abbrev W17 : Dev nD → Valuation τ sig (Elt F) := fun c => StableHlo.after hostOps5 (W16 m ρ c)
/-- Region 5's entry contents read at the TensorCore's references. -/
abbrev V17 : (c : Dev nD) → (b : Ref sig .tc) → Buf (Elt F) ((c : Thread nD τ).loc b) := fun c b => W17 m ρ c b
/-- At region 5's exit: its arrays at what its write-backs leave, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev X18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = X18 m ρ c (Pipeline.arrRef spec5 w) :=
  (W18_arr m ρ c w).symm
theorem hrest5 (c : Dev nD) : ∀ b, b ∉ Finset.univ.image (Pipeline.arrRef spec5) → X18 m ρ c b = V17 m ρ c b :=
  fun b hb => W18_of_ne m ρ c b fun w e => hb (Finset.mem_image.mpr ⟨w, Finset.mem_univ _, e⟩)
/-- After the host stretch `hostOps6`. -/
abbrev W19 : Dev nD → Valuation τ sig (Elt F) := fun c => StableHlo.after hostOps6 (W18 m ρ c)

/-! ## The proof data family and the thread state -/

/-- No pallas_call has a prefetched table. -/
abbrev adm : (p : Fin 6) → (pcfgs (F := F) p).Adm := fun p => (cfgs p).toPCfg_adm
/-- Every pipeline's proof data, each at its region's entry contents — a literal match on the pipeline. -/
def pdats : (p : Fin 6) → (c : Dev nD) → Dat τ (Elt F) Unit ℕ (UR sig nD τ) ℕ (Pipeline.pin (pcfgs (F := F)) adm p) c
  | ⟨0, _⟩ => fun c => dat0 (V10 m ρ) c
  | ⟨1, _⟩ => fun c => dat1 (V11 m ρ) c
  | ⟨2, _⟩ => fun c => dat2 (V13 m ρ) c
  | ⟨3, _⟩ => fun c => dat3 (V14 m ρ) c
  | ⟨4, _⟩ => fun c => dat4 (V15 m ρ) c
  | ⟨5, _⟩ => fun c => dat5 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W10`, left at `W11`. Its arrays are split
    out of the unscoped buffers and put back at the exit contents; the generator register and the scoped rest go into
    the region's invariant and come back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V10 m ρ) c).loose
  hwaits := Pipeline.hwaits_of_owed_zero _ _ _ _ L lv 0 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec0 c (V10 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V10 m ρ c) fun w => A_eq0 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h1.trans (hin0 (V10 m ρ) c)
  hout c := by
    rw [Pipeline.ownSems0_none]
    have h1 : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V10 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V10 m ρ c) (X11 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. Its arrays are split
    out of the unscoped buffers and put back at the exit contents; the generator register and the scoped rest go into
    the region's invariant and come back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun w => A_eq1 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h1.trans (hin1 (V11 m ρ) c)
  hout c := by
    rw [Pipeline.ownSems0_none]
    have h1 : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V11 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (X12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W13`, left at `W14`. Its arrays are split
    out of the unscoped buffers and put back at the exit contents; the generator register and the scoped rest go into
    the region's invariant and come back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun w => A_eq2 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 2).pre c (fun _ => fullShare) (adm (F := F) 2).1
        ∗ Pipeline.scopedRest (Ix := Unit) (Name := ℕ) (U := UR sig nD τ) (Lvl := ℕ) (Val := Elt F) spec2 c) : sProp 𝕄) ⊢ Pipeline.ΦA spec2 c := by
      unfold Pipeline.ΦA
      iintro ⟨Hp, -, Hr⟩
      isplitl [Hr]; · iexact Hr
      iexact Hp
    exact h1.trans (hin2 (V13 m ρ) c)
  hout c := by
    rw [Pipeline.ownSems0_none]
    have h1 : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V13 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (X14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W14`, left at `W15`. Its arrays are split
    out of the unscoped buffers and put back at the exit contents; the generator register and the scoped rest go into
    the region's invariant and come back; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V14 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (V14 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V14 m ρ c) fun w => A_eq3 (V14 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 3).pre c (fun _ => fullShare) (adm (F := F) 3).1
        ∗ Pipeline.scopedRest (Ix := Unit) (Name := ℕ) (U := UR sig nD τ) (Lvl := ℕ) (Val := Elt F) spec3 c) : sProp 𝕄) ⊢ Pipeline.ΦA spec3 c := by
      unfold Pipeline.ΦA
      iintro ⟨Hp, -, Hr⟩
      isplitl [Hr]; · iexact Hr
      iexact Hp
    exact h1.trans (hin3 (V14 m ρ) c)
  hout c := by
    rw [Pipeline.ownSems0_none]
    have h1 : (Pipeline.ΦA spec3 c : sProp 𝕄) ⊢ iprop((∃ r, prngReg c r) ∗ BI.emp
        ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (V14 m ρ) c).trans h1
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V14 m ρ c) (X15 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W15`, left at `W16`. Its arrays are split
    out of the unscoped buffers and put back at the exit contents; the generator register and the scoped rest go into
    the region's invariant and come back; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun w => A_eq4 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 4).pre c (fun _ => fullShare) (adm (F := F) 4).1
        ∗ Pipeline.scopedRest (Ix := Unit) (Name := ℕ) (U := UR sig nD τ) (Lvl := ℕ) (Val := Elt F) spec4 c) : sProp 𝕄) ⊢ Pipeline.ΦA spec4 c := by
      unfold Pipeline.ΦA
      iintro ⟨Hp, -, Hr⟩
      isplitl [Hr]; · iexact Hr
      iexact Hp
    exact h1.trans (hin4 (V15 m ρ) c)
  hout c := by
    rw [Pipeline.ownSems0_none]
    have h1 : (Pipeline.ΦA spec4 c : sProp 𝕄) ⊢ iprop((∃ r, prngReg c r) ∗ BI.emp
        ∗ Pipeline.scopedRest (Ix := Unit) (Name := ℕ) (U := UR sig nD τ) (Lvl := ℕ) (Val := Elt F) spec4 c) := by
      unfold Pipeline.ΦA
      iintro ⟨Hr, Hp⟩
      isplitl [Hp]; · iexact Hp
      isplitr; · iempintro
      iexact Hr
    exact (hout4 (V15 m ρ) c).trans h1
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (X16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W17`, left at `W18`. Its arrays are split
    out of the unscoped buffers and put back at the exit contents; the generator register and the scoped rest go into
    the region's invariant and come back; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun w => A_eq5 (V17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 5).pre c (fun _ => fullShare) (adm (F := F) 5).1
        ∗ Pipeline.scopedRest (Ix := Unit) (Name := ℕ) (U := UR sig nD τ) (Lvl := ℕ) (Val := Elt F) spec5 c) : sProp 𝕄) ⊢ Pipeline.ΦA spec5 c := by
      unfold Pipeline.ΦA
      iintro ⟨Hp, -, Hr⟩
      isplitl [Hr]; · iexact Hr
      iexact Hp
    exact h1.trans (hin5 (V17 m ρ) c)
  hout c := by
    rw [Pipeline.ownSems0_none]
    have h1 : (Pipeline.ΦA spec5 c : sProp 𝕄) ⊢ iprop((∃ r, prngReg c r) ∗ BI.emp
        ∗ Pipeline.scopedRest (Ix := Unit) (Name := ℕ) (U := UR sig nD τ) (Lvl := ℕ) (Val := Elt F) spec5 c) := by
      unfold Pipeline.ΦA
      iintro ⟨Hr, Hp⟩
      isplitl [Hp]; · iexact Hp
      isplitr; · iempintro
      iexact Hr
    exact (hout5 (V17 m ρ) c).trans h1
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (X18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .region (reg0 m ρ),
    .region (reg1 m ρ),
    .host (hseg hostOps2 hostOps2_sub hostOps2_fresh (W12 m ρ)),
    .region (reg2 m ρ),
    .region (reg3 m ρ),
    .region (reg4 m ρ),
    .host (hseg hostOps5 hostOps5_sub hostOps5_fresh (W16 m ρ)),
    .region (reg5 m ρ),
    .host (hseg hostOps6 hostOps6_sub hostOps6_fresh (W18 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at the last boundary's contents `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W19 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W19 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

/-! ## What each boundary leaves unchanged: a region changes only its output array -/
theorem W11_keep (c : Dev nD) (b : Ref sig .tc) (hb : b ≠ main_v37) : W11 m ρ c (Proc.devRef .tc b) = W10 m ρ c (Proc.devRef .tc b) := by
  by_cases h : ∃ w, Pipeline.arrRef spec0 w = b
  · obtain ⟨w, rfl⟩ := h
    have hw : w = 0 ∨ w = 1 ∨ w = 2 := by revert w; decide
    rcases hw with rfl | rfl | rfl
    · exact (W11_arr m ρ c 0).trans (((dat0 (V10 m ρ) c).arrAt_in 0 rfl _).trans (A_eq0 (V10 m ρ) c 0))
    · exact (W11_arr m ρ c 1).trans (((dat0 (V10 m ρ) c).arrAt_in 1 rfl _).trans (A_eq0 (V10 m ρ) c 1))
    · exact absurd rfl hb
  · exact W11_of_ne m ρ c b (fun w e => h ⟨w, e⟩)
theorem W12_keep (c : Dev nD) (b : Ref sig .tc) (hb : b ≠ main_v38) : W12 m ρ c (Proc.devRef .tc b) = W11 m ρ c (Proc.devRef .tc b) := by
  by_cases h : ∃ w, Pipeline.arrRef spec1 w = b
  · obtain ⟨w, rfl⟩ := h
    have hw : w = 0 ∨ w = 1 ∨ w = 2 ∨ w = 3 := by revert w; decide
    rcases hw with rfl | rfl | rfl | rfl
    · exact (W12_arr m ρ c 0).trans (((dat1 (V11 m ρ) c).arrAt_in 0 rfl _).trans (A_eq1 (V11 m ρ) c 0))
    · exact (W12_arr m ρ c 1).trans (((dat1 (V11 m ρ) c).arrAt_in 1 rfl _).trans (A_eq1 (V11 m ρ) c 1))
    · exact (W12_arr m ρ c 2).trans (((dat1 (V11 m ρ) c).arrAt_in 2 rfl _).trans (A_eq1 (V11 m ρ) c 2))
    · exact absurd rfl hb
  · exact W12_of_ne m ρ c b (fun w e => h ⟨w, e⟩)
theorem W14_keep (c : Dev nD) (b : Ref sig .tc) (hb : b ≠ main_v40) : W14 m ρ c (Proc.devRef .tc b) = W13 m ρ c (Proc.devRef .tc b) := by
  by_cases h : ∃ w, Pipeline.arrRef spec2 w = b
  · obtain ⟨w, rfl⟩ := h
    have hw : w = 0 ∨ w = 1 ∨ w = 2 ∨ w = 3 := by revert w; decide
    rcases hw with rfl | rfl | rfl | rfl
    · exact (W14_arr m ρ c 0).trans (((dat2 (V13 m ρ) c).arrAt_in 0 rfl _).trans (A_eq2 (V13 m ρ) c 0))
    · exact (W14_arr m ρ c 1).trans (((dat2 (V13 m ρ) c).arrAt_in 1 rfl _).trans (A_eq2 (V13 m ρ) c 1))
    · exact (W14_arr m ρ c 2).trans (((dat2 (V13 m ρ) c).arrAt_in 2 rfl _).trans (A_eq2 (V13 m ρ) c 2))
    · exact absurd rfl hb
  · exact W14_of_ne m ρ c b (fun w e => h ⟨w, e⟩)
theorem W15_keep (c : Dev nD) (b : Ref sig .tc) (hb : b ≠ main_v41) : W15 m ρ c (Proc.devRef .tc b) = W14 m ρ c (Proc.devRef .tc b) := by
  by_cases h : ∃ w, Pipeline.arrRef spec3 w = b
  · obtain ⟨w, rfl⟩ := h
    have hw : w = 0 ∨ w = 1 ∨ w = 2 := by revert w; decide
    rcases hw with rfl | rfl | rfl
    · exact (W15_arr m ρ c 0).trans (((dat3 (V14 m ρ) c).arrAt_in 0 rfl _).trans (A_eq3 (V14 m ρ) c 0))
    · exact (W15_arr m ρ c 1).trans (((dat3 (V14 m ρ) c).arrAt_in 1 rfl _).trans (A_eq3 (V14 m ρ) c 1))
    · exact absurd rfl hb
  · exact W15_of_ne m ρ c b (fun w e => h ⟨w, e⟩)
theorem W16_keep (c : Dev nD) (b : Ref sig .tc) (hb : b ≠ main_v42) : W16 m ρ c (Proc.devRef .tc b) = W15 m ρ c (Proc.devRef .tc b) := by
  by_cases h : ∃ w, Pipeline.arrRef spec4 w = b
  · obtain ⟨w, rfl⟩ := h
    have hw : w = 0 ∨ w = 1 ∨ w = 2 ∨ w = 3 := by revert w; decide
    rcases hw with rfl | rfl | rfl | rfl
    · exact (W16_arr m ρ c 0).trans (((dat4 (V15 m ρ) c).arrAt_in 0 rfl _).trans (A_eq4 (V15 m ρ) c 0))
    · exact (W16_arr m ρ c 1).trans (((dat4 (V15 m ρ) c).arrAt_in 1 rfl _).trans (A_eq4 (V15 m ρ) c 1))
    · exact (W16_arr m ρ c 2).trans (((dat4 (V15 m ρ) c).arrAt_in 2 rfl _).trans (A_eq4 (V15 m ρ) c 2))
    · exact absurd rfl hb
  · exact W16_of_ne m ρ c b (fun w e => h ⟨w, e⟩)
theorem W18_keep (c : Dev nD) (b : Ref sig .tc) (hb : b ≠ main_v44) : W18 m ρ c (Proc.devRef .tc b) = W17 m ρ c (Proc.devRef .tc b) := by
  by_cases h : ∃ w, Pipeline.arrRef spec5 w = b
  · obtain ⟨w, rfl⟩ := h
    have hw : w = 0 ∨ w = 1 ∨ w = 2 ∨ w = 3 := by revert w; decide
    rcases hw with rfl | rfl | rfl | rfl
    · exact (W18_arr m ρ c 0).trans (((dat5 (V17 m ρ) c).arrAt_in 0 rfl _).trans (A_eq5 (V17 m ρ) c 0))
    · exact (W18_arr m ρ c 1).trans (((dat5 (V17 m ρ) c).arrAt_in 1 rfl _).trans (A_eq5 (V17 m ρ) c 1))
    · exact (W18_arr m ρ c 2).trans (((dat5 (V17 m ρ) c).arrAt_in 2 rfl _).trans (A_eq5 (V17 m ρ) c 2))
    · exact absurd rfl hb
  · exact W18_of_ne m ρ c b (fun w e => h ⟨w, e⟩)
theorem W10_arg2 (c : Dev nD) : W10 m ρ c (Proc.devRef .tc main_arg2) = W0 m ρ c (Proc.devRef .tc main_arg2) :=
  (StableHlo.after_of_writes_sub hostOps0_9 _ hostOps0_9_writes (by decide) : W10 m ρ c (Proc.devRef .tc main_arg2) = W9 m ρ c (Proc.devRef .tc main_arg2)).trans <|
  (StableHlo.after_of_writes_sub hostOps0_8 _ hostOps0_8_writes (by decide) : W9 m ρ c (Proc.devRef .tc main_arg2) = W8 m ρ c (Proc.devRef .tc main_arg2)).trans <|
  (StableHlo.after_of_writes_sub hostOps0_7 _ hostOps0_7_writes (by decide) : W8 m ρ c (Proc.devRef .tc main_arg2) = W7 m ρ c (Proc.devRef .tc main_arg2)).trans <|
  (StableHlo.after_of_writes_sub hostOps0_6 _ hostOps0_6_writes (by decide) : W7 m ρ c (Proc.devRef .tc main_arg2) = W6 m ρ c (Proc.devRef .tc main_arg2)).trans <|
  (StableHlo.after_of_writes_sub hostOps0_5 _ hostOps0_5_writes (by decide) : W6 m ρ c (Proc.devRef .tc main_arg2) = W5 m ρ c (Proc.devRef .tc main_arg2)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <|
  rfl
theorem W14_arg4 (c : Dev nD) : W14 m ρ c (Proc.devRef .tc main_arg4) = W0 m ρ c (Proc.devRef .tc main_arg4) :=
  (W14_keep m ρ c main_arg4 (by decide)).trans <|
  (StableHlo.after_of_writes_sub hostOps2 _ hostOps2_writes (by decide) : W13 m ρ c (Proc.devRef .tc main_arg4) = W12 m ρ c (Proc.devRef .tc main_arg4)).trans <|
  (W12_keep m ρ c main_arg4 (by decide)).trans <|
  (W11_keep m ρ c main_arg4 (by decide)).trans <|
  (StableHlo.after_of_writes_sub hostOps0_9 _ hostOps0_9_writes (by decide) : W10 m ρ c (Proc.devRef .tc main_arg4) = W9 m ρ c (Proc.devRef .tc main_arg4)).trans <|
  (StableHlo.after_of_writes_sub hostOps0_8 _ hostOps0_8_writes (by decide) : W9 m ρ c (Proc.devRef .tc main_arg4) = W8 m ρ c (Proc.devRef .tc main_arg4)).trans <|
  (StableHlo.after_of_writes_sub hostOps0_7 _ hostOps0_7_writes (by decide) : W8 m ρ c (Proc.devRef .tc main_arg4) = W7 m ρ c (Proc.devRef .tc main_arg4)).trans <|
  (StableHlo.after_of_writes_sub hostOps0_6 _ hostOps0_6_writes (by decide) : W7 m ρ c (Proc.devRef .tc main_arg4) = W6 m ρ c (Proc.devRef .tc main_arg4)).trans <|
  (StableHlo.after_of_writes_sub hostOps0_5 _ hostOps0_5_writes (by decide) : W6 m ρ c (Proc.devRef .tc main_arg4) = W5 m ρ c (Proc.devRef .tc main_arg4)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <|
  rfl
theorem W12_arg3 (c : Dev nD) : W12 m ρ c (Proc.devRef .tc main_arg3) = W0 m ρ c (Proc.devRef .tc main_arg3) :=
  (W12_keep m ρ c main_arg3 (by decide)).trans <|
  (W11_keep m ρ c main_arg3 (by decide)).trans <|
  (StableHlo.after_of_writes_sub hostOps0_9 _ hostOps0_9_writes (by decide) : W10 m ρ c (Proc.devRef .tc main_arg3) = W9 m ρ c (Proc.devRef .tc main_arg3)).trans <|
  (StableHlo.after_of_writes_sub hostOps0_8 _ hostOps0_8_writes (by decide) : W9 m ρ c (Proc.devRef .tc main_arg3) = W8 m ρ c (Proc.devRef .tc main_arg3)).trans <|
  (StableHlo.after_of_writes_sub hostOps0_7 _ hostOps0_7_writes (by decide) : W8 m ρ c (Proc.devRef .tc main_arg3) = W7 m ρ c (Proc.devRef .tc main_arg3)).trans <|
  (StableHlo.after_of_writes_sub hostOps0_6 _ hostOps0_6_writes (by decide) : W7 m ρ c (Proc.devRef .tc main_arg3) = W6 m ρ c (Proc.devRef .tc main_arg3)).trans <|
  (StableHlo.after_of_writes_sub hostOps0_5 _ hostOps0_5_writes (by decide) : W6 m ρ c (Proc.devRef .tc main_arg3) = W5 m ρ c (Proc.devRef .tc main_arg3)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <|
  rfl
theorem W16_arg5 (c : Dev nD) : W16 m ρ c (Proc.devRef .tc main_arg5) = W0 m ρ c (Proc.devRef .tc main_arg5) :=
  (W16_keep m ρ c main_arg5 (by decide)).trans <|
  (W15_keep m ρ c main_arg5 (by decide)).trans <|
  (W14_keep m ρ c main_arg5 (by decide)).trans <|
  (StableHlo.after_of_writes_sub hostOps2 _ hostOps2_writes (by decide) : W13 m ρ c (Proc.devRef .tc main_arg5) = W12 m ρ c (Proc.devRef .tc main_arg5)).trans <|
  (W12_keep m ρ c main_arg5 (by decide)).trans <|
  (W11_keep m ρ c main_arg5 (by decide)).trans <|
  (StableHlo.after_of_writes_sub hostOps0_9 _ hostOps0_9_writes (by decide) : W10 m ρ c (Proc.devRef .tc main_arg5) = W9 m ρ c (Proc.devRef .tc main_arg5)).trans <|
  (StableHlo.after_of_writes_sub hostOps0_8 _ hostOps0_8_writes (by decide) : W9 m ρ c (Proc.devRef .tc main_arg5) = W8 m ρ c (Proc.devRef .tc main_arg5)).trans <|
  (StableHlo.after_of_writes_sub hostOps0_7 _ hostOps0_7_writes (by decide) : W8 m ρ c (Proc.devRef .tc main_arg5) = W7 m ρ c (Proc.devRef .tc main_arg5)).trans <|
  (StableHlo.after_of_writes_sub hostOps0_6 _ hostOps0_6_writes (by decide) : W7 m ρ c (Proc.devRef .tc main_arg5) = W6 m ρ c (Proc.devRef .tc main_arg5)).trans <|
  (StableHlo.after_of_writes_sub hostOps0_5 _ hostOps0_5_writes (by decide) : W6 m ρ c (Proc.devRef .tc main_arg5) = W5 m ρ c (Proc.devRef .tc main_arg5)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <|
  rfl
theorem W11_v33 (c : Dev nD) : W11 m ρ c (Proc.devRef .tc main_v33) = W10 m ρ c (Proc.devRef .tc main_v33) :=
  (W11_keep m ρ c main_v33 (by decide)).trans <|
  rfl
theorem W11_v35 (c : Dev nD) : W11 m ρ c (Proc.devRef .tc main_v35) = W10 m ρ c (Proc.devRef .tc main_v35) :=
  (W11_keep m ρ c main_v35 (by decide)).trans <|
  rfl
theorem W13_v34 (c : Dev nD) : W13 m ρ c (Proc.devRef .tc main_v34) = W10 m ρ c (Proc.devRef .tc main_v34) :=
  (StableHlo.after_of_writes_sub hostOps2 _ hostOps2_writes (by decide) : W13 m ρ c (Proc.devRef .tc main_v34) = W12 m ρ c (Proc.devRef .tc main_v34)).trans <|
  (W12_keep m ρ c main_v34 (by decide)).trans <|
  (W11_keep m ρ c main_v34 (by decide)).trans <|
  rfl
theorem W13_v38 (c : Dev nD) : W13 m ρ c (Proc.devRef .tc main_v38) = W12 m ρ c (Proc.devRef .tc main_v38) :=
  (StableHlo.after_of_writes_sub hostOps2 _ hostOps2_writes (by decide) : W13 m ρ c (Proc.devRef .tc main_v38) = W12 m ρ c (Proc.devRef .tc main_v38)).trans <|
  rfl
theorem W15_v33 (c : Dev nD) : W15 m ρ c (Proc.devRef .tc main_v33) = W10 m ρ c (Proc.devRef .tc main_v33) :=
  (W15_keep m ρ c main_v33 (by decide)).trans <|
  (W14_keep m ρ c main_v33 (by decide)).trans <|
  (StableHlo.after_of_writes_sub hostOps2 _ hostOps2_writes (by decide) : W13 m ρ c (Proc.devRef .tc main_v33) = W12 m ρ c (Proc.devRef .tc main_v33)).trans <|
  (W12_keep m ρ c main_v33 (by decide)).trans <|
  (W11_keep m ρ c main_v33 (by decide)).trans <|
  rfl
theorem W15_v35 (c : Dev nD) : W15 m ρ c (Proc.devRef .tc main_v35) = W10 m ρ c (Proc.devRef .tc main_v35) :=
  (W15_keep m ρ c main_v35 (by decide)).trans <|
  (W14_keep m ρ c main_v35 (by decide)).trans <|
  (StableHlo.after_of_writes_sub hostOps2 _ hostOps2_writes (by decide) : W13 m ρ c (Proc.devRef .tc main_v35) = W12 m ρ c (Proc.devRef .tc main_v35)).trans <|
  (W12_keep m ρ c main_v35 (by decide)).trans <|
  (W11_keep m ρ c main_v35 (by decide)).trans <|
  rfl
theorem W17_v34 (c : Dev nD) : W17 m ρ c (Proc.devRef .tc main_v34) = W10 m ρ c (Proc.devRef .tc main_v34) :=
  (StableHlo.after_of_writes_sub hostOps5 _ hostOps5_writes (by decide) : W17 m ρ c (Proc.devRef .tc main_v34) = W16 m ρ c (Proc.devRef .tc main_v34)).trans <|
  (W16_keep m ρ c main_v34 (by decide)).trans <|
  (W15_keep m ρ c main_v34 (by decide)).trans <|
  (W14_keep m ρ c main_v34 (by decide)).trans <|
  (StableHlo.after_of_writes_sub hostOps2 _ hostOps2_writes (by decide) : W13 m ρ c (Proc.devRef .tc main_v34) = W12 m ρ c (Proc.devRef .tc main_v34)).trans <|
  (W12_keep m ρ c main_v34 (by decide)).trans <|
  (W11_keep m ρ c main_v34 (by decide)).trans <|
  rfl
theorem W17_v42 (c : Dev nD) : W17 m ρ c (Proc.devRef .tc main_v42) = W16 m ρ c (Proc.devRef .tc main_v42) :=
  (StableHlo.after_of_writes_sub hostOps5 _ hostOps5_writes (by decide) : W17 m ρ c (Proc.devRef .tc main_v42) = W16 m ρ c (Proc.devRef .tc main_v42)).trans <|
  rfl

/-! ## The arguments end as launched: no host operation writes one, and a region either bypasses it or stages it as an input -/
theorem W19_main_arg0 (c : Dev nD) : W19 m ρ c (Proc.devRef .tc main_arg0) = m ((c : Thread nD τ).loc main_arg0) :=
  (StableHlo.after_of_writes_sub hostOps6 _ hostOps6_writes (by decide) : W19 m ρ c (Proc.devRef .tc main_arg0) = W18 m ρ c (Proc.devRef .tc main_arg0)).trans <|
  (W18_of_ne m ρ c main_arg0 (by decide)).trans <|
  (StableHlo.after_of_writes_sub hostOps5 _ hostOps5_writes (by decide) : W17 m ρ c (Proc.devRef .tc main_arg0) = W16 m ρ c (Proc.devRef .tc main_arg0)).trans <|
  (W16_of_ne m ρ c main_arg0 (by decide)).trans <|
  (W15_of_ne m ρ c main_arg0 (by decide)).trans <|
  (W14_of_ne m ρ c main_arg0 (by decide)).trans <|
  (StableHlo.after_of_writes_sub hostOps2 _ hostOps2_writes (by decide) : W13 m ρ c (Proc.devRef .tc main_arg0) = W12 m ρ c (Proc.devRef .tc main_arg0)).trans <|
  (W12_of_ne m ρ c main_arg0 (by decide)).trans <|
  (W11_of_ne m ρ c main_arg0 (by decide)).trans <|
  (StableHlo.after_of_writes_sub hostOps0_9 _ hostOps0_9_writes (by decide) : W10 m ρ c (Proc.devRef .tc main_arg0) = W9 m ρ c (Proc.devRef .tc main_arg0)).trans <|
  (StableHlo.after_of_writes_sub hostOps0_8 _ hostOps0_8_writes (by decide) : W9 m ρ c (Proc.devRef .tc main_arg0) = W8 m ρ c (Proc.devRef .tc main_arg0)).trans <|
  (StableHlo.after_of_writes_sub hostOps0_7 _ hostOps0_7_writes (by decide) : W8 m ρ c (Proc.devRef .tc main_arg0) = W7 m ρ c (Proc.devRef .tc main_arg0)).trans <|
  (StableHlo.after_of_writes_sub hostOps0_6 _ hostOps0_6_writes (by decide) : W7 m ρ c (Proc.devRef .tc main_arg0) = W6 m ρ c (Proc.devRef .tc main_arg0)).trans <|
  (StableHlo.after_of_writes_sub hostOps0_5 _ hostOps0_5_writes (by decide) : W6 m ρ c (Proc.devRef .tc main_arg0) = W5 m ρ c (Proc.devRef .tc main_arg0)).trans <|
  (StableHlo.after_of_writes_sub hostOps0_4 _ hostOps0_4_writes (by decide) : W5 m ρ c (Proc.devRef .tc main_arg0) = W4 m ρ c (Proc.devRef .tc main_arg0)).trans <|
  (StableHlo.after_of_writes_sub hostOps0_3 _ hostOps0_3_writes (by decide) : W4 m ρ c (Proc.devRef .tc main_arg0) = W3 m ρ c (Proc.devRef .tc main_arg0)).trans <|
  (StableHlo.after_of_writes_sub hostOps0_2 _ hostOps0_2_writes (by decide) : W3 m ρ c (Proc.devRef .tc main_arg0) = W2 m ρ c (Proc.devRef .tc main_arg0)).trans <|
  (StableHlo.after_of_writes_sub hostOps0_1 _ hostOps0_1_writes (by decide) : W2 m ρ c (Proc.devRef .tc main_arg0) = W1 m ρ c (Proc.devRef .tc main_arg0)).trans <|
  (StableHlo.after_of_writes_sub hostOps0 _ hostOps0_writes (by decide) : W1 m ρ c (Proc.devRef .tc main_arg0) = W0 m ρ c (Proc.devRef .tc main_arg0)).trans <|
  rfl
theorem W19_main_arg1 (c : Dev nD) : W19 m ρ c (Proc.devRef .tc main_arg1) = m ((c : Thread nD τ).loc main_arg1) :=
  (StableHlo.after_of_writes_sub hostOps6 _ hostOps6_writes (by decide) : W19 m ρ c (Proc.devRef .tc main_arg1) = W18 m ρ c (Proc.devRef .tc main_arg1)).trans <|
  (W18_of_ne m ρ c main_arg1 (by decide)).trans <|
  (StableHlo.after_of_writes_sub hostOps5 _ hostOps5_writes (by decide) : W17 m ρ c (Proc.devRef .tc main_arg1) = W16 m ρ c (Proc.devRef .tc main_arg1)).trans <|
  (W16_of_ne m ρ c main_arg1 (by decide)).trans <|
  (W15_of_ne m ρ c main_arg1 (by decide)).trans <|
  (W14_of_ne m ρ c main_arg1 (by decide)).trans <|
  (StableHlo.after_of_writes_sub hostOps2 _ hostOps2_writes (by decide) : W13 m ρ c (Proc.devRef .tc main_arg1) = W12 m ρ c (Proc.devRef .tc main_arg1)).trans <|
  (W12_of_ne m ρ c main_arg1 (by decide)).trans <|
  (W11_of_ne m ρ c main_arg1 (by decide)).trans <|
  (StableHlo.after_of_writes_sub hostOps0_9 _ hostOps0_9_writes (by decide) : W10 m ρ c (Proc.devRef .tc main_arg1) = W9 m ρ c (Proc.devRef .tc main_arg1)).trans <|
  (StableHlo.after_of_writes_sub hostOps0_8 _ hostOps0_8_writes (by decide) : W9 m ρ c (Proc.devRef .tc main_arg1) = W8 m ρ c (Proc.devRef .tc main_arg1)).trans <|
  (StableHlo.after_of_writes_sub hostOps0_7 _ hostOps0_7_writes (by decide) : W8 m ρ c (Proc.devRef .tc main_arg1) = W7 m ρ c (Proc.devRef .tc main_arg1)).trans <|
  (StableHlo.after_of_writes_sub hostOps0_6 _ hostOps0_6_writes (by decide) : W7 m ρ c (Proc.devRef .tc main_arg1) = W6 m ρ c (Proc.devRef .tc main_arg1)).trans <|
  (StableHlo.after_of_writes_sub hostOps0_5 _ hostOps0_5_writes (by decide) : W6 m ρ c (Proc.devRef .tc main_arg1) = W5 m ρ c (Proc.devRef .tc main_arg1)).trans <|
  (StableHlo.after_of_writes_sub hostOps0_4 _ hostOps0_4_writes (by decide) : W5 m ρ c (Proc.devRef .tc main_arg1) = W4 m ρ c (Proc.devRef .tc main_arg1)).trans <|
  (StableHlo.after_of_writes_sub hostOps0_3 _ hostOps0_3_writes (by decide) : W4 m ρ c (Proc.devRef .tc main_arg1) = W3 m ρ c (Proc.devRef .tc main_arg1)).trans <|
  (StableHlo.after_of_writes_sub hostOps0_2 _ hostOps0_2_writes (by decide) : W3 m ρ c (Proc.devRef .tc main_arg1) = W2 m ρ c (Proc.devRef .tc main_arg1)).trans <|
  (StableHlo.after_of_writes_sub hostOps0_1 _ hostOps0_1_writes (by decide) : W2 m ρ c (Proc.devRef .tc main_arg1) = W1 m ρ c (Proc.devRef .tc main_arg1)).trans <|
  (StableHlo.after_of_writes_sub hostOps0 _ hostOps0_writes (by decide) : W1 m ρ c (Proc.devRef .tc main_arg1) = W0 m ρ c (Proc.devRef .tc main_arg1)).trans <|
  rfl
theorem W19_main_arg2 (c : Dev nD) : W19 m ρ c (Proc.devRef .tc main_arg2) = m ((c : Thread nD τ).loc main_arg2) :=
  (StableHlo.after_of_writes_sub hostOps6 _ hostOps6_writes (by decide) : W19 m ρ c (Proc.devRef .tc main_arg2) = W18 m ρ c (Proc.devRef .tc main_arg2)).trans <|
  (W18_of_ne m ρ c main_arg2 (by decide)).trans <|
  (StableHlo.after_of_writes_sub hostOps5 _ hostOps5_writes (by decide) : W17 m ρ c (Proc.devRef .tc main_arg2) = W16 m ρ c (Proc.devRef .tc main_arg2)).trans <|
  (W16_of_ne m ρ c main_arg2 (by decide)).trans <|
  (W15_of_ne m ρ c main_arg2 (by decide)).trans <|
  (W14_of_ne m ρ c main_arg2 (by decide)).trans <|
  (StableHlo.after_of_writes_sub hostOps2 _ hostOps2_writes (by decide) : W13 m ρ c (Proc.devRef .tc main_arg2) = W12 m ρ c (Proc.devRef .tc main_arg2)).trans <|
  (W12_of_ne m ρ c main_arg2 (by decide)).trans <|
  ((W11_arr m ρ c 1).trans (((dat0 (V10 m ρ) c).arrAt_in 1 rfl _).trans (A_eq0 (V10 m ρ) c 1)) : W11 m ρ c (Proc.devRef .tc main_arg2) = W10 m ρ c (Proc.devRef .tc main_arg2)).trans <|
  (StableHlo.after_of_writes_sub hostOps0_9 _ hostOps0_9_writes (by decide) : W10 m ρ c (Proc.devRef .tc main_arg2) = W9 m ρ c (Proc.devRef .tc main_arg2)).trans <|
  (StableHlo.after_of_writes_sub hostOps0_8 _ hostOps0_8_writes (by decide) : W9 m ρ c (Proc.devRef .tc main_arg2) = W8 m ρ c (Proc.devRef .tc main_arg2)).trans <|
  (StableHlo.after_of_writes_sub hostOps0_7 _ hostOps0_7_writes (by decide) : W8 m ρ c (Proc.devRef .tc main_arg2) = W7 m ρ c (Proc.devRef .tc main_arg2)).trans <|
  (StableHlo.after_of_writes_sub hostOps0_6 _ hostOps0_6_writes (by decide) : W7 m ρ c (Proc.devRef .tc main_arg2) = W6 m ρ c (Proc.devRef .tc main_arg2)).trans <|
  (StableHlo.after_of_writes_sub hostOps0_5 _ hostOps0_5_writes (by decide) : W6 m ρ c (Proc.devRef .tc main_arg2) = W5 m ρ c (Proc.devRef .tc main_arg2)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <|
  rfl
theorem W19_main_arg3 (c : Dev nD) : W19 m ρ c (Proc.devRef .tc main_arg3) = m ((c : Thread nD τ).loc main_arg3) :=
  (StableHlo.after_of_writes_sub hostOps6 _ hostOps6_writes (by decide) : W19 m ρ c (Proc.devRef .tc main_arg3) = W18 m ρ c (Proc.devRef .tc main_arg3)).trans <|
  (W18_of_ne m ρ c main_arg3 (by decide)).trans <|
  (StableHlo.after_of_writes_sub hostOps5 _ hostOps5_writes (by decide) : W17 m ρ c (Proc.devRef .tc main_arg3) = W16 m ρ c (Proc.devRef .tc main_arg3)).trans <|
  (W16_of_ne m ρ c main_arg3 (by decide)).trans <|
  (W15_of_ne m ρ c main_arg3 (by decide)).trans <|
  (W14_of_ne m ρ c main_arg3 (by decide)).trans <|
  (StableHlo.after_of_writes_sub hostOps2 _ hostOps2_writes (by decide) : W13 m ρ c (Proc.devRef .tc main_arg3) = W12 m ρ c (Proc.devRef .tc main_arg3)).trans <|
  (W12_of_ne m ρ c main_arg3 (by decide)).trans <|
  (W11_of_ne m ρ c main_arg3 (by decide)).trans <|
  (StableHlo.after_of_writes_sub hostOps0_9 _ hostOps0_9_writes (by decide) : W10 m ρ c (Proc.devRef .tc main_arg3) = W9 m ρ c (Proc.devRef .tc main_arg3)).trans <|
  (StableHlo.after_of_writes_sub hostOps0_8 _ hostOps0_8_writes (by decide) : W9 m ρ c (Proc.devRef .tc main_arg3) = W8 m ρ c (Proc.devRef .tc main_arg3)).trans <|
  (StableHlo.after_of_writes_sub hostOps0_7 _ hostOps0_7_writes (by decide) : W8 m ρ c (Proc.devRef .tc main_arg3) = W7 m ρ c (Proc.devRef .tc main_arg3)).trans <|
  (StableHlo.after_of_writes_sub hostOps0_6 _ hostOps0_6_writes (by decide) : W7 m ρ c (Proc.devRef .tc main_arg3) = W6 m ρ c (Proc.devRef .tc main_arg3)).trans <|
  (StableHlo.after_of_writes_sub hostOps0_5 _ hostOps0_5_writes (by decide) : W6 m ρ c (Proc.devRef .tc main_arg3) = W5 m ρ c (Proc.devRef .tc main_arg3)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <|
  rfl
theorem W19_main_arg4 (c : Dev nD) : W19 m ρ c (Proc.devRef .tc main_arg4) = m ((c : Thread nD τ).loc main_arg4) :=
  (StableHlo.after_of_writes_sub hostOps6 _ hostOps6_writes (by decide) : W19 m ρ c (Proc.devRef .tc main_arg4) = W18 m ρ c (Proc.devRef .tc main_arg4)).trans <|
  (W18_of_ne m ρ c main_arg4 (by decide)).trans <|
  (StableHlo.after_of_writes_sub hostOps5 _ hostOps5_writes (by decide) : W17 m ρ c (Proc.devRef .tc main_arg4) = W16 m ρ c (Proc.devRef .tc main_arg4)).trans <|
  (W16_of_ne m ρ c main_arg4 (by decide)).trans <|
  ((W15_arr m ρ c 1).trans (((dat3 (V14 m ρ) c).arrAt_in 1 rfl _).trans (A_eq3 (V14 m ρ) c 1)) : W15 m ρ c (Proc.devRef .tc main_arg4) = W14 m ρ c (Proc.devRef .tc main_arg4)).trans <|
  (W14_of_ne m ρ c main_arg4 (by decide)).trans <|
  (StableHlo.after_of_writes_sub hostOps2 _ hostOps2_writes (by decide) : W13 m ρ c (Proc.devRef .tc main_arg4) = W12 m ρ c (Proc.devRef .tc main_arg4)).trans <|
  (W12_of_ne m ρ c main_arg4 (by decide)).trans <|
  (W11_of_ne m ρ c main_arg4 (by decide)).trans <|
  (StableHlo.after_of_writes_sub hostOps0_9 _ hostOps0_9_writes (by decide) : W10 m ρ c (Proc.devRef .tc main_arg4) = W9 m ρ c (Proc.devRef .tc main_arg4)).trans <|
  (StableHlo.after_of_writes_sub hostOps0_8 _ hostOps0_8_writes (by decide) : W9 m ρ c (Proc.devRef .tc main_arg4) = W8 m ρ c (Proc.devRef .tc main_arg4)).trans <|
  (StableHlo.after_of_writes_sub hostOps0_7 _ hostOps0_7_writes (by decide) : W8 m ρ c (Proc.devRef .tc main_arg4) = W7 m ρ c (Proc.devRef .tc main_arg4)).trans <|
  (StableHlo.after_of_writes_sub hostOps0_6 _ hostOps0_6_writes (by decide) : W7 m ρ c (Proc.devRef .tc main_arg4) = W6 m ρ c (Proc.devRef .tc main_arg4)).trans <|
  (StableHlo.after_of_writes_sub hostOps0_5 _ hostOps0_5_writes (by decide) : W6 m ρ c (Proc.devRef .tc main_arg4) = W5 m ρ c (Proc.devRef .tc main_arg4)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <|
  rfl
theorem W19_main_arg5 (c : Dev nD) : W19 m ρ c (Proc.devRef .tc main_arg5) = m ((c : Thread nD τ).loc main_arg5) :=
  (StableHlo.after_of_writes_sub hostOps6 _ hostOps6_writes (by decide) : W19 m ρ c (Proc.devRef .tc main_arg5) = W18 m ρ c (Proc.devRef .tc main_arg5)).trans <|
  (W18_of_ne m ρ c main_arg5 (by decide)).trans <|
  (StableHlo.after_of_writes_sub hostOps5 _ hostOps5_writes (by decide) : W17 m ρ c (Proc.devRef .tc main_arg5) = W16 m ρ c (Proc.devRef .tc main_arg5)).trans <|
  (W16_of_ne m ρ c main_arg5 (by decide)).trans <|
  (W15_of_ne m ρ c main_arg5 (by decide)).trans <|
  (W14_of_ne m ρ c main_arg5 (by decide)).trans <|
  (StableHlo.after_of_writes_sub hostOps2 _ hostOps2_writes (by decide) : W13 m ρ c (Proc.devRef .tc main_arg5) = W12 m ρ c (Proc.devRef .tc main_arg5)).trans <|
  (W12_of_ne m ρ c main_arg5 (by decide)).trans <|
  (W11_of_ne m ρ c main_arg5 (by decide)).trans <|
  (StableHlo.after_of_writes_sub hostOps0_9 _ hostOps0_9_writes (by decide) : W10 m ρ c (Proc.devRef .tc main_arg5) = W9 m ρ c (Proc.devRef .tc main_arg5)).trans <|
  (StableHlo.after_of_writes_sub hostOps0_8 _ hostOps0_8_writes (by decide) : W9 m ρ c (Proc.devRef .tc main_arg5) = W8 m ρ c (Proc.devRef .tc main_arg5)).trans <|
  (StableHlo.after_of_writes_sub hostOps0_7 _ hostOps0_7_writes (by decide) : W8 m ρ c (Proc.devRef .tc main_arg5) = W7 m ρ c (Proc.devRef .tc main_arg5)).trans <|
  (StableHlo.after_of_writes_sub hostOps0_6 _ hostOps0_6_writes (by decide) : W7 m ρ c (Proc.devRef .tc main_arg5) = W6 m ρ c (Proc.devRef .tc main_arg5)).trans <|
  (StableHlo.after_of_writes_sub hostOps0_5 _ hostOps0_5_writes (by decide) : W6 m ρ c (Proc.devRef .tc main_arg5) = W5 m ρ c (Proc.devRef .tc main_arg5)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <|
  rfl

/-- The frame: every weakly fair execution of @main terminates, nothing faulting, and every final memory holds each
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W19_main_arg0 m ρ c),
    (h c _ (mem_uc main_arg1 (by decide))).trans (W19_main_arg1 m ρ c),
    (h c _ (mem_uc main_arg2 (by decide))).trans (W19_main_arg2 m ρ c),
    (h c _ (mem_uc main_arg3 (by decide))).trans (W19_main_arg3 m ρ c),
    (h c _ (mem_uc main_arg4 (by decide))).trans (W19_main_arg4 m ρ c),
    (h c _ (mem_uc main_arg5 (by decide))).trans (W19_main_arg5 m ρ c)⟩) (run_all m ρ)

end Cert.Kernel.Hand

end
-- ==== Proof.KI.Sched.lean ====
/-
  Names for what the pipeline hands a kernel body at a grid point: each window's current staging buffer, and the body's
  call on them (the scratch operand whole, beside the windows).
-/
import proofs.«101950_j12489764897128_2_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev bodyAt0 (t : Fin cfg0.N) : Prog (TpuEff nD τ sig (Elt F) Λ₀ .tc) PUnit :=
  cc0__proj_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev bodyAt3 (t : Fin cfg3.N) : Prog (TpuEff nD τ sig (Elt F) Λ₀ .tc) PUnit :=
  cc3__proj_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)
abbrev bodyAt5 (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

end Cert.KernelIdeal.Hand

end
-- ==== Proof.KI.Proj0.lean ====
/-
  The dense projection y = x · W of layer 1 as one pipelined region: the frame half. At every grid point the body
  loads its row block of x and the whole of W and stores their product into the output block; the proof data below
  records, per window and point, what the staging buffers hold after the body.
-/
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The projection region 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's current staging buffer holds the whole weight matrix at every point: it is fetched once and its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0
abbrev r0_2 : Rect S2048x128 := Rect.unit (s := S2048x128) ![0, 0] S2048x128.size inb_S2048x128_S2048x128_0_0

/-! ## What the body leaves in the output window's buffer -/

/-- The output buffer after the body, from the two input blocks: its one store, of the product of what was loaded. -/
def out0_2 (x0 : Vec F S2048x128 .f32) (x1 : Vec F S128x128 .f32) : Vec F S2048x128 .f32 :=
  View.canon [⟨r0_2, k0_pay1 (View.ld x0 r0_0) (View.ld x1 r0_1)⟩]

/-- The one store is of the whole buffer, so it covers it. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-! ## The body's triple -/

set_option maxHeartbeats 1000000 in
/-- The kernel body on whole staging memrefs, the inputs' at contents `x0`, `x1` and the output's at anything, runs to
    the continuation holding the inputs' as they were and the output's at `out0_2 x0 x1`: two loads of the inputs, a
    load of the output that is not used, and the store. -/
theorem sound_kernel0 (c : Dev nD) (E : Set ℕ) (i : grid0.Coords) (arg0 : Memref sig .tc .vmem S2048x128 .f32) (harg0 : arg0.IsWhole) (arg1 : Memref sig .tc .vmem S128x128 .f32) (harg1 : arg1.IsWhole) (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them (`V`); after the body at point `t`
    each input's buffer at its block and the output's at the product of the two input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant is the same at every point, so the region is entered with it -/
theorem hin0 (c : Dev nD) : Pipeline.ΦA spec0 c ⊢ (dat0 V c).Φ 0 := by
  rw [show (dat0 V c).Φ 0 = Pipeline.ΦA spec0 c from rfl]

/-- and left with it. -/
theorem hout0 (c : Dev nD) : (dat0 V c).Φ (Fin.last cfg0.N) ⊢ Pipeline.ΦA spec0 c := by
  rw [show (dat0 V c).Φ (Fin.last cfg0.N) = Pipeline.ΦA spec0 c from rfl]

/-- Full shares and nothing owed, by definition. -/
theorem q_eq0 (c : Dev nD) (w : Fin cfg0.W) : (dat0 V c).q w = fullShare := rfl
theorem owed_eq0 (c : Dev nD) (t) : (dat0 V c).owed t = 0 := rfl

/-- An input window's array is untouched by the region. -/
theorem kept0_0 (c : Dev nD) : (dat0 V c).arrAt 0 cfg0.N = V c (Pipeline.arrRef spec0 0) :=
  ((dat0 V c).arrAt_in 0 rfl _).trans (A_eq0 V c 0)
theorem kept0_1 (c : Dev nD) : (dat0 V c).arrAt 1 cfg0.N = V c (Pipeline.arrRef spec0 1) :=
  ((dat0 V c).arrAt_in 1 rfl _).trans (A_eq0 V c 1)

end Cert.KernelIdeal.Hand

end
-- ==== Proof.KI.Gather1Runs.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gather body of region 1: its branch condition and its two whole-body runs

The body resets its accumulator where the node-block coordinate (the inner one) is zero, adds the block's
contribution to it, and copies it to the output block. -/

/-- The body's one branch: taken when the node-block coordinate is zero. -/
abbrev cond1 (i : grid1.Coords) : Prop := (Scalar.cmpi .ne (Scalar.extui (Scalar.cmpi .eq (BitVec.ofNat 32 (i 1).val) 0#32)) 0#32) = 1#1

/-- The condition as a function of the inner coordinate's value alone, decided over its 49 values. -/
theorem cond_val1 : ∀ n : Fin 49, ((Scalar.cmpi .ne (Scalar.extui (Scalar.cmpi .eq (BitVec.ofNat 32 n.val) 0#32)) 0#32) = 1#1) ↔ n.val = 0 := by
  decide +kernel

/-- The inner coordinate of point `t` is `t mod 49`: the inner axis has stride one. -/
theorem coord_inner1 (t : Fin cfg1.N) : ((grid1.coords t) 1).val = t.val % 49 := by
  show t.val / grid1.stride 1 % 49 = t.val % 49
  rw [show grid1.stride 1 = 1 from by decide, Nat.div_one]

/-- The branch is taken at the points that are multiples of 49. -/
theorem hcond1 (t : Fin cfg1.N) : cond1 (grid1.coords t) ↔ t.val % 49 = 0 :=
  (cond_val1 ((grid1.coords t) 1)).trans (by rw [coord_inner1 t])

/-- The scratch accumulator, whole. -/
abbrev scM1 : Memref sig .tc .vmem S2048x128 .f32 := Memref.whole cc1_scratch0

set_option maxHeartbeats 2000000 in
/-- The body where the branch is taken: the inputs' memrefs at their contents, the output's and the accumulator's at
    anything; it ends with the inputs as they were and the output and the accumulator each with the pieces its stores
    wrote (last first), which the run finds. -/
noncomputable def kernelRun1_A (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i)
    (x0 : Vec F S2048x128 .f32) (x1 : Vec F S1x2048 .i32) (x2 : Vec F S1x2048 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the accumulator at the contents `xs` the point before left. -/
noncomputable def kernelRun1_B (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i)
    (x0 : Vec F S2048x128 .f32) (x1 : Vec F S1x2048 .i32) (x2 : Vec F S1x2048 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Gather1.lean ====
import proofs.«101950_j12489764897128_2_alg».proof.Proof.KI.Gather1Runs

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the gather call): what its accumulator and output block hold point by point, its proof data, its body obligation -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point -/

abbrev ms1_0 (t : Fin cfg1.N) : Memref sig .tc .vmem S2048x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)

/-! ## The runs' pieces cover the output block and the accumulator -/

theorem cover1_A (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i) (x0 : Vec F S2048x128 .f32) (x1 : Vec F S1x2048 .i32) (x2 : Vec F S1x2048 .f32) (y : S2048x128.Idx) :
    ∃ pc ∈ (kernelRun1_A c i arg2 harg2 arg3 harg3 arg4 harg4 arg5 harg5 arg6 harg6 hc x0 x1 x2).1, y ∈ pc.1.set :=
  View.cover_of_tiledL (kernelRun1_A c i arg2 harg2 arg3 harg3 arg4 harg4 arg5 harg5 arg6 harg6 hc x0 x1 x2).1 S2048x128.size (by sl_kernel_rfl) y

theorem scover1_A (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i) (x0 : Vec F S2048x128 .f32) (x1 : Vec F S1x2048 .i32) (x2 : Vec F S1x2048 .f32) (y : S2048x128.Idx) :
    ∃ pc ∈ (kernelRun1_A c i arg2 harg2 arg3 harg3 arg4 harg4 arg5 harg5 arg6 harg6 hc x0 x1 x2).2.1, y ∈ pc.1.set :=
  View.cover_of_tiledL (kernelRun1_A c i arg2 harg2 arg3 harg3 arg4 harg4 arg5 harg5 arg6 harg6 hc x0 x1 x2).2.1 S2048x128.size (by sl_kernel_rfl) y

theorem cover1_B (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i) (x0 : Vec F S2048x128 .f32) (x1 : Vec F S1x2048 .i32) (x2 : Vec F S1x2048 .f32) (xs : Vec F S2048x128 .f32) (y : S2048x128.Idx) :
    ∃ pc ∈ (kernelRun1_B c i arg2 harg2 arg3 harg3 arg4 harg4 arg5 harg5 arg6 harg6 hc x0 x1 x2 xs).1, y ∈ pc.1.set :=
  View.cover_of_tiledL (kernelRun1_B c i arg2 harg2 arg3 harg3 arg4 harg4 arg5 harg5 arg6 harg6 hc x0 x1 x2 xs).1 S2048x128.size (by sl_kernel_rfl) y

theorem scover1_B (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i) (x0 : Vec F S2048x128 .f32) (x1 : Vec F S1x2048 .i32) (x2 : Vec F S1x2048 .f32) (xs : Vec F S2048x128 .f32) (y : S2048x128.Idx) :
    ∃ pc ∈ (kernelRun1_B c i arg2 harg2 arg3 harg3 arg4 harg4 arg5 harg5 arg6 harg6 hc x0 x1 x2 xs).2.1, y ∈ pc.1.set :=
  View.cover_of_tiledL (kernelRun1_B c i arg2 harg2 arg3 harg3 arg4 harg4 arg5 harg5 arg6 harg6 hc x0 x1 x2 xs).2.1 S2048x128.size (by sl_kernel_rfl) y

/-! ## What the output block and the accumulator hold after each point -/

/-- After a point where the accumulator is reset: (the output block, the accumulator), each the run's pieces read back. -/
def ptA1 (c : Dev nD) (t : Fin cfg1.N) (h : t.val % 49 = 0) : Vec F S2048x128 .f32 × Vec F S2048x128 .f32 :=
  (View.canon (kernelRun1_A c (grid1.coords t) (ms1_0 t) (hs1_0 t) (ms1_1 t) (hs1_1 t) (ms1_2 t) (hs1_2 t) (ms1_3 t) (hs1_3 t) scM1 (Memref.isWhole_whole _) ((hcond1 t).mpr h) (iblk1 V c 0 t) (iblk1 V c 1 t) (iblk1 V c 2 t)).1,
   View.canon (kernelRun1_A c (grid1.coords t) (ms1_0 t) (hs1_0 t) (ms1_1 t) (hs1_1 t) (ms1_2 t) (hs1_2 t) (ms1_3 t) (hs1_3 t) scM1 (Memref.isWhole_whole _) ((hcond1 t).mpr h) (iblk1 V c 0 t) (iblk1 V c 1 t) (iblk1 V c 2 t)).2.1)

/-- After a point where it is not, over the accumulator's contents `xs` before the point. -/
def ptB1 (c : Dev nD) (t : Fin cfg1.N) (h : ¬t.val % 49 = 0) (xs : Vec F S2048x128 .f32) : Vec F S2048x128 .f32 × Vec F S2048x128 .f32 :=
  (View.canon (kernelRun1_B c (grid1.coords t) (ms1_0 t) (hs1_0 t) (ms1_1 t) (hs1_1 t) (ms1_2 t) (hs1_2 t) (ms1_3 t) (hs1_3 t) scM1 (Memref.isWhole_whole _) (fun hc => h ((hcond1 t).mp hc)) (iblk1 V c 0 t) (iblk1 V c 1 t) (iblk1 V c 2 t) xs).1,
   View.canon (kernelRun1_B c (grid1.coords t) (ms1_0 t) (hs1_0 t) (ms1_1 t) (hs1_1 t) (ms1_2 t) (hs1_2 t) (ms1_3 t) (hs1_3 t) scM1 (Memref.isWhole_whole _) (fun hc => h ((hcond1 t).mp hc)) (iblk1 V c 0 t) (iblk1 V c 1 t) (iblk1 V c 2 t) xs).2.1)

/-- THE ACCUMULATION: (the output's staging buffer, the accumulator) after the body at position `n`, by recursion on the
    position — at a multiple of 49 the reset case, elsewhere the other case over what the position before left. -/
def outsAt1 (c : Dev nD) : (n : ℕ) → n < cfg1.N → Vec F S2048x128 .f32 × Vec F S2048x128 .f32
  | 0, hn => ptA1 V c ⟨0, hn⟩ (Nat.zero_mod _)
  | n + 1, hn =>
    if h0 : (n + 1) % 49 = 0 then ptA1 V c ⟨n + 1, hn⟩ h0
    else ptB1 V c ⟨n + 1, hn⟩ h0 (outsAt1 c n (Nat.lt_of_succ_lt hn)).2

theorem outsAt1_A (c : Dev nD) (t : Fin cfg1.N) (h0 : t.val % 49 = 0) :
    outsAt1 V c t.val t.isLt = ptA1 V c t h0 := by
  obtain ⟨n, hn⟩ := t
  cases n with
  | zero => exact rfl
  | succ n => exact dif_pos h0

theorem outsAt1_B (c : Dev nD) (t : Fin cfg1.N) (h0 : ¬t.val % 49 = 0) :
    outsAt1 V c t.val t.isLt = ptB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-! ## The region invariant -/

/-- Before position `n`: at the first the launch's (every scoped buffer that is no staging buffer at anything, the
    generator register at some state); afterwards the accumulator at what the position before left in it, the other
    scoped buffers at anything, the register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The launch's invariant with the accumulator split off as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The proof data -/

/-- The proof data of the region's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
/-- The body at any point: the inputs' memrefs hold their blocks; the position says which case the point is in; the
    invariant hands the body the accumulator (at anything at the first point, else at what the point before left) and
    takes it back at this point's contents, the other scoped buffers and the register riding along untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases h0 : t.val % 49 = 0
  · rw [outsAt1_A V c t h0]
    unfold ptA1; dsimp only
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_A c _ _ _ _ _ _ _ _ _ _ _ _ _ _ _)
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_A c _ _ _ _ _ _ _ _ _ _ _ _ _ _ _)
  · rw [outsAt1_B V c t h0]
    unfold ptB1; dsimp only
    have hz : t.val ≠ 0 := fun e => h0 (by rw [e])
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun hc => h0 ((hcond1 t).mp hc)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover1_B c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 40719 := N_1; omega)

/-- An input's array is untouched by the region. -/
theorem kept1 (c : Dev nD) (w : Fin cfg1.W) (hw : (cfg1.win w).isOut = false) :
    (dat1 V c).arrAt w cfg1.N = V c (Pipeline.arrRef spec1 w) :=
  ((dat1 V c).arrAt_in w hw _).trans (A_eq1 V c w)

end Cert.KernelIdeal.Hand

end
-- ==== Proof.KI.Scatter2Runs.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter body of region 2: its branch condition and its two runs -/

/-- The body's one branch: taken when the edge-block coordinate (the inner one) is zero. -/
abbrev cond2 (i : grid2.Coords) : Prop := (Scalar.cmpi .ne (Scalar.extui (Scalar.cmpi .eq (BitVec.ofNat 32 (i 1).val) 0#32)) 0#32) = 1#1

/-- On a coordinate below 831 the branch condition says the coordinate is zero (decided over the 831 values). -/
theorem cond2_fin : ∀ k : Fin 831, ((Scalar.cmpi .ne (Scalar.extui (Scalar.cmpi .eq (BitVec.ofNat 32 k.val) 0#32)) 0#32) = 1#1) ↔ k.val = 0 := by
  decide +kernel

/-- The inner coordinate of point `t` is `t mod 831` (the last axis runs fastest). -/
theorem coord2_inner (t : Fin cfg2.N) : ((grid2.coords t) 1).val = t.val % 831 := by
  show t.val / grid2.stride 1 % 831 = t.val % 831
  rw [show grid2.stride 1 = 1 from by decide, Nat.div_one]

/-- The outer coordinate of point `t` is `t / 831`. -/
theorem coord2_outer (t : Fin cfg2.N) : ((grid2.coords t) 0).val = t.val / 831 := by
  show t.val / grid2.stride 0 % 49 = t.val / 831
  rw [show grid2.stride 0 = 831 from by decide]
  have h : t.val < 40719 := lt_of_lt_of_eq t.isLt (show cfg2.N = 40719 from N_2)
  exact Nat.mod_eq_of_lt (by omega)

/-- The branch is taken exactly at the points whose inner coordinate is zero. -/
theorem hcond2 (t : Fin cfg2.N) : cond2 (grid2.coords t) ↔ t.val % 831 = 0 :=
  (cond2_fin ((grid2.coords t) 1)).trans (by rw [coord2_inner])

/-- The scratch operand: a whole scoped buffer of the kernel's own, passed beside the windows. -/
abbrev scM2 : Memref sig .tc .vmem S2048x128 .f32 := Memref.whole cc2_scratch0
/-- The scratch as a view: what it holds is stated through it. -/
abbrev VS2 : View sig .tc .vmem S2048x128 .f32 := (scM2).view
/-- One staging buffer of the output window, through which its contents are stated (the choice does not matter). -/
abbrev VO2_3 : View sig .tc .vmem S2048x128 .f32 := (Memref.whole cc2_stg3_0 : Memref sig .tc .vmem S2048x128 .f32).view

/-- The region's invariant with the scratch operand as a memref owned at some contents, beside the other scoped
    buffers (unopened) and the generator register. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

set_option maxHeartbeats 2000000 in
/-- The body where the branch is taken (inner coordinate zero): the scratch is found at anything, zeroed, then
    accumulated into; the output block is stored whole. The pieces each buffer ends with are the witness. -/
noncomputable def kernelRun2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i)
    (x0 : Vec F S2048x128 .f32) (x1 : Vec F S1x2048 .i32) (x2 : Vec F S1x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the scratch is found at what the point before left (`xs`) and
    accumulated into; the output block is stored whole. -/
noncomputable def kernelRun2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i)
    (x0 : Vec F S2048x128 .f32) (x1 : Vec F S1x2048 .i32) (x2 : Vec F S1x128 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Scatter2.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import proofs.«101950_j12489764897128_2_alg».proof.Proof.KI.Scatter2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the scatter kernel, a scratch accumulator carried along the inner grid axis): the frame half -/

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point -/

abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)

/-! ## What each case leaves in the output block and in the scratch -/

/-- With the branch taken, the pieces stored into the output block tile it. -/
theorem cover2_A_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) (y : S2048x128.Idx) :
    ∃ pc ∈ (kernelRun2_A c i arg2 harg2 arg3 harg3 arg4 harg4 arg5 harg5 arg6 harg6 hc x0 x1 x2).1, y ∈ pc.1.set :=
  View.cover_of_tiledL (kernelRun2_A c i arg2 harg2 arg3 harg3 arg4 harg4 arg5 harg5 arg6 harg6 hc x0 x1 x2).1 S2048x128.size (by sl_kernel_rfl) y

/-- What that case leaves in the output's staging buffer: its pieces read back. -/
def out2_A_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) : Vec F S2048x128 .f32 :=
  VO2_3.read (Elt F) (VO2_3.writes (Elt F) VO2_3.junk (kernelRun2_A c i arg2 harg2 arg3 harg3 arg4 harg4 arg5 harg5 arg6 harg6 hc x0 x1 x2).1)

/-- With the branch taken, the pieces stored into the scratch tile it. -/
theorem scover2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) (y : S2048x128.Idx) :
    ∃ pc ∈ (kernelRun2_A c i arg2 harg2 arg3 harg3 arg4 harg4 arg5 harg5 arg6 harg6 hc x0 x1 x2).2.1, y ∈ pc.1.set :=
  View.cover_of_tiledL (kernelRun2_A c i arg2 harg2 arg3 harg3 arg4 harg4 arg5 harg5 arg6 harg6 hc x0 x1 x2).2.1 S2048x128.size (by sl_kernel_rfl) y

/-- What that case leaves in the scratch: its pieces read back. -/
def sout2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) : Vec F S2048x128 .f32 :=
  VS2.read (Elt F) (VS2.writes (Elt F) VS2.junk (kernelRun2_A c i arg2 harg2 arg3 harg3 arg4 harg4 arg5 harg5 arg6 harg6 hc x0 x1 x2).2.1)

/-- With the branch not taken, the pieces stored into the output block tile it. -/
theorem cover2_B_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) (y : S2048x128.Idx) :
    ∃ pc ∈ (kernelRun2_B c i arg2 harg2 arg3 harg3 arg4 harg4 arg5 harg5 arg6 harg6 hc x0 x1 x2 xs).1, y ∈ pc.1.set :=
  View.cover_of_tiledL (kernelRun2_B c i arg2 harg2 arg3 harg3 arg4 harg4 arg5 harg5 arg6 harg6 hc x0 x1 x2 xs).1 S2048x128.size (by sl_kernel_rfl) y

/-- What that case leaves in the output's staging buffer: its pieces read back. -/
def out2_B_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) : Vec F S2048x128 .f32 :=
  VO2_3.read (Elt F) (VO2_3.writes (Elt F) VO2_3.junk (kernelRun2_B c i arg2 harg2 arg3 harg3 arg4 harg4 arg5 harg5 arg6 harg6 hc x0 x1 x2 xs).1)

/-- With the branch not taken, the pieces stored into the scratch tile it. -/
theorem scover2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) (y : S2048x128.Idx) :
    ∃ pc ∈ (kernelRun2_B c i arg2 harg2 arg3 harg3 arg4 harg4 arg5 harg5 arg6 harg6 hc x0 x1 x2 xs).2.1, y ∈ pc.1.set :=
  View.cover_of_tiledL (kernelRun2_B c i arg2 harg2 arg3 harg3 arg4 harg4 arg5 harg5 arg6 harg6 hc x0 x1 x2 xs).2.1 S2048x128.size (by sl_kernel_rfl) y

/-- What that case leaves in the scratch: its pieces read back. -/
def sout2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) : Vec F S2048x128 .f32 :=
  VS2.read (Elt F) (VS2.writes (Elt F) VS2.junk (kernelRun2_B c i arg2 harg2 arg3 harg3 arg4 harg4 arg5 harg5 arg6 harg6 hc x0 x1 x2 xs).2.1)

/-! ## What the output block and the scratch hold after each point -/

/-- One point: the case its inner coordinate selects, run at the point's memrefs and input blocks, over what the
    scratch held (`prev`, read only when the branch is not taken). The pair is (output block, scratch). -/
def step2 (c : Dev nD) (t : Fin cfg2.N) (prev : Vec F S2048x128 .f32) : Vec F S2048x128 .f32 × Vec F S2048x128 .f32 :=
  if h0 : t.val % 831 = 0 then
    (out2_A_3 c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t),
     sout2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t))
  else
    (out2_B_3 c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) prev,
     sout2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) prev)

/-- The accumulation: after the body at position `n`, the output block and the scratch, each point run over the
    scratch the point before left. -/
def outsAt2 (c : Dev nD) : (n : ℕ) → n < cfg2.N → Vec F S2048x128 .f32 × Vec F S2048x128 .f32
  | 0, hn => step2 V c ⟨0, hn⟩ (VS2.read (Elt F) VS2.junk)
  | n + 1, hn => step2 V c ⟨n + 1, hn⟩ (outsAt2 c n (Nat.lt_of_succ_lt hn)).2

/-- At a point whose inner coordinate is zero: the reset case's contents. -/
theorem outsAt2_A (c : Dev nD) (t : Fin cfg2.N) (h0 : t.val % 831 = 0) :
    outsAt2 V c t.val t.isLt = (out2_A_3 c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t),
      sout2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t)) := by
  obtain ⟨n, hn⟩ := t
  cases n with
  | zero => show step2 V c ⟨0, hn⟩ _ = _; unfold step2; exact dif_pos h0
  | succ n => show step2 V c ⟨n + 1, hn⟩ _ = _; unfold step2; exact dif_pos h0

/-- At any other point: the accumulating case's contents, over what the point before left in the scratch. -/
theorem outsAt2_B (c : Dev nD) (t : Fin cfg2.N) (h0 : ¬t.val % 831 = 0) :
    outsAt2 V c t.val t.isLt = (out2_B_3 c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) (outsAt2 V c (t.val - 1) (Nat.lt_of_le_of_lt (Nat.sub_le _ _) t.isLt)).2,
      sout2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => show step2 V c ⟨n + 1, hn⟩ _ = _; unfold step2; exact dif_neg h0

/-! ## The region invariant -/

/-- Before position `n`: before the first point what the launch hands the region; afterwards the scratch at what the
    point before left in it, the other scoped buffers unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 4800000 in
/-- The body at any point: the inputs' memrefs hold their blocks; the inner coordinate says which case the point is
    in; the invariant hands the body the scratch (at anything at the first point, at what the point before left
    afterwards) and takes it back at this point's contents; the other scoped buffers, the generator register and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3]
  by_cases h0 : t.val % 831 = 0
  · rw [outsAt2_A V c t h0]
    unfold out2_A_3 sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
  · rw [outsAt2_B V c t h0]
    unfold out2_B_3 sout2_B; (try dsimp only)
    have hz : t.val ≠ 0 := fun e => h0 (by rw [e])
    rw [PhiS2_castSucc V c t, PhiS2_pos V c _ _ hz]
    iintro ⟨⟨⟨HS, HR⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover2_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 40719 := N_2; omega)

/-- An input window's array is, after the region, as the region found it. -/
theorem kept2 (c : Dev nD) (w : Fin cfg2.W) (hw : (cfg2.win w).isOut = false) :
    (dat2 V c).arrAt w cfg2.N = V c (Pipeline.arrRef spec2 w) :=
  ((dat2 V c).arrAt_in w hw _).trans (A_eq2 V c w)

end Cert.KernelIdeal.Hand

end
-- ==== Proof.KI.Proj3.lean ====
/-
  The dense projection y = x · W of layer 2 as one pipelined region: the frame half. At every grid point the body
  loads its row block of x and the whole of W and stores their product into the output block; the proof data below
  records, per window and point, what the staging buffers hold after the body.
-/
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The projection region 3, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's current staging buffer holds the whole weight matrix at every point: it is fetched once and its
    block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2048x128 := Rect.unit (s := S2048x128) ![0, 0] S2048x128.size inb_S2048x128_S2048x128_0_0
abbrev r3_1 : Rect S128x64 := Rect.unit (s := S128x64) ![0, 0] S128x64.size inb_S128x64_S128x64_0_0
abbrev r3_2 : Rect S2048x64 := Rect.unit (s := S2048x64) ![0, 0] S2048x64.size inb_S2048x64_S2048x64_0_0

/-! ## What the body leaves in the output window's buffer -/

/-- The output buffer after the body, from the two input blocks: its one store, of the product of what was loaded. -/
def out3_2 (x0 : Vec F S2048x128 .f32) (x1 : Vec F S128x64 .f32) : Vec F S2048x64 .f32 :=
  View.canon [⟨r3_2, k3_pay1 (View.ld x0 r3_0) (View.ld x1 r3_1)⟩]

/-- The one store is of the whole buffer, so it covers it. -/
theorem cover3_2 (p0 : Vec F S2048x64 .f32) (y : S2048x64.Idx) :
    ∃ pc ∈ ([⟨r3_2, p0⟩] : List (View.Piece (Elt F) S2048x64 .f32)), y ∈ pc.1.set :=
  View.cover_of_tiled [⟨r3_2, p0⟩] S2048x64.size (by rfl) y

/-! ## The body's triple -/

set_option maxHeartbeats 1000000 in
/-- The kernel body on whole staging memrefs, the inputs' at contents `x0`, `x1` and the output's at anything, runs to
    the continuation holding the inputs' as they were and the output's at `out3_2 x0 x1`: two loads of the inputs, a
    load of the output that is not used, and the store. -/
theorem sound_kernel3 (c : Dev nD) (E : Set ℕ) (i : grid3.Coords) (arg0 : Memref sig .tc .vmem S2048x128 .f32) (harg0 : arg0.IsWhole) (arg1 : Memref sig .tc .vmem S128x64 .f32) (harg1 : arg1.IsWhole) (arg2 : Memref sig .tc .vmem S2048x64 .f32) (harg2 : arg2.IsWhole)
    (x0 : Vec F S2048x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__proj_kernel i arg0 harg0 arg1 harg1 arg2 harg2) K := by
  simp only [cc3__proj_kernel_eq_skeleton]; unfold cc3__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core `c`: the arrays as the region finds them (`V`); after the body at point `t`
    each input's buffer at its block and the output's at the product of the two input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The invariant is the same at every point, so the region is entered with it -/
theorem hin3 (c : Dev nD) : Pipeline.ΦA spec3 c ⊢ (dat3 V c).Φ 0 := by
  rw [show (dat3 V c).Φ 0 = Pipeline.ΦA spec3 c from rfl]

/-- and left with it. -/
theorem hout3 (c : Dev nD) : (dat3 V c).Φ (Fin.last cfg3.N) ⊢ Pipeline.ΦA spec3 c := by
  rw [show (dat3 V c).Φ (Fin.last cfg3.N) = Pipeline.ΦA spec3 c from rfl]

/-- Full shares and nothing owed, by definition. -/
theorem q_eq3 (c : Dev nD) (w : Fin cfg3.W) : (dat3 V c).q w = fullShare := rfl
theorem owed_eq3 (c : Dev nD) (t) : (dat3 V c).owed t = 0 := rfl

/-- An input window's array is untouched by the region. -/
theorem kept3_0 (c : Dev nD) : (dat3 V c).arrAt 0 cfg3.N = V c (Pipeline.arrRef spec3 0) :=
  ((dat3 V c).arrAt_in 0 rfl _).trans (A_eq3 V c 0)
theorem kept3_1 (c : Dev nD) : (dat3 V c).arrAt 1 cfg3.N = V c (Pipeline.arrRef spec3 1) :=
  ((dat3 V c).arrAt_in 1 rfl _).trans (A_eq3 V c 1)

end Cert.KernelIdeal.Hand

end
-- ==== Proof.KI.Gather4Runs.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gather body of region 4: its branch condition and its two whole-body runs

The body resets its accumulator where the node-block coordinate (the inner one) is zero, adds the block's
contribution to it, and copies it to the output block. -/

/-- The body's one branch: taken when the node-block coordinate is zero. -/
abbrev cond4 (i : grid4.Coords) : Prop := (Scalar.cmpi .ne (Scalar.extui (Scalar.cmpi .eq (BitVec.ofNat 32 (i 1).val) 0#32)) 0#32) = 1#1

/-- The condition as a function of the inner coordinate's value alone, decided over its 49 values. -/
theorem cond_val4 : ∀ n : Fin 49, ((Scalar.cmpi .ne (Scalar.extui (Scalar.cmpi .eq (BitVec.ofNat 32 n.val) 0#32)) 0#32) = 1#1) ↔ n.val = 0 := by
  decide +kernel

/-- The inner coordinate of point `t` is `t mod 49`: the inner axis has stride one. -/
theorem coord_inner4 (t : Fin cfg4.N) : ((grid4.coords t) 1).val = t.val % 49 := by
  show t.val / grid4.stride 1 % 49 = t.val % 49
  rw [show grid4.stride 1 = 1 from by decide, Nat.div_one]

/-- The branch is taken at the points that are multiples of 49. -/
theorem hcond4 (t : Fin cfg4.N) : cond4 (grid4.coords t) ↔ t.val % 49 = 0 :=
  (cond_val4 ((grid4.coords t) 1)).trans (by rw [coord_inner4 t])

/-- The scratch accumulator, whole. -/
abbrev scM4 : Memref sig .tc .vmem S2048x64 .f32 := Memref.whole cc4_scratch0

set_option maxHeartbeats 2000000 in
/-- The body where the branch is taken: the inputs' memrefs at their contents, the output's and the accumulator's at
    anything; it ends with the inputs as they were and the output and the accumulator each with the pieces its stores
    wrote (last first), which the run finds. -/
noncomputable def kernelRun4_A (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i)
    (x0 : Vec F S2048x64 .f32) (x1 : Vec F S1x2048 .i32) (x2 : Vec F S1x2048 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the accumulator at the contents `xs` the point before left. -/
noncomputable def kernelRun4_B (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i)
    (x0 : Vec F S2048x64 .f32) (x1 : Vec F S1x2048 .i32) (x2 : Vec F S1x2048 .f32) (xs : Vec F S2048x64 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Gather4.lean ====
import proofs.«101950_j12489764897128_2_alg».proof.Proof.KI.Gather4Runs

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (the gather call): what its accumulator and output block hold point by point, its proof data, its body obligation -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for any proof data
    whose array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The staging memrefs at a point -/

abbrev ms4_0 (t : Fin cfg4.N) : Memref sig .tc .vmem S2048x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x2048 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)

/-! ## The runs' pieces cover the output block and the accumulator -/

theorem cover4_A (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i) (x0 : Vec F S2048x64 .f32) (x1 : Vec F S1x2048 .i32) (x2 : Vec F S1x2048 .f32) (y : S2048x64.Idx) :
    ∃ pc ∈ (kernelRun4_A c i arg2 harg2 arg3 harg3 arg4 harg4 arg5 harg5 arg6 harg6 hc x0 x1 x2).1, y ∈ pc.1.set :=
  View.cover_of_tiledL (kernelRun4_A c i arg2 harg2 arg3 harg3 arg4 harg4 arg5 harg5 arg6 harg6 hc x0 x1 x2).1 S2048x64.size (by sl_kernel_rfl) y

theorem scover4_A (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i) (x0 : Vec F S2048x64 .f32) (x1 : Vec F S1x2048 .i32) (x2 : Vec F S1x2048 .f32) (y : S2048x64.Idx) :
    ∃ pc ∈ (kernelRun4_A c i arg2 harg2 arg3 harg3 arg4 harg4 arg5 harg5 arg6 harg6 hc x0 x1 x2).2.1, y ∈ pc.1.set :=
  View.cover_of_tiledL (kernelRun4_A c i arg2 harg2 arg3 harg3 arg4 harg4 arg5 harg5 arg6 harg6 hc x0 x1 x2).2.1 S2048x64.size (by sl_kernel_rfl) y

theorem cover4_B (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i) (x0 : Vec F S2048x64 .f32) (x1 : Vec F S1x2048 .i32) (x2 : Vec F S1x2048 .f32) (xs : Vec F S2048x64 .f32) (y : S2048x64.Idx) :
    ∃ pc ∈ (kernelRun4_B c i arg2 harg2 arg3 harg3 arg4 harg4 arg5 harg5 arg6 harg6 hc x0 x1 x2 xs).1, y ∈ pc.1.set :=
  View.cover_of_tiledL (kernelRun4_B c i arg2 harg2 arg3 harg3 arg4 harg4 arg5 harg5 arg6 harg6 hc x0 x1 x2 xs).1 S2048x64.size (by sl_kernel_rfl) y

theorem scover4_B (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i) (x0 : Vec F S2048x64 .f32) (x1 : Vec F S1x2048 .i32) (x2 : Vec F S1x2048 .f32) (xs : Vec F S2048x64 .f32) (y : S2048x64.Idx) :
    ∃ pc ∈ (kernelRun4_B c i arg2 harg2 arg3 harg3 arg4 harg4 arg5 harg5 arg6 harg6 hc x0 x1 x2 xs).2.1, y ∈ pc.1.set :=
  View.cover_of_tiledL (kernelRun4_B c i arg2 harg2 arg3 harg3 arg4 harg4 arg5 harg5 arg6 harg6 hc x0 x1 x2 xs).2.1 S2048x64.size (by sl_kernel_rfl) y

/-! ## What the output block and the accumulator hold after each point -/

/-- After a point where the accumulator is reset: (the output block, the accumulator), each the run's pieces read back. -/
def ptA4 (c : Dev nD) (t : Fin cfg4.N) (h : t.val % 49 = 0) : Vec F S2048x64 .f32 × Vec F S2048x64 .f32 :=
  (View.canon (kernelRun4_A c (grid4.coords t) (ms4_0 t) (hs4_0 t) (ms4_1 t) (hs4_1 t) (ms4_2 t) (hs4_2 t) (ms4_3 t) (hs4_3 t) scM4 (Memref.isWhole_whole _) ((hcond4 t).mpr h) (iblk4 V c 0 t) (iblk4 V c 1 t) (iblk4 V c 2 t)).1,
   View.canon (kernelRun4_A c (grid4.coords t) (ms4_0 t) (hs4_0 t) (ms4_1 t) (hs4_1 t) (ms4_2 t) (hs4_2 t) (ms4_3 t) (hs4_3 t) scM4 (Memref.isWhole_whole _) ((hcond4 t).mpr h) (iblk4 V c 0 t) (iblk4 V c 1 t) (iblk4 V c 2 t)).2.1)

/-- After a point where it is not, over the accumulator's contents `xs` before the point. -/
def ptB4 (c : Dev nD) (t : Fin cfg4.N) (h : ¬t.val % 49 = 0) (xs : Vec F S2048x64 .f32) : Vec F S2048x64 .f32 × Vec F S2048x64 .f32 :=
  (View.canon (kernelRun4_B c (grid4.coords t) (ms4_0 t) (hs4_0 t) (ms4_1 t) (hs4_1 t) (ms4_2 t) (hs4_2 t) (ms4_3 t) (hs4_3 t) scM4 (Memref.isWhole_whole _) (fun hc => h ((hcond4 t).mp hc)) (iblk4 V c 0 t) (iblk4 V c 1 t) (iblk4 V c 2 t) xs).1,
   View.canon (kernelRun4_B c (grid4.coords t) (ms4_0 t) (hs4_0 t) (ms4_1 t) (hs4_1 t) (ms4_2 t) (hs4_2 t) (ms4_3 t) (hs4_3 t) scM4 (Memref.isWhole_whole _) (fun hc => h ((hcond4 t).mp hc)) (iblk4 V c 0 t) (iblk4 V c 1 t) (iblk4 V c 2 t) xs).2.1)

/-- THE ACCUMULATION: (the output's staging buffer, the accumulator) after the body at position `n`, by recursion on the
    position — at a multiple of 49 the reset case, elsewhere the other case over what the position before left. -/
def outsAt4 (c : Dev nD) : (n : ℕ) → n < cfg4.N → Vec F S2048x64 .f32 × Vec F S2048x64 .f32
  | 0, hn => ptA4 V c ⟨0, hn⟩ (Nat.zero_mod _)
  | n + 1, hn =>
    if h0 : (n + 1) % 49 = 0 then ptA4 V c ⟨n + 1, hn⟩ h0
    else ptB4 V c ⟨n + 1, hn⟩ h0 (outsAt4 c n (Nat.lt_of_succ_lt hn)).2

theorem outsAt4_A (c : Dev nD) (t : Fin cfg4.N) (h0 : t.val % 49 = 0) :
    outsAt4 V c t.val t.isLt = ptA4 V c t h0 := by
  obtain ⟨n, hn⟩ := t
  cases n with
  | zero => exact rfl
  | succ n => exact dif_pos h0

theorem outsAt4_B (c : Dev nD) (t : Fin cfg4.N) (h0 : ¬t.val % 49 = 0) :
    outsAt4 V c t.val t.isLt = ptB4 V c t h0 (outsAt4 V c (t.val - 1) (Nat.lt_of_le_of_lt (Nat.sub_le _ _) t.isLt)).2 := by
  obtain ⟨n, hn⟩ := t
  cases n with
  | zero => exact absurd (Nat.zero_mod _) h0
  | succ n => exact dif_neg h0

/-! ## The region invariant -/

/-- Before position `n`: at the first the launch's (every scoped buffer that is no staging buffer at anything, the
    generator register at some state); afterwards the accumulator at what the position before left in it, the other
    scoped buffers at anything, the register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The launch's invariant with the accumulator split off as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The proof data -/

/-- The proof data of the region's pipeline on core `c`: the arrays as the region finds them; after the body at point
    `t` each input's buffer at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

set_option maxHeartbeats 4800000 in
/-- The body at any point: the inputs' memrefs hold their blocks; the position says which case the point is in; the
    invariant hands the body the accumulator (at anything at the first point, else at what the point before left) and
    takes it back at this point's contents, the other scoped buffers and the register riding along untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3]
  by_cases h0 : t.val % 49 = 0
  · rw [outsAt4_A V c t h0]
    unfold ptA4; dsimp only
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4 t).mpr h0) (iblk4 V c 0 t) (iblk4 V c 1 t) (iblk4 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover4_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_A c _ _ _ _ _ _ _ _ _ _ _ _ _ _ _)
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4 t).mpr h0) (iblk4 V c 0 t) (iblk4 V c 1 t) (iblk4 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover4_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_A c _ _ _ _ _ _ _ _ _ _ _ _ _ _ _)
  · rw [outsAt4_B V c t h0]
    unfold ptB4; dsimp only
    have hz : t.val ≠ 0 := fun e => h0 (by rw [e])
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply ((kernelRun4_B c (grid4.coords t) _ _ _ _ _ _ _ _ _ _ (fun hc => h0 ((hcond4 t).mp hc)) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_eq_canon _ _ _ (scover4_B c _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_B c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 40719 := N_4; omega)

/-- An input's array is untouched by the region. -/
theorem kept4 (c : Dev nD) (w : Fin cfg4.W) (hw : (cfg4.win w).isOut = false) :
    (dat4 V c).arrAt w cfg4.N = V c (Pipeline.arrRef spec4 w) :=
  ((dat4 V c).arrAt_in w hw _).trans (A_eq4 V c w)

end Cert.KernelIdeal.Hand

end
-- ==== Proof.KI.Scatter5Runs.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter body of region 5: its branch condition and its two runs -/

/-- The body's one branch: taken when the edge-block coordinate (the inner one) is zero. -/
abbrev cond5 (i : grid5.Coords) : Prop := (Scalar.cmpi .ne (Scalar.extui (Scalar.cmpi .eq (BitVec.ofNat 32 (i 1).val) 0#32)) 0#32) = 1#1

/-- On a coordinate below 831 the branch condition says the coordinate is zero (decided over the 831 values). -/
theorem cond5_fin : ∀ k : Fin 831, ((Scalar.cmpi .ne (Scalar.extui (Scalar.cmpi .eq (BitVec.ofNat 32 k.val) 0#32)) 0#32) = 1#1) ↔ k.val = 0 := by
  decide +kernel

/-- The inner coordinate of point `t` is `t mod 831` (the last axis runs fastest). -/
theorem coord5_inner (t : Fin cfg5.N) : ((grid5.coords t) 1).val = t.val % 831 := by
  show t.val / grid5.stride 1 % 831 = t.val % 831
  rw [show grid5.stride 1 = 1 from by decide, Nat.div_one]

/-- The outer coordinate of point `t` is `t / 831`. -/
theorem coord5_outer (t : Fin cfg5.N) : ((grid5.coords t) 0).val = t.val / 831 := by
  show t.val / grid5.stride 0 % 49 = t.val / 831
  rw [show grid5.stride 0 = 831 from by decide]
  have h : t.val < 40719 := lt_of_lt_of_eq t.isLt (show cfg5.N = 40719 from N_5)
  exact Nat.mod_eq_of_lt (by omega)

/-- The branch is taken exactly at the points whose inner coordinate is zero. -/
theorem hcond5 (t : Fin cfg5.N) : cond5 (grid5.coords t) ↔ t.val % 831 = 0 :=
  (cond5_fin ((grid5.coords t) 1)).trans (by rw [coord5_inner])

/-- The scratch operand: a whole scoped buffer of the kernel's own, passed beside the windows. -/
abbrev scM5 : Memref sig .tc .vmem S2048x64 .f32 := Memref.whole cc5_scratch0
/-- The scratch as a view: what it holds is stated through it. -/
abbrev VS5 : View sig .tc .vmem S2048x64 .f32 := (scM5).view
/-- One staging buffer of the output window, through which its contents are stated (the choice does not matter). -/
abbrev VO5_3 : View sig .tc .vmem S2048x64 .f32 := (Memref.whole cc5_stg3_0 : Memref sig .tc .vmem S2048x64 .f32).view

/-- The region's invariant with the scratch operand as a memref owned at some contents, beside the other scoped
    buffers (unopened) and the generator register. -/
theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

set_option maxHeartbeats 2000000 in
/-- The body where the branch is taken (inner coordinate zero): the scratch is found at anything, zeroed, then
    accumulated into; the output block is stored whole. The pieces each buffer ends with are the witness. -/
noncomputable def kernelRun5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i)
    (x0 : Vec F S2048x64 .f32) (x1 : Vec F S1x2048 .i32) (x2 : Vec F S1x64 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 2000000 in
/-- The body where the branch is not taken: the scratch is found at what the point before left (`xs`) and
    accumulated into; the output block is stored whole. -/
noncomputable def kernelRun5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i)
    (x0 : Vec F S2048x64 .f32) (x1 : Vec F S1x2048 .i32) (x2 : Vec F S1x64 .f32) (xs : Vec F S2048x64 .f32) :
    Σ' (L3 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Scatter5.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import proofs.«101950_j12489764897128_2_alg».proof.Proof.KI.Scatter5Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (the scatter kernel, a scratch accumulator carried along the inner grid axis): the frame half -/

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The staging memrefs at a point -/

abbrev ms5_0 (t : Fin cfg5.N) : Memref sig .tc .vmem S2048x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x2048 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x64 .f32 := win5_3.stage (cfg5.slots t 3)
abbrev hs5_3 (t : Fin cfg5.N) : (ms5_3 t).IsWhole := hstage5_3 ((cfg5.slots t 3).cast nbuf5_3)

/-! ## What each case leaves in the output block and in the scratch -/

/-- With the branch taken, the pieces stored into the output block tile it. -/
theorem cover5_A_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) (y : S2048x64.Idx) :
    ∃ pc ∈ (kernelRun5_A c i arg2 harg2 arg3 harg3 arg4 harg4 arg5 harg5 arg6 harg6 hc x0 x1 x2).1, y ∈ pc.1.set :=
  View.cover_of_tiledL (kernelRun5_A c i arg2 harg2 arg3 harg3 arg4 harg4 arg5 harg5 arg6 harg6 hc x0 x1 x2).1 S2048x64.size (by sl_kernel_rfl) y

/-- What that case leaves in the output's staging buffer: its pieces read back. -/
def out5_A_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) : Vec F S2048x64 .f32 :=
  VO5_3.read (Elt F) (VO5_3.writes (Elt F) VO5_3.junk (kernelRun5_A c i arg2 harg2 arg3 harg3 arg4 harg4 arg5 harg5 arg6 harg6 hc x0 x1 x2).1)

/-- With the branch taken, the pieces stored into the scratch tile it. -/
theorem scover5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) (y : S2048x64.Idx) :
    ∃ pc ∈ (kernelRun5_A c i arg2 harg2 arg3 harg3 arg4 harg4 arg5 harg5 arg6 harg6 hc x0 x1 x2).2.1, y ∈ pc.1.set :=
  View.cover_of_tiledL (kernelRun5_A c i arg2 harg2 arg3 harg3 arg4 harg4 arg5 harg5 arg6 harg6 hc x0 x1 x2).2.1 S2048x64.size (by sl_kernel_rfl) y

/-- What that case leaves in the scratch: its pieces read back. -/
def sout5_A (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) : Vec F S2048x64 .f32 :=
  VS5.read (Elt F) (VS5.writes (Elt F) VS5.junk (kernelRun5_A c i arg2 harg2 arg3 harg3 arg4 harg4 arg5 harg5 arg6 harg6 hc x0 x1 x2).2.1)

/-- With the branch not taken, the pieces stored into the output block tile it. -/
theorem cover5_B_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) (y : S2048x64.Idx) :
    ∃ pc ∈ (kernelRun5_B c i arg2 harg2 arg3 harg3 arg4 harg4 arg5 harg5 arg6 harg6 hc x0 x1 x2 xs).1, y ∈ pc.1.set :=
  View.cover_of_tiledL (kernelRun5_B c i arg2 harg2 arg3 harg3 arg4 harg4 arg5 harg5 arg6 harg6 hc x0 x1 x2 xs).1 S2048x64.size (by sl_kernel_rfl) y

/-- What that case leaves in the output's staging buffer: its pieces read back. -/
def out5_B_3 (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) : Vec F S2048x64 .f32 :=
  VO5_3.read (Elt F) (VO5_3.writes (Elt F) VO5_3.junk (kernelRun5_B c i arg2 harg2 arg3 harg3 arg4 harg4 arg5 harg5 arg6 harg6 hc x0 x1 x2 xs).1)

/-- With the branch not taken, the pieces stored into the scratch tile it. -/
theorem scover5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) (y : S2048x64.Idx) :
    ∃ pc ∈ (kernelRun5_B c i arg2 harg2 arg3 harg3 arg4 harg4 arg5 harg5 arg6 harg6 hc x0 x1 x2 xs).2.1, y ∈ pc.1.set :=
  View.cover_of_tiledL (kernelRun5_B c i arg2 harg2 arg3 harg3 arg4 harg4 arg5 harg5 arg6 harg6 hc x0 x1 x2 xs).2.1 S2048x64.size (by sl_kernel_rfl) y

/-- What that case leaves in the scratch: its pieces read back. -/
def sout5_B (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) : Vec F S2048x64 .f32 :=
  VS5.read (Elt F) (VS5.writes (Elt F) VS5.junk (kernelRun5_B c i arg2 harg2 arg3 harg3 arg4 harg4 arg5 harg5 arg6 harg6 hc x0 x1 x2 xs).2.1)

/-! ## What the output block and the scratch hold after each point -/

/-- One point: the case its inner coordinate selects, run at the point's memrefs and input blocks, over what the
    scratch held (`prev`, read only when the branch is not taken). The pair is (output block, scratch). -/
def step5 (c : Dev nD) (t : Fin cfg5.N) (prev : Vec F S2048x64 .f32) : Vec F S2048x64 .f32 × Vec F S2048x64 .f32 :=
  if h0 : t.val % 831 = 0 then
    (out5_A_3 c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t),
     sout5_A c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t))
  else
    (out5_B_3 c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) prev,
     sout5_B c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) prev)

/-- The accumulation: after the body at position `n`, the output block and the scratch, each point run over the
    scratch the point before left. -/
def outsAt5 (c : Dev nD) : (n : ℕ) → n < cfg5.N → Vec F S2048x64 .f32 × Vec F S2048x64 .f32
  | 0, hn => step5 V c ⟨0, hn⟩ (VS5.read (Elt F) VS5.junk)
  | n + 1, hn => step5 V c ⟨n + 1, hn⟩ (outsAt5 c n (Nat.lt_of_succ_lt hn)).2

/-- At a point whose inner coordinate is zero: the reset case's contents. -/
theorem outsAt5_A (c : Dev nD) (t : Fin cfg5.N) (h0 : t.val % 831 = 0) :
    outsAt5 V c t.val t.isLt = (out5_A_3 c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t),
      sout5_A c (grid5.coords t) (ms5_0 t) (hs5_0 t) (ms5_1 t) (hs5_1 t) (ms5_2 t) (hs5_2 t) (ms5_3 t) (hs5_3 t) scM5 (Memref.isWhole_whole _) ((hcond5 t).mpr h0) (iblk5 V c 0 t) (iblk5 V c 1 t) (iblk5 V c 2 t)) := by
  obtain ⟨n, hn⟩ := t
  cases n with
  | zero => show step5 V c ⟨0, hn⟩ _ = _; unfold step5; exact dif_pos h0
  | succ n => show step5 V c ⟨n + 1, hn⟩ _ = _; unfold step5; exact dif_pos h0

/-- At any other point: the accumulating case's contents, over what the point before left in the scratch. -/
theorem outsAt5_B (c : Dev nD) (t : Fin cfg5.N) (h0 : ¬t.val % 831 = 0) :
    outsAt5 V c t.val t.isLt = (out5_B_3 c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) (outsAt5 V c (t.val - 1) (Nat.lt_of_le_of_lt (Nat.sub_le _ _) t.isLt)).2,
      sout5_B c (grid5.coords t) (ms5_0 t) (hs5_0 t) (ms5_1 t) (hs5_1 t) (ms5_2 t) (hs5_2 t) (ms5_3 t) (hs5_3 t) scM5 (Memref.isWhole_whole _) (fun h => h0 ((hcond5 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact absurd (Nat.zero_mod _) h0
  | succ n => show step5 V c ⟨n + 1, hn⟩ _ = _; unfold step5; exact dif_neg h0

/-! ## The region invariant -/

/-- Before position `n`: before the first point what the launch hands the region; afterwards the scratch at what the
    point before left in it, the other scoped buffers unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of pipeline 5 on core `c`: the arrays as the region finds them; after the body at point `t` each
    input's buffer at its block and the output's at `outsAt5`'s first component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t))

set_option maxHeartbeats 4800000 in
/-- The body at any point: the inputs' memrefs hold their blocks; the inner coordinate says which case the point is
    in; the invariant hands the body the scratch (at anything at the first point, at what the point before left
    afterwards) and takes it back at this point's contents; the other scoped buffers, the generator register and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [after5_0, after5_1, after5_2, after5_3]
  by_cases h0 : t.val % 831 = 0
  · rw [outsAt5_A V c t h0]
    unfold out5_A_3 sout5_A; (try dsimp only)
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5 t).mpr h0) (iblk5 V c 0 t) (iblk5 V c 1 t) (iblk5 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_A_3 c _ _ _ _ _ _ _ _ _ _ _ _ _ _ _)
    · rw [PhiS5_castSucc V c t, PhiS5_pos V c _ _ hz]
      iintro ⟨⟨⟨HS, HR⟩, Hg⟩, Ho, ⟨%d0, H0⟩, ⟨%d1, H1⟩, ⟨%d2, H2⟩, ⟨%d3, H3⟩⟩
      iapply ((kernelRun5_A c (grid5.coords t) _ _ _ _ _ _ _ _ _ _ ((hcond5 t).mpr h0) (iblk5 V c 0 t) (iblk5 V c 1 t) (iblk5 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover5_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_A_3 c _ _ _ _ _ _ _ _ _ _ _ _ _ _ _)
  · rw [outsAt5_B V c t h0]
    unfold out5_B_3 sout5_B; (try dsimp only)
    have hz : t.val ≠ 0 := fun e => h0 (by rw [e])
    rw [PhiS5_castSucc V c t, PhiS5_pos V c _ _ hz]
    iintro ⟨⟨⟨HS, HR⟩, Hg⟩, Ho, ⟨%d0, H0⟩, ⟨%d1, H1⟩, ⟨%d2, H2⟩, ⟨%d3, H3⟩⟩
    iapply ((kernelRun5_B c (grid5.coords t) _ _ _ _ _ _ _ _ _ _ (fun h => h0 ((hcond5 t).mp h)) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover5_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the launch's back: the scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 40719 := N_5; omega)

/-- An input window's array is, after the region, as the region found it. -/
theorem kept5 (c : Dev nD) (w : Fin cfg5.W) (hw : (cfg5.win w).isOut = false) :
    (dat5 V c).arrAt w cfg5.N = V c (Pipeline.arrRef spec5 w) :=
  ((dat5 V c).arrAt_in w hw _).trans (A_eq5 V c w)

end Cert.KernelIdeal.Hand

end
-- ==== Proof.KI.Run.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import proofs.«101950_j12489764897128_2_alg».proof.Proof.Gen.KernelIdeal.Regions
import proofs.«101950_j12489764897128_2_alg».proof.Proof.KI.Proj0
import proofs.«101950_j12489764897128_2_alg».proof.Proof.KI.Gather1
import proofs.«101950_j12489764897128_2_alg».proof.Proof.KI.Scatter2
import proofs.«101950_j12489764897128_2_alg».proof.Proof.KI.Proj3
import proofs.«101950_j12489764897128_2_alg».proof.Proof.KI.Gather4
import proofs.«101950_j12489764897128_2_alg».proof.Proof.KI.Scatter5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: ten host stretches, regions 0 and 1, a host stretch, regions 2, 3 and 4, a host stretch, region 5,
    a host stretch

## The buffer contents at each boundary: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)
/-- After the host stretch `hostOps0_8`. -/
abbrev W9 : Dev nD → Valuation τ sig (Elt F) := fun c => StableHlo.after hostOps0_8 (W8 m ρ c)
/-- After the host stretch `hostOps0_9`. -/
abbrev W10 : Dev nD → Valuation τ sig (Elt F) := fun c => StableHlo.after hostOps0_9 (W9 m ρ c)
/-- Region 0's entry contents read at the TensorCore's references. -/
abbrev V10 : (c : Dev nD) → (b : Ref sig .tc) → Buf (Elt F) ((c : Thread nD τ).loc b) := fun c b => W10 m ρ c b
/-- At region 0's exit: its arrays at what its write-backs leave, every other buffer as entered. -/
def W11 (c : Dev nD) : Valuation τ sig (Elt F) :=
  Pipeline.withArrays spec0 c (W10 m ρ c) fun w => (dat0 (V10 m ρ) c).arrAt w cfg0.N
theorem W11_arr (c : Dev nD) (w : Fin cfg0.W) :
    W11 m ρ c (Proc.devRef .tc (Pipeline.arrRef spec0 w)) = (dat0 (V10 m ρ) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m ρ c (Proc.devRef .tc b) = W10 m ρ c (Proc.devRef .tc b) := by
  unfold W11; exact Pipeline.withArrays_of_ne spec0 c _ _ b hb
abbrev X11 : (c : Dev nD) → (b : Ref sig .tc) → Buf (Elt F) ((c : Thread nD τ).loc b) := fun c b => W11 m ρ c b
theorem hF0 (c : Dev nD) (w : Fin cfg0.W) : (dat0 (V10 m ρ) c).arrAt w cfg0.N = X11 m ρ c (Pipeline.arrRef spec0 w) :=
  (W11_arr m ρ c w).symm
theorem hrest0 (c : Dev nD) : ∀ b, b ∉ Finset.univ.image (Pipeline.arrRef spec0) → X11 m ρ c b = V10 m ρ c b :=
  fun b hb => W11_of_ne m ρ c b fun w e => hb (Finset.mem_image.mpr ⟨w, Finset.mem_univ _, e⟩)
/-- Region 1's entry contents read at the TensorCore's references. -/
abbrev V11 : (c : Dev nD) → (b : Ref sig .tc) → Buf (Elt F) ((c : Thread nD τ).loc b) := fun c b => W11 m ρ c b
/-- At region 1's exit: its arrays at what its write-backs leave, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev X12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = X12 m ρ c (Pipeline.arrRef spec1 w) :=
  (W12_arr m ρ c w).symm
theorem hrest1 (c : Dev nD) : ∀ b, b ∉ Finset.univ.image (Pipeline.arrRef spec1) → X12 m ρ c b = V11 m ρ c b :=
  fun b hb => W12_of_ne m ρ c b fun w e => hb (Finset.mem_image.mpr ⟨w, Finset.mem_univ _, e⟩)
/-- After the host stretch `hostOps2`. -/
abbrev W13 : Dev nD → Valuation τ sig (Elt F) := fun c => StableHlo.after hostOps2 (W12 m ρ c)
/-- Region 2's entry contents read at the TensorCore's references. -/
abbrev V13 : (c : Dev nD) → (b : Ref sig .tc) → Buf (Elt F) ((c : Thread nD τ).loc b) := fun c b => W13 m ρ c b
/-- At region 2's exit: its arrays at what its write-backs leave, every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev X14 : (c : Dev nD) → (b : Ref sig .tc) → Buf (Elt F) ((c : Thread nD τ).loc b) := fun c b => W14 m ρ c b
theorem hF2 (c : Dev nD) (w : Fin cfg2.W) : (dat2 (V13 m ρ) c).arrAt w cfg2.N = X14 m ρ c (Pipeline.arrRef spec2 w) :=
  (W14_arr m ρ c w).symm
theorem hrest2 (c : Dev nD) : ∀ b, b ∉ Finset.univ.image (Pipeline.arrRef spec2) → X14 m ρ c b = V13 m ρ c b :=
  fun b hb => W14_of_ne m ρ c b fun w e => hb (Finset.mem_image.mpr ⟨w, Finset.mem_univ _, e⟩)
/-- Region 3's entry contents read at the TensorCore's references. -/
abbrev V14 : (c : Dev nD) → (b : Ref sig .tc) → Buf (Elt F) ((c : Thread nD τ).loc b) := fun c b => W14 m ρ c b
/-- At region 3's exit: its arrays at what its write-backs leave, every other buffer as entered. -/
def W15 (c : Dev nD) : Valuation τ sig (Elt F) :=
  Pipeline.withArrays spec3 c (W14 m ρ c) fun w => (dat3 (V14 m ρ) c).arrAt w cfg3.N
theorem W15_arr (c : Dev nD) (w : Fin cfg3.W) :
    W15 m ρ c (Proc.devRef .tc (Pipeline.arrRef spec3 w)) = (dat3 (V14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev X15 : (c : Dev nD) → (b : Ref sig .tc) → Buf (Elt F) ((c : Thread nD τ).loc b) := fun c b => W15 m ρ c b
theorem hF3 (c : Dev nD) (w : Fin cfg3.W) : (dat3 (V14 m ρ) c).arrAt w cfg3.N = X15 m ρ c (Pipeline.arrRef spec3 w) :=
  (W15_arr m ρ c w).symm
theorem hrest3 (c : Dev nD) : ∀ b, b ∉ Finset.univ.image (Pipeline.arrRef spec3) → X15 m ρ c b = V14 m ρ c b :=
  fun b hb => W15_of_ne m ρ c b fun w e => hb (Finset.mem_image.mpr ⟨w, Finset.mem_univ _, e⟩)
/-- Region 4's entry contents read at the TensorCore's references. -/
abbrev V15 : (c : Dev nD) → (b : Ref sig .tc) → Buf (Elt F) ((c : Thread nD τ).loc b) := fun c b => W15 m ρ c b
/-- At region 4's exit: its arrays at what its write-backs leave, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev X16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = X16 m ρ c (Pipeline.arrRef spec4 w) :=
  (W16_arr m ρ c w).symm
theorem hrest4 (c : Dev nD) : ∀ b, b ∉ Finset.univ.image (Pipeline.arrRef spec4) → X16 m ρ c b = V15 m ρ c b :=
  fun b hb => W16_of_ne m ρ c b fun w e => hb (Finset.mem_image.mpr ⟨w, Finset.mem_univ _, e⟩)
/-- After the host stretch `hostOps5`. -/
abbrev W17 : Dev nD → Valuation τ sig (Elt F) := fun c => StableHlo.after hostOps5 (W16 m ρ c)
/-- Region 5's entry contents read at the TensorCore's references. -/
abbrev V17 : (c : Dev nD) → (b : Ref sig .tc) → Buf (Elt F) ((c : Thread nD τ).loc b) := fun c b => W17 m ρ c b
/-- At region 5's exit: its arrays at what its write-backs leave, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev X18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = X18 m ρ c (Pipeline.arrRef spec5 w) :=
  (W18_arr m ρ c w).symm
theorem hrest5 (c : Dev nD) : ∀ b, b ∉ Finset.univ.image (Pipeline.arrRef spec5) → X18 m ρ c b = V17 m ρ c b :=
  fun b hb => W18_of_ne m ρ c b fun w e => hb (Finset.mem_image.mpr ⟨w, Finset.mem_univ _, e⟩)
/-- After the host stretch `hostOps6`. -/
abbrev W19 : Dev nD → Valuation τ sig (Elt F) := fun c => StableHlo.after hostOps6 (W18 m ρ c)

/-! ## The proof data family and the thread state -/

/-- No pallas_call has a prefetched table. -/
abbrev adm : (p : Fin 6) → (pcfgs (F := F) p).Adm := fun p => (cfgs p).toPCfg_adm
/-- Every pipeline's proof data, each at its region's entry contents — a literal match on the pipeline. -/
def pdats : (p : Fin 6) → (c : Dev nD) → Dat τ (Elt F) Unit ℕ (UR sig nD τ) ℕ (Pipeline.pin (pcfgs (F := F)) adm p) c
  | ⟨0, _⟩ => fun c => dat0 (V10 m ρ) c
  | ⟨1, _⟩ => fun c => dat1 (V11 m ρ) c
  | ⟨2, _⟩ => fun c => dat2 (V13 m ρ) c
  | ⟨3, _⟩ => fun c => dat3 (V14 m ρ) c
  | ⟨4, _⟩ => fun c => dat4 (V15 m ρ) c
  | ⟨5, _⟩ => fun c => dat5 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W10`, left at `W11`. Its arrays are split
    out of the unscoped buffers and put back at the exit contents; the generator register and the scoped rest go into
    the region's invariant and come back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V10 m ρ) c).loose
  hwaits := Pipeline.hwaits_of_owed_zero _ _ _ _ L lv 0 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec0 c (V10 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V10 m ρ c) fun w => A_eq0 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h1.trans (hin0 (V10 m ρ) c)
  hout c := by
    rw [Pipeline.ownSems0_none]
    have h1 : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V10 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V10 m ρ c) (X11 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. Its arrays are split
    out of the unscoped buffers and put back at the exit contents; the generator register and the scoped rest go into
    the region's invariant and come back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun w => A_eq1 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h1.trans (hin1 (V11 m ρ) c)
  hout c := by
    rw [Pipeline.ownSems0_none]
    have h1 : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V11 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (X12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W13`, left at `W14`. Its arrays are split
    out of the unscoped buffers and put back at the exit contents; the generator register and the scoped rest go into
    the region's invariant and come back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun w => A_eq2 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 2).pre c (fun _ => fullShare) (adm (F := F) 2).1
        ∗ Pipeline.scopedRest (Ix := Unit) (Name := ℕ) (U := UR sig nD τ) (Lvl := ℕ) (Val := Elt F) spec2 c) : sProp 𝕄) ⊢ Pipeline.ΦA spec2 c := by
      unfold Pipeline.ΦA
      iintro ⟨Hp, -, Hr⟩
      isplitl [Hr]; · iexact Hr
      iexact Hp
    exact h1.trans (hin2 (V13 m ρ) c)
  hout c := by
    rw [Pipeline.ownSems0_none]
    have h1 : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V13 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (X14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W14`, left at `W15`. Its arrays are split
    out of the unscoped buffers and put back at the exit contents; the generator register and the scoped rest go into
    the region's invariant and come back; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V14 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (V14 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V14 m ρ c) fun w => A_eq3 (V14 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 3).pre c (fun _ => fullShare) (adm (F := F) 3).1
        ∗ Pipeline.scopedRest (Ix := Unit) (Name := ℕ) (U := UR sig nD τ) (Lvl := ℕ) (Val := Elt F) spec3 c) : sProp 𝕄) ⊢ Pipeline.ΦA spec3 c := by
      unfold Pipeline.ΦA
      iintro ⟨Hp, -, Hr⟩
      isplitl [Hr]; · iexact Hr
      iexact Hp
    exact h1.trans (hin3 (V14 m ρ) c)
  hout c := by
    rw [Pipeline.ownSems0_none]
    have h1 : (Pipeline.ΦA spec3 c : sProp 𝕄) ⊢ iprop((∃ r, prngReg c r) ∗ BI.emp
        ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (V14 m ρ) c).trans h1
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V14 m ρ c) (X15 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W15`, left at `W16`. Its arrays are split
    out of the unscoped buffers and put back at the exit contents; the generator register and the scoped rest go into
    the region's invariant and come back; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun w => A_eq4 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 4).pre c (fun _ => fullShare) (adm (F := F) 4).1
        ∗ Pipeline.scopedRest (Ix := Unit) (Name := ℕ) (U := UR sig nD τ) (Lvl := ℕ) (Val := Elt F) spec4 c) : sProp 𝕄) ⊢ Pipeline.ΦA spec4 c := by
      unfold Pipeline.ΦA
      iintro ⟨Hp, -, Hr⟩
      isplitl [Hr]; · iexact Hr
      iexact Hp
    exact h1.trans (hin4 (V15 m ρ) c)
  hout c := by
    rw [Pipeline.ownSems0_none]
    have h1 : (Pipeline.ΦA spec4 c : sProp 𝕄) ⊢ iprop((∃ r, prngReg c r) ∗ BI.emp
        ∗ Pipeline.scopedRest (Ix := Unit) (Name := ℕ) (U := UR sig nD τ) (Lvl := ℕ) (Val := Elt F) spec4 c) := by
      unfold Pipeline.ΦA
      iintro ⟨Hr, Hp⟩
      isplitl [Hp]; · iexact Hp
      isplitr; · iempintro
      iexact Hr
    exact (hout4 (V15 m ρ) c).trans h1
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (X16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W17`, left at `W18`. Its arrays are split
    out of the unscoped buffers and put back at the exit contents; the generator register and the scoped rest go into
    the region's invariant and come back; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun w => A_eq5 (V17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (Ix := Unit) (Name := ℕ) (U := UR sig nD τ) (Lvl := ℕ) (pcfgs (F := F) 5).pre c (fun _ => fullShare) (adm (F := F) 5).1
        ∗ Pipeline.scopedRest (Ix := Unit) (Name := ℕ) (U := UR sig nD τ) (Lvl := ℕ) (Val := Elt F) spec5 c) : sProp 𝕄) ⊢ Pipeline.ΦA spec5 c := by
      unfold Pipeline.ΦA
      iintro ⟨Hp, -, Hr⟩
      isplitl [Hr]; · iexact Hr
      iexact Hp
    exact h1.trans (hin5 (V17 m ρ) c)
  hout c := by
    rw [Pipeline.ownSems0_none]
    have h1 : (Pipeline.ΦA spec5 c : sProp 𝕄) ⊢ iprop((∃ r, prngReg c r) ∗ BI.emp
        ∗ Pipeline.scopedRest (Ix := Unit) (Name := ℕ) (U := UR sig nD τ) (Lvl := ℕ) (Val := Elt F) spec5 c) := by
      unfold Pipeline.ΦA
      iintro ⟨Hr, Hp⟩
      isplitl [Hp]; · iexact Hp
      isplitr; · iempintro
      iexact Hr
    exact (hout5 (V17 m ρ) c).trans h1
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (X18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .region (reg0 m ρ),
    .region (reg1 m ρ),
    .host (hseg hostOps2 hostOps2_sub hostOps2_fresh (W12 m ρ)),
    .region (reg2 m ρ),
    .region (reg3 m ρ),
    .region (reg4 m ρ),
    .host (hseg hostOps5 hostOps5_sub hostOps5_fresh (W16 m ρ)),
    .region (reg5 m ρ),
    .host (hseg hostOps6 hostOps6_sub hostOps6_fresh (W18 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at the last boundary's contents `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W19 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W19 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

/-! ## What each boundary leaves unchanged: a region changes only its output array -/
theorem W11_keep (c : Dev nD) (b : Ref sig .tc) (hb : b ≠ main_v37) : W11 m ρ c (Proc.devRef .tc b) = W10 m ρ c (Proc.devRef .tc b) := by
  by_cases h : ∃ w, Pipeline.arrRef spec0 w = b
  · obtain ⟨w, rfl⟩ := h
    have hw : w = 0 ∨ w = 1 ∨ w = 2 := by revert w; decide
    rcases hw with rfl | rfl | rfl
    · exact (W11_arr m ρ c 0).trans (((dat0 (V10 m ρ) c).arrAt_in 0 rfl _).trans (A_eq0 (V10 m ρ) c 0))
    · exact (W11_arr m ρ c 1).trans (((dat0 (V10 m ρ) c).arrAt_in 1 rfl _).trans (A_eq0 (V10 m ρ) c 1))
    · exact absurd rfl hb
  · exact W11_of_ne m ρ c b (fun w e => h ⟨w, e⟩)
theorem W12_keep (c : Dev nD) (b : Ref sig .tc) (hb : b ≠ main_v38) : W12 m ρ c (Proc.devRef .tc b) = W11 m ρ c (Proc.devRef .tc b) := by
  by_cases h : ∃ w, Pipeline.arrRef spec1 w = b
  · obtain ⟨w, rfl⟩ := h
    have hw : w = 0 ∨ w = 1 ∨ w = 2 ∨ w = 3 := by revert w; decide
    rcases hw with rfl | rfl | rfl | rfl
    · exact (W12_arr m ρ c 0).trans (((dat1 (V11 m ρ) c).arrAt_in 0 rfl _).trans (A_eq1 (V11 m ρ) c 0))
    · exact (W12_arr m ρ c 1).trans (((dat1 (V11 m ρ) c).arrAt_in 1 rfl _).trans (A_eq1 (V11 m ρ) c 1))
    · exact (W12_arr m ρ c 2).trans (((dat1 (V11 m ρ) c).arrAt_in 2 rfl _).trans (A_eq1 (V11 m ρ) c 2))
    · exact absurd rfl hb
  · exact W12_of_ne m ρ c b (fun w e => h ⟨w, e⟩)
theorem W14_keep (c : Dev nD) (b : Ref sig .tc) (hb : b ≠ main_v40) : W14 m ρ c (Proc.devRef .tc b) = W13 m ρ c (Proc.devRef .tc b) := by
  by_cases h : ∃ w, Pipeline.arrRef spec2 w = b
  · obtain ⟨w, rfl⟩ := h
    have hw : w = 0 ∨ w = 1 ∨ w = 2 ∨ w = 3 := by revert w; decide
    rcases hw with rfl | rfl | rfl | rfl
    · exact (W14_arr m ρ c 0).trans (((dat2 (V13 m ρ) c).arrAt_in 0 rfl _).trans (A_eq2 (V13 m ρ) c 0))
    · exact (W14_arr m ρ c 1).trans (((dat2 (V13 m ρ) c).arrAt_in 1 rfl _).trans (A_eq2 (V13 m ρ) c 1))
    · exact (W14_arr m ρ c 2).trans (((dat2 (V13 m ρ) c).arrAt_in 2 rfl _).trans (A_eq2 (V13 m ρ) c 2))
    · exact absurd rfl hb
  · exact W14_of_ne m ρ c b (fun w e => h ⟨w, e⟩)
theorem W15_keep (c : Dev nD) (b : Ref sig .tc) (hb : b ≠ main_v41) : W15 m ρ c (Proc.devRef .tc b) = W14 m ρ c (Proc.devRef .tc b) := by
  by_cases h : ∃ w, Pipeline.arrRef spec3 w = b
  · obtain ⟨w, rfl⟩ := h
    have hw : w = 0 ∨ w = 1 ∨ w = 2 := by revert w; decide
    rcases hw with rfl | rfl | rfl
    · exact (W15_arr m ρ c 0).trans (((dat3 (V14 m ρ) c).arrAt_in 0 rfl _).trans (A_eq3 (V14 m ρ) c 0))
    · exact (W15_arr m ρ c 1).trans (((dat3 (V14 m ρ) c).arrAt_in 1 rfl _).trans (A_eq3 (V14 m ρ) c 1))
    · exact absurd rfl hb
  · exact W15_of_ne m ρ c b (fun w e => h ⟨w, e⟩)
theorem W16_keep (c : Dev nD) (b : Ref sig .tc) (hb : b ≠ main_v42) : W16 m ρ c (Proc.devRef .tc b) = W15 m ρ c (Proc.devRef .tc b) := by
  by_cases h : ∃ w, Pipeline.arrRef spec4 w = b
  · obtain ⟨w, rfl⟩ := h
    have hw : w = 0 ∨ w = 1 ∨ w = 2 ∨ w = 3 := by revert w; decide
    rcases hw with rfl | rfl | rfl | rfl
    · exact (W16_arr m ρ c 0).trans (((dat4 (V15 m ρ) c).arrAt_in 0 rfl _).trans (A_eq4 (V15 m ρ) c 0))
    · exact (W16_arr m ρ c 1).trans (((dat4 (V15 m ρ) c).arrAt_in 1 rfl _).trans (A_eq4 (V15 m ρ) c 1))
    · exact (W16_arr m ρ c 2).trans (((dat4 (V15 m ρ) c).arrAt_in 2 rfl _).trans (A_eq4 (V15 m ρ) c 2))
    · exact absurd rfl hb
  · exact W16_of_ne m ρ c b (fun w e => h ⟨w, e⟩)
theorem W18_keep (c : Dev nD) (b : Ref sig .tc) (hb : b ≠ main_v44) : W18 m ρ c (Proc.devRef .tc b) = W17 m ρ c (Proc.devRef .tc b) := by
  by_cases h : ∃ w, Pipeline.arrRef spec5 w = b
  · obtain ⟨w, rfl⟩ := h
    have hw : w = 0 ∨ w = 1 ∨ w = 2 ∨ w = 3 := by revert w; decide
    rcases hw with rfl | rfl | rfl | rfl
    · exact (W18_arr m ρ c 0).trans (((dat5 (V17 m ρ) c).arrAt_in 0 rfl _).trans (A_eq5 (V17 m ρ) c 0))
    · exact (W18_arr m ρ c 1).trans (((dat5 (V17 m ρ) c).arrAt_in 1 rfl _).trans (A_eq5 (V17 m ρ) c 1))
    · exact (W18_arr m ρ c 2).trans (((dat5 (V17 m ρ) c).arrAt_in 2 rfl _).trans (A_eq5 (V17 m ρ) c 2))
    · exact absurd rfl hb
  · exact W18_of_ne m ρ c b (fun w e => h ⟨w, e⟩)
theorem W10_arg2 (c : Dev nD) : W10 m ρ c (Proc.devRef .tc main_arg2) = W0 m ρ c (Proc.devRef .tc main_arg2) :=
  (StableHlo.after_of_writes_sub hostOps0_9 _ hostOps0_9_writes (by decide) : W10 m ρ c (Proc.devRef .tc main_arg2) = W9 m ρ c (Proc.devRef .tc main_arg2)).trans <|
  (StableHlo.after_of_writes_sub hostOps0_8 _ hostOps0_8_writes (by decide) : W9 m ρ c (Proc.devRef .tc main_arg2) = W8 m ρ c (Proc.devRef .tc main_arg2)).trans <|
  (StableHlo.after_of_writes_sub hostOps0_7 _ hostOps0_7_writes (by decide) : W8 m ρ c (Proc.devRef .tc main_arg2) = W7 m ρ c (Proc.devRef .tc main_arg2)).trans <|
  (StableHlo.after_of_writes_sub hostOps0_6 _ hostOps0_6_writes (by decide) : W7 m ρ c (Proc.devRef .tc main_arg2) = W6 m ρ c (Proc.devRef .tc main_arg2)).trans <|
  (StableHlo.after_of_writes_sub hostOps0_5 _ hostOps0_5_writes (by decide) : W6 m ρ c (Proc.devRef .tc main_arg2) = W5 m ρ c (Proc.devRef .tc main_arg2)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <|
  rfl
theorem W14_arg4 (c : Dev nD) : W14 m ρ c (Proc.devRef .tc main_arg4) = W0 m ρ c (Proc.devRef .tc main_arg4) :=
  (W14_keep m ρ c main_arg4 (by decide)).trans <|
  (StableHlo.after_of_writes_sub hostOps2 _ hostOps2_writes (by decide) : W13 m ρ c (Proc.devRef .tc main_arg4) = W12 m ρ c (Proc.devRef .tc main_arg4)).trans <|
  (W12_keep m ρ c main_arg4 (by decide)).trans <|
  (W11_keep m ρ c main_arg4 (by decide)).trans <|
  (StableHlo.after_of_writes_sub hostOps0_9 _ hostOps0_9_writes (by decide) : W10 m ρ c (Proc.devRef .tc main_arg4) = W9 m ρ c (Proc.devRef .tc main_arg4)).trans <|
  (StableHlo.after_of_writes_sub hostOps0_8 _ hostOps0_8_writes (by decide) : W9 m ρ c (Proc.devRef .tc main_arg4) = W8 m ρ c (Proc.devRef .tc main_arg4)).trans <|
  (StableHlo.after_of_writes_sub hostOps0_7 _ hostOps0_7_writes (by decide) : W8 m ρ c (Proc.devRef .tc main_arg4) = W7 m ρ c (Proc.devRef .tc main_arg4)).trans <|
  (StableHlo.after_of_writes_sub hostOps0_6 _ hostOps0_6_writes (by decide) : W7 m ρ c (Proc.devRef .tc main_arg4) = W6 m ρ c (Proc.devRef .tc main_arg4)).trans <|
  (StableHlo.after_of_writes_sub hostOps0_5 _ hostOps0_5_writes (by decide) : W6 m ρ c (Proc.devRef .tc main_arg4) = W5 m ρ c (Proc.devRef .tc main_arg4)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <|
  rfl
theorem W12_arg3 (c : Dev nD) : W12 m ρ c (Proc.devRef .tc main_arg3) = W0 m ρ c (Proc.devRef .tc main_arg3) :=
  (W12_keep m ρ c main_arg3 (by decide)).trans <|
  (W11_keep m ρ c main_arg3 (by decide)).trans <|
  (StableHlo.after_of_writes_sub hostOps0_9 _ hostOps0_9_writes (by decide) : W10 m ρ c (Proc.devRef .tc main_arg3) = W9 m ρ c (Proc.devRef .tc main_arg3)).trans <|
  (StableHlo.after_of_writes_sub hostOps0_8 _ hostOps0_8_writes (by decide) : W9 m ρ c (Proc.devRef .tc main_arg3) = W8 m ρ c (Proc.devRef .tc main_arg3)).trans <|
  (StableHlo.after_of_writes_sub hostOps0_7 _ hostOps0_7_writes (by decide) : W8 m ρ c (Proc.devRef .tc main_arg3) = W7 m ρ c (Proc.devRef .tc main_arg3)).trans <|
  (StableHlo.after_of_writes_sub hostOps0_6 _ hostOps0_6_writes (by decide) : W7 m ρ c (Proc.devRef .tc main_arg3) = W6 m ρ c (Proc.devRef .tc main_arg3)).trans <|
  (StableHlo.after_of_writes_sub hostOps0_5 _ hostOps0_5_writes (by decide) : W6 m ρ c (Proc.devRef .tc main_arg3) = W5 m ρ c (Proc.devRef .tc main_arg3)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <|
  rfl
theorem W16_arg5 (c : Dev nD) : W16 m ρ c (Proc.devRef .tc main_arg5) = W0 m ρ c (Proc.devRef .tc main_arg5) :=
  (W16_keep m ρ c main_arg5 (by decide)).trans <|
  (W15_keep m ρ c main_arg5 (by decide)).trans <|
  (W14_keep m ρ c main_arg5 (by decide)).trans <|
  (StableHlo.after_of_writes_sub hostOps2 _ hostOps2_writes (by decide) : W13 m ρ c (Proc.devRef .tc main_arg5) = W12 m ρ c (Proc.devRef .tc main_arg5)).trans <|
  (W12_keep m ρ c main_arg5 (by decide)).trans <|
  (W11_keep m ρ c main_arg5 (by decide)).trans <|
  (StableHlo.after_of_writes_sub hostOps0_9 _ hostOps0_9_writes (by decide) : W10 m ρ c (Proc.devRef .tc main_arg5) = W9 m ρ c (Proc.devRef .tc main_arg5)).trans <|
  (StableHlo.after_of_writes_sub hostOps0_8 _ hostOps0_8_writes (by decide) : W9 m ρ c (Proc.devRef .tc main_arg5) = W8 m ρ c (Proc.devRef .tc main_arg5)).trans <|
  (StableHlo.after_of_writes_sub hostOps0_7 _ hostOps0_7_writes (by decide) : W8 m ρ c (Proc.devRef .tc main_arg5) = W7 m ρ c (Proc.devRef .tc main_arg5)).trans <|
  (StableHlo.after_of_writes_sub hostOps0_6 _ hostOps0_6_writes (by decide) : W7 m ρ c (Proc.devRef .tc main_arg5) = W6 m ρ c (Proc.devRef .tc main_arg5)).trans <|
  (StableHlo.after_of_writes_sub hostOps0_5 _ hostOps0_5_writes (by decide) : W6 m ρ c (Proc.devRef .tc main_arg5) = W5 m ρ c (Proc.devRef .tc main_arg5)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <|
  rfl
theorem W11_v33 (c : Dev nD) : W11 m ρ c (Proc.devRef .tc main_v33) = W10 m ρ c (Proc.devRef .tc main_v33) :=
  (W11_keep m ρ c main_v33 (by decide)).trans <|
  rfl
theorem W11_v35 (c : Dev nD) : W11 m ρ c (Proc.devRef .tc main_v35) = W10 m ρ c (Proc.devRef .tc main_v35) :=
  (W11_keep m ρ c main_v35 (by decide)).trans <|
  rfl
theorem W13_v34 (c : Dev nD) : W13 m ρ c (Proc.devRef .tc main_v34) = W10 m ρ c (Proc.devRef .tc main_v34) :=
  (StableHlo.after_of_writes_sub hostOps2 _ hostOps2_writes (by decide) : W13 m ρ c (Proc.devRef .tc main_v34) = W12 m ρ c (Proc.devRef .tc main_v34)).trans <|
  (W12_keep m ρ c main_v34 (by decide)).trans <|
  (W11_keep m ρ c main_v34 (by decide)).trans <|
  rfl
theorem W13_v38 (c : Dev nD) : W13 m ρ c (Proc.devRef .tc main_v38) = W12 m ρ c (Proc.devRef .tc main_v38) :=
  (StableHlo.after_of_writes_sub hostOps2 _ hostOps2_writes (by decide) : W13 m ρ c (Proc.devRef .tc main_v38) = W12 m ρ c (Proc.devRef .tc main_v38)).trans <|
  rfl
theorem W15_v33 (c : Dev nD) : W15 m ρ c (Proc.devRef .tc main_v33) = W10 m ρ c (Proc.devRef .tc main_v33) :=
  (W15_keep m ρ c main_v33 (by decide)).trans <|
  (W14_keep m ρ c main_v33 (by decide)).trans <|
  (StableHlo.after_of_writes_sub hostOps2 _ hostOps2_writes (by decide) : W13 m ρ c (Proc.devRef .tc main_v33) = W12 m ρ c (Proc.devRef .tc main_v33)).trans <|
  (W12_keep m ρ c main_v33 (by decide)).trans <|
  (W11_keep m ρ c main_v33 (by decide)).trans <|
  rfl
theorem W15_v35 (c : Dev nD) : W15 m ρ c (Proc.devRef .tc main_v35) = W10 m ρ c (Proc.devRef .tc main_v35) :=
  (W15_keep m ρ c main_v35 (by decide)).trans <|
  (W14_keep m ρ c main_v35 (by decide)).trans <|
  (StableHlo.after_of_writes_sub hostOps2 _ hostOps2_writes (by decide) : W13 m ρ c (Proc.devRef .tc main_v35) = W12 m ρ c (Proc.devRef .tc main_v35)).trans <|
  (W12_keep m ρ c main_v35 (by decide)).trans <|
  (W11_keep m ρ c main_v35 (by decide)).trans <|
  rfl
theorem W17_v34 (c : Dev nD) : W17 m ρ c (Proc.devRef .tc main_v34) = W10 m ρ c (Proc.devRef .tc main_v34) :=
  (StableHlo.after_of_writes_sub hostOps5 _ hostOps5_writes (by decide) : W17 m ρ c (Proc.devRef .tc main_v34) = W16 m ρ c (Proc.devRef .tc main_v34)).trans <|
  (W16_keep m ρ c main_v34 (by decide)).trans <|
  (W15_keep m ρ c main_v34 (by decide)).trans <|
  (W14_keep m ρ c main_v34 (by decide)).trans <|
  (StableHlo.after_of_writes_sub hostOps2 _ hostOps2_writes (by decide) : W13 m ρ c (Proc.devRef .tc main_v34) = W12 m ρ c (Proc.devRef .tc main_v34)).trans <|
  (W12_keep m ρ c main_v34 (by decide)).trans <|
  (W11_keep m ρ c main_v34 (by decide)).trans <|
  rfl
theorem W17_v42 (c : Dev nD) : W17 m ρ c (Proc.devRef .tc main_v42) = W16 m ρ c (Proc.devRef .tc main_v42) :=
  (StableHlo.after_of_writes_sub hostOps5 _ hostOps5_writes (by decide) : W17 m ρ c (Proc.devRef .tc main_v42) = W16 m ρ c (Proc.devRef .tc main_v42)).trans <|
  rfl

/-! ## The arguments end as launched: no host operation writes one, and a region either bypasses it or stages it as an input -/
theorem W19_main_arg0 (c : Dev nD) : W19 m ρ c (Proc.devRef .tc main_arg0) = m ((c : Thread nD τ).loc main_arg0) :=
  (StableHlo.after_of_writes_sub hostOps6 _ hostOps6_writes (by decide) : W19 m ρ c (Proc.devRef .tc main_arg0) = W18 m ρ c (Proc.devRef .tc main_arg0)).trans <|
  (W18_of_ne m ρ c main_arg0 (by decide)).trans <|
  (StableHlo.after_of_writes_sub hostOps5 _ hostOps5_writes (by decide) : W17 m ρ c (Proc.devRef .tc main_arg0) = W16 m ρ c (Proc.devRef .tc main_arg0)).trans <|
  (W16_of_ne m ρ c main_arg0 (by decide)).trans <|
  (W15_of_ne m ρ c main_arg0 (by decide)).trans <|
  (W14_of_ne m ρ c main_arg0 (by decide)).trans <|
  (StableHlo.after_of_writes_sub hostOps2 _ hostOps2_writes (by decide) : W13 m ρ c (Proc.devRef .tc main_arg0) = W12 m ρ c (Proc.devRef .tc main_arg0)).trans <|
  (W12_of_ne m ρ c main_arg0 (by decide)).trans <|
  (W11_of_ne m ρ c main_arg0 (by decide)).trans <|
  (StableHlo.after_of_writes_sub hostOps0_9 _ hostOps0_9_writes (by decide) : W10 m ρ c (Proc.devRef .tc main_arg0) = W9 m ρ c (Proc.devRef .tc main_arg0)).trans <|
  (StableHlo.after_of_writes_sub hostOps0_8 _ hostOps0_8_writes (by decide) : W9 m ρ c (Proc.devRef .tc main_arg0) = W8 m ρ c (Proc.devRef .tc main_arg0)).trans <|
  (StableHlo.after_of_writes_sub hostOps0_7 _ hostOps0_7_writes (by decide) : W8 m ρ c (Proc.devRef .tc main_arg0) = W7 m ρ c (Proc.devRef .tc main_arg0)).trans <|
  (StableHlo.after_of_writes_sub hostOps0_6 _ hostOps0_6_writes (by decide) : W7 m ρ c (Proc.devRef .tc main_arg0) = W6 m ρ c (Proc.devRef .tc main_arg0)).trans <|
  (StableHlo.after_of_writes_sub hostOps0_5 _ hostOps0_5_writes (by decide) : W6 m ρ c (Proc.devRef .tc main_arg0) = W5 m ρ c (Proc.devRef .tc main_arg0)).trans <|
  (StableHlo.after_of_writes_sub hostOps0_4 _ hostOps0_4_writes (by decide) : W5 m ρ c (Proc.devRef .tc main_arg0) = W4 m ρ c (Proc.devRef .tc main_arg0)).trans <|
  (StableHlo.after_of_writes_sub hostOps0_3 _ hostOps0_3_writes (by decide) : W4 m ρ c (Proc.devRef .tc main_arg0) = W3 m ρ c (Proc.devRef .tc main_arg0)).trans <|
  (StableHlo.after_of_writes_sub hostOps0_2 _ hostOps0_2_writes (by decide) : W3 m ρ c (Proc.devRef .tc main_arg0) = W2 m ρ c (Proc.devRef .tc main_arg0)).trans <|
  (StableHlo.after_of_writes_sub hostOps0_1 _ hostOps0_1_writes (by decide) : W2 m ρ c (Proc.devRef .tc main_arg0) = W1 m ρ c (Proc.devRef .tc main_arg0)).trans <|
  (StableHlo.after_of_writes_sub hostOps0 _ hostOps0_writes (by decide) : W1 m ρ c (Proc.devRef .tc main_arg0) = W0 m ρ c (Proc.devRef .tc main_arg0)).trans <|
  rfl
theorem W19_main_arg1 (c : Dev nD) : W19 m ρ c (Proc.devRef .tc main_arg1) = m ((c : Thread nD τ).loc main_arg1) :=
  (StableHlo.after_of_writes_sub hostOps6 _ hostOps6_writes (by decide) : W19 m ρ c (Proc.devRef .tc main_arg1) = W18 m ρ c (Proc.devRef .tc main_arg1)).trans <|
  (W18_of_ne m ρ c main_arg1 (by decide)).trans <|
  (StableHlo.after_of_writes_sub hostOps5 _ hostOps5_writes (by decide) : W17 m ρ c (Proc.devRef .tc main_arg1) = W16 m ρ c (Proc.devRef .tc main_arg1)).trans <|
  (W16_of_ne m ρ c main_arg1 (by decide)).trans <|
  (W15_of_ne m ρ c main_arg1 (by decide)).trans <|
  (W14_of_ne m ρ c main_arg1 (by decide)).trans <|
  (StableHlo.after_of_writes_sub hostOps2 _ hostOps2_writes (by decide) : W13 m ρ c (Proc.devRef .tc main_arg1) = W12 m ρ c (Proc.devRef .tc main_arg1)).trans <|
  (W12_of_ne m ρ c main_arg1 (by decide)).trans <|
  (W11_of_ne m ρ c main_arg1 (by decide)).trans <|
  (StableHlo.after_of_writes_sub hostOps0_9 _ hostOps0_9_writes (by decide) : W10 m ρ c (Proc.devRef .tc main_arg1) = W9 m ρ c (Proc.devRef .tc main_arg1)).trans <|
  (StableHlo.after_of_writes_sub hostOps0_8 _ hostOps0_8_writes (by decide) : W9 m ρ c (Proc.devRef .tc main_arg1) = W8 m ρ c (Proc.devRef .tc main_arg1)).trans <|
  (StableHlo.after_of_writes_sub hostOps0_7 _ hostOps0_7_writes (by decide) : W8 m ρ c (Proc.devRef .tc main_arg1) = W7 m ρ c (Proc.devRef .tc main_arg1)).trans <|
  (StableHlo.after_of_writes_sub hostOps0_6 _ hostOps0_6_writes (by decide) : W7 m ρ c (Proc.devRef .tc main_arg1) = W6 m ρ c (Proc.devRef .tc main_arg1)).trans <|
  (StableHlo.after_of_writes_sub hostOps0_5 _ hostOps0_5_writes (by decide) : W6 m ρ c (Proc.devRef .tc main_arg1) = W5 m ρ c (Proc.devRef .tc main_arg1)).trans <|
  (StableHlo.after_of_writes_sub hostOps0_4 _ hostOps0_4_writes (by decide) : W5 m ρ c (Proc.devRef .tc main_arg1) = W4 m ρ c (Proc.devRef .tc main_arg1)).trans <|
  (StableHlo.after_of_writes_sub hostOps0_3 _ hostOps0_3_writes (by decide) : W4 m ρ c (Proc.devRef .tc main_arg1) = W3 m ρ c (Proc.devRef .tc main_arg1)).trans <|
  (StableHlo.after_of_writes_sub hostOps0_2 _ hostOps0_2_writes (by decide) : W3 m ρ c (Proc.devRef .tc main_arg1) = W2 m ρ c (Proc.devRef .tc main_arg1)).trans <|
  (StableHlo.after_of_writes_sub hostOps0_1 _ hostOps0_1_writes (by decide) : W2 m ρ c (Proc.devRef .tc main_arg1) = W1 m ρ c (Proc.devRef .tc main_arg1)).trans <|
  (StableHlo.after_of_writes_sub hostOps0 _ hostOps0_writes (by decide) : W1 m ρ c (Proc.devRef .tc main_arg1) = W0 m ρ c (Proc.devRef .tc main_arg1)).trans <|
  rfl
theorem W19_main_arg2 (c : Dev nD) : W19 m ρ c (Proc.devRef .tc main_arg2) = m ((c : Thread nD τ).loc main_arg2) :=
  (StableHlo.after_of_writes_sub hostOps6 _ hostOps6_writes (by decide) : W19 m ρ c (Proc.devRef .tc main_arg2) = W18 m ρ c (Proc.devRef .tc main_arg2)).trans <|
  (W18_of_ne m ρ c main_arg2 (by decide)).trans <|
  (StableHlo.after_of_writes_sub hostOps5 _ hostOps5_writes (by decide) : W17 m ρ c (Proc.devRef .tc main_arg2) = W16 m ρ c (Proc.devRef .tc main_arg2)).trans <|
  (W16_of_ne m ρ c main_arg2 (by decide)).trans <|
  (W15_of_ne m ρ c main_arg2 (by decide)).trans <|
  (W14_of_ne m ρ c main_arg2 (by decide)).trans <|
  (StableHlo.after_of_writes_sub hostOps2 _ hostOps2_writes (by decide) : W13 m ρ c (Proc.devRef .tc main_arg2) = W12 m ρ c (Proc.devRef .tc main_arg2)).trans <|
  (W12_of_ne m ρ c main_arg2 (by decide)).trans <|
  ((W11_arr m ρ c 1).trans (((dat0 (V10 m ρ) c).arrAt_in 1 rfl _).trans (A_eq0 (V10 m ρ) c 1)) : W11 m ρ c (Proc.devRef .tc main_arg2) = W10 m ρ c (Proc.devRef .tc main_arg2)).trans <|
  (StableHlo.after_of_writes_sub hostOps0_9 _ hostOps0_9_writes (by decide) : W10 m ρ c (Proc.devRef .tc main_arg2) = W9 m ρ c (Proc.devRef .tc main_arg2)).trans <|
  (StableHlo.after_of_writes_sub hostOps0_8 _ hostOps0_8_writes (by decide) : W9 m ρ c (Proc.devRef .tc main_arg2) = W8 m ρ c (Proc.devRef .tc main_arg2)).trans <|
  (StableHlo.after_of_writes_sub hostOps0_7 _ hostOps0_7_writes (by decide) : W8 m ρ c (Proc.devRef .tc main_arg2) = W7 m ρ c (Proc.devRef .tc main_arg2)).trans <|
  (StableHlo.after_of_writes_sub hostOps0_6 _ hostOps0_6_writes (by decide) : W7 m ρ c (Proc.devRef .tc main_arg2) = W6 m ρ c (Proc.devRef .tc main_arg2)).trans <|
  (StableHlo.after_of_writes_sub hostOps0_5 _ hostOps0_5_writes (by decide) : W6 m ρ c (Proc.devRef .tc main_arg2) = W5 m ρ c (Proc.devRef .tc main_arg2)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <|
  rfl
theorem W19_main_arg3 (c : Dev nD) : W19 m ρ c (Proc.devRef .tc main_arg3) = m ((c : Thread nD τ).loc main_arg3) :=
  (StableHlo.after_of_writes_sub hostOps6 _ hostOps6_writes (by decide) : W19 m ρ c (Proc.devRef .tc main_arg3) = W18 m ρ c (Proc.devRef .tc main_arg3)).trans <|
  (W18_of_ne m ρ c main_arg3 (by decide)).trans <|
  (StableHlo.after_of_writes_sub hostOps5 _ hostOps5_writes (by decide) : W17 m ρ c (Proc.devRef .tc main_arg3) = W16 m ρ c (Proc.devRef .tc main_arg3)).trans <|
  (W16_of_ne m ρ c main_arg3 (by decide)).trans <|
  (W15_of_ne m ρ c main_arg3 (by decide)).trans <|
  (W14_of_ne m ρ c main_arg3 (by decide)).trans <|
  (StableHlo.after_of_writes_sub hostOps2 _ hostOps2_writes (by decide) : W13 m ρ c (Proc.devRef .tc main_arg3) = W12 m ρ c (Proc.devRef .tc main_arg3)).trans <|
  (W12_of_ne m ρ c main_arg3 (by decide)).trans <|
  (W11_of_ne m ρ c main_arg3 (by decide)).trans <|
  (StableHlo.after_of_writes_sub hostOps0_9 _ hostOps0_9_writes (by decide) : W10 m ρ c (Proc.devRef .tc main_arg3) = W9 m ρ c (Proc.devRef .tc main_arg3)).trans <|
  (StableHlo.after_of_writes_sub hostOps0_8 _ hostOps0_8_writes (by decide) : W9 m ρ c (Proc.devRef .tc main_arg3) = W8 m ρ c (Proc.devRef .tc main_arg3)).trans <|
  (StableHlo.after_of_writes_sub hostOps0_7 _ hostOps0_7_writes (by decide) : W8 m ρ c (Proc.devRef .tc main_arg3) = W7 m ρ c (Proc.devRef .tc main_arg3)).trans <|
  (StableHlo.after_of_writes_sub hostOps0_6 _ hostOps0_6_writes (by decide) : W7 m ρ c (Proc.devRef .tc main_arg3) = W6 m ρ c (Proc.devRef .tc main_arg3)).trans <|
  (StableHlo.after_of_writes_sub hostOps0_5 _ hostOps0_5_writes (by decide) : W6 m ρ c (Proc.devRef .tc main_arg3) = W5 m ρ c (Proc.devRef .tc main_arg3)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <|
  rfl
theorem W19_main_arg4 (c : Dev nD) : W19 m ρ c (Proc.devRef .tc main_arg4) = m ((c : Thread nD τ).loc main_arg4) :=
  (StableHlo.after_of_writes_sub hostOps6 _ hostOps6_writes (by decide) : W19 m ρ c (Proc.devRef .tc main_arg4) = W18 m ρ c (Proc.devRef .tc main_arg4)).trans <|
  (W18_of_ne m ρ c main_arg4 (by decide)).trans <|
  (StableHlo.after_of_writes_sub hostOps5 _ hostOps5_writes (by decide) : W17 m ρ c (Proc.devRef .tc main_arg4) = W16 m ρ c (Proc.devRef .tc main_arg4)).trans <|
  (W16_of_ne m ρ c main_arg4 (by decide)).trans <|
  ((W15_arr m ρ c 1).trans (((dat3 (V14 m ρ) c).arrAt_in 1 rfl _).trans (A_eq3 (V14 m ρ) c 1)) : W15 m ρ c (Proc.devRef .tc main_arg4) = W14 m ρ c (Proc.devRef .tc main_arg4)).trans <|
  (W14_of_ne m ρ c main_arg4 (by decide)).trans <|
  (StableHlo.after_of_writes_sub hostOps2 _ hostOps2_writes (by decide) : W13 m ρ c (Proc.devRef .tc main_arg4) = W12 m ρ c (Proc.devRef .tc main_arg4)).trans <|
  (W12_of_ne m ρ c main_arg4 (by decide)).trans <|
  (W11_of_ne m ρ c main_arg4 (by decide)).trans <|
  (StableHlo.after_of_writes_sub hostOps0_9 _ hostOps0_9_writes (by decide) : W10 m ρ c (Proc.devRef .tc main_arg4) = W9 m ρ c (Proc.devRef .tc main_arg4)).trans <|
  (StableHlo.after_of_writes_sub hostOps0_8 _ hostOps0_8_writes (by decide) : W9 m ρ c (Proc.devRef .tc main_arg4) = W8 m ρ c (Proc.devRef .tc main_arg4)).trans <|
  (StableHlo.after_of_writes_sub hostOps0_7 _ hostOps0_7_writes (by decide) : W8 m ρ c (Proc.devRef .tc main_arg4) = W7 m ρ c (Proc.devRef .tc main_arg4)).trans <|
  (StableHlo.after_of_writes_sub hostOps0_6 _ hostOps0_6_writes (by decide) : W7 m ρ c (Proc.devRef .tc main_arg4) = W6 m ρ c (Proc.devRef .tc main_arg4)).trans <|
  (StableHlo.after_of_writes_sub hostOps0_5 _ hostOps0_5_writes (by decide) : W6 m ρ c (Proc.devRef .tc main_arg4) = W5 m ρ c (Proc.devRef .tc main_arg4)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <|
  rfl
theorem W19_main_arg5 (c : Dev nD) : W19 m ρ c (Proc.devRef .tc main_arg5) = m ((c : Thread nD τ).loc main_arg5) :=
  (StableHlo.after_of_writes_sub hostOps6 _ hostOps6_writes (by decide) : W19 m ρ c (Proc.devRef .tc main_arg5) = W18 m ρ c (Proc.devRef .tc main_arg5)).trans <|
  (W18_of_ne m ρ c main_arg5 (by decide)).trans <|
  (StableHlo.after_of_writes_sub hostOps5 _ hostOps5_writes (by decide) : W17 m ρ c (Proc.devRef .tc main_arg5) = W16 m ρ c (Proc.devRef .tc main_arg5)).trans <|
  (W16_of_ne m ρ c main_arg5 (by decide)).trans <|
  (W15_of_ne m ρ c main_arg5 (by decide)).trans <|
  (W14_of_ne m ρ c main_arg5 (by decide)).trans <|
  (StableHlo.after_of_writes_sub hostOps2 _ hostOps2_writes (by decide) : W13 m ρ c (Proc.devRef .tc main_arg5) = W12 m ρ c (Proc.devRef .tc main_arg5)).trans <|
  (W12_of_ne m ρ c main_arg5 (by decide)).trans <|
  (W11_of_ne m ρ c main_arg5 (by decide)).trans <|
  (StableHlo.after_of_writes_sub hostOps0_9 _ hostOps0_9_writes (by decide) : W10 m ρ c (Proc.devRef .tc main_arg5) = W9 m ρ c (Proc.devRef .tc main_arg5)).trans <|
  (StableHlo.after_of_writes_sub hostOps0_8 _ hostOps0_8_writes (by decide) : W9 m ρ c (Proc.devRef .tc main_arg5) = W8 m ρ c (Proc.devRef .tc main_arg5)).trans <|
  (StableHlo.after_of_writes_sub hostOps0_7 _ hostOps0_7_writes (by decide) : W8 m ρ c (Proc.devRef .tc main_arg5) = W7 m ρ c (Proc.devRef .tc main_arg5)).trans <|
  (StableHlo.after_of_writes_sub hostOps0_6 _ hostOps0_6_writes (by decide) : W7 m ρ c (Proc.devRef .tc main_arg5) = W6 m ρ c (Proc.devRef .tc main_arg5)).trans <|
  (StableHlo.after_of_writes_sub hostOps0_5 _ hostOps0_5_writes (by decide) : W6 m ρ c (Proc.devRef .tc main_arg5) = W5 m ρ c (Proc.devRef .tc main_arg5)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <|
  rfl

/-- The frame: every weakly fair execution of @main terminates, nothing faulting, and every final memory holds each
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W19_main_arg0 m ρ c),
    (h c _ (mem_uc main_arg1 (by decide))).trans (W19_main_arg1 m ρ c),
    (h c _ (mem_uc main_arg2 (by decide))).trans (W19_main_arg2 m ρ c),
    (h c _ (mem_uc main_arg3 (by decide))).trans (W19_main_arg3 m ρ c),
    (h c _ (mem_uc main_arg4 (by decide))).trans (W19_main_arg4 m ρ c),
    (h c _ (mem_uc main_arg5 (by decide))).trans (W19_main_arg5 m ρ c)⟩) (run_all m ρ)

end Cert.KernelIdeal.Hand

end
-- ==== Proof.KI.Proj0Val.lean ====
/-
  The dense projection y = x · W of layer 1, read at the ideal values: after the region the output array holds, at row r
  and column f, the sum over k of x[r, k] · W[k, f]. Each grid point t writes rows 2048 t … 2048 t + 2047; the 49 points
  cover all 100352 rows.
-/
import proofs.«101950_j12489764897128_2_alg».proof.Proof.KI.Proj0
import Idealize.ShloMosaic.Lib.Pipeline.Value
import Idealize.ShloMosaic.Lib.ValueIdx
import Idealize.ShloMosaic.PureOps.Ideal.Laws

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx (ix2 eq_ix2 idx2_lt0 idx2_lt1)

-- the TensorCore's buffer contents when the region is entered, at the ideal values (extended reals)
variable (V : (c : Dev nD) → (b : Ref sig .tc) → Buf (Elt Ideal) ((c : Thread nD τ).loc b))

/-! ## The product at an index -/

/-- The two operand indices of the matrix product at output index `j` and contraction index `q`: (row of j, q) and
    (q, column of j). -/
theorem lhs0_0 (j : S2048x128.Idx) (q : dot_S2048x128_S128x128_S2048x128_1_0_0_1_n_n.contr.Idx) :
    (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs0_1 (j : S2048x128.Idx) (q : dot_S2048x128_S128x128_S2048x128_1_0_0_1_n_n.contr.Idx) :
    (dot_S2048x128_S128x128_S2048x128_1_0_0_1_n_n.lhsIdx j q 1).val = (q ⟨0, by decide⟩).val :=
  dot_S2048x128_S128x128_S2048x128_1_0_0_1_n_n.lhsIdx_val_of_single rfl j q
theorem rhs0_0 (j : S2048x128.Idx) (q : dot_S2048x128_S128x128_S2048x128_1_0_0_1_n_n.contr.Idx) :
    (dot_S2048x128_S128x128_S2048x128_1_0_0_1_n_n.rhsIdx j q 0).val = (q ⟨0, by decide⟩).val :=
  dot_S2048x128_S128x128_S2048x128_1_0_0_1_n_n.rhsIdx_val_of_single rfl j q
theorem rhs0_1 (j : S2048x128.Idx) (q : dot_S2048x128_S128x128_S2048x128_1_0_0_1_n_n.contr.Idx) :
    (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The body's stored value at row p, column q of the block: the roundings are the identity at the ideal values and the
    accumulator is zero, so it is the sum over k of x0[p, k] · x1[k, q]. -/
theorem pay0_apply (x0 : Vec Ideal S2048x128 .f32) (x1 : Vec Ideal S128x128 .f32) (p : Fin 2048) (q : Fin 128) :
    k0_pay1 (F := Ideal) x0 x1 (ix2 p q) = ∑ k : Fin 128, x0 (ix2 p k) * x1 (ix2 k q) := by
  unfold k0_pay1
  refine (Ideal.matmul_constant_zero_apply dot_S2048x128_S128x128_S2048x128_1_0_0_1_n_n none _ _ (ix2 p q)).trans ?_
  rw [← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  exact congrArg₂ (· * ·)
    ((ValueIdx.truncf_apply (ψ := .bf16) (shapeCast S2048x128 x0 shapeCasts_S2048x128_S2048x128) bitsLt_bf16_f32 (ix2 p k)).trans
      (congrFun (shapeCast_self x0 shapeCasts_S2048x128_S2048x128) (ix2 p k)))
    (ValueIdx.truncf_apply (ψ := .bf16) x1 bitsLt_bf16_f32 (ix2 k q))

/-! ## The whole-array function -/

/-- The product of the row array and the weight matrix, index by index. -/
def G0 (x : S100352x128.Idx → EReal) (w : S128x128.Idx → EReal) : S100352x128.Idx → EReal :=
  fun i => ∑ k : Fin 128, x (ix2 (⟨(i 0).val, idx2_lt0 i⟩ : Fin 100352) k) * w (ix2 k (⟨(i 1).val, idx2_lt1 i⟩ : Fin 128))

/-- It at an index whose coordinates are known. -/
theorem G0_at (x : S100352x128.Idx → EReal) (w : S128x128.Idx → EReal) (i : S100352x128.Idx) (r : Fin 100352) (f : Fin 128)
    (h0 : (i 0).val = r.val) (h1 : (i 1).val = f.val) : G0 x w i = ∑ k : Fin 128, x (ix2 r k) * w (ix2 k f) := by
  have e0 : (⟨(i 0).val, idx2_lt0 i⟩ : Fin 100352) = r := Fin.ext h0
  have e1 : (⟨(i 1).val, idx2_lt1 i⟩ : Fin 128) = f := Fin.ext h1
  unfold G0
  rw [e0, e1]

/-! ## The printed index maps, over the 49 grid points -/

/-- Point t's row block and output block have block index (t, 0), the weight matrix's block index is (0, 0), and the
    output block is written back at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_2.flush t = true :=
  (by decide +kernel : ∀ t : Fin grid0.N, _)

/-! ## The input blocks read -/

/-- Row p of the row block at point t is row 2048 t + p of the array. -/
theorem xblk0_apply (c : Dev nD) (t : Fin cfg0.N) (p : Fin 2048) (k : Fin 128) (r : Fin 100352) (hr : r.val = t.val * 2048 + p.val) :
    (iblk0 V c 0 t : Vec Ideal S2048x128 .f32) (ix2 p k) = (V c main_v36 : S100352x128.Idx → EReal) (ix2 r k) := by
  obtain ⟨e0, e1, -⟩ := idx0 t
  unfold iblk0
  rw [View.read_apply]
  show (V c main_v36 : S100352x128.Idx → EReal) _ = (V c main_v36 : S100352x128.Idx → EReal) _
  refine congrArg (V c main_v36 : S100352x128.Idx → EReal) ?_
  funext a
  apply Fin.ext
  match a with
  | ⟨0, _⟩ => show win0_0.index t (0 : Fin 2) * 2048 + 1 * p.val = r.val; rw [e0, hr]; omega
  | ⟨1, _⟩ => show win0_0.index t (1 : Fin 2) * 128 + 1 * k.val = k.val; rw [e1]; omega

/-- The weight block at every point is the whole weight matrix. -/
theorem wblk0_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -⟩ := idx0 t
  unfold iblk0
  rw [View.read_apply]
  show (V c main_arg2 : S128x128.Idx → EReal) _ = (V c main_arg2 : S128x128.Idx → EReal) _
  refine congrArg (V c main_arg2 : S128x128.Idx → EReal) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-! ## What each point writes back -/

theorem zero_off0 : (![0, 0] : Fin 2 → Nat) = fun _ => 0 := funext fun a => by fin_cases a <;> rfl

/-- Point t writes back block t of the product of the region-entry arrays. -/
theorem flushed0_eq (c : Dev nD) (t : Fin cfg0.N) :
    (dat0 V c).flushed 2 t = ((cfg0.win 2).blk t).view.read (Elt Ideal) (G0 (V c main_v36) (V c main_arg2)) := by
  show (cfg0.win 2).cut (grid0.coords t) ((dat0 V c).after 2 t) = _
  rw [after0_2]
  unfold out0_2
  rw [View.canon_unit_zero zero_off0]
  simp only [View.ld_unit_zero (S := S2048x128) zero_off0, View.ld_unit_zero (S := S128x128) zero_off0]
  obtain ⟨-, -, -, -, e4, e5, -⟩ := idx0 t
  have hN : cfg0.N = 49 := N_0
  funext j
  obtain ⟨p, q, rfl⟩ : ∃ (p : Fin 2048) (q : Fin 128), j = ix2 p q := ⟨j 0, j 1, eq_ix2 j⟩
  have hr : t.val * 2048 + p.val < 100352 := by have := t.isLt; have := p.isLt; omega
  refine (pay0_apply _ _ p q).trans ?_
  show _ = G0 (V c main_v36) (V c main_arg2) (((cfg0.win 2).blk t).view.emb (ix2 p q))
  refine Eq.trans ?_ (G0_at _ _ _ ⟨t.val * 2048 + p.val, hr⟩ q ?_ ?_).symm
  · exact Finset.sum_congr rfl fun k _ => congrArg₂ (· * ·) (xblk0_apply V c t p k ⟨t.val * 2048 + p.val, hr⟩ rfl) (wblk0_apply V c t k q)
  · show win0_2.index t (0 : Fin 2) * 2048 + 1 * p.val = t.val * 2048 + p.val; rw [e4]; omega
  · show win0_2.index t (1 : Fin 2) * 128 + 1 * q.val = q.val; rw [e5]; omega

/-! ## The blocks cover the array -/

/-- An index of the array is in point t's block iff each coordinate is in the block's range on its axis. -/
theorem mem_blk0 (t : Fin cfg0.N) (i : S100352x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v37).slice (win0_2.rect t)).set ↔ _
  rw [View.set_slice_whole, Rect.mem_set_unit]
  exact Iff.rfl

/-- Row r is covered by point r / 2048, which writes back. -/
theorem cover0 (i : S100352x128.Idx) : ∃ t : Fin cfg0.N, (cfg0.win 2).flush t = true ∧ i ∈ ((cfg0.win 2).blk t).view.set := by
  have hi0 : (i 0).val < 100352 := (i 0).isLt
  have hi1 : (i 1).val < 128 := (i 1).isLt
  have hN : cfg0.N = 49 := N_0
  obtain ⟨t, ht⟩ : ∃ t : Fin cfg0.N, t.val = (i 0).val / 2048 := ⟨⟨(i 0).val / 2048, by rw [hN]; omega⟩, rfl⟩
  obtain ⟨-, -, -, -, e4, e5, hf⟩ := idx0 t
  refine ⟨t, hf, ?_⟩
  rw [mem_blk0]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 128 ≤ (i 1).val ∧ (i 1).val < win0_2.index t (1 : Fin 2) * 128 + 128; rw [e5]; omega

/-! ## The output array after the region -/

/-- The output array ends holding the product of the region-entry arrays. -/
theorem final0_fun (c : Dev nD) : (dat0 V c).arrAt 2 cfg0.N = G0 (V c main_v36) (V c main_arg2) :=
  (dat0 V c).arrAt_eq_of_cover 2 (G0 (V c main_v36) (V c main_arg2)) (fun t _ => flushed0_eq V c t) (cover0)

/-- The product at row r and column f is the sum over k of x[r, k] · w[k, f]. -/
theorem G0_apply (x : S100352x128.Idx → EReal) (w : S128x128.Idx → EReal) (r : Fin 100352) (f : Fin 128) :
    G0 x w (ix2 r f) = ∑ k : Fin 128, x (ix2 r k) * w (ix2 k f) :=
  G0_at x w (ix2 r f) r f rfl rfl

/-- So at row r and column f the output array holds that sum of the region-entry arrays' entries. -/
theorem final0 (c : Dev nD) (r : Fin 100352) (f : Fin 128) :
    (dat0 V c).arrAt 2 cfg0.N (ix2 r f) = G0 (V c main_v36) (V c main_arg2) (ix2 r f) :=
  congrFun (final0_fun V c) (ix2 r f)

end Cert.KernelIdeal.Hand

end
-- ==== Proof.KI.Gather1Pieces.lean ====
import proofs.«101950_j12489764897128_2_alg».proof.Proof.KI.Gather1Runs
import Idealize.ShloMosaic.Lib.Pipeline.Value

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each run's pieces read back as

Both the accumulator and the output block end a point holding the same vector: the block's contribution added to what
the accumulator held before the point — to zeros where the accumulator is reset. -/

theorem hz1 : (![0, 0] : Fin 2 → Nat) = fun _ => 0 := funext fun a => by fin_cases a <;> rfl

set_option maxHeartbeats 400000 in
/-- The accumulator after a reset point. -/
theorem runA1_s (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i) (x0 : Vec F S2048x128 .f32) (x1 : Vec F S1x2048 .i32) (x2 : Vec F S1x2048 .f32) :
    View.canon (kernelRun1_A c i arg2 harg2 arg3 harg3 arg4 harg4 arg5 harg5 arg6 harg6 hc x0 x1 x2).2.1 = k1_pay2 i x1 x2 x0 (k1_pay1 (F := F)) := by
  unfold kernelRun1_A
  dsimp only
  try sl_unfold_words
  rw [View.canon_cons_unit_zero (S := S2048x128) hz1]
  simp only [View.readCov_cons_toLoadRect, View.readAt_eq_ld, harg2.read_unread, harg3.read_unread, harg4.read_unread, harg6.read_unread,
    View.ld_unit_zero (S := S2048x128) hz1, View.ld_unit_zero (S := S1x2048) hz1]

set_option maxHeartbeats 400000 in
/-- The output block after a reset point. -/
theorem runA1_o (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : cond1 i) (x0 : Vec F S2048x128 .f32) (x1 : Vec F S1x2048 .i32) (x2 : Vec F S1x2048 .f32) :
    View.canon (kernelRun1_A c i arg2 harg2 arg3 harg3 arg4 harg4 arg5 harg5 arg6 harg6 hc x0 x1 x2).1 = k1_pay2 i x1 x2 x0 (k1_pay1 (F := F)) := by
  unfold kernelRun1_A
  dsimp only
  try sl_unfold_words
  rw [View.canon_unit_zero (S := S2048x128) hz1]
  simp only [View.readCov_cons_toLoadRect, View.readAt_eq_ld, harg2.read_unread, harg3.read_unread, harg4.read_unread, harg6.read_unread,
    View.ld_unit_zero (S := S2048x128) hz1, View.ld_unit_zero (S := S1x2048) hz1]

set_option maxHeartbeats 400000 in
/-- The accumulator after any other point, over its contents `xs` before the point. -/
theorem runB1_s (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i) (x0 : Vec F S2048x128 .f32) (x1 : Vec F S1x2048 .i32) (x2 : Vec F S1x2048 .f32) (xs : Vec F S2048x128 .f32) :
    View.canon (kernelRun1_B c i arg2 harg2 arg3 harg3 arg4 harg4 arg5 harg5 arg6 harg6 hc x0 x1 x2 xs).2.1 = k1_pay2 i x1 x2 x0 xs := by
  unfold kernelRun1_B
  dsimp only
  try sl_unfold_words
  rw [View.canon_cons_unit_zero (S := S2048x128) hz1]
  simp only [View.readCov_cons_toLoadRect, View.readAt_eq_ld, harg2.read_unread, harg3.read_unread, harg4.read_unread, harg6.read_unread,
    View.ld_unit_zero (S := S2048x128) hz1, View.ld_unit_zero (S := S1x2048) hz1]

set_option maxHeartbeats 400000 in
/-- The output block after any other point. -/
theorem runB1_o (c : Dev nD) (i : grid1.Coords) (arg2 : Memref sig .tc .vmem S2048x128 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc : ¬cond1 i) (x0 : Vec F S2048x128 .f32) (x1 : Vec F S1x2048 .i32) (x2 : Vec F S1x2048 .f32) (xs : Vec F S2048x128 .f32) :
    View.canon (kernelRun1_B c i arg2 harg2 arg3 harg3 arg4 harg4 arg5 harg5 arg6 harg6 hc x0 x1 x2 xs).1 = k1_pay2 i x1 x2 x0 xs := by
  unfold kernelRun1_B
  dsimp only
  try sl_unfold_words
  rw [View.canon_unit_zero (S := S2048x128) hz1]
  simp only [View.readCov_cons_toLoadRect, View.readAt_eq_ld, harg2.read_unread, harg3.read_unread, harg4.read_unread, harg6.read_unread,
    View.ld_unit_zero (S := S2048x128) hz1, View.ld_unit_zero (S := S1x2048) hz1]

end Cert.KernelIdeal.Hand

end
-- ==== Proof.KI.Gather1Pay.lean ====
import proofs.«101950_j12489764897128_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand
open Cert.KernelIdeal Cert.KernelIdeal.Gen
open Idealize.ShloMosaic Idealize.ShloMosaic.TcCoe Idealize.ShloMosaic.ValueIdx

/-! # Region 1: the body's arithmetic at one entry, over the extended reals

Row `r` of the block is an edge, column `f` a feature. The entry the body stores is what the accumulator held plus the sum,
over the 2048 nodes `k` of the node block, of (the edge's weight if the node's number is the edge's source word, else 0)
times the node's feature. -/

/-- The product with the first operand transposed, into zeros, at an entry: the sum over the shared leading coordinate. -/
theorem matmulT1_apply {φ₁ φ₂ : FTy} (A : FVec Ideal S2048x2048 φ₁) (B : FVec Ideal S2048x128 φ₂) (r : Fin 2048) (f : Fin 128) :
    matmul dot_S2048x2048_S2048x128_S2048x128_0_0_1_1_n_n none A B (constant (F := Ideal) S2048x128 .f32 0x00000000#32) (ix2 r f)
      = ∑ k : Fin 2048, A (ix2 k r) * B (ix2 k f) := by
  show FloatOps.matmul _ none A B _ (ix2 r f) = _
  rw [Ideal.matmul_constant_zero_apply,
    ← Equiv.sum_comp (contrEquiv1 dot_S2048x2048_S2048x128_S2048x128_0_0_1_1_n_n 2048 rfl rfl).symm]
  refine Finset.sum_congr rfl fun k _ => ?_
  have c2 := contrEquiv1_symm_val dot_S2048x2048_S2048x128_S2048x128_0_0_1_1_n_n 2048 rfl rfl k
  have l2 : dot_S2048x2048_S2048x128_S2048x128_0_0_1_1_n_n.lhsIdx (ix2 r f) ((contrEquiv1 _ 2048 rfl rfl).symm k) = ix2 k r := by
    funext ax; apply Fin.ext
    match ax with
    | ⟨0, _⟩ => simp [DotDims.lhsIdx, dot_S2048x2048_S2048x128_S2048x128_0_0_1_1_n_n]; exact c2
    | ⟨1, _⟩ => simp [DotDims.lhsIdx, dot_S2048x2048_S2048x128_S2048x128_0_0_1_1_n_n]; rfl
  have r2 : dot_S2048x2048_S2048x128_S2048x128_0_0_1_1_n_n.rhsIdx (ix2 r f) ((contrEquiv1 _ 2048 rfl rfl).symm k) = ix2 k f := by
    funext ax; apply Fin.ext
    match ax with
    | ⟨0, _⟩ => simp [DotDims.rhsIdx, dot_S2048x2048_S2048x128_S2048x128_0_0_1_1_n_n]; exact c2
    | ⟨1, _⟩ => simp [DotDims.rhsIdx, dot_S2048x2048_S2048x128_S2048x128_0_0_1_1_n_n]; rfl
  rw [l2, r2]

/-- A row vector broadcast down the rows reads its own column. -/
theorem bcastRow1_apply {α : Type} (x : S1x2048.Idx → α) (k r : Fin 2048) :
    broadcastTo S2048x2048 x broadcasts_S1x2048_S2048x2048 (ix2 k r) = x (ix2 0 r) :=
  broadcastTo_apply x broadcasts_S1x2048_S2048x2048 (ix2 k r) (ix2 0 r) fun a => by
    match a with
    | ⟨0, _⟩ => rfl
    | ⟨1, _⟩ => rfl

set_option maxHeartbeats 400000 in
/-- The stored vector at an entry. -/
theorem pay2_1_apply (i : grid1.Coords) (x1 : S1x2048.Idx → BitVec 32) (x2 : S1x2048.Idx → EReal) (x0 xs : S2048x128.Idx → EReal)
    (r : Fin 2048) (f : Fin 128) :
    k1_pay2 (F := Ideal) i x1 x2 x0 xs (ix2 r f)
      = xs (ix2 r f) + ∑ k : Fin 2048,
          Scalar.select (Scalar.cmpi .eq (BitVec.ofNat 32 (i 1).val * 2048#32 + BitVec.ofNat 32 k.val) (x1 (ix2 0 r))) (x2 (ix2 0 r)) (0 : EReal)
            * x0 (ix2 k f) := by
  unfold k1_pay2
  simp only [shapeCast_self]
  refine (addf_apply _ _ _).trans ?_
  refine congrArg (xs (ix2 r f) + ·) ?_
  refine (matmulT1_apply _ _ r f).trans ?_
  refine Finset.sum_congr rfl fun k _ => ?_
  refine congrArg₂ (· * ·) ?_ rfl
  show Scalar.select (IntOp.cmpi .eq (IntOp.addi (Scalar.muli (BitVec.ofNat 32 (i 1).val) 2048#32) (iota .tc S2048x2048 32 [0] iota_S2048x2048_d0_w32 (ix2 k r)))
      (broadcastTo S2048x2048 x1 broadcasts_S1x2048_S2048x2048 (ix2 k r)))
      (broadcastTo S2048x2048 x2 broadcasts_S1x2048_S2048x2048 (ix2 k r)) (Ideal.ofBits .f32 0x00000000#32) = _
  rw [bcastRow1_apply, bcastRow1_apply, iota_single_apply, Ideal.ofBits_zero_f32]
  rfl

/-- The reset value is zero everywhere. -/
theorem pay1_1_apply (j : S2048x128.Idx) : k1_pay1 (F := Ideal) j = 0 := by
  unfold k1_pay1
  simp only [shapeCast_self]
  exact Ideal.ofBits_zero_f32

end Cert.KernelIdeal.Hand

end
-- ==== Proof.KI.GatherMath.lean ====
import Idealize.ShloMosaic.Lib.ValueIdx
import Idealize.ShloMosaic.PureOps.Ideal.Laws

noncomputable section

open scoped BigOperators

namespace Cert.KernelIdeal.Hand
open Idealize.ShloMosaic Idealize.ShloMosaic.ValueIdx

/-! # The gather as a sum that keeps one term

An edge's source word `w` is compared with every node number; the weight `a` is kept where they agree and zero
elsewhere, and the products with the nodes' features are summed. The 100352 node numbers come in 49 blocks of 2048.
Over the extended reals `0 * x = 0` and `0 + x = x`, so each block's sum is the one matching term if the word
falls in the block and zero if not, and the running total after `m` blocks is the matching term if the word is below
`2048 m`. -/

/-- A select on a word comparison is the `if` on the words' equality. -/
theorem select_cmpi_eq {α : Type} (x w : BitVec 32) (a b : α) :
    Scalar.select (Scalar.cmpi .eq x w) a b = if x = w then a else b := by
  unfold Scalar.select
  by_cases h : x = w
  · rw [if_pos h]
    subst h
    rw [if_pos]
    show BitVec.ofBool (x == x) = 1#1
    simp
  · rw [if_neg h, if_neg]
    intro hc
    apply h
    have hc' : BitVec.ofBool (x == w) = 1#1 := hc
    cases hb : (x == w) with
    | true => exact eq_of_beq hb
    | false => rw [hb] at hc'; exact absurd hc' (by decide)

/-- The number of node `k` of block `n`, computed in 32-bit words, is `2048 n + k`. -/
theorem nodeWord_toNat (n : ℕ) (hn : n < 49) (k : Fin 2048) :
    (BitVec.ofNat 32 n * 2048#32 + BitVec.ofNat 32 k.val).toNat = n * 2048 + k.val := by
  simp only [BitVec.toNat_add, BitVec.toNat_mul, BitVec.toNat_ofNat, Nat.reducePow]
  have := k.isLt
  omega

/-- One block's sum: the matching term if the word names a node of the block, else zero. -/
theorem gatherBlock_sum (n : ℕ) (hn : n < 49) (w : BitVec 32) (a : EReal) (yb : Fin 2048 → EReal) :
    ∑ k : Fin 2048, Scalar.select (Scalar.cmpi .eq (BitVec.ofNat 32 n * 2048#32 + BitVec.ofNat 32 k.val) w) a (0 : EReal) * yb k
      = if h : n * 2048 ≤ w.toNat ∧ w.toNat < n * 2048 + 2048 then a * yb ⟨w.toNat - n * 2048, by omega⟩ else 0 := by
  have hterm : ∀ k : Fin 2048,
      Scalar.select (Scalar.cmpi .eq (BitVec.ofNat 32 n * 2048#32 + BitVec.ofNat 32 k.val) w) a (0 : EReal) * yb k
        = if n * 2048 + k.val = w.toNat then a * yb k else 0 := by
    intro k
    rw [select_cmpi_eq]
    have hx := nodeWord_toNat n hn k
    by_cases he : n * 2048 + k.val = w.toNat
    · rw [if_pos he, if_pos (BitVec.eq_of_toNat_eq (hx.trans he))]
    · rw [if_neg he, if_neg (fun e => he (by rw [← e, hx])), zero_mul]
  rw [Finset.sum_congr rfl fun k _ => hterm k]
  by_cases h : n * 2048 ≤ w.toNat ∧ w.toNat < n * 2048 + 2048
  · rw [dif_pos h]
    rw [Finset.sum_eq_single (⟨w.toNat - n * 2048, by omega⟩ : Fin 2048)]
    · rw [if_pos (by show n * 2048 + (w.toNat - n * 2048) = w.toNat; omega)]
    · intro k _ hk
      rw [if_neg]
      intro e
      exact hk (Fin.ext (by show k.val = w.toNat - n * 2048; omega))
    · intro h'
      exact absurd (Finset.mem_univ _) h'
  · rw [dif_neg h]
    refine Finset.sum_eq_zero fun k _ => ?_
    rw [if_neg]
    intro e
    exact h (by have := k.isLt; omega)

/-- The running total after `m` node blocks: the matching term if the word is below `2048 m` (and names a node), else zero. -/
def gsel (w : BitVec 32) (a : EReal) (Y : Fin 100352 → EReal) (m : ℕ) : EReal :=
  if h : w.toNat < m * 2048 ∧ w.toNat < 100352 then a * Y ⟨w.toNat, h.2⟩ else 0

theorem gsel_zero (w : BitVec 32) (a : EReal) (Y : Fin 100352 → EReal) : gsel w a Y 0 = 0 := by
  unfold gsel
  rw [dif_neg (by omega)]

/-- Adding block `m`'s sum to the total after `m` blocks gives the total after `m + 1`. -/
theorem gsel_step (w : BitVec 32) (a : EReal) (Y : Fin 100352 → EReal) (m : ℕ) (hm : m < 49)
    (yb : Fin 2048 → EReal) (hyb : ∀ k : Fin 2048, yb k = Y ⟨m * 2048 + k.val, by have := k.isLt; omega⟩) :
    gsel w a Y m
        + ∑ k : Fin 2048, Scalar.select (Scalar.cmpi .eq (BitVec.ofNat 32 m * 2048#32 + BitVec.ofNat 32 k.val) w) a (0 : EReal) * yb k
      = gsel w a Y (m + 1) := by
  rw [gatherBlock_sum m hm w a yb]
  unfold gsel
  by_cases h1 : w.toNat < m * 2048
  · rw [dif_pos (show w.toNat < m * 2048 ∧ w.toNat < 100352 by omega), dif_neg (by omega),
      dif_pos (show w.toNat < (m + 1) * 2048 ∧ w.toNat < 100352 by omega), add_zero]
  · rw [dif_neg (show ¬(w.toNat < m * 2048 ∧ w.toNat < 100352) by omega), zero_add]
    by_cases h2 : w.toNat < (m + 1) * 2048
    · rw [dif_pos (show m * 2048 ≤ w.toNat ∧ w.toNat < m * 2048 + 2048 by omega),
        dif_pos (show w.toNat < (m + 1) * 2048 ∧ w.toNat < 100352 by omega), hyb]
      refine congrArg (fun q : Fin 100352 => a * Y q) (Fin.ext ?_)
      show m * 2048 + (w.toNat - m * 2048) = w.toNat
      omega
    · rw [dif_neg (show ¬(m * 2048 ≤ w.toNat ∧ w.toNat < m * 2048 + 2048) by omega),
        dif_neg (show ¬(w.toNat < (m + 1) * 2048 ∧ w.toNat < 100352) by omega)]

/-- The first block's sum, onto zero, is the total after one block. -/
theorem gsel_first (w : BitVec 32) (a : EReal) (Y : Fin 100352 → EReal)
    (yb : Fin 2048 → EReal) (hyb : ∀ k : Fin 2048, yb k = Y ⟨0 * 2048 + k.val, by have := k.isLt; omega⟩) :
    (0 : EReal)
        + ∑ k : Fin 2048, Scalar.select (Scalar.cmpi .eq (BitVec.ofNat 32 0 * 2048#32 + BitVec.ofNat 32 k.val) w) a (0 : EReal) * yb k
      = gsel w a Y (0 + 1) := by
  have h := gsel_step w a Y 0 (by omega) yb hyb
  rw [gsel_zero] at h
  exact h

/-- After all 49 blocks: the matching term if the word names any node. -/
theorem gsel_last (w : BitVec 32) (a : EReal) (Y : Fin 100352 → EReal) :
    gsel w a Y 49 = if h : w.toNat < 100352 then a * Y ⟨w.toNat, h⟩ else 0 := by
  unfold gsel
  by_cases h : w.toNat < 100352
  · rw [dif_pos (show w.toNat < 49 * 2048 ∧ w.toNat < 100352 by omega), dif_pos h]
  · rw [dif_neg (show ¬(w.toNat < 49 * 2048 ∧ w.toNat < 100352) by omega), dif_neg h]

end Cert.KernelIdeal.Hand

end
-- ==== Proof.KI.Gather1Val.lean ====
import proofs.«101950_j12489764897128_2_alg».proof.Proof.KI.Gather1
import proofs.«101950_j12489764897128_2_alg».proof.Proof.KI.Gather1Pieces
import proofs.«101950_j12489764897128_2_alg».proof.Proof.KI.Gather1Pay
import proofs.«101950_j12489764897128_2_alg».proof.Proof.KI.GatherMath
import Idealize.ShloMosaic.Lib.Pipeline.Value

set_option maxRecDepth 16384

noncomputable section

open scoped BigOperators

namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Region 1: the message array after the region

Row `e` of the output is edge `e`'s message: the edge's weight times the features of the node its source word names —
zero if the word names no node. The region computes block `e / 2048` of it over 49 consecutive points, one per block of
2048 nodes, and writes it back after the last. -/

/-- The message array as a function of the feature array `y`, the source words `src` and the weights `nrm`. -/
def G1 (y : S100352x128.Idx → EReal) (src : S1x1701888.Idx → BitVec 32) (nrm : S1x1701888.Idx → EReal) : S1701888x128.Idx → EReal := fun i =>
  if h : (src (ix2 0 (i 0 : Fin 1701888))).toNat < 100352 then
    nrm (ix2 0 (i 0 : Fin 1701888)) * y (ix2 ⟨(src (ix2 0 (i 0 : Fin 1701888))).toNat, h⟩ (i 1 : Fin 128))
  else 0

/-- Where the source word is a node's number the message is the weight times that node's features. -/
theorem G1_apply (y : S100352x128.Idx → EReal) (src : S1x1701888.Idx → BitVec 32) (nrm : S1x1701888.Idx → EReal)
    (e : Fin 1701888) (f : Fin 128) (s : Fin 100352) (hs : src (ix2 0 e) = BitVec.ofNat 32 s.val) :
    G1 y src nrm (ix2 e f) = nrm (ix2 0 e) * y (ix2 s f) := by
  have hn : (src (ix2 0 e)).toNat = s.val := by
    rw [hs, BitVec.toNat_ofNat]
    exact Nat.mod_eq_of_lt (by have := s.isLt; omega)
  show (if h : (src (ix2 0 e)).toNat < 100352 then nrm (ix2 0 e) * y (ix2 ⟨(src (ix2 0 e)).toNat, h⟩ f) else 0) = _
  rw [dif_pos (by rw [hn]; exact s.isLt)]
  exact congrArg (fun q : Fin 100352 => nrm (ix2 0 e) * y (ix2 q f)) (Fin.ext hn)

/-! ## The arrays and the blocks as plainly typed functions -/

/-- The feature array, the source words and the weights as the region finds them. -/
def feat1 (c : Dev nD) : S100352x128.Idx → EReal := V c main_v37
def srcw1 (c : Dev nD) : S1x1701888.Idx → BitVec 32 := V c main_v33
def nrm1 (c : Dev nD) : S1x1701888.Idx → EReal := V c main_v35
/-- The three input blocks at point `t`. -/
def blkFeat1 (c : Dev nD) (t : Fin cfg1.N) : S2048x128.Idx → EReal := iblk1 V c 0 t
def blkSrc1 (c : Dev nD) (t : Fin cfg1.N) : S1x2048.Idx → BitVec 32 := iblk1 V c 1 t
def blkNrm1 (c : Dev nD) (t : Fin cfg1.N) : S1x2048.Idx → EReal := iblk1 V c 2 t

/-! ## The grid's coordinates and the windows' block indices, by arithmetic -/

theorem N1v : cfg1.N = 40719 := N_1

/-- The outer coordinate of point `t` is `t / 49`. -/
theorem coord_outer1 (t : Fin cfg1.N) : ((grid1.coords t) 0).val = t.val / 49 := by
  show t.val / grid1.stride 0 % 831 = t.val / 49
  rw [show grid1.stride 0 = 49 from by decide]
  exact Nat.mod_eq_of_lt (by have := t.isLt; have := N1v; omega)

/-- The feature window's block index: the inner coordinate on the rows. -/
theorem idx1_0 (t : Fin cfg1.N) : win1_0.index t = ![t.val % 49, 0] := by
  show ![(BitVec.ofNat 32 ((grid1.coords t) 1).val).toNat, 0] = _
  rw [coord_inner1 t, BitVec.toNat_ofNat, Nat.mod_eq_of_lt (by have := Nat.mod_lt t.val (show 0 < 49 by omega); omega)]

/-- The source window's, the weight window's and the output window's: the outer coordinate on the edges. -/
theorem idx1_1 (t : Fin cfg1.N) : win1_1.index t = ![0, t.val / 49] := by
  show ![0, (BitVec.ofNat 32 ((grid1.coords t) 0).val).toNat] = _
  rw [coord_outer1 t, BitVec.toNat_ofNat, Nat.mod_eq_of_lt (by have := t.isLt; have := N1v; omega)]

theorem idx1_2 (t : Fin cfg1.N) : win1_2.index t = ![0, t.val / 49] := by
  show ![0, (BitVec.ofNat 32 ((grid1.coords t) 0).val).toNat] = _
  rw [coord_outer1 t, BitVec.toNat_ofNat, Nat.mod_eq_of_lt (by have := t.isLt; have := N1v; omega)]

theorem idx1_3 (t : Fin cfg1.N) : win1_3.index t = ![t.val / 49, 0] := by
  show ![(BitVec.ofNat 32 ((grid1.coords t) 0).val).toNat, 0] = _
  rw [coord_outer1 t, BitVec.toNat_ofNat, Nat.mod_eq_of_lt (by have := t.isLt; have := N1v; omega)]

/-- The output block is written back after the last node block of each edge block. -/
theorem flush1_3' (t : Fin cfg1.N) : (cfg1.win 3).flush t = true ↔ t.val % 49 = 48 := by
  have hN := N1v
  have ht := t.isLt
  have hG : grid1.N = 40719 := N_1
  show (true && (decide (t.val + 1 = grid1.N) || decide (∃ h : t.val + 1 < grid1.N, win1_3.index ⟨t.val + 1, h⟩ ≠ win1_3.index t))) = true ↔ _
  rw [Bool.true_and, Bool.or_eq_true, decide_eq_true_eq, decide_eq_true_eq]
  constructor
  · rintro (h | ⟨h, hne⟩)
    · omega
    · by_contra h48
      apply hne
      rw [idx1_3, idx1_3]
      show ![(t.val + 1) / 49, 0] = ![t.val / 49, 0]
      rw [show (t.val + 1) / 49 = t.val / 49 from by omega]
  · intro h48
    by_cases hl : t.val + 1 = grid1.N
    · exact .inl hl
    · refine .inr ⟨by omega, fun e => ?_⟩
      rw [idx1_3, idx1_3] at e
      have e1 : (t.val + 1) / 49 = t.val / 49 := congrFun e 0
      omega

/-! ## The input blocks, read off the arrays -/

/-- Row `k` of the feature block at point `t` is row `2048 (t mod 49) + k` of the feature array. -/
theorem blkFeat1_apply (c : Dev nD) (t : Fin cfg1.N) (k : Fin 2048) (f : Fin 128) (q : Fin 100352)
    (hq : q.val = t.val % 49 * 2048 + k.val) :
    blkFeat1 V c t (ix2 k f) = feat1 V c (ix2 q f) := by
  unfold blkFeat1 feat1 iblk1
  rw [View.read_apply]
  show (V c main_v37 : S100352x128.Idx → EReal) _ = (V c main_v37 : S100352x128.Idx → EReal) _
  refine congrArg (V c main_v37 : S100352x128.Idx → EReal) ?_
  funext a
  apply Fin.ext
  match a with
  | ⟨0, _⟩ => show win1_0.index t 0 * 2048 + 1 * k.val = q.val; rw [idx1_0 t, hq]; show t.val % 49 * 2048 + 1 * k.val = _; omega
  | ⟨1, _⟩ => show win1_0.index t 1 * 128 + 1 * f.val = f.val; rw [idx1_0 t]; show 0 * 128 + 1 * f.val = f.val; omega

/-- Entry `r` of the source block at point `t` is edge `2048 (t / 49) + r`'s word. -/
theorem blkSrc1_apply (c : Dev nD) (t : Fin cfg1.N) (r : Fin 2048) (e : Fin 1701888)
    (he : e.val = t.val / 49 * 2048 + r.val) :
    blkSrc1 V c t (ix2 0 r) = srcw1 V c (ix2 0 e) := by
  unfold blkSrc1 srcw1 iblk1
  rw [View.read_apply]
  show (V c main_v33 : S1x1701888.Idx → BitVec 32) _ = (V c main_v33 : S1x1701888.Idx → BitVec 32) _
  refine congrArg (V c main_v33 : S1x1701888.Idx → BitVec 32) ?_
  funext a
  apply Fin.ext
  match a with
  | ⟨0, _⟩ => show win1_1.index t 0 * 1 + 1 * 0 = 0; rw [idx1_1 t]; show 0 * 1 + 1 * 0 = 0; omega
  | ⟨1, _⟩ => show win1_1.index t 1 * 2048 + 1 * r.val = e.val; rw [idx1_1 t, he]; show t.val / 49 * 2048 + 1 * r.val = _; omega

/-- Likewise the weight block. -/
theorem blkNrm1_apply (c : Dev nD) (t : Fin cfg1.N) (r : Fin 2048) (e : Fin 1701888)
    (he : e.val = t.val / 49 * 2048 + r.val) :
    blkNrm1 V c t (ix2 0 r) = nrm1 V c (ix2 0 e) := by
  unfold blkNrm1 nrm1 iblk1
  rw [View.read_apply]
  show (V c main_v35 : S1x1701888.Idx → EReal) _ = (V c main_v35 : S1x1701888.Idx → EReal) _
  refine congrArg (V c main_v35 : S1x1701888.Idx → EReal) ?_
  funext a
  apply Fin.ext
  match a with
  | ⟨0, _⟩ => show win1_2.index t 0 * 1 + 1 * 0 = 0; rw [idx1_2 t]; show 0 * 1 + 1 * 0 = 0; omega
  | ⟨1, _⟩ => show win1_2.index t 1 * 2048 + 1 * r.val = e.val; rw [idx1_2 t, he]; show t.val / 49 * 2048 + 1 * r.val = _; omega

/-! ## One point's step at an entry -/

/-- What a point stores at entry `(r, f)`, over the accumulator's contents `xs` before it: `xs` there plus the sum over the
    point's node block. -/
theorem step1 (c : Dev nD) (t : Fin cfg1.N) (xs : S2048x128.Idx → EReal) (r : Fin 2048) (f : Fin 128) (e : Fin 1701888)
    (he : e.val = t.val / 49 * 2048 + r.val) :
    k1_pay2 (F := Ideal) (grid1.coords t) (blkSrc1 V c t) (blkNrm1 V c t) (blkFeat1 V c t) xs (ix2 r f)
      = xs (ix2 r f) + ∑ k : Fin 2048,
          Scalar.select (Scalar.cmpi .eq (BitVec.ofNat 32 (t.val % 49) * 2048#32 + BitVec.ofNat 32 k.val) (srcw1 V c (ix2 0 e))) (nrm1 V c (ix2 0 e)) (0 : EReal)
            * blkFeat1 V c t (ix2 k f) := by
  refine (pay2_1_apply (grid1.coords t) (blkSrc1 V c t) (blkNrm1 V c t) (blkFeat1 V c t) xs r f).trans ?_
  rw [blkSrc1_apply V c t r e he, blkNrm1_apply V c t r e he, coord_inner1 t]

set_option maxHeartbeats 400000 in
/-- Both components of a point's result are that stored vector. -/
theorem ptA1_eq (c : Dev nD) (t : Fin cfg1.N) (h : t.val % 49 = 0) :
    ptA1 V c t h = (k1_pay2 (F := Ideal) (grid1.coords t) (blkSrc1 V c t) (blkNrm1 V c t) (blkFeat1 V c t) (k1_pay1 (F := Ideal)), k1_pay2 (F := Ideal) (grid1.coords t) (blkSrc1 V c t) (blkNrm1 V c t) (blkFeat1 V c t) (k1_pay1 (F := Ideal))) := by
  unfold ptA1 blkSrc1 blkNrm1 blkFeat1
  exact congrArg₂ Prod.mk
    (runA1_o (F := Ideal) c (grid1.coords t) (ms1_0 t) (hs1_0 t) (ms1_1 t) (hs1_1 t) (ms1_2 t) (hs1_2 t) (ms1_3 t) (hs1_3 t) scM1 (Memref.isWhole_whole _) ((hcond1 t).mpr h) (iblk1 V c 0 t) (iblk1 V c 1 t) (iblk1 V c 2 t))
    (runA1_s (F := Ideal) c (grid1.coords t) (ms1_0 t) (hs1_0 t) (ms1_1 t) (hs1_1 t) (ms1_2 t) (hs1_2 t) (ms1_3 t) (hs1_3 t) scM1 (Memref.isWhole_whole _) ((hcond1 t).mpr h) (iblk1 V c 0 t) (iblk1 V c 1 t) (iblk1 V c 2 t))

set_option maxHeartbeats 400000 in
theorem ptB1_eq (c : Dev nD) (t : Fin cfg1.N) (h : ¬t.val % 49 = 0) (xs : S2048x128.Idx → EReal) :
    ptB1 V c t h xs = (k1_pay2 (F := Ideal) (grid1.coords t) (blkSrc1 V c t) (blkNrm1 V c t) (blkFeat1 V c t) xs, k1_pay2 (F := Ideal) (grid1.coords t) (blkSrc1 V c t) (blkNrm1 V c t) (blkFeat1 V c t) xs) := by
  unfold ptB1 blkSrc1 blkNrm1 blkFeat1
  exact congrArg₂ Prod.mk
    (runB1_o (F := Ideal) c (grid1.coords t) (ms1_0 t) (hs1_0 t) (ms1_1 t) (hs1_1 t) (ms1_2 t) (hs1_2 t) (ms1_3 t) (hs1_3 t) scM1 (Memref.isWhole_whole _) (fun hc => h ((hcond1 t).mp hc)) (iblk1 V c 0 t) (iblk1 V c 1 t) (iblk1 V c 2 t) xs)
    (runB1_s (F := Ideal) c (grid1.coords t) (ms1_0 t) (hs1_0 t) (ms1_1 t) (hs1_1 t) (ms1_2 t) (hs1_2 t) (ms1_3 t) (hs1_3 t) scM1 (Memref.isWhole_whole _) (fun hc => h ((hcond1 t).mp hc)) (iblk1 V c 0 t) (iblk1 V c 1 t) (iblk1 V c 2 t) xs)

/-! ## The accumulation at an entry -/

/-- A point where the accumulator is reset, at an entry: zero plus the first node block's sum. -/
theorem resetAt1 (c : Dev nD) (t : Fin cfg1.N) (h0 : t.val % 49 = 0) (r : Fin 2048) (f : Fin 128) (e : Fin 1701888)
    (he : e.val = t.val / 49 * 2048 + r.val) :
    k1_pay2 (F := Ideal) (grid1.coords t) (blkSrc1 V c t) (blkNrm1 V c t) (blkFeat1 V c t) (k1_pay1 (F := Ideal)) (ix2 r f) = gsel (srcw1 V c (ix2 0 e)) (nrm1 V c (ix2 0 e)) (fun q : Fin 100352 => feat1 V c (ix2 q f)) (t.val % 49 + 1) := by
  rw [step1 V c t (k1_pay1 (F := Ideal)) r f e he, pay1_1_apply, h0]
  exact gsel_first (srcw1 V c (ix2 0 e)) (nrm1 V c (ix2 0 e)) (fun q : Fin 100352 => feat1 V c (ix2 q f)) (fun k : Fin 2048 => blkFeat1 V c t (ix2 k f))
    (fun k => blkFeat1_apply V c t k f ⟨0 * 2048 + k.val, by have := k.isLt; omega⟩ (by show 0 * 2048 + k.val = t.val % 49 * 2048 + k.val; rw [h0]))

/-- Any other point, at an entry, over an accumulator holding the total after the earlier node blocks. -/
theorem addAt1 (c : Dev nD) (t : Fin cfg1.N) (h0 : ¬t.val % 49 = 0) (xs : S2048x128.Idx → EReal) (r : Fin 2048) (f : Fin 128) (e : Fin 1701888)
    (he : e.val = t.val / 49 * 2048 + r.val)
    (hxs : xs (ix2 r f) = gsel (srcw1 V c (ix2 0 e)) (nrm1 V c (ix2 0 e)) (fun q : Fin 100352 => feat1 V c (ix2 q f)) (t.val % 49)) :
    k1_pay2 (F := Ideal) (grid1.coords t) (blkSrc1 V c t) (blkNrm1 V c t) (blkFeat1 V c t) xs (ix2 r f) = gsel (srcw1 V c (ix2 0 e)) (nrm1 V c (ix2 0 e)) (fun q : Fin 100352 => feat1 V c (ix2 q f)) (t.val % 49 + 1) := by
  rw [step1 V c t xs r f e he, hxs]
  exact gsel_step (srcw1 V c (ix2 0 e)) (nrm1 V c (ix2 0 e)) (fun q : Fin 100352 => feat1 V c (ix2 q f)) (t.val % 49) (Nat.mod_lt _ (by omega)) (fun k : Fin 2048 => blkFeat1 V c t (ix2 k f))
    (fun k => blkFeat1_apply V c t k f ⟨t.val % 49 * 2048 + k.val, by have := k.isLt; have := Nat.mod_lt t.val (show 0 < 49 by omega); omega⟩ rfl)

/-- After point `n`, at entry `(r, f)` of edge block `n / 49`: the matching term if the edge's source word is below
    `2048 (n mod 49 + 1)`, else zero — in the output block and in the accumulator alike. -/
theorem acc1_inv (c : Dev nD) (r : Fin 2048) (f : Fin 128) :
    ∀ (n : ℕ) (h : n < cfg1.N) (e : Fin 1701888), e.val = n / 49 * 2048 + r.val →
      (outsAt1 V c n h).1 (ix2 r f) = gsel (srcw1 V c (ix2 0 e)) (nrm1 V c (ix2 0 e)) (fun q : Fin 100352 => feat1 V c (ix2 q f)) (n % 49 + 1)
        ∧ (outsAt1 V c n h).2 (ix2 r f) = gsel (srcw1 V c (ix2 0 e)) (nrm1 V c (ix2 0 e)) (fun q : Fin 100352 => feat1 V c (ix2 q f)) (n % 49 + 1) := by
  intro n
  induction n with
  | zero =>
    intro h e he
    have key := resetAt1 V c ⟨0, h⟩ (Nat.zero_mod _) r f e he
    have hA : outsAt1 V c 0 h = _ := (outsAt1_A V c ⟨0, h⟩ (Nat.zero_mod _)).trans (ptA1_eq V c ⟨0, h⟩ (Nat.zero_mod _))
    rw [hA]
    exact ⟨key, key⟩
  | succ n ih =>
    intro h e he
    by_cases h0 : (n + 1) % 49 = 0
    · have key := resetAt1 V c ⟨n + 1, h⟩ h0 r f e he
      have hA : outsAt1 V c (n + 1) h = _ := (outsAt1_A V c ⟨n + 1, h⟩ h0).trans (ptA1_eq V c ⟨n + 1, h⟩ h0)
      rw [hA]
      exact ⟨key, key⟩
    · have hprev := (ih (Nat.lt_of_succ_lt h) e (by omega)).2
      have hxs : (outsAt1 V c (n + 1 - 1) (Nat.lt_of_le_of_lt (Nat.sub_le _ _) h)).2 (ix2 r f)
          = gsel (srcw1 V c (ix2 0 e)) (nrm1 V c (ix2 0 e)) (fun q : Fin 100352 => feat1 V c (ix2 q f)) ((n + 1) % 49) := by
        rw [show (n + 1) % 49 = n % 49 + 1 from by omega]
        exact hprev
      have key := addAt1 V c ⟨n + 1, h⟩ h0 (outsAt1 V c (n + 1 - 1) (Nat.lt_of_le_of_lt (Nat.sub_le _ _) h)).2 r f e he hxs
      have hB : outsAt1 V c (n + 1) h = _ := (outsAt1_B V c ⟨n + 1, h⟩ h0).trans (ptB1_eq V c ⟨n + 1, h⟩ h0 _)
      rw [hB]
      exact ⟨key, key⟩

/-! ## What is written back, the cover, the array -/

/-- An element of the output block at point `t` sits at row `2048 (t / 49) + r`. -/
theorem emb1_3 (t : Fin cfg1.N) (r : Fin 2048) (f : Fin 128) (e : Fin 1701888) (he : e.val = t.val / 49 * 2048 + r.val) :
    ((cfg1.win 3).blk t).view.emb (ix2 r f) = (ix2 e f : S1701888x128.Idx) := by
  funext a
  apply Fin.ext
  match a with
  | ⟨0, _⟩ => show win1_3.index t 0 * 2048 + 1 * r.val = e.val; rw [idx1_3 t, he]; show t.val / 49 * 2048 + 1 * r.val = _; omega
  | ⟨1, _⟩ => show win1_3.index t 1 * 128 + 1 * f.val = f.val; rw [idx1_3 t]; show 0 * 128 + 1 * f.val = f.val; omega

/-- What a point that writes back writes is its block of the message array. -/
theorem flushed1_eq (c : Dev nD) (t : Fin cfg1.N) (hf : (cfg1.win 3).flush t = true) :
    (dat1 V c).flushed 3 t = ((cfg1.win 3).blk t).view.read (Elt Ideal)
      (G1 (feat1 V c) (srcw1 V c) (nrm1 V c)) := by
  have h48 : t.val % 49 = 48 := (flush1_3' t).mp hf
  have hN := N1v
  have ht := t.isLt
  show (cfg1.win 3).cut (grid1.coords t) ((dat1 V c).after 3 t) = _
  rw [after1_3]
  funext j
  obtain ⟨r, f, rfl⟩ : ∃ (r : Fin 2048) (f : Fin 128), j = ix2 r f := ⟨j 0, j 1, eq_ix2 j⟩
  have hlt : t.val / 49 * 2048 + r.val < 1701888 := by have := r.isLt; omega
  rw [View.read_apply, emb1_3 t r f ⟨t.val / 49 * 2048 + r.val, hlt⟩ rfl]
  show (outsAt1 V c t.val t.isLt).1 (ix2 r f) = G1 (feat1 V c) (srcw1 V c) (nrm1 V c) (ix2 ⟨t.val / 49 * 2048 + r.val, hlt⟩ f)
  rw [(acc1_inv V c r f t.val t.isLt ⟨t.val / 49 * 2048 + r.val, hlt⟩ rfl).1, h48]
  exact gsel_last _ _ _

/-- An index of the array is in point `t`'s block iff each coordinate is in the block's range. -/
theorem mem_blk1_3 (t : Fin cfg1.N) (i : S1701888x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v38).slice (win1_3.rect t)).set ↔ _
  rw [View.set_slice_whole, Rect.mem_set_unit]
  exact Iff.rfl

/-- Every index of the array is in the block of a point that writes back. -/
theorem cover1_3 (i : S1701888x128.Idx) : ∃ t : Fin cfg1.N, (cfg1.win 3).flush t = true ∧ i ∈ ((cfg1.win 3).blk t).view.set := by
  have hi0 : (i 0).val < 1701888 := (i 0).isLt
  have hi1 : (i 1).val < 128 := (i 1).isLt
  have hN := N1v
  refine ⟨⟨49 * ((i 0).val / 2048) + 48, by omega⟩, (flush1_3' _).mpr (by show (49 * ((i 0).val / 2048) + 48) % 49 = 48; omega), ?_⟩
  rw [mem_blk1_3]
  intro a
  rw [idx1_3]
  match a with
  | ⟨0, _⟩ => show (49 * ((i 0).val / 2048) + 48) / 49 * 2048 ≤ (i 0).val ∧ (i 0).val < (49 * ((i 0).val / 2048) + 48) / 49 * 2048 + 2048; omega
  | ⟨1, _⟩ => show 0 * 128 ≤ (i 1).val ∧ (i 1).val < 0 * 128 + 128; omega

/-- The message array after the region, over the plainly typed arrays. -/
theorem final1_typed (c : Dev nD) : (dat1 V c).arrAt 3 cfg1.N = G1 (feat1 V c) (srcw1 V c) (nrm1 V c) :=
  (dat1 V c).arrAt_eq_of_cover 3 (G1 (feat1 V c) (srcw1 V c) (nrm1 V c)) (flushed1_eq V c) (cover1_3)

/-- THE MESSAGE ARRAY after the region. -/
theorem final1_fun (c : Dev nD) : (dat1 V c).arrAt 3 cfg1.N = G1 (V c main_v37) (V c main_v33) (V c main_v35) :=
  final1_typed V c

end Cert.KernelIdeal.Hand

end
-- ==== Proof.KI.Scatter2Terms.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import proofs.«101950_j12489764897128_2_alg».proof.Proof.KI.Scatter2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what each case leaves, as terms of the payloads -/

theorem hz2 : (![0, 0] : Fin 2 → Nat) = fun _ => 0 := funext fun a => by fin_cases a <;> rfl

/-- A load through the whole-shape rectangle after stores the last of which went through it reads that store's payload. -/
theorem readCov_cons_unit_zero2 {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

/-- The reset case leaves in the scratch the accumulating payload over the zero payload. -/
theorem sout2_A_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) :
    sout2_A c i arg2 harg2 arg3 harg3 arg4 harg4 arg5 harg5 arg6 harg6 hc x0 x1 x2 = k2_pay2 i x1 x0 (k2_pay1 (F := F)) := by
  unfold sout2_A
  rw [View.read_writes_eq_canon _ _ _ (scover2_A c i arg2 harg2 arg3 harg3 arg4 harg4 arg5 harg5 arg6 harg6 hc x0 x1 x2)]
  unfold kernelRun2_A
  dsimp only
  try sl_unfold_words

  rw [View.canon_cons_unit_zero hz2]
  simp only [View.readAt_eq_ld, harg2.read_unread, harg3.read_unread, harg4.read_unread, harg6.read_unread, View.ld_unit_zero (S := S2048x128) hz2, View.ld_unit_zero (S := S1x2048) hz2, View.ld_unit_zero (S := S1x128) hz2, View.readCov_unit_zero (S := S2048x128) _ hz2, readCov_cons_unit_zero2 (S := S2048x128) _ hz2]

/-- and in the output block the output payload of that and the bias block. -/
theorem out2_A_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : cond2 i) (x0 : Vec F S2048x128 .f32) (x1 : Vec F S1x2048 .i32) (x2 : Vec F S1x128 .f32) :
    out2_A_3 c i arg2 harg2 arg3 harg3 arg4 harg4 arg5 harg5 arg6 harg6 hc x0 x1 x2 = k2_pay3 (k2_pay2 i x1 x0 (k2_pay1 (F := F))) x2 := by
  unfold out2_A_3
  rw [View.read_writes_eq_canon _ _ _ (cover2_A_3 c i arg2 harg2 arg3 harg3 arg4 harg4 arg5 harg5 arg6 harg6 hc x0 x1 x2)]
  unfold kernelRun2_A
  dsimp only
  try sl_unfold_words

  rw [View.canon_unit_zero hz2]
  simp only [View.readAt_eq_ld, harg2.read_unread, harg3.read_unread, harg4.read_unread, harg6.read_unread, View.ld_unit_zero (S := S2048x128) hz2, View.ld_unit_zero (S := S1x2048) hz2, View.ld_unit_zero (S := S1x128) hz2, View.readCov_unit_zero (S := S2048x128) _ hz2, readCov_cons_unit_zero2 (S := S2048x128) _ hz2]

/-- The accumulating case leaves in the scratch the accumulating payload over what the scratch held. -/
theorem sout2_B_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) :
    sout2_B c i arg2 harg2 arg3 harg3 arg4 harg4 arg5 harg5 arg6 harg6 hc x0 x1 x2 xs = k2_pay2 i x1 x0 xs := by
  unfold sout2_B
  rw [View.read_writes_eq_canon _ _ _ (scover2_B c i arg2 harg2 arg3 harg3 arg4 harg4 arg5 harg5 arg6 harg6 hc x0 x1 x2 xs)]
  unfold kernelRun2_B
  dsimp only
  try sl_unfold_words
  rw [View.canon_unit_zero hz2]
  simp only [View.readAt_eq_ld, harg2.read_unread, harg3.read_unread, harg4.read_unread, harg6.read_unread, View.ld_unit_zero (S := S2048x128) hz2, View.ld_unit_zero (S := S1x2048) hz2, View.ld_unit_zero (S := S1x128) hz2, View.readCov_unit_zero (S := S2048x128) _ hz2, readCov_cons_unit_zero2 (S := S2048x128) _ hz2]

/-- and in the output block the output payload of that and the bias block. -/
theorem out2_B_eq (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc : ¬cond2 i) (x0 : Vec F S2048x128 .f32) (x1 : Vec F S1x2048 .i32) (x2 : Vec F S1x128 .f32) (xs : Vec F S2048x128 .f32) :
    out2_B_3 c i arg2 harg2 arg3 harg3 arg4 harg4 arg5 harg5 arg6 harg6 hc x0 x1 x2 xs = k2_pay3 (k2_pay2 i x1 x0 xs) x2 := by
  unfold out2_B_3
  rw [View.read_writes_eq_canon _ _ _ (cover2_B_3 c i arg2 harg2 arg3 harg3 arg4 harg4 arg5 harg5 arg6 harg6 hc x0 x1 x2 xs)]
  unfold kernelRun2_B
  dsimp only
  try sl_unfold_words
  rw [View.canon_unit_zero hz2]
  simp only [View.readAt_eq_ld, harg2.read_unread, harg3.read_unread, harg4.read_unread, harg6.read_unread, View.ld_unit_zero (S := S2048x128) hz2, View.ld_unit_zero (S := S1x2048) hz2, View.ld_unit_zero (S := S1x128) hz2, View.readCov_unit_zero (S := S2048x128) _ hz2, readCov_cons_unit_zero2 (S := S2048x128) _ hz2]

end Cert.KernelIdeal.Hand

end
-- ==== Proof.KI.Scatter2Pay.lean ====
import proofs.«101950_j12489764897128_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand
open Cert.KernelIdeal Cert.KernelIdeal.Gen
open Idealize.ShloMosaic Idealize.ShloMosaic.ValueIdx

/-! # The scatter body's three payloads of region 2, read at an index over the extended reals -/

/-- The reset payload is zero everywhere. -/
theorem pay1_apply2 (j : S2048x128.Idx) : k2_pay1 (F := Ideal) j = 0 := by
  unfold k2_pay1
  try dsimp only
  rw [shapeCast_self]
  exact Ideal.ofBits_zero_f32

/-- The left operand index of the one-hot product: row of the output, contraction position. -/
theorem dotL2_0 (j : S2048x128.Idx) (q : dot_S2048x2048_S2048x128_S2048x128_1_0_0_1_n_n.contr.Idx) : (dot_S2048x2048_S2048x128_S2048x128_1_0_0_1_n_n.lhsIdx j q 0).val = (j 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl

/-- The right operand index: contraction position, column of the output. -/
theorem dotR2_1 (j : S2048x128.Idx) (q : dot_S2048x2048_S2048x128_S2048x128_1_0_0_1_n_n.contr.Idx) : (dot_S2048x2048_S2048x128_S2048x128_1_0_0_1_n_n.rhsIdx j q 1).val = (j 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The product into the zero accumulator, at an index: the sum over the 2048 contraction positions. -/
theorem mm_apply2 (A : FVec Ideal S2048x2048 .bf16) (B : FVec Ideal S2048x128 .bf16) (r : Fin 2048) (f : Fin 128) :
    matmul dot_S2048x2048_S2048x128_S2048x128_1_0_0_1_n_n none A B (constant (F := Ideal) S2048x128 .f32 0x00000000#32) (ix2 r f)
      = ∑ k : Fin 2048, A (ix2 r k) * B (ix2 k f) := by
  simp only [matmul]
  rw [Ideal.matmul_constant_zero_apply, ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 r f) ((contrEquiv1 dot_S2048x2048_S2048x128_S2048x128_1_0_0_1_n_n 2048 rfl rfl).symm k) = ix2 r k := funext fun a => Fin.ext (by
    match a with
    | ⟨0, _⟩ => exact dotL2_0 _ _
    | ⟨1, _⟩ => exact (dot_S2048x2048_S2048x128_S2048x128_1_0_0_1_n_n.lhsIdx_val_of_single rfl _ _).trans hk)
  have er : dot_S2048x2048_S2048x128_S2048x128_1_0_0_1_n_n.rhsIdx (ix2 r f) ((contrEquiv1 dot_S2048x2048_S2048x128_S2048x128_1_0_0_1_n_n 2048 rfl rfl).symm k) = ix2 k f := funext fun a => Fin.ext (by
    match a with
    | ⟨0, _⟩ => exact (dot_S2048x2048_S2048x128_S2048x128_1_0_0_1_n_n.rhsIdx_val_of_single rfl _ _).trans hk
    | ⟨1, _⟩ => exact dotR2_1 _ _)
  rw [el, er]

/-- A select on an equality test of two words is the conditional on their equality. -/
theorem select_cmpi_eq2 {α : Type} (a b : BitVec 32) (x y : α) :
    Scalar.select (IntOp.cmpi .eq a b) x y = if a = b then x else y := by
  have hc : IntOp.cmpi .eq a b = BitVec.ofBool (a == b) := rfl
  unfold Scalar.select
  rw [hc]
  by_cases h : a = b
  · subst h; simp
  · have hb : (a == b) = false := by simpa using h
    rw [hb, if_neg h, if_neg (by decide)]

/-- The accumulating payload at an index: what the scratch held plus, over the block's 2048 edges, the message
    rows whose destination word is this node's number. -/
theorem pay2_apply2 (i : grid2.Coords) (v7 : Vec Ideal S1x2048 .i32) (v16 v20 : Vec Ideal S2048x128 .f32) (r : Fin 2048) (f : Fin 128) :
    k2_pay2 (F := Ideal) i v7 v16 v20 (ix2 r f)
      = v20 (ix2 r f) + ∑ k : Fin 2048, (if BitVec.ofNat 32 (i 0).val * 2048#32 + BitVec.ofNat 32 r.val = v7 (ix2 0 k) then v16 (ix2 k f) else 0) := by
  unfold k2_pay2
  dsimp only
  rw [shapeCast_self, addf_apply, mm_apply2]
  refine congrArg (v20 (ix2 r f) + ·) (Finset.sum_congr rfl fun k _ => ?_)
  rw [truncf_apply, truncf_apply, shapeCast_self, select_apply, broadcast_apply, broadcast_apply]
  show Scalar.select (IntOp.cmpi .eq (IntOp.addi _ (iota .tc S2048x2048 32 [0] iota_S2048x2048_d0_w32 (ix2 r k))) (broadcastTo S2048x2048 _ broadcasts_S1x2048_S2048x2048 (ix2 r k))) _ _ * _ = _
  rw [iota_single_apply, broadcastTo_1b_ab_apply, shapeCast_self, shapeCast_self, select_cmpi_eq2]
  show (if _ then Ideal.ofBits .f32 0x3F800000#32 else Ideal.ofBits .f32 0x00000000#32) * _ = _
  rw [Ideal.ofBits_one_f32, Ideal.ofBits_zero_f32, ite_mul, one_mul, zero_mul]
  rfl

/-- The output payload at an index: the scratch plus the bias row, clamped below at zero. -/
theorem pay3_apply2 (v25 : Vec Ideal S2048x128 .f32) (v26 : Vec Ideal S1x128 .f32) (r : Fin 2048) (f : Fin 128) :
    k2_pay3 (F := Ideal) v25 v26 (ix2 r f) = max (v25 (ix2 r f) + v26 (ix2 0 f)) 0 := by
  unfold k2_pay3
  try dsimp only
  rw [maximumf_apply, addf_apply, broadcast_apply, broadcastTo_1b_ab_apply, shapeCast_self]
  show max _ (Ideal.ofBits .f32 0x00000000#32) = _
  rw [Ideal.ofBits_zero_f32]

end Cert.KernelIdeal.Hand

end
-- ==== Proof.KI.Scatter2Spec.lean ====
import proofs.«101950_j12489764897128_2_alg».proof.Proof.Gen.KernelIdeal.Skeleton
import Idealize.ShloMosaic.Lib.ValueIdx
import Idealize.ShloMosaic.PureOps.Ideal.Laws

set_option maxRecDepth 16384

noncomputable section

namespace Cert.KernelIdeal.Hand
open Cert.KernelIdeal Cert.KernelIdeal.Gen
open Idealize.ShloMosaic Idealize.ShloMosaic.ValueIdx

/-! # Region 2's result as one function of its operand arrays, and the regrouping of its sum by edge blocks -/

/-- Scatter-add by destination, then bias and the clamp at zero: node `n`, feature `f` receives the sum of the
    message rows whose destination word is `n`, plus the bias, clamped below at zero. -/
def G2 (msg : S1701888x128.Idx → EReal) (dst : S1x1701888.Idx → BitVec 32) (bias : S1x128.Idx → EReal) : S100352x128.Idx → EReal :=
  fun j => max ((∑ e : Fin 1701888, if dst (ix2 0 e) = BitVec.ofNat 32 (j 0).val then msg (ix2 e (⟨(j 1).val, idx2_lt1 j⟩ : Fin 128)) else 0)
    + bias (ix2 0 (⟨(j 1).val, idx2_lt1 j⟩ : Fin 128))) 0

theorem G2_apply (msg : S1701888x128.Idx → EReal) (dst : S1x1701888.Idx → BitVec 32) (bias : S1x128.Idx → EReal) (n : Fin 100352) (f : Fin 128) :
    G2 msg dst bias (ix2 n f) = max ((∑ e : Fin 1701888, if dst (ix2 0 e) = BitVec.ofNat 32 n.val then msg (ix2 e f) else 0) + bias (ix2 0 f)) 0 := rfl

/-- The message array read at a natural-number row (zero past the end). -/
def msgN2 (msg : S1701888x128.Idx → EReal) (n : ℕ) (f : Fin 128) : EReal := if h : n < 1701888 then msg (ix2 ⟨n, h⟩ f) else 0
/-- The destination row read at a natural-number position (zero past the end). -/
def dstN2 (dst : S1x1701888.Idx → BitVec 32) (n : ℕ) : BitVec 32 := if h : n < 1701888 then dst (ix2 0 ⟨n, h⟩) else 0#32

/-- One edge block's contribution to the node whose number is the word `w`. -/
def blkSum2 (msg : S1701888x128.Idx → EReal) (dst : S1x1701888.Idx → BitVec 32) (w : BitVec 32) (f : Fin 128) (e' : ℕ) : EReal :=
  ∑ k : Fin 2048, if w = dstN2 dst (e' * 2048 + k.val) then msgN2 msg (e' * 2048 + k.val) f else 0

/-- A sum over the 1701888 edges is the sum over the 831 edge blocks of the sums over each block's 2048 edges. -/
theorem sum_blocks2 (g : ℕ → EReal) :
    ∑ e : Fin 1701888, g e.val = ∑ e' ∈ Finset.range 831, ∑ k : Fin 2048, g (e' * 2048 + k.val) := by
  have h1 : ∑ e : Fin (831 * 2048), g e.val = ∑ p : Fin 831 × Fin 2048, g ((finProdFinEquiv p).val) :=
    (Equiv.sum_comp finProdFinEquiv (fun e : Fin (831 * 2048) => g e.val)).symm
  have h2 : ∑ e : Fin 1701888, g e.val = ∑ e : Fin (831 * 2048), g e.val := rfl
  rw [h2, h1, Fintype.sum_prod_type, ← Fin.sum_univ_eq_sum_range (fun e' => ∑ k : Fin 2048, g (e' * 2048 + k.val)) 831]
  refine Finset.sum_congr rfl fun a _ => Finset.sum_congr rfl fun b _ => ?_
  rw [finProdFinEquiv_apply_val, Nat.add_comm, Nat.mul_comm]

/-- The node number as the kernel computes it (block base times 2048 plus the row) is the word of the number. -/
theorem nodeWord2 (nb r : ℕ) : BitVec.ofNat 32 nb * 2048#32 + BitVec.ofNat 32 r = BitVec.ofNat 32 (nb * 2048 + r) := by
  rw [BitVec.ofNat_add, BitVec.ofNat_mul]

/-- The 831 edge blocks' contributions to node `nb·2048 + r` add up to the sum over all edges. -/
theorem scatter_sum2 (msg : S1701888x128.Idx → EReal) (dst : S1x1701888.Idx → BitVec 32) (nb : ℕ) (r : Fin 2048) (f : Fin 128) :
    ∑ e' ∈ Finset.range 831, blkSum2 msg dst (BitVec.ofNat 32 nb * 2048#32 + BitVec.ofNat 32 r.val) f e'
      = ∑ e : Fin 1701888, if dst (ix2 0 e) = BitVec.ofNat 32 (nb * 2048 + r.val) then msg (ix2 e f) else 0 := by
  have hR : ∀ e : Fin 1701888, (if dst (ix2 0 e) = BitVec.ofNat 32 (nb * 2048 + r.val) then msg (ix2 e f) else 0)
      = (fun n : ℕ => if BitVec.ofNat 32 (nb * 2048 + r.val) = dstN2 dst n then msgN2 msg n f else 0) e.val := fun e => by
    show _ = if BitVec.ofNat 32 (nb * 2048 + r.val) = dstN2 dst e.val then msgN2 msg e.val f else 0
    unfold dstN2 msgN2
    rw [dif_pos e.isLt, dif_pos e.isLt]
    exact if_congr eq_comm rfl rfl
  have hS := sum_blocks2 (fun n : ℕ => if BitVec.ofNat 32 (nb * 2048 + r.val) = dstN2 dst n then msgN2 msg n f else 0)
  have hL : ∑ e : Fin 1701888, (if dst (ix2 0 e) = BitVec.ofNat 32 (nb * 2048 + r.val) then msg (ix2 e f) else 0)
      = ∑ e : Fin 1701888, (fun n : ℕ => if BitVec.ofNat 32 (nb * 2048 + r.val) = dstN2 dst n then msgN2 msg n f else 0) e.val :=
    Finset.sum_congr rfl (fun e _ => hR e)
  rw [hL, hS, nodeWord2]
  rfl

end Cert.KernelIdeal.Hand

end
-- ==== Proof.KI.Scatter2Val.lean ====
import proofs.«101950_j12489764897128_2_alg».proof.Proof.KI.Scatter2Terms
import proofs.«101950_j12489764897128_2_alg».proof.Proof.KI.Scatter2Pay
import proofs.«101950_j12489764897128_2_alg».proof.Proof.KI.Scatter2Spec
import Idealize.ShloMosaic.Lib.Pipeline.Value

set_option maxRecDepth 16384

noncomputable section

namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # Region 2: its output array after the region, over the extended reals -/

variable (V : (c : Dev nD) → (b : Ref sig .tc) → Buf (Elt Ideal) ((c : Thread nD τ).loc b))

/-! ## The index maps at a point, by arithmetic on the point's number -/

theorem widx2_0 (t : Fin cfg2.N) : win2_0.index t 0 = t.val % 831 := by
  show (BitVec.ofNat 32 ((grid2.coords t) 1).val).toNat = _
  rw [coord2_inner, BitVec.toNat_ofNat]
  exact Nat.mod_eq_of_lt (lt_of_lt_of_le (Nat.mod_lt _ (by decide)) (by decide))
theorem widx2_0' (t : Fin cfg2.N) : win2_0.index t 1 = 0 := rfl
theorem widx2_1 (t : Fin cfg2.N) : win2_1.index t 1 = t.val % 831 := by
  show (BitVec.ofNat 32 ((grid2.coords t) 1).val).toNat = _
  rw [coord2_inner, BitVec.toNat_ofNat]
  exact Nat.mod_eq_of_lt (lt_of_lt_of_le (Nat.mod_lt _ (by decide)) (by decide))
theorem widx2_1' (t : Fin cfg2.N) : win2_1.index t 0 = 0 := rfl
theorem widx2_2 (t : Fin cfg2.N) : win2_2.index t 0 = 0 := rfl
theorem widx2_2' (t : Fin cfg2.N) : win2_2.index t 1 = 0 := rfl
theorem widx2_3 (t : Fin cfg2.N) : win2_3.index t 0 = t.val / 831 := by
  show (BitVec.ofNat 32 ((grid2.coords t) 0).val).toNat = _
  rw [coord2_outer, BitVec.toNat_ofNat]
  have h : t.val < 40719 := lt_of_lt_of_eq t.isLt (show cfg2.N = 40719 from N_2)
  exact Nat.mod_eq_of_lt (by omega)
theorem widx2_3' (t : Fin cfg2.N) : win2_3.index t 1 = 0 := rfl

/-- The output block is written back exactly at the points whose inner coordinate is the last one. -/
theorem flushAt2 (t : Fin cfg2.N) : (cfg2.win 3).flush t = true ↔ t.val % 831 = 830 := by
  have hN : grid2.N = 40719 := N_2
  have ht : t.val < 40719 := lt_of_lt_of_eq t.isLt (show cfg2.N = 40719 from N_2)
  show (true && (decide (t.val + 1 = grid2.N) || decide (∃ h : t.val + 1 < grid2.N, win2_3.index ⟨t.val + 1, h⟩ ≠ win2_3.index t))) = true ↔ _
  rw [Bool.true_and, Bool.or_eq_true, decide_eq_true_eq, decide_eq_true_eq]
  constructor
  · rintro (h | ⟨h, hne⟩)
    · omega
    · by_contra hc
      apply hne
      funext a
      match a with
      | ⟨0, _⟩ =>
        show win2_3.index ⟨t.val + 1, h⟩ 0 = win2_3.index t 0
        rw [widx2_3, widx2_3]
        show (t.val + 1) / 831 = t.val / 831
        omega
      | ⟨1, _⟩ => rfl
  · intro h
    by_cases hl : t.val + 1 = grid2.N
    · exact Or.inl hl
    · refine Or.inr ⟨by omega, fun he => ?_⟩
      have e0 : win2_3.index ⟨t.val + 1, by omega⟩ 0 = win2_3.index t 0 := congrFun he 0
      rw [widx2_3, widx2_3] at e0
      have e1 : (t.val + 1) / 831 = t.val / 831 := e0
      omega

/-! ## The input blocks, read at an index -/

theorem iblk2_0_at (c : Dev nD) (t : Fin cfg2.N) (x : S2048x128.Idx) (k : S1701888x128.Idx)
    (hk0 : (k 0).val = t.val % 831 * 2048 + (x 0).val) (hk1 : (k 1).val = (x 1).val) :
    (iblk2 V c 0 t : Vec Ideal S2048x128 .f32) x = (V c main_v38 : S1701888x128.Idx → EReal) k := by
  unfold iblk2
  rw [View.read_apply]
  show (V c main_v38 : S1701888x128.Idx → EReal) _ = _
  congr 1
  funext a
  apply Fin.ext
  match a with
  | ⟨0, _⟩ => show win2_0.index t 0 * 2048 + 1 * (x 0).val = (k 0).val; rw [widx2_0, hk0]; omega
  | ⟨1, _⟩ => show win2_0.index t 1 * 128 + 1 * (x 1).val = (k 1).val; rw [widx2_0', hk1]; omega

theorem iblk2_1_at (c : Dev nD) (t : Fin cfg2.N) (x : S1x2048.Idx) (k : S1x1701888.Idx)
    (hk0 : (k 0).val = (x 0).val) (hk1 : (k 1).val = t.val % 831 * 2048 + (x 1).val) :
    (iblk2 V c 1 t : Vec Ideal S1x2048 .i32) x = (V c main_v34 : S1x1701888.Idx → BitVec 32) k := by
  unfold iblk2
  rw [View.read_apply]
  show (V c main_v34 : S1x1701888.Idx → BitVec 32) _ = _
  congr 1
  funext a
  apply Fin.ext
  match a with
  | ⟨0, _⟩ => show win2_1.index t 0 * 1 + 1 * (x 0).val = (k 0).val; rw [widx2_1', hk0]; omega
  | ⟨1, _⟩ => show win2_1.index t 1 * 2048 + 1 * (x 1).val = (k 1).val; rw [widx2_1, hk1]; omega

theorem iblk2_2_at (c : Dev nD) (t : Fin cfg2.N) (x : S1x128.Idx) :
    (iblk2 V c 2 t : Vec Ideal S1x128 .f32) x = (V c main_v39 : S1x128.Idx → EReal) x := by
  unfold iblk2
  rw [View.read_apply]
  show (V c main_v39 : S1x128.Idx → EReal) _ = _
  congr 1
  funext a
  apply Fin.ext
  match a with
  | ⟨0, _⟩ => show win2_2.index t 0 * 1 + 1 * (x 0).val = (x 0).val; rw [widx2_2]; omega
  | ⟨1, _⟩ => show win2_2.index t 1 * 128 + 1 * (x 1).val = (x 1).val; rw [widx2_2']; omega

/-- The message block's row `k` is row `(t mod 831)·2048 + k` of the message array. -/
theorem iblk2_0_N (c : Dev nD) (t : Fin cfg2.N) (k : Fin 2048) (f : Fin 128) :
    (iblk2 V c 0 t : Vec Ideal S2048x128 .f32) (ix2 k f) = msgN2 (V c main_v38 : S1701888x128.Idx → EReal) (t.val % 831 * 2048 + k.val) f := by
  have h : t.val % 831 * 2048 + k.val < 1701888 := by
    have := Nat.mod_lt t.val (show 831 > 0 by decide); have := k.isLt; omega
  unfold msgN2
  rw [dif_pos h]
  exact iblk2_0_at V c t (ix2 k f) (ix2 ⟨_, h⟩ f) rfl rfl

/-- The destination block's word `k` is word `(t mod 831)·2048 + k` of the destination row. -/
theorem iblk2_1_N (c : Dev nD) (t : Fin cfg2.N) (k : Fin 2048) :
    (iblk2 V c 1 t : Vec Ideal S1x2048 .i32) (ix2 0 k) = dstN2 (V c main_v34 : S1x1701888.Idx → BitVec 32) (t.val % 831 * 2048 + k.val) := by
  have h : t.val % 831 * 2048 + k.val < 1701888 := by
    have := Nat.mod_lt t.val (show 831 > 0 by decide); have := k.isLt; omega
  unfold dstN2
  rw [dif_pos h]
  exact iblk2_1_at V c t (ix2 0 k) (ix2 0 ⟨_, h⟩) rfl rfl

/-! ## The scratch after each point -/

/-- One point's accumulating payload over what the scratch held, at an index. -/
theorem payAt2 (c : Dev nD) (t : Fin cfg2.N) (prev : Vec Ideal S2048x128 .f32) (r : Fin 2048) (f : Fin 128) :
    k2_pay2 (F := Ideal) (grid2.coords t) (iblk2 V c 1 t) (iblk2 V c 0 t) prev (ix2 r f)
      = prev (ix2 r f) + blkSum2 (V c main_v38 : S1701888x128.Idx → EReal) (V c main_v34 : S1x1701888.Idx → BitVec 32) (BitVec.ofNat 32 (t.val / 831) * 2048#32 + BitVec.ofNat 32 r.val) f (t.val % 831) := by
  refine (pay2_apply2 _ _ _ _ r f).trans ?_
  rw [coord2_outer]
  unfold blkSum2
  refine congrArg (prev (ix2 r f) + ·) (Finset.sum_congr rfl fun k _ => ?_)
  rw [iblk2_1_N V c t k, iblk2_0_N V c t k f]

/-- A point whose inner coordinate is zero resets the scratch: it then holds that point's block's contribution alone. -/
theorem accA2 (c : Dev nD) (n : ℕ) (hn : n < cfg2.N) (h0 : n % 831 = 0) (r : Fin 2048) (f : Fin 128) :
    (outsAt2 V c n hn).2 (ix2 r f) = ∑ e' ∈ Finset.range (n % 831 + 1),
      blkSum2 (V c main_v38 : S1701888x128.Idx → EReal) (V c main_v34 : S1x1701888.Idx → BitVec 32) (BitVec.ofNat 32 (n / 831) * 2048#32 + BitVec.ofNat 32 r.val) f e' := by
  have e := outsAt2_A V c ⟨n, hn⟩ h0
  rw [show outsAt2 V c n hn = _ from e]
  dsimp only
  rw [sout2_A_eq]
  refine (payAt2 V c ⟨n, hn⟩ _ r f).trans ?_
  rw [pay1_apply2, zero_add]
  dsimp only
  rw [h0, Nat.zero_add, Finset.sum_range_one]

/-- Any other point adds its block's contribution to what the point before left. -/
theorem accB2 (c : Dev nD) (n : ℕ) (hn : n + 1 < cfg2.N) (h0 : ¬(n + 1) % 831 = 0) (r : Fin 2048) (f : Fin 128) :
    (outsAt2 V c (n + 1) hn).2 (ix2 r f) = (outsAt2 V c n (Nat.lt_of_succ_lt hn)).2 (ix2 r f)
      + blkSum2 (V c main_v38 : S1701888x128.Idx → EReal) (V c main_v34 : S1x1701888.Idx → BitVec 32) (BitVec.ofNat 32 ((n + 1) / 831) * 2048#32 + BitVec.ofNat 32 r.val) f ((n + 1) % 831) := by
  have e := outsAt2_B V c ⟨n + 1, hn⟩ h0
  rw [show outsAt2 V c (n + 1) hn = _ from e]
  dsimp only
  rw [sout2_B_eq]
  exact payAt2 V c ⟨n + 1, hn⟩ _ r f

/-- After point `n` the scratch holds, at row `r`, the contributions of the edge blocks `0 … n mod 831` to node
    `(n / 831)·2048 + r`. -/
theorem acc2_eq (c : Dev nD) : ∀ (n : ℕ) (hn : n < cfg2.N) (r : Fin 2048) (f : Fin 128),
    (outsAt2 V c n hn).2 (ix2 r f) = ∑ e' ∈ Finset.range (n % 831 + 1),
      blkSum2 (V c main_v38 : S1701888x128.Idx → EReal) (V c main_v34 : S1x1701888.Idx → BitVec 32) (BitVec.ofNat 32 (n / 831) * 2048#32 + BitVec.ofNat 32 r.val) f e' := by
  intro n
  induction n with
  | zero => intro hn r f; exact accA2 V c 0 hn (Nat.zero_mod _) r f
  | succ n ih =>
    intro hn r f
    by_cases h0 : (n + 1) % 831 = 0
    · exact accA2 V c (n + 1) hn h0 r f
    · have hm : (n + 1) % 831 = n % 831 + 1 := by omega
      have hd : (n + 1) / 831 = n / 831 := by omega
      rw [accB2 V c n hn h0 r f, ih (Nat.lt_of_succ_lt hn) r f, hd, hm, Finset.sum_range_succ (n := n % 831 + 1)]

/-- The output block after a point is the output payload of the scratch after it and the bias block. -/
theorem outAt2_eq (c : Dev nD) (t : Fin cfg2.N) :
    (outsAt2 V c t.val t.isLt).1 = k2_pay3 (F := Ideal) (outsAt2 V c t.val t.isLt).2 (iblk2 V c 2 t) := by
  by_cases h0 : t.val % 831 = 0
  · rw [outsAt2_A V c t h0]
    dsimp only
    rw [out2_A_eq, sout2_A_eq]
  · rw [outsAt2_B V c t h0]
    dsimp only
    rw [out2_B_eq, sout2_B_eq]

/-! ## From the blocks to the array -/

theorem eq_ix2_2 (j : S2048x128.Idx) : j = ix2 (⟨(j 0).val, idx2_lt0 j⟩ : Fin 2048) (⟨(j 1).val, idx2_lt1 j⟩ : Fin 128) := by
  funext a
  match a with
  | ⟨0, _⟩ => rfl
  | ⟨1, _⟩ => rfl

/-- What the output's staging buffer holds after the last point of a row of the grid, at an index, is the result
    function at the array index the block puts there. -/
theorem afterAt2 (c : Dev nD) (t : Fin cfg2.N) (h830 : t.val % 831 = 830) (r : Fin 2048) (f : Fin 128) (i : S100352x128.Idx)
    (hi0 : (i 0).val = t.val / 831 * 2048 + r.val) (hi1 : (i 1).val = f.val) :
    (outsAt2 V c t.val t.isLt).1 (ix2 r f) = G2 (V c main_v38 : S1701888x128.Idx → EReal) (V c main_v34 : S1x1701888.Idx → BitVec 32) (V c main_v39 : S1x128.Idx → EReal) i := by
  rw [outAt2_eq]
  refine (pay3_apply2 _ _ r f).trans ?_
  rw [acc2_eq V c t.val t.isLt r f, h830, show (830 + 1 : ℕ) = 831 from rfl, scatter_sum2, iblk2_2_at V c t (ix2 0 f)]
  have hi : i = ix2 (⟨t.val / 831 * 2048 + r.val, hi0 ▸ idx2_lt0 i⟩ : Fin 100352) f := by
    funext a
    match a with
    | ⟨0, _⟩ => exact Fin.ext hi0
    | ⟨1, _⟩ => exact Fin.ext hi1
  rw [hi, G2_apply]

/-- An element of the output block at point `t` sits at row `(t / 831)·2048 + r` of the output array. -/
theorem emb2_3 (t : Fin cfg2.N) (r : Fin 2048) (f : Fin 128) (n : Fin 100352) (hn : n.val = t.val / 831 * 2048 + r.val) :
    ((cfg2.win 3).blk t).view.emb (ix2 r f) = (ix2 n f : S100352x128.Idx) := by
  funext a
  apply Fin.ext
  match a with
  | ⟨0, _⟩ => show win2_3.index t 0 * 2048 + 1 * r.val = n.val; rw [widx2_3, hn]; omega
  | ⟨1, _⟩ => show win2_3.index t 1 * 128 + 1 * f.val = f.val; rw [widx2_3']; omega

/-- The part of the block the write-back moves is the whole block: reading it at an index reads the block there. -/
theorem cut2_3_apply (t : Fin cfg2.N) (X : Vec Ideal S2048x128 .f32) (r : Fin 2048) (f : Fin 128) :
    (cfg2.win 3).cut (grid2.coords t) X (ix2 r f) = X (ix2 r f) := rfl

/-- What point `t` writes back is block `t` of the result function of the operand arrays as the region finds them. -/
theorem flushed2_eq (c : Dev nD) (t : Fin cfg2.N) (hf : (cfg2.win 3).flush t = true) :
    (dat2 V c).flushed 3 t = ((cfg2.win 3).blk t).view.read (Elt Ideal) (G2 (V c main_v38 : S1701888x128.Idx → EReal) (V c main_v34 : S1x1701888.Idx → BitVec 32) (V c main_v39 : S1x128.Idx → EReal)) := by
  have h830 := (flushAt2 t).mp hf
  have ht : t.val < 40719 := lt_of_lt_of_eq t.isLt (show cfg2.N = 40719 from N_2)
  show (cfg2.win 3).cut (grid2.coords t) ((dat2 V c).after 3 t) = _
  rw [after2_3]
  funext j
  obtain ⟨r, f, rfl⟩ : ∃ (r : Fin 2048) (f : Fin 128), j = ix2 r f := ⟨j 0, j 1, eq_ix2 j⟩
  have hlt : t.val / 831 * 2048 + r.val < 100352 := by have := r.isLt; omega
  refine (cut2_3_apply t _ r f).trans ?_
  rw [View.read_apply, emb2_3 t r f ⟨t.val / 831 * 2048 + r.val, hlt⟩ rfl]
  rw [← afterAt2 V c t h830 r f (ix2 ⟨t.val / 831 * 2048 + r.val, hlt⟩ f) rfl rfl]
  exact (cast_eq _ _).symm

/-- An index of the array is in point `t`'s block iff each coordinate is in the block's range on its axis. -/
theorem mem_blk2 (t : Fin cfg2.N) (i : S100352x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v40).slice (win2_3.rect t)).set ↔ _
  rw [View.set_slice_whole, Rect.mem_set_unit]
  exact Iff.rfl

/-- Every index of the output array is in the block of a point that writes back. -/
theorem cover2 (i : S100352x128.Idx) : ∃ t : Fin cfg2.N, (cfg2.win 3).flush t = true ∧ i ∈ ((cfg2.win 3).blk t).view.set := by
  have hi0 : (i 0).val < 100352 := idx2_lt0 i
  have hi1 : (i 1).val < 128 := idx2_lt1 i
  have hN : cfg2.N = 40719 := N_2
  refine ⟨⟨(i 0).val / 2048 * 831 + 830, by omega⟩, (flushAt2 _).mpr (by show ((i 0).val / 2048 * 831 + 830) % 831 = 830; omega), ?_⟩
  rw [mem_blk2]
  intro a
  match a with
  | ⟨0, _⟩ =>
    show win2_3.index _ 0 * 2048 ≤ (i 0).val ∧ (i 0).val < win2_3.index _ 0 * 2048 + 2048
    rw [widx2_3]
    show ((i 0).val / 2048 * 831 + 830) / 831 * 2048 ≤ (i 0).val ∧ (i 0).val < ((i 0).val / 2048 * 831 + 830) / 831 * 2048 + 2048
    omega
  | ⟨1, _⟩ =>
    show win2_3.index _ 1 * 128 ≤ (i 1).val ∧ (i 1).val < win2_3.index _ 1 * 128 + 128
    rw [widx2_3']
    omega

/-- THE OUTPUT ARRAY after the region: the result function of the operand arrays as the region finds them. -/
theorem final2_fun (c : Dev nD) : (dat2 V c).arrAt 3 cfg2.N = G2 (V c main_v38 : S1701888x128.Idx → EReal) (V c main_v34 : S1x1701888.Idx → BitVec 32) (V c main_v39 : S1x128.Idx → EReal) :=
  (dat2 V c).arrAt_eq_of_cover 3 _ (flushed2_eq V c) (cover2)

end Cert.KernelIdeal.Hand

end
-- ==== Proof.KI.Proj3Val.lean ====
/-
  The dense projection y = x · W of layer 2, read at the ideal values: after the region the output array holds, at row r
  and column f, the sum over k of x[r, k] · W[k, f]. Each grid point t writes rows 2048 t … 2048 t + 2047; the 49 points
  cover all 100352 rows.
-/
import proofs.«101950_j12489764897128_2_alg».proof.Proof.KI.Proj3
import Idealize.ShloMosaic.Lib.Pipeline.Value
import Idealize.ShloMosaic.Lib.ValueIdx
import Idealize.ShloMosaic.PureOps.Ideal.Laws

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx (ix2 eq_ix2 idx2_lt0 idx2_lt1)

-- the TensorCore's buffer contents when the region is entered, at the ideal values (extended reals)
variable (V : (c : Dev nD) → (b : Ref sig .tc) → Buf (Elt Ideal) ((c : Thread nD τ).loc b))

/-! ## The product at an index -/

/-- The two operand indices of the matrix product at output index `j` and contraction index `q`: (row of j, q) and
    (q, column of j). -/
theorem lhs3_0 (j : S2048x64.Idx) (q : dot_S2048x128_S128x64_S2048x64_1_0_0_1_n_n.contr.Idx) :
    (dot_S2048x128_S128x64_S2048x64_1_0_0_1_n_n.lhsIdx j q 0).val = (j 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs3_1 (j : S2048x64.Idx) (q : dot_S2048x128_S128x64_S2048x64_1_0_0_1_n_n.contr.Idx) :
    (dot_S2048x128_S128x64_S2048x64_1_0_0_1_n_n.lhsIdx j q 1).val = (q ⟨0, by decide⟩).val :=
  dot_S2048x128_S128x64_S2048x64_1_0_0_1_n_n.lhsIdx_val_of_single rfl j q
theorem rhs3_0 (j : S2048x64.Idx) (q : dot_S2048x128_S128x64_S2048x64_1_0_0_1_n_n.contr.Idx) :
    (dot_S2048x128_S128x64_S2048x64_1_0_0_1_n_n.rhsIdx j q 0).val = (q ⟨0, by decide⟩).val :=
  dot_S2048x128_S128x64_S2048x64_1_0_0_1_n_n.rhsIdx_val_of_single rfl j q
theorem rhs3_1 (j : S2048x64.Idx) (q : dot_S2048x128_S128x64_S2048x64_1_0_0_1_n_n.contr.Idx) :
    (dot_S2048x128_S128x64_S2048x64_1_0_0_1_n_n.rhsIdx j q 1).val = (j 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- The body's stored value at row p, column q of the block: the roundings are the identity at the ideal values and the
    accumulator is zero, so it is the sum over k of x0[p, k] · x1[k, q]. -/
theorem pay3_apply (x0 : Vec Ideal S2048x128 .f32) (x1 : Vec Ideal S128x64 .f32) (p : Fin 2048) (q : Fin 64) :
    k3_pay1 (F := Ideal) x0 x1 (ix2 p q) = ∑ k : Fin 128, x0 (ix2 p k) * x1 (ix2 k q) := by
  unfold k3_pay1
  refine (Ideal.matmul_constant_zero_apply dot_S2048x128_S128x64_S2048x64_1_0_0_1_n_n none _ _ (ix2 p q)).trans ?_
  rw [← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 p q) ((ValueIdx.contrEquiv1 dot_S2048x128_S128x64_S2048x64_1_0_0_1_n_n 128 rfl rfl).symm k) = ix2 p k := funext fun a => Fin.ext (by
    match a with
    | ⟨0, _⟩ => exact lhs3_0 _ _
    | ⟨1, _⟩ => exact (lhs3_1 _ _).trans hk)
  have er : dot_S2048x128_S128x64_S2048x64_1_0_0_1_n_n.rhsIdx (ix2 p q) ((ValueIdx.contrEquiv1 dot_S2048x128_S128x64_S2048x64_1_0_0_1_n_n 128 rfl rfl).symm k) = ix2 k q := funext fun a => Fin.ext (by
    match a with
    | ⟨0, _⟩ => exact (rhs3_0 _ _).trans hk
    | ⟨1, _⟩ => exact rhs3_1 _ _)
  rw [el, er]
  exact congrArg₂ (· * ·)
    ((ValueIdx.truncf_apply (ψ := .bf16) (shapeCast S2048x128 x0 shapeCasts_S2048x128_S2048x128) bitsLt_bf16_f32 (ix2 p k)).trans
      (congrFun (shapeCast_self x0 shapeCasts_S2048x128_S2048x128) (ix2 p k)))
    (ValueIdx.truncf_apply (ψ := .bf16) x1 bitsLt_bf16_f32 (ix2 k q))

/-! ## The whole-array function -/

/-- The product of the row array and the weight matrix, index by index. -/
def G3 (x : S100352x128.Idx → EReal) (w : S128x64.Idx → EReal) : S100352x64.Idx → EReal :=
  fun i => ∑ k : Fin 128, x (ix2 (⟨(i 0).val, idx2_lt0 i⟩ : Fin 100352) k) * w (ix2 k (⟨(i 1).val, idx2_lt1 i⟩ : Fin 64))

/-- It at an index whose coordinates are known. -/
theorem G3_at (x : S100352x128.Idx → EReal) (w : S128x64.Idx → EReal) (i : S100352x64.Idx) (r : Fin 100352) (f : Fin 64)
    (h0 : (i 0).val = r.val) (h1 : (i 1).val = f.val) : G3 x w i = ∑ k : Fin 128, x (ix2 r k) * w (ix2 k f) := by
  have e0 : (⟨(i 0).val, idx2_lt0 i⟩ : Fin 100352) = r := Fin.ext h0
  have e1 : (⟨(i 1).val, idx2_lt1 i⟩ : Fin 64) = f := Fin.ext h1
  unfold G3
  rw [e0, e1]

/-! ## The printed index maps, over the 49 grid points -/

/-- Point t's row block and output block have block index (t, 0), the weight matrix's block index is (0, 0), and the
    output block is written back at every point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_2.flush t = true :=
  (by decide +kernel : ∀ t : Fin grid3.N, _)

/-! ## The input blocks read -/

/-- Row p of the row block at point t is row 2048 t + p of the array. -/
theorem xblk3_apply (c : Dev nD) (t : Fin cfg3.N) (p : Fin 2048) (k : Fin 128) (r : Fin 100352) (hr : r.val = t.val * 2048 + p.val) :
    (iblk3 V c 0 t : Vec Ideal S2048x128 .f32) (ix2 p k) = (V c main_v40 : S100352x128.Idx → EReal) (ix2 r k) := by
  obtain ⟨e0, e1, -⟩ := idx3 t
  unfold iblk3
  rw [View.read_apply]
  show (V c main_v40 : S100352x128.Idx → EReal) _ = (V c main_v40 : S100352x128.Idx → EReal) _
  refine congrArg (V c main_v40 : S100352x128.Idx → EReal) ?_
  funext a
  apply Fin.ext
  match a with
  | ⟨0, _⟩ => show win3_0.index t (0 : Fin 2) * 2048 + 1 * p.val = r.val; rw [e0, hr]; omega
  | ⟨1, _⟩ => show win3_0.index t (1 : Fin 2) * 128 + 1 * k.val = k.val; rw [e1]; omega

/-- The weight block at every point is the whole weight matrix. -/
theorem wblk3_apply (c : Dev nD) (t : Fin cfg3.N) (k : Fin 128) (q : Fin 64) :
    (iblk3 V c 1 t : Vec Ideal S128x64 .f32) (ix2 k q) = (V c main_arg4 : S128x64.Idx → EReal) (ix2 k q) := by
  obtain ⟨-, -, e2, e3, -⟩ := idx3 t
  unfold iblk3
  rw [View.read_apply]
  show (V c main_arg4 : S128x64.Idx → EReal) _ = (V c main_arg4 : S128x64.Idx → EReal) _
  refine congrArg (V c main_arg4 : S128x64.Idx → EReal) ?_
  funext a
  apply Fin.ext
  match a with
  | ⟨0, _⟩ => show win3_1.index t (0 : Fin 2) * 128 + 1 * k.val = k.val; rw [e2]; omega
  | ⟨1, _⟩ => show win3_1.index t (1 : Fin 2) * 64 + 1 * q.val = q.val; rw [e3]; omega

/-! ## What each point writes back -/

theorem zero_off3 : (![0, 0] : Fin 2 → Nat) = fun _ => 0 := funext fun a => by fin_cases a <;> rfl

/-- Point t writes back block t of the product of the region-entry arrays. -/
theorem flushed3_eq (c : Dev nD) (t : Fin cfg3.N) :
    (dat3 V c).flushed 2 t = ((cfg3.win 2).blk t).view.read (Elt Ideal) (G3 (V c main_v40) (V c main_arg4)) := by
  show (cfg3.win 2).cut (grid3.coords t) ((dat3 V c).after 2 t) = _
  rw [after3_2]
  unfold out3_2
  rw [View.canon_unit_zero zero_off3]
  simp only [View.ld_unit_zero (S := S2048x128) zero_off3, View.ld_unit_zero (S := S128x64) zero_off3]
  obtain ⟨-, -, -, -, e4, e5, -⟩ := idx3 t
  have hN : cfg3.N = 49 := N_3
  funext j
  obtain ⟨p, q, rfl⟩ : ∃ (p : Fin 2048) (q : Fin 64), j = ix2 p q := ⟨j 0, j 1, eq_ix2 j⟩
  have hr : t.val * 2048 + p.val < 100352 := by have := t.isLt; have := p.isLt; omega
  refine (pay3_apply _ _ p q).trans ?_
  show _ = G3 (V c main_v40) (V c main_arg4) (((cfg3.win 2).blk t).view.emb (ix2 p q))
  refine Eq.trans ?_ (G3_at _ _ _ ⟨t.val * 2048 + p.val, hr⟩ q ?_ ?_).symm
  · exact Finset.sum_congr rfl fun k _ => congrArg₂ (· * ·) (xblk3_apply V c t p k ⟨t.val * 2048 + p.val, hr⟩ rfl) (wblk3_apply V c t k q)
  · show win3_2.index t (0 : Fin 2) * 2048 + 1 * p.val = t.val * 2048 + p.val; rw [e4]; omega
  · show win3_2.index t (1 : Fin 2) * 64 + 1 * q.val = q.val; rw [e5]; omega

/-! ## The blocks cover the array -/

/-- An index of the array is in point t's block iff each coordinate is in the block's range on its axis. -/
theorem mem_blk3 (t : Fin cfg3.N) (i : S100352x64.Idx) :
    i ∈ ((cfg3.win 2).blk t).view.set ↔ ∀ a : Fin 2, win3_2.index t a * S2048x64.size a ≤ (i a).val ∧ (i a).val < win3_2.index t a * S2048x64.size a + S2048x64.size a := by
  show i ∈ ((View.whole main_v41).slice (win3_2.rect t)).set ↔ _
  rw [View.set_slice_whole, Rect.mem_set_unit]
  exact Iff.rfl

/-- Row r is covered by point r / 2048, which writes back. -/
theorem cover3 (i : S100352x64.Idx) : ∃ t : Fin cfg3.N, (cfg3.win 2).flush t = true ∧ i ∈ ((cfg3.win 2).blk t).view.set := by
  have hi0 : (i 0).val < 100352 := (i 0).isLt
  have hi1 : (i 1).val < 64 := (i 1).isLt
  have hN : cfg3.N = 49 := N_3
  obtain ⟨t, ht⟩ : ∃ t : Fin cfg3.N, t.val = (i 0).val / 2048 := ⟨⟨(i 0).val / 2048, by rw [hN]; omega⟩, rfl⟩
  obtain ⟨-, -, -, -, e4, e5, hf⟩ := idx3 t
  refine ⟨t, hf, ?_⟩
  rw [mem_blk3]
  intro a
  match a with
  | ⟨0, _⟩ => show win3_2.index t (0 : Fin 2) * 2048 ≤ (i 0).val ∧ (i 0).val < win3_2.index t (0 : Fin 2) * 2048 + 2048; rw [e4, ht]; omega
  | ⟨1, _⟩ => show win3_2.index t (1 : Fin 2) * 64 ≤ (i 1).val ∧ (i 1).val < win3_2.index t (1 : Fin 2) * 64 + 64; rw [e5]; omega

/-! ## The output array after the region -/

/-- The output array ends holding the product of the region-entry arrays. -/
theorem final3_fun (c : Dev nD) : (dat3 V c).arrAt 2 cfg3.N = G3 (V c main_v40) (V c main_arg4) :=
  (dat3 V c).arrAt_eq_of_cover 2 (G3 (V c main_v40) (V c main_arg4)) (fun t _ => flushed3_eq V c t) (cover3)

/-- The product at row r and column f is the sum over k of x[r, k] · w[k, f]. -/
theorem G3_apply (x : S100352x128.Idx → EReal) (w : S128x64.Idx → EReal) (r : Fin 100352) (f : Fin 64) :
    G3 x w (ix2 r f) = ∑ k : Fin 128, x (ix2 r k) * w (ix2 k f) :=
  G3_at x w (ix2 r f) r f rfl rfl

/-- So at row r and column f the output array holds that sum of the region-entry arrays' entries. -/
theorem final3 (c : Dev nD) (r : Fin 100352) (f : Fin 64) :
    (dat3 V c).arrAt 2 cfg3.N (ix2 r f) = G3 (V c main_v40) (V c main_arg4) (ix2 r f) :=
  congrFun (final3_fun V c) (ix2 r f)

end Cert.KernelIdeal.Hand

end
-- ==== Proof.KI.Gather4Pieces.lean ====
import proofs.«101950_j12489764897128_2_alg».proof.Proof.KI.Gather4Runs
import Idealize.ShloMosaic.Lib.Pipeline.Value

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what each run's pieces read back as

Both the accumulator and the output block end a point holding the same vector: the block's contribution added to what
the accumulator held before the point — to zeros where the accumulator is reset. -/

theorem hz4 : (![0, 0] : Fin 2 → Nat) = fun _ => 0 := funext fun a => by fin_cases a <;> rfl

set_option maxHeartbeats 400000 in
/-- The accumulator after a reset point. -/
theorem runA4_s (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i) (x0 : Vec F S2048x64 .f32) (x1 : Vec F S1x2048 .i32) (x2 : Vec F S1x2048 .f32) :
    View.canon (kernelRun4_A c i arg2 harg2 arg3 harg3 arg4 harg4 arg5 harg5 arg6 harg6 hc x0 x1 x2).2.1 = k4_pay2 i x1 x2 x0 (k4_pay1 (F := F)) := by
  unfold kernelRun4_A
  dsimp only
  try sl_unfold_words
  rw [View.canon_cons_unit_zero (S := S2048x64) hz4]
  simp only [View.readCov_cons_toLoadRect, View.readAt_eq_ld, harg2.read_unread, harg3.read_unread, harg4.read_unread, harg6.read_unread,
    View.ld_unit_zero (S := S2048x64) hz4, View.ld_unit_zero (S := S1x2048) hz4]

set_option maxHeartbeats 400000 in
/-- The output block after a reset point. -/
theorem runA4_o (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : cond4 i) (x0 : Vec F S2048x64 .f32) (x1 : Vec F S1x2048 .i32) (x2 : Vec F S1x2048 .f32) :
    View.canon (kernelRun4_A c i arg2 harg2 arg3 harg3 arg4 harg4 arg5 harg5 arg6 harg6 hc x0 x1 x2).1 = k4_pay2 i x1 x2 x0 (k4_pay1 (F := F)) := by
  unfold kernelRun4_A
  dsimp only
  try sl_unfold_words
  rw [View.canon_unit_zero (S := S2048x64) hz4]
  simp only [View.readCov_cons_toLoadRect, View.readAt_eq_ld, harg2.read_unread, harg3.read_unread, harg4.read_unread, harg6.read_unread,
    View.ld_unit_zero (S := S2048x64) hz4, View.ld_unit_zero (S := S1x2048) hz4]

set_option maxHeartbeats 400000 in
/-- The accumulator after any other point, over its contents `xs` before the point. -/
theorem runB4_s (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i) (x0 : Vec F S2048x64 .f32) (x1 : Vec F S1x2048 .i32) (x2 : Vec F S1x2048 .f32) (xs : Vec F S2048x64 .f32) :
    View.canon (kernelRun4_B c i arg2 harg2 arg3 harg3 arg4 harg4 arg5 harg5 arg6 harg6 hc x0 x1 x2 xs).2.1 = k4_pay2 i x1 x2 x0 xs := by
  unfold kernelRun4_B
  dsimp only
  try sl_unfold_words
  rw [View.canon_cons_unit_zero (S := S2048x64) hz4]
  simp only [View.readCov_cons_toLoadRect, View.readAt_eq_ld, harg2.read_unread, harg3.read_unread, harg4.read_unread, harg6.read_unread,
    View.ld_unit_zero (S := S2048x64) hz4, View.ld_unit_zero (S := S1x2048) hz4]

set_option maxHeartbeats 400000 in
/-- The output block after any other point. -/
theorem runB4_o (c : Dev nD) (i : grid4.Coords) (arg2 : Memref sig .tc .vmem S2048x64 .f32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x64 .f32) (harg5 : arg5.IsWhole) (arg6 : Memref sig .tc .vmem S2048x64 .f32) (harg6 : arg6.IsWhole) (hc : ¬cond4 i) (x0 : Vec F S2048x64 .f32) (x1 : Vec F S1x2048 .i32) (x2 : Vec F S1x2048 .f32) (xs : Vec F S2048x64 .f32) :
    View.canon (kernelRun4_B c i arg2 harg2 arg3 harg3 arg4 harg4 arg5 harg5 arg6 harg6 hc x0 x1 x2 xs).1 = k4_pay2 i x1 x2 x0 xs := by
  unfold kernelRun4_B
  dsimp only
  try sl_unfold_words
  rw [View.canon_unit_zero (S := S2048x64) hz4]
  simp only [View.readCov_cons_toLoadRect, View.readAt_eq_ld, harg2.read_unread, harg3.read_unread, harg4.read_unread, harg6.read_unread,
    View.ld_unit_zero (S := S2048x64) hz4, View.ld_unit_zero (S := S1x2048) hz4]

end Cert.KernelIdeal.Hand

end
-- ==== Proof.KI.Gather4Pay.lean ====
import proofs.«101950_j12489764897128_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand
open Cert.KernelIdeal Cert.KernelIdeal.Gen
open Idealize.ShloMosaic Idealize.ShloMosaic.TcCoe Idealize.ShloMosaic.ValueIdx

/-! # Region 4: the body's arithmetic at one entry, over the extended reals

Row `r` of the block is an edge, column `f` a feature. The entry the body stores is what the accumulator held plus the sum,
over the 2048 nodes `k` of the node block, of (the edge's weight if the node's number is the edge's source word, else 0)
times the node's feature. -/

/-- The product with the first operand transposed, into zeros, at an entry: the sum over the shared leading coordinate. -/
theorem matmulT4_apply {φ₁ φ₂ : FTy} (A : FVec Ideal S2048x2048 φ₁) (B : FVec Ideal S2048x64 φ₂) (r : Fin 2048) (f : Fin 64) :
    matmul dot_S2048x2048_S2048x64_S2048x64_0_0_1_1_n_n none A B (constant (F := Ideal) S2048x64 .f32 0x00000000#32) (ix2 r f)
      = ∑ k : Fin 2048, A (ix2 k r) * B (ix2 k f) := by
  show FloatOps.matmul _ none A B _ (ix2 r f) = _
  rw [Ideal.matmul_constant_zero_apply,
    ← Equiv.sum_comp (contrEquiv1 dot_S2048x2048_S2048x64_S2048x64_0_0_1_1_n_n 2048 rfl rfl).symm]
  refine Finset.sum_congr rfl fun k _ => ?_
  have c2 := contrEquiv1_symm_val dot_S2048x2048_S2048x64_S2048x64_0_0_1_1_n_n 2048 rfl rfl k
  have l2 : dot_S2048x2048_S2048x64_S2048x64_0_0_1_1_n_n.lhsIdx (ix2 r f) ((contrEquiv1 _ 2048 rfl rfl).symm k) = ix2 k r := by
    funext ax; apply Fin.ext
    match ax with
    | ⟨0, _⟩ => simp [DotDims.lhsIdx, dot_S2048x2048_S2048x64_S2048x64_0_0_1_1_n_n]; exact c2
    | ⟨1, _⟩ => simp [DotDims.lhsIdx, dot_S2048x2048_S2048x64_S2048x64_0_0_1_1_n_n]; rfl
  have r2 : dot_S2048x2048_S2048x64_S2048x64_0_0_1_1_n_n.rhsIdx (ix2 r f) ((contrEquiv1 _ 2048 rfl rfl).symm k) = ix2 k f := by
    funext ax; apply Fin.ext
    match ax with
    | ⟨0, _⟩ => simp [DotDims.rhsIdx, dot_S2048x2048_S2048x64_S2048x64_0_0_1_1_n_n]; exact c2
    | ⟨1, _⟩ => simp [DotDims.rhsIdx, dot_S2048x2048_S2048x64_S2048x64_0_0_1_1_n_n]; rfl
  rw [l2, r2]

/-- A row vector broadcast down the rows reads its own column. -/
theorem bcastRow4_apply {α : Type} (x : S1x2048.Idx → α) (k r : Fin 2048) :
    broadcastTo S2048x2048 x broadcasts_S1x2048_S2048x2048 (ix2 k r) = x (ix2 0 r) :=
  broadcastTo_apply x broadcasts_S1x2048_S2048x2048 (ix2 k r) (ix2 0 r) fun a => by
    match a with
    | ⟨0, _⟩ => rfl
    | ⟨1, _⟩ => rfl

set_option maxHeartbeats 400000 in
/-- The stored vector at an entry. -/
theorem pay2_4_apply (i : grid4.Coords) (x1 : S1x2048.Idx → BitVec 32) (x2 : S1x2048.Idx → EReal) (x0 xs : S2048x64.Idx → EReal)
    (r : Fin 2048) (f : Fin 64) :
    k4_pay2 (F := Ideal) i x1 x2 x0 xs (ix2 r f)
      = xs (ix2 r f) + ∑ k : Fin 2048,
          Scalar.select (Scalar.cmpi .eq (BitVec.ofNat 32 (i 1).val * 2048#32 + BitVec.ofNat 32 k.val) (x1 (ix2 0 r))) (x2 (ix2 0 r)) (0 : EReal)
            * x0 (ix2 k f) := by
  unfold k4_pay2
  simp only [shapeCast_self]
  refine (addf_apply _ _ _).trans ?_
  refine congrArg (xs (ix2 r f) + ·) ?_
  refine (matmulT4_apply _ _ r f).trans ?_
  refine Finset.sum_congr rfl fun k _ => ?_
  refine congrArg₂ (· * ·) ?_ rfl
  show Scalar.select (IntOp.cmpi .eq (IntOp.addi (Scalar.muli (BitVec.ofNat 32 (i 1).val) 2048#32) (iota .tc S2048x2048 32 [0] iota_S2048x2048_d0_w32 (ix2 k r)))
      (broadcastTo S2048x2048 x1 broadcasts_S1x2048_S2048x2048 (ix2 k r)))
      (broadcastTo S2048x2048 x2 broadcasts_S1x2048_S2048x2048 (ix2 k r)) (Ideal.ofBits .f32 0x00000000#32) = _
  rw [bcastRow4_apply, bcastRow4_apply, iota_single_apply, Ideal.ofBits_zero_f32]
  rfl

/-- The reset value is zero everywhere. -/
theorem pay1_4_apply (j : S2048x64.Idx) : k4_pay1 (F := Ideal) j = 0 := by
  unfold k4_pay1
  simp only [shapeCast_self]
  exact Ideal.ofBits_zero_f32

end Cert.KernelIdeal.Hand

end
-- ==== Proof.KI.Gather4Val.lean ====
import proofs.«101950_j12489764897128_2_alg».proof.Proof.KI.Gather4
import proofs.«101950_j12489764897128_2_alg».proof.Proof.KI.Gather4Pieces
import proofs.«101950_j12489764897128_2_alg».proof.Proof.KI.Gather4Pay
import proofs.«101950_j12489764897128_2_alg».proof.Proof.KI.GatherMath
import Idealize.ShloMosaic.Lib.Pipeline.Value

set_option maxRecDepth 16384

noncomputable section

open scoped BigOperators

namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Region 4: the message array after the region

Row `e` of the output is edge `e`'s message: the edge's weight times the features of the node its source word names —
zero if the word names no node. The region computes block `e / 2048` of it over 49 consecutive points, one per block of
2048 nodes, and writes it back after the last. -/

/-- The message array as a function of the feature array `y`, the source words `src` and the weights `nrm`. -/
def G4 (y : S100352x64.Idx → EReal) (src : S1x1701888.Idx → BitVec 32) (nrm : S1x1701888.Idx → EReal) : S1701888x64.Idx → EReal := fun i =>
  if h : (src (ix2 0 (i 0 : Fin 1701888))).toNat < 100352 then
    nrm (ix2 0 (i 0 : Fin 1701888)) * y (ix2 ⟨(src (ix2 0 (i 0 : Fin 1701888))).toNat, h⟩ (i 1 : Fin 64))
  else 0

/-- Where the source word is a node's number the message is the weight times that node's features. -/
theorem G4_apply (y : S100352x64.Idx → EReal) (src : S1x1701888.Idx → BitVec 32) (nrm : S1x1701888.Idx → EReal)
    (e : Fin 1701888) (f : Fin 64) (s : Fin 100352) (hs : src (ix2 0 e) = BitVec.ofNat 32 s.val) :
    G4 y src nrm (ix2 e f) = nrm (ix2 0 e) * y (ix2 s f) := by
  have hn : (src (ix2 0 e)).toNat = s.val := by
    rw [hs, BitVec.toNat_ofNat]
    exact Nat.mod_eq_of_lt (by have := s.isLt; omega)
  show (if h : (src (ix2 0 e)).toNat < 100352 then nrm (ix2 0 e) * y (ix2 ⟨(src (ix2 0 e)).toNat, h⟩ f) else 0) = _
  rw [dif_pos (by rw [hn]; exact s.isLt)]
  exact congrArg (fun q : Fin 100352 => nrm (ix2 0 e) * y (ix2 q f)) (Fin.ext hn)

/-! ## The arrays and the blocks as plainly typed functions -/

/-- The feature array, the source words and the weights as the region finds them. -/
def feat4 (c : Dev nD) : S100352x64.Idx → EReal := V c main_v41
def srcw4 (c : Dev nD) : S1x1701888.Idx → BitVec 32 := V c main_v33
def nrm4 (c : Dev nD) : S1x1701888.Idx → EReal := V c main_v35
/-- The three input blocks at point `t`. -/
def blkFeat4 (c : Dev nD) (t : Fin cfg4.N) : S2048x64.Idx → EReal := iblk4 V c 0 t
def blkSrc4 (c : Dev nD) (t : Fin cfg4.N) : S1x2048.Idx → BitVec 32 := iblk4 V c 1 t
def blkNrm4 (c : Dev nD) (t : Fin cfg4.N) : S1x2048.Idx → EReal := iblk4 V c 2 t

/-! ## The grid's coordinates and the windows' block indices, by arithmetic -/

theorem N4v : cfg4.N = 40719 := N_4

/-- The outer coordinate of point `t` is `t / 49`. -/
theorem coord_outer4 (t : Fin cfg4.N) : ((grid4.coords t) 0).val = t.val / 49 := by
  show t.val / grid4.stride 0 % 831 = t.val / 49
  rw [show grid4.stride 0 = 49 from by decide]
  exact Nat.mod_eq_of_lt (by have := t.isLt; have := N4v; omega)

/-- The feature window's block index: the inner coordinate on the rows. -/
theorem idx4_0 (t : Fin cfg4.N) : win4_0.index t = ![t.val % 49, 0] := by
  show ![(BitVec.ofNat 32 ((grid4.coords t) 1).val).toNat, 0] = _
  rw [coord_inner4 t, BitVec.toNat_ofNat, Nat.mod_eq_of_lt (by have := Nat.mod_lt t.val (show 0 < 49 by omega); omega)]

/-- The source window's, the weight window's and the output window's: the outer coordinate on the edges. -/
theorem idx4_1 (t : Fin cfg4.N) : win4_1.index t = ![0, t.val / 49] := by
  show ![0, (BitVec.ofNat 32 ((grid4.coords t) 0).val).toNat] = _
  rw [coord_outer4 t, BitVec.toNat_ofNat, Nat.mod_eq_of_lt (by have := t.isLt; have := N4v; omega)]

theorem idx4_2 (t : Fin cfg4.N) : win4_2.index t = ![0, t.val / 49] := by
  show ![0, (BitVec.ofNat 32 ((grid4.coords t) 0).val).toNat] = _
  rw [coord_outer4 t, BitVec.toNat_ofNat, Nat.mod_eq_of_lt (by have := t.isLt; have := N4v; omega)]

theorem idx4_3 (t : Fin cfg4.N) : win4_3.index t = ![t.val / 49, 0] := by
  show ![(BitVec.ofNat 32 ((grid4.coords t) 0).val).toNat, 0] = _
  rw [coord_outer4 t, BitVec.toNat_ofNat, Nat.mod_eq_of_lt (by have := t.isLt; have := N4v; omega)]

/-- The output block is written back after the last node block of each edge block. -/
theorem flush4_3' (t : Fin cfg4.N) : (cfg4.win 3).flush t = true ↔ t.val % 49 = 48 := by
  have hN := N4v
  have ht := t.isLt
  have hG : grid4.N = 40719 := N_4
  show (true && (decide (t.val + 1 = grid4.N) || decide (∃ h : t.val + 1 < grid4.N, win4_3.index ⟨t.val + 1, h⟩ ≠ win4_3.index t))) = true ↔ _
  rw [Bool.true_and, Bool.or_eq_true, decide_eq_true_eq, decide_eq_true_eq]
  constructor
  · rintro (h | ⟨h, hne⟩)
    · omega
    · by_contra h48
      apply hne
      rw [idx4_3, idx4_3]
      show ![(t.val + 1) / 49, 0] = ![t.val / 49, 0]
      rw [show (t.val + 1) / 49 = t.val / 49 from by omega]
  · intro h48
    by_cases hl : t.val + 1 = grid4.N
    · exact .inl hl
    · refine .inr ⟨by omega, fun e => ?_⟩
      rw [idx4_3, idx4_3] at e
      have e1 : (t.val + 1) / 49 = t.val / 49 := congrFun e 0
      omega

/-! ## The input blocks, read off the arrays -/

/-- Row `k` of the feature block at point `t` is row `2048 (t mod 49) + k` of the feature array. -/
theorem blkFeat4_apply (c : Dev nD) (t : Fin cfg4.N) (k : Fin 2048) (f : Fin 64) (q : Fin 100352)
    (hq : q.val = t.val % 49 * 2048 + k.val) :
    blkFeat4 V c t (ix2 k f) = feat4 V c (ix2 q f) := by
  unfold blkFeat4 feat4 iblk4
  rw [View.read_apply]
  show (V c main_v41 : S100352x64.Idx → EReal) _ = (V c main_v41 : S100352x64.Idx → EReal) _
  refine congrArg (V c main_v41 : S100352x64.Idx → EReal) ?_
  funext a
  apply Fin.ext
  match a with
  | ⟨0, _⟩ => show win4_0.index t 0 * 2048 + 1 * k.val = q.val; rw [idx4_0 t, hq]; show t.val % 49 * 2048 + 1 * k.val = _; omega
  | ⟨1, _⟩ => show win4_0.index t 1 * 64 + 1 * f.val = f.val; rw [idx4_0 t]; show 0 * 64 + 1 * f.val = f.val; omega

/-- Entry `r` of the source block at point `t` is edge `2048 (t / 49) + r`'s word. -/
theorem blkSrc4_apply (c : Dev nD) (t : Fin cfg4.N) (r : Fin 2048) (e : Fin 1701888)
    (he : e.val = t.val / 49 * 2048 + r.val) :
    blkSrc4 V c t (ix2 0 r) = srcw4 V c (ix2 0 e) := by
  unfold blkSrc4 srcw4 iblk4
  rw [View.read_apply]
  show (V c main_v33 : S1x1701888.Idx → BitVec 32) _ = (V c main_v33 : S1x1701888.Idx → BitVec 32) _
  refine congrArg (V c main_v33 : S1x1701888.Idx → BitVec 32) ?_
  funext a
  apply Fin.ext
  match a with
  | ⟨0, _⟩ => show win4_1.index t 0 * 1 + 1 * 0 = 0; rw [idx4_1 t]; show 0 * 1 + 1 * 0 = 0; omega
  | ⟨1, _⟩ => show win4_1.index t 1 * 2048 + 1 * r.val = e.val; rw [idx4_1 t, he]; show t.val / 49 * 2048 + 1 * r.val = _; omega

/-- Likewise the weight block. -/
theorem blkNrm4_apply (c : Dev nD) (t : Fin cfg4.N) (r : Fin 2048) (e : Fin 1701888)
    (he : e.val = t.val / 49 * 2048 + r.val) :
    blkNrm4 V c t (ix2 0 r) = nrm4 V c (ix2 0 e) := by
  unfold blkNrm4 nrm4 iblk4
  rw [View.read_apply]
  show (V c main_v35 : S1x1701888.Idx → EReal) _ = (V c main_v35 : S1x1701888.Idx → EReal) _
  refine congrArg (V c main_v35 : S1x1701888.Idx → EReal) ?_
  funext a
  apply Fin.ext
  match a with
  | ⟨0, _⟩ => show win4_2.index t 0 * 1 + 1 * 0 = 0; rw [idx4_2 t]; show 0 * 1 + 1 * 0 = 0; omega
  | ⟨1, _⟩ => show win4_2.index t 1 * 2048 + 1 * r.val = e.val; rw [idx4_2 t, he]; show t.val / 49 * 2048 + 1 * r.val = _; omega

/-! ## One point's step at an entry -/

/-- What a point stores at entry `(r, f)`, over the accumulator's contents `xs` before it: `xs` there plus the sum over the
    point's node block. -/
theorem step4 (c : Dev nD) (t : Fin cfg4.N) (xs : S2048x64.Idx → EReal) (r : Fin 2048) (f : Fin 64) (e : Fin 1701888)
    (he : e.val = t.val / 49 * 2048 + r.val) :
    k4_pay2 (F := Ideal) (grid4.coords t) (blkSrc4 V c t) (blkNrm4 V c t) (blkFeat4 V c t) xs (ix2 r f)
      = xs (ix2 r f) + ∑ k : Fin 2048,
          Scalar.select (Scalar.cmpi .eq (BitVec.ofNat 32 (t.val % 49) * 2048#32 + BitVec.ofNat 32 k.val) (srcw4 V c (ix2 0 e))) (nrm4 V c (ix2 0 e)) (0 : EReal)
            * blkFeat4 V c t (ix2 k f) := by
  refine (pay2_4_apply (grid4.coords t) (blkSrc4 V c t) (blkNrm4 V c t) (blkFeat4 V c t) xs r f).trans ?_
  rw [blkSrc4_apply V c t r e he, blkNrm4_apply V c t r e he, coord_inner4 t]

set_option maxHeartbeats 400000 in
/-- Both components of a point's result are that stored vector. -/
theorem ptA4_eq (c : Dev nD) (t : Fin cfg4.N) (h : t.val % 49 = 0) :
    ptA4 V c t h = (k4_pay2 (F := Ideal) (grid4.coords t) (blkSrc4 V c t) (blkNrm4 V c t) (blkFeat4 V c t) (k4_pay1 (F := Ideal)), k4_pay2 (F := Ideal) (grid4.coords t) (blkSrc4 V c t) (blkNrm4 V c t) (blkFeat4 V c t) (k4_pay1 (F := Ideal))) := by
  unfold ptA4 blkSrc4 blkNrm4 blkFeat4
  exact congrArg₂ Prod.mk
    (runA4_o (F := Ideal) c (grid4.coords t) (ms4_0 t) (hs4_0 t) (ms4_1 t) (hs4_1 t) (ms4_2 t) (hs4_2 t) (ms4_3 t) (hs4_3 t) scM4 (Memref.isWhole_whole _) ((hcond4 t).mpr h) (iblk4 V c 0 t) (iblk4 V c 1 t) (iblk4 V c 2 t))
    (runA4_s (F := Ideal) c (grid4.coords t) (ms4_0 t) (hs4_0 t) (ms4_1 t) (hs4_1 t) (ms4_2 t) (hs4_2 t) (ms4_3 t) (hs4_3 t) scM4 (Memref.isWhole_whole _) ((hcond4 t).mpr h) (iblk4 V c 0 t) (iblk4 V c 1 t) (iblk4 V c 2 t))

set_option maxHeartbeats 400000 in
theorem ptB4_eq (c : Dev nD) (t : Fin cfg4.N) (h : ¬t.val % 49 = 0) (xs : S2048x64.Idx → EReal) :
    ptB4 V c t h xs = (k4_pay2 (F := Ideal) (grid4.coords t) (blkSrc4 V c t) (blkNrm4 V c t) (blkFeat4 V c t) xs, k4_pay2 (F := Ideal) (grid4.coords t) (blkSrc4 V c t) (blkNrm4 V c t) (blkFeat4 V c t) xs) := by
  unfold ptB4 blkSrc4 blkNrm4 blkFeat4
  exact congrArg₂ Prod.mk
    (runB4_o (F := Ideal) c (grid4.coords t) (ms4_0 t) (hs4_0 t) (ms4_1 t) (hs4_1 t) (ms4_2 t) (hs4_2 t) (ms4_3 t) (hs4_3 t) scM4 (Memref.isWhole_whole _) (fun hc => h ((hcond4 t).mp hc)) (iblk4 V c 0 t) (iblk4 V c 1 t) (iblk4 V c 2 t) xs)
    (runB4_s (F := Ideal) c (grid4.coords t) (ms4_0 t) (hs4_0 t) (ms4_1 t) (hs4_1 t) (ms4_2 t) (hs4_2 t) (ms4_3 t) (hs4_3 t) scM4 (Memref.isWhole_whole _) (fun hc => h ((hcond4 t).mp hc)) (iblk4 V c 0 t) (iblk4 V c 1 t) (iblk4 V c 2 t) xs)

/-! ## The accumulation at an entry -/

/-- A point where the accumulator is reset, at an entry: zero plus the first node block's sum. -/
theorem resetAt4 (c : Dev nD) (t : Fin cfg4.N) (h0 : t.val % 49 = 0) (r : Fin 2048) (f : Fin 64) (e : Fin 1701888)
    (he : e.val = t.val / 49 * 2048 + r.val) :
    k4_pay2 (F := Ideal) (grid4.coords t) (blkSrc4 V c t) (blkNrm4 V c t) (blkFeat4 V c t) (k4_pay1 (F := Ideal)) (ix2 r f) = gsel (srcw4 V c (ix2 0 e)) (nrm4 V c (ix2 0 e)) (fun q : Fin 100352 => feat4 V c (ix2 q f)) (t.val % 49 + 1) := by
  rw [step4 V c t (k4_pay1 (F := Ideal)) r f e he, pay1_4_apply, h0]
  exact gsel_first (srcw4 V c (ix2 0 e)) (nrm4 V c (ix2 0 e)) (fun q : Fin 100352 => feat4 V c (ix2 q f)) (fun k : Fin 2048 => blkFeat4 V c t (ix2 k f))
    (fun k => blkFeat4_apply V c t k f ⟨0 * 2048 + k.val, by have := k.isLt; omega⟩ (by show 0 * 2048 + k.val = t.val % 49 * 2048 + k.val; rw [h0]))

/-- Any other point, at an entry, over an accumulator holding the total after the earlier node blocks. -/
theorem addAt4 (c : Dev nD) (t : Fin cfg4.N) (h0 : ¬t.val % 49 = 0) (xs : S2048x64.Idx → EReal) (r : Fin 2048) (f : Fin 64) (e : Fin 1701888)
    (he : e.val = t.val / 49 * 2048 + r.val)
    (hxs : xs (ix2 r f) = gsel (srcw4 V c (ix2 0 e)) (nrm4 V c (ix2 0 e)) (fun q : Fin 100352 => feat4 V c (ix2 q f)) (t.val % 49)) :
    k4_pay2 (F := Ideal) (grid4.coords t) (blkSrc4 V c t) (blkNrm4 V c t) (blkFeat4 V c t) xs (ix2 r f) = gsel (srcw4 V c (ix2 0 e)) (nrm4 V c (ix2 0 e)) (fun q : Fin 100352 => feat4 V c (ix2 q f)) (t.val % 49 + 1) := by
  rw [step4 V c t xs r f e he, hxs]
  exact gsel_step (srcw4 V c (ix2 0 e)) (nrm4 V c (ix2 0 e)) (fun q : Fin 100352 => feat4 V c (ix2 q f)) (t.val % 49) (Nat.mod_lt _ (by omega)) (fun k : Fin 2048 => blkFeat4 V c t (ix2 k f))
    (fun k => blkFeat4_apply V c t k f ⟨t.val % 49 * 2048 + k.val, by have := k.isLt; have := Nat.mod_lt t.val (show 0 < 49 by omega); omega⟩ rfl)

/-- After point `n`, at entry `(r, f)` of edge block `n / 49`: the matching term if the edge's source word is below
    `2048 (n mod 49 + 1)`, else zero — in the output block and in the accumulator alike. -/
theorem acc4_inv (c : Dev nD) (r : Fin 2048) (f : Fin 64) :
    ∀ (n : ℕ) (h : n < cfg4.N) (e : Fin 1701888), e.val = n / 49 * 2048 + r.val →
      (outsAt4 V c n h).1 (ix2 r f) = gsel (srcw4 V c (ix2 0 e)) (nrm4 V c (ix2 0 e)) (fun q : Fin 100352 => feat4 V c (ix2 q f)) (n % 49 + 1)
        ∧ (outsAt4 V c n h).2 (ix2 r f) = gsel (srcw4 V c (ix2 0 e)) (nrm4 V c (ix2 0 e)) (fun q : Fin 100352 => feat4 V c (ix2 q f)) (n % 49 + 1) := by
  intro n
  induction n with
  | zero =>
    intro h e he
    have key := resetAt4 V c ⟨0, h⟩ (Nat.zero_mod _) r f e he
    have hA : outsAt4 V c 0 h = _ := (outsAt4_A V c ⟨0, h⟩ (Nat.zero_mod _)).trans (ptA4_eq V c ⟨0, h⟩ (Nat.zero_mod _))
    rw [hA]
    exact ⟨key, key⟩
  | succ n ih =>
    intro h e he
    by_cases h0 : (n + 1) % 49 = 0
    · have key := resetAt4 V c ⟨n + 1, h⟩ h0 r f e he
      have hA : outsAt4 V c (n + 1) h = _ := (outsAt4_A V c ⟨n + 1, h⟩ h0).trans (ptA4_eq V c ⟨n + 1, h⟩ h0)
      rw [hA]
      exact ⟨key, key⟩
    · have hprev := (ih (Nat.lt_of_succ_lt h) e (by omega)).2
      have hxs : (outsAt4 V c (n + 1 - 1) (Nat.lt_of_le_of_lt (Nat.sub_le _ _) h)).2 (ix2 r f)
          = gsel (srcw4 V c (ix2 0 e)) (nrm4 V c (ix2 0 e)) (fun q : Fin 100352 => feat4 V c (ix2 q f)) ((n + 1) % 49) := by
        rw [show (n + 1) % 49 = n % 49 + 1 from by omega]
        exact hprev
      have key := addAt4 V c ⟨n + 1, h⟩ h0 (outsAt4 V c (n + 1 - 1) (Nat.lt_of_le_of_lt (Nat.sub_le _ _) h)).2 r f e he hxs
      have hB : outsAt4 V c (n + 1) h = _ := (outsAt4_B V c ⟨n + 1, h⟩ h0).trans (ptB4_eq V c ⟨n + 1, h⟩ h0 _)
      rw [hB]
      exact ⟨key, key⟩

/-! ## What is written back, the cover, the array -/

/-- An element of the output block at point `t` sits at row `2048 (t / 49) + r`. -/
theorem emb4_3 (t : Fin cfg4.N) (r : Fin 2048) (f : Fin 64) (e : Fin 1701888) (he : e.val = t.val / 49 * 2048 + r.val) :
    ((cfg4.win 3).blk t).view.emb (ix2 r f) = (ix2 e f : S1701888x64.Idx) := by
  funext a
  apply Fin.ext
  match a with
  | ⟨0, _⟩ => show win4_3.index t 0 * 2048 + 1 * r.val = e.val; rw [idx4_3 t, he]; show t.val / 49 * 2048 + 1 * r.val = _; omega
  | ⟨1, _⟩ => show win4_3.index t 1 * 64 + 1 * f.val = f.val; rw [idx4_3 t]; show 0 * 64 + 1 * f.val = f.val; omega

/-- What a point that writes back writes is its block of the message array. -/
theorem flushed4_eq (c : Dev nD) (t : Fin cfg4.N) (hf : (cfg4.win 3).flush t = true) :
    (dat4 V c).flushed 3 t = ((cfg4.win 3).blk t).view.read (Elt Ideal)
      (G4 (feat4 V c) (srcw4 V c) (nrm4 V c)) := by
  have h48 : t.val % 49 = 48 := (flush4_3' t).mp hf
  have hN := N4v
  have ht := t.isLt
  show (cfg4.win 3).cut (grid4.coords t) ((dat4 V c).after 3 t) = _
  rw [after4_3]
  funext j
  obtain ⟨r, f, rfl⟩ : ∃ (r : Fin 2048) (f : Fin 64), j = ix2 r f := ⟨j 0, j 1, eq_ix2 j⟩
  have hlt : t.val / 49 * 2048 + r.val < 1701888 := by have := r.isLt; omega
  rw [View.read_apply, emb4_3 t r f ⟨t.val / 49 * 2048 + r.val, hlt⟩ rfl]
  show (outsAt4 V c t.val t.isLt).1 (ix2 r f) = G4 (feat4 V c) (srcw4 V c) (nrm4 V c) (ix2 ⟨t.val / 49 * 2048 + r.val, hlt⟩ f)
  rw [(acc4_inv V c r f t.val t.isLt ⟨t.val / 49 * 2048 + r.val, hlt⟩ rfl).1, h48]
  exact gsel_last _ _ _

/-- An index of the array is in point `t`'s block iff each coordinate is in the block's range. -/
theorem mem_blk4_3 (t : Fin cfg4.N) (i : S1701888x64.Idx) :
    i ∈ ((cfg4.win 3).blk t).view.set ↔ ∀ a : Fin 2, win4_3.index t a * S2048x64.size a ≤ (i a).val ∧ (i a).val < win4_3.index t a * S2048x64.size a + S2048x64.size a := by
  show i ∈ ((View.whole main_v42).slice (win4_3.rect t)).set ↔ _
  rw [View.set_slice_whole, Rect.mem_set_unit]
  exact Iff.rfl

/-- Every index of the array is in the block of a point that writes back. -/
theorem cover4_3 (i : S1701888x64.Idx) : ∃ t : Fin cfg4.N, (cfg4.win 3).flush t = true ∧ i ∈ ((cfg4.win 3).blk t).view.set := by
  have hi0 : (i 0).val < 1701888 := (i 0).isLt
  have hi1 : (i 1).val < 64 := (i 1).isLt
  have hN := N4v
  refine ⟨⟨49 * ((i 0).val / 2048) + 48, by omega⟩, (flush4_3' _).mpr (by show (49 * ((i 0).val / 2048) + 48) % 49 = 48; omega), ?_⟩
  rw [mem_blk4_3]
  intro a
  rw [idx4_3]
  match a with
  | ⟨0, _⟩ => show (49 * ((i 0).val / 2048) + 48) / 49 * 2048 ≤ (i 0).val ∧ (i 0).val < (49 * ((i 0).val / 2048) + 48) / 49 * 2048 + 2048; omega
  | ⟨1, _⟩ => show 0 * 64 ≤ (i 1).val ∧ (i 1).val < 0 * 64 + 64; omega

/-- The message array after the region, over the plainly typed arrays. -/
theorem final4_typed (c : Dev nD) : (dat4 V c).arrAt 3 cfg4.N = G4 (feat4 V c) (srcw4 V c) (nrm4 V c) :=
  (dat4 V c).arrAt_eq_of_cover 3 (G4 (feat4 V c) (srcw4 V c) (nrm4 V c)) (flushed4_eq V c) (cover4_3)

/-- THE MESSAGE ARRAY after the region. -/
theorem final4_fun (c : Dev nD) : (dat4 V c).arrAt 3 cfg4.N = G4 (V c main_v41) (V c main_v33) (V c main_v35) :=
  final4_typed V c

end Cert.KernelIdeal.Hand

end
-- ==== Proof.KI.Scatter5Terms.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import proofs.«101950_j12489764897128_2_alg».proof.Proof.KI.Scatter5
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: what each case leaves, as terms of the payloads -/

theorem hz5 : (![0, 0] : Fin 2 → Nat) = fun _ => 0 := funext fun a => by fin_cases a <;> rfl

/-- A load through the whole-shape rectangle after stores the last of which went through it reads that store's payload. -/
theorem readCov_cons_unit_zero5 {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

/-- The reset case leaves in the scratch the accumulating payload over the zero payload. -/
theorem sout5_A_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) :
    sout5_A c i arg2 harg2 arg3 harg3 arg4 harg4 arg5 harg5 arg6 harg6 hc x0 x1 x2 = k5_pay2 i x1 x0 (k5_pay1 (F := F)) := by
  unfold sout5_A
  rw [View.read_writes_eq_canon _ _ _ (scover5_A c i arg2 harg2 arg3 harg3 arg4 harg4 arg5 harg5 arg6 harg6 hc x0 x1 x2)]
  unfold kernelRun5_A
  dsimp only
  try sl_unfold_words

  rw [View.canon_cons_unit_zero hz5]
  simp only [View.readAt_eq_ld, harg2.read_unread, harg3.read_unread, harg4.read_unread, harg6.read_unread, View.ld_unit_zero (S := S2048x64) hz5, View.ld_unit_zero (S := S1x2048) hz5, View.ld_unit_zero (S := S1x64) hz5, View.readCov_unit_zero (S := S2048x64) _ hz5, readCov_cons_unit_zero5 (S := S2048x64) _ hz5]

/-- and in the output block the output payload of that and the bias block. -/
theorem out5_A_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : cond5 i) (x0 : Vec F S2048x64 .f32) (x1 : Vec F S1x2048 .i32) (x2 : Vec F S1x64 .f32) :
    out5_A_3 c i arg2 harg2 arg3 harg3 arg4 harg4 arg5 harg5 arg6 harg6 hc x0 x1 x2 = k5_pay3 (k5_pay2 i x1 x0 (k5_pay1 (F := F))) x2 := by
  unfold out5_A_3
  rw [View.read_writes_eq_canon _ _ _ (cover5_A_3 c i arg2 harg2 arg3 harg3 arg4 harg4 arg5 harg5 arg6 harg6 hc x0 x1 x2)]
  unfold kernelRun5_A
  dsimp only
  try sl_unfold_words

  rw [View.canon_unit_zero hz5]
  simp only [View.readAt_eq_ld, harg2.read_unread, harg3.read_unread, harg4.read_unread, harg6.read_unread, View.ld_unit_zero (S := S2048x64) hz5, View.ld_unit_zero (S := S1x2048) hz5, View.ld_unit_zero (S := S1x64) hz5, View.readCov_unit_zero (S := S2048x64) _ hz5, readCov_cons_unit_zero5 (S := S2048x64) _ hz5]

/-- The accumulating case leaves in the scratch the accumulating payload over what the scratch held. -/
theorem sout5_B_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) :
    sout5_B c i arg2 harg2 arg3 harg3 arg4 harg4 arg5 harg5 arg6 harg6 hc x0 x1 x2 xs = k5_pay2 i x1 x0 xs := by
  unfold sout5_B
  rw [View.read_writes_eq_canon _ _ _ (scover5_B c i arg2 harg2 arg3 harg3 arg4 harg4 arg5 harg5 arg6 harg6 hc x0 x1 x2 xs)]
  unfold kernelRun5_B
  dsimp only
  try sl_unfold_words
  rw [View.canon_unit_zero hz5]
  simp only [View.readAt_eq_ld, harg2.read_unread, harg3.read_unread, harg4.read_unread, harg6.read_unread, View.ld_unit_zero (S := S2048x64) hz5, View.ld_unit_zero (S := S1x2048) hz5, View.ld_unit_zero (S := S1x64) hz5, View.readCov_unit_zero (S := S2048x64) _ hz5, readCov_cons_unit_zero5 (S := S2048x64) _ hz5]

/-- and in the output block the output payload of that and the bias block. -/
theorem out5_B_eq (c : Dev nD) (i : grid5.Coords) (arg2 : Memref sig .tc .vmem S2048x64 .f32) (harg2 : arg2.IsWhole) (arg3 : Memref sig .tc .vmem S1x2048 .i32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc : ¬cond5 i) (x0 : Vec F S2048x64 .f32) (x1 : Vec F S1x2048 .i32) (x2 : Vec F S1x64 .f32) (xs : Vec F S2048x64 .f32) :
    out5_B_3 c i arg2 harg2 arg3 harg3 arg4 harg4 arg5 harg5 arg6 harg6 hc x0 x1 x2 xs = k5_pay3 (k5_pay2 i x1 x0 xs) x2 := by
  unfold out5_B_3
  rw [View.read_writes_eq_canon _ _ _ (cover5_B_3 c i arg2 harg2 arg3 harg3 arg4 harg4 arg5 harg5 arg6 harg6 hc x0 x1 x2 xs)]
  unfold kernelRun5_B
  dsimp only
  try sl_unfold_words
  rw [View.canon_unit_zero hz5]
  simp only [View.readAt_eq_ld, harg2.read_unread, harg3.read_unread, harg4.read_unread, harg6.read_unread, View.ld_unit_zero (S := S2048x64) hz5, View.ld_unit_zero (S := S1x2048) hz5, View.ld_unit_zero (S := S1x64) hz5, View.readCov_unit_zero (S := S2048x64) _ hz5, readCov_cons_unit_zero5 (S := S2048x64) _ hz5]

end Cert.KernelIdeal.Hand

end
-- ==== Proof.KI.Scatter5Pay.lean ====
import proofs.«101950_j12489764897128_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand
open Cert.KernelIdeal Cert.KernelIdeal.Gen
open Idealize.ShloMosaic Idealize.ShloMosaic.ValueIdx

/-! # The scatter body's three payloads of region 5, read at an index over the extended reals -/

/-- The reset payload is zero everywhere. -/
theorem pay1_apply5 (j : S2048x64.Idx) : k5_pay1 (F := Ideal) j = 0 := by
  unfold k5_pay1
  try dsimp only
  rw [shapeCast_self]
  exact Ideal.ofBits_zero_f32

/-- The left operand index of the one-hot product: row of the output, contraction position. -/
theorem dotL5_0 (j : S2048x64.Idx) (q : dot_S2048x2048_S2048x64_S2048x64_1_0_0_1_n_n.contr.Idx) : (dot_S2048x2048_S2048x64_S2048x64_1_0_0_1_n_n.lhsIdx j q 0).val = (j 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl

/-- The right operand index: contraction position, column of the output. -/
theorem dotR5_1 (j : S2048x64.Idx) (q : dot_S2048x2048_S2048x64_S2048x64_1_0_0_1_n_n.contr.Idx) : (dot_S2048x2048_S2048x64_S2048x64_1_0_0_1_n_n.rhsIdx j q 1).val = (j 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The product into the zero accumulator, at an index: the sum over the 2048 contraction positions. -/
theorem mm_apply5 (A : FVec Ideal S2048x2048 .bf16) (B : FVec Ideal S2048x64 .bf16) (r : Fin 2048) (f : Fin 64) :
    matmul dot_S2048x2048_S2048x64_S2048x64_1_0_0_1_n_n none A B (constant (F := Ideal) S2048x64 .f32 0x00000000#32) (ix2 r f)
      = ∑ k : Fin 2048, A (ix2 r k) * B (ix2 k f) := by
  simp only [matmul]
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 r f) ((contrEquiv1 dot_S2048x2048_S2048x64_S2048x64_1_0_0_1_n_n 2048 rfl rfl).symm k) = ix2 r k := funext fun a => Fin.ext (by
    match a with
    | ⟨0, _⟩ => exact dotL5_0 _ _
    | ⟨1, _⟩ => exact (dot_S2048x2048_S2048x64_S2048x64_1_0_0_1_n_n.lhsIdx_val_of_single rfl _ _).trans hk)
  have er : dot_S2048x2048_S2048x64_S2048x64_1_0_0_1_n_n.rhsIdx (ix2 r f) ((contrEquiv1 dot_S2048x2048_S2048x64_S2048x64_1_0_0_1_n_n 2048 rfl rfl).symm k) = ix2 k f := funext fun a => Fin.ext (by
    match a with
    | ⟨0, _⟩ => exact (dot_S2048x2048_S2048x64_S2048x64_1_0_0_1_n_n.rhsIdx_val_of_single rfl _ _).trans hk
    | ⟨1, _⟩ => exact dotR5_1 _ _)
  rw [el, er]

/-- A select on an equality test of two words is the conditional on their equality. -/
theorem select_cmpi_eq5 {α : Type} (a b : BitVec 32) (x y : α) :
    Scalar.select (IntOp.cmpi .eq a b) x y = if a = b then x else y := by
  have hc : IntOp.cmpi .eq a b = BitVec.ofBool (a == b) := rfl
  unfold Scalar.select
  rw [hc]
  by_cases h : a = b
  · subst h; simp
  · have hb : (a == b) = false := by simpa using h
    rw [hb, if_neg h, if_neg (by decide)]

/-- The accumulating payload at an index: what the scratch held plus, over the block's 2048 edges, the message
    rows whose destination word is this node's number. -/
theorem pay2_apply5 (i : grid5.Coords) (v7 : Vec Ideal S1x2048 .i32) (v16 v20 : Vec Ideal S2048x64 .f32) (r : Fin 2048) (f : Fin 64) :
    k5_pay2 (F := Ideal) i v7 v16 v20 (ix2 r f)
      = v20 (ix2 r f) + ∑ k : Fin 2048, (if BitVec.ofNat 32 (i 0).val * 2048#32 + BitVec.ofNat 32 r.val = v7 (ix2 0 k) then v16 (ix2 k f) else 0) := by
  unfold k5_pay2
  dsimp only
  rw [shapeCast_self, addf_apply, mm_apply5]
  refine congrArg (v20 (ix2 r f) + ·) (Finset.sum_congr rfl fun k _ => ?_)
  rw [truncf_apply, truncf_apply, shapeCast_self, select_apply, broadcast_apply, broadcast_apply]
  show Scalar.select (IntOp.cmpi .eq (IntOp.addi _ (iota .tc S2048x2048 32 [0] iota_S2048x2048_d0_w32 (ix2 r k))) (broadcastTo S2048x2048 _ broadcasts_S1x2048_S2048x2048 (ix2 r k))) _ _ * _ = _
  rw [iota_single_apply, broadcastTo_1b_ab_apply, shapeCast_self, shapeCast_self, select_cmpi_eq5]
  show (if _ then Ideal.ofBits .f32 0x3F800000#32 else Ideal.ofBits .f32 0x00000000#32) * _ = _
  rw [Ideal.ofBits_one_f32, Ideal.ofBits_zero_f32, ite_mul, one_mul, zero_mul]
  rfl

/-- The output payload at an index: the scratch plus the bias row, clamped below at zero. -/
theorem pay3_apply5 (v25 : Vec Ideal S2048x64 .f32) (v26 : Vec Ideal S1x64 .f32) (r : Fin 2048) (f : Fin 64) :
    k5_pay3 (F := Ideal) v25 v26 (ix2 r f) = max (v25 (ix2 r f) + v26 (ix2 0 f)) 0 := by
  unfold k5_pay3
  try dsimp only
  rw [maximumf_apply, addf_apply, broadcast_apply, broadcastTo_1b_ab_apply, shapeCast_self]
  show max _ (Ideal.ofBits .f32 0x00000000#32) = _
  rw [Ideal.ofBits_zero_f32]

end Cert.KernelIdeal.Hand

end
-- ==== Proof.KI.Scatter5Spec.lean ====
import proofs.«101950_j12489764897128_2_alg».proof.Proof.Gen.KernelIdeal.Skeleton
import Idealize.ShloMosaic.Lib.ValueIdx
import Idealize.ShloMosaic.PureOps.Ideal.Laws

set_option maxRecDepth 16384

noncomputable section

namespace Cert.KernelIdeal.Hand
open Cert.KernelIdeal Cert.KernelIdeal.Gen
open Idealize.ShloMosaic Idealize.ShloMosaic.ValueIdx

/-! # Region 5's result as one function of its operand arrays, and the regrouping of its sum by edge blocks -/

/-- Scatter-add by destination, then bias and the clamp at zero: node `n`, feature `f` receives the sum of the
    message rows whose destination word is `n`, plus the bias, clamped below at zero. -/
def G5 (msg : S1701888x64.Idx → EReal) (dst : S1x1701888.Idx → BitVec 32) (bias : S1x64.Idx → EReal) : S100352x64.Idx → EReal :=
  fun j => max ((∑ e : Fin 1701888, if dst (ix2 0 e) = BitVec.ofNat 32 (j 0).val then msg (ix2 e (⟨(j 1).val, idx2_lt1 j⟩ : Fin 64)) else 0)
    + bias (ix2 0 (⟨(j 1).val, idx2_lt1 j⟩ : Fin 64))) 0

theorem G5_apply (msg : S1701888x64.Idx → EReal) (dst : S1x1701888.Idx → BitVec 32) (bias : S1x64.Idx → EReal) (n : Fin 100352) (f : Fin 64) :
    G5 msg dst bias (ix2 n f) = max ((∑ e : Fin 1701888, if dst (ix2 0 e) = BitVec.ofNat 32 n.val then msg (ix2 e f) else 0) + bias (ix2 0 f)) 0 := rfl

/-- The message array read at a natural-number row (zero past the end). -/
def msgN5 (msg : S1701888x64.Idx → EReal) (n : ℕ) (f : Fin 64) : EReal := if h : n < 1701888 then msg (ix2 ⟨n, h⟩ f) else 0
/-- The destination row read at a natural-number position (zero past the end). -/
def dstN5 (dst : S1x1701888.Idx → BitVec 32) (n : ℕ) : BitVec 32 := if h : n < 1701888 then dst (ix2 0 ⟨n, h⟩) else 0#32

/-- One edge block's contribution to the node whose number is the word `w`. -/
def blkSum5 (msg : S1701888x64.Idx → EReal) (dst : S1x1701888.Idx → BitVec 32) (w : BitVec 32) (f : Fin 64) (e' : ℕ) : EReal :=
  ∑ k : Fin 2048, if w = dstN5 dst (e' * 2048 + k.val) then msgN5 msg (e' * 2048 + k.val) f else 0

/-- A sum over the 1701888 edges is the sum over the 831 edge blocks of the sums over each block's 2048 edges. -/
theorem sum_blocks5 (g : ℕ → EReal) :
    ∑ e : Fin 1701888, g e.val = ∑ e' ∈ Finset.range 831, ∑ k : Fin 2048, g (e' * 2048 + k.val) := by
  have h1 : ∑ e : Fin (831 * 2048), g e.val = ∑ p : Fin 831 × Fin 2048, g ((finProdFinEquiv p).val) :=
    (Equiv.sum_comp finProdFinEquiv (fun e : Fin (831 * 2048) => g e.val)).symm
  have h2 : ∑ e : Fin 1701888, g e.val = ∑ e : Fin (831 * 2048), g e.val := rfl
  rw [h2, h1, Fintype.sum_prod_type, ← Fin.sum_univ_eq_sum_range (fun e' => ∑ k : Fin 2048, g (e' * 2048 + k.val)) 831]
  refine Finset.sum_congr rfl fun a _ => Finset.sum_congr rfl fun b _ => ?_
  rw [finProdFinEquiv_apply_val, Nat.add_comm, Nat.mul_comm]

/-- The node number as the kernel computes it (block base times 2048 plus the row) is the word of the number. -/
theorem nodeWord5 (nb r : ℕ) : BitVec.ofNat 32 nb * 2048#32 + BitVec.ofNat 32 r = BitVec.ofNat 32 (nb * 2048 + r) := by
  rw [BitVec.ofNat_add, BitVec.ofNat_mul]

/-- The 831 edge blocks' contributions to node `nb·2048 + r` add up to the sum over all edges. -/
theorem scatter_sum5 (msg : S1701888x64.Idx → EReal) (dst : S1x1701888.Idx → BitVec 32) (nb : ℕ) (r : Fin 2048) (f : Fin 64) :
    ∑ e' ∈ Finset.range 831, blkSum5 msg dst (BitVec.ofNat 32 nb * 2048#32 + BitVec.ofNat 32 r.val) f e'
      = ∑ e : Fin 1701888, if dst (ix2 0 e) = BitVec.ofNat 32 (nb * 2048 + r.val) then msg (ix2 e f) else 0 := by
  have hR : ∀ e : Fin 1701888, (if dst (ix2 0 e) = BitVec.ofNat 32 (nb * 2048 + r.val) then msg (ix2 e f) else 0)
      = (fun n : ℕ => if BitVec.ofNat 32 (nb * 2048 + r.val) = dstN5 dst n then msgN5 msg n f else 0) e.val := fun e => by
    show _ = if BitVec.ofNat 32 (nb * 2048 + r.val) = dstN5 dst e.val then msgN5 msg e.val f else 0
    unfold dstN5 msgN5
    rw [dif_pos e.isLt, dif_pos e.isLt]
    exact if_congr eq_comm rfl rfl
  have hS := sum_blocks5 (fun n : ℕ => if BitVec.ofNat 32 (nb * 2048 + r.val) = dstN5 dst n then msgN5 msg n f else 0)
  have hL : ∑ e : Fin 1701888, (if dst (ix2 0 e) = BitVec.ofNat 32 (nb * 2048 + r.val) then msg (ix2 e f) else 0)
      = ∑ e : Fin 1701888, (fun n : ℕ => if BitVec.ofNat 32 (nb * 2048 + r.val) = dstN5 dst n then msgN5 msg n f else 0) e.val :=
    Finset.sum_congr rfl (fun e _ => hR e)
  rw [hL, hS, nodeWord5]
  rfl

end Cert.KernelIdeal.Hand

end
-- ==== Proof.KI.Scatter5Val.lean ====
import proofs.«101950_j12489764897128_2_alg».proof.Proof.KI.Scatter5Terms
import proofs.«101950_j12489764897128_2_alg».proof.Proof.KI.Scatter5Pay
import proofs.«101950_j12489764897128_2_alg».proof.Proof.KI.Scatter5Spec
import Idealize.ShloMosaic.Lib.Pipeline.Value

set_option maxRecDepth 16384

noncomputable section

namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # Region 5: its output array after the region, over the extended reals -/

variable (V : (c : Dev nD) → (b : Ref sig .tc) → Buf (Elt Ideal) ((c : Thread nD τ).loc b))

/-! ## The index maps at a point, by arithmetic on the point's number -/

theorem widx5_0 (t : Fin cfg5.N) : win5_0.index t 0 = t.val % 831 := by
  show (BitVec.ofNat 32 ((grid5.coords t) 1).val).toNat = _
  rw [coord5_inner, BitVec.toNat_ofNat]
  exact Nat.mod_eq_of_lt (lt_of_lt_of_le (Nat.mod_lt _ (by decide)) (by decide))
theorem widx5_0' (t : Fin cfg5.N) : win5_0.index t 1 = 0 := rfl
theorem widx5_1 (t : Fin cfg5.N) : win5_1.index t 1 = t.val % 831 := by
  show (BitVec.ofNat 32 ((grid5.coords t) 1).val).toNat = _
  rw [coord5_inner, BitVec.toNat_ofNat]
  exact Nat.mod_eq_of_lt (lt_of_lt_of_le (Nat.mod_lt _ (by decide)) (by decide))
theorem widx5_1' (t : Fin cfg5.N) : win5_1.index t 0 = 0 := rfl
theorem widx5_2 (t : Fin cfg5.N) : win5_2.index t 0 = 0 := rfl
theorem widx5_2' (t : Fin cfg5.N) : win5_2.index t 1 = 0 := rfl
theorem widx5_3 (t : Fin cfg5.N) : win5_3.index t 0 = t.val / 831 := by
  show (BitVec.ofNat 32 ((grid5.coords t) 0).val).toNat = _
  rw [coord5_outer, BitVec.toNat_ofNat]
  have h : t.val < 40719 := lt_of_lt_of_eq t.isLt (show cfg5.N = 40719 from N_5)
  exact Nat.mod_eq_of_lt (by omega)
theorem widx5_3' (t : Fin cfg5.N) : win5_3.index t 1 = 0 := rfl

/-- The output block is written back exactly at the points whose inner coordinate is the last one. -/
theorem flushAt5 (t : Fin cfg5.N) : (cfg5.win 3).flush t = true ↔ t.val % 831 = 830 := by
  have hN : grid5.N = 40719 := N_5
  have ht : t.val < 40719 := lt_of_lt_of_eq t.isLt (show cfg5.N = 40719 from N_5)
  show (true && (decide (t.val + 1 = grid5.N) || decide (∃ h : t.val + 1 < grid5.N, win5_3.index ⟨t.val + 1, h⟩ ≠ win5_3.index t))) = true ↔ _
  rw [Bool.true_and, Bool.or_eq_true, decide_eq_true_eq, decide_eq_true_eq]
  constructor
  · rintro (h | ⟨h, hne⟩)
    · omega
    · by_contra hc
      apply hne
      funext a
      match a with
      | ⟨0, _⟩ =>
        show win5_3.index ⟨t.val + 1, h⟩ 0 = win5_3.index t 0
        rw [widx5_3, widx5_3]
        show (t.val + 1) / 831 = t.val / 831
        omega
      | ⟨1, _⟩ => rfl
  · intro h
    by_cases hl : t.val + 1 = grid5.N
    · exact Or.inl hl
    · refine Or.inr ⟨by omega, fun he => ?_⟩
      have e0 : win5_3.index ⟨t.val + 1, by omega⟩ 0 = win5_3.index t 0 := congrFun he 0
      rw [widx5_3, widx5_3] at e0
      have e1 : (t.val + 1) / 831 = t.val / 831 := e0
      omega

/-! ## The input blocks, read at an index -/

theorem iblk5_0_at (c : Dev nD) (t : Fin cfg5.N) (x : S2048x64.Idx) (k : S1701888x64.Idx)
    (hk0 : (k 0).val = t.val % 831 * 2048 + (x 0).val) (hk1 : (k 1).val = (x 1).val) :
    (iblk5 V c 0 t : Vec Ideal S2048x64 .f32) x = (V c main_v42 : S1701888x64.Idx → EReal) k := by
  unfold iblk5
  rw [View.read_apply]
  show (V c main_v42 : S1701888x64.Idx → EReal) _ = _
  congr 1
  funext a
  apply Fin.ext
  match a with
  | ⟨0, _⟩ => show win5_0.index t 0 * 2048 + 1 * (x 0).val = (k 0).val; rw [widx5_0, hk0]; omega
  | ⟨1, _⟩ => show win5_0.index t 1 * 64 + 1 * (x 1).val = (k 1).val; rw [widx5_0', hk1]; omega

theorem iblk5_1_at (c : Dev nD) (t : Fin cfg5.N) (x : S1x2048.Idx) (k : S1x1701888.Idx)
    (hk0 : (k 0).val = (x 0).val) (hk1 : (k 1).val = t.val % 831 * 2048 + (x 1).val) :
    (iblk5 V c 1 t : Vec Ideal S1x2048 .i32) x = (V c main_v34 : S1x1701888.Idx → BitVec 32) k := by
  unfold iblk5
  rw [View.read_apply]
  show (V c main_v34 : S1x1701888.Idx → BitVec 32) _ = _
  congr 1
  funext a
  apply Fin.ext
  match a with
  | ⟨0, _⟩ => show win5_1.index t 0 * 1 + 1 * (x 0).val = (k 0).val; rw [widx5_1', hk0]; omega
  | ⟨1, _⟩ => show win5_1.index t 1 * 2048 + 1 * (x 1).val = (k 1).val; rw [widx5_1, hk1]; omega

theorem iblk5_2_at (c : Dev nD) (t : Fin cfg5.N) (x : S1x64.Idx) :
    (iblk5 V c 2 t : Vec Ideal S1x64 .f32) x = (V c main_v43 : S1x64.Idx → EReal) x := by
  unfold iblk5
  rw [View.read_apply]
  show (V c main_v43 : S1x64.Idx → EReal) _ = _
  congr 1
  funext a
  apply Fin.ext
  match a with
  | ⟨0, _⟩ => show win5_2.index t 0 * 1 + 1 * (x 0).val = (x 0).val; rw [widx5_2]; omega
  | ⟨1, _⟩ => show win5_2.index t 1 * 64 + 1 * (x 1).val = (x 1).val; rw [widx5_2']; omega

/-- The message block's row `k` is row `(t mod 831)·2048 + k` of the message array. -/
theorem iblk5_0_N (c : Dev nD) (t : Fin cfg5.N) (k : Fin 2048) (f : Fin 64) :
    (iblk5 V c 0 t : Vec Ideal S2048x64 .f32) (ix2 k f) = msgN5 (V c main_v42 : S1701888x64.Idx → EReal) (t.val % 831 * 2048 + k.val) f := by
  have h : t.val % 831 * 2048 + k.val < 1701888 := by
    have := Nat.mod_lt t.val (show 831 > 0 by decide); have := k.isLt; omega
  unfold msgN5
  rw [dif_pos h]
  exact iblk5_0_at V c t (ix2 k f) (ix2 ⟨_, h⟩ f) rfl rfl

/-- The destination block's word `k` is word `(t mod 831)·2048 + k` of the destination row. -/
theorem iblk5_1_N (c : Dev nD) (t : Fin cfg5.N) (k : Fin 2048) :
    (iblk5 V c 1 t : Vec Ideal S1x2048 .i32) (ix2 0 k) = dstN5 (V c main_v34 : S1x1701888.Idx → BitVec 32) (t.val % 831 * 2048 + k.val) := by
  have h : t.val % 831 * 2048 + k.val < 1701888 := by
    have := Nat.mod_lt t.val (show 831 > 0 by decide); have := k.isLt; omega
  unfold dstN5
  rw [dif_pos h]
  exact iblk5_1_at V c t (ix2 0 k) (ix2 0 ⟨_, h⟩) rfl rfl

/-! ## The scratch after each point -/

/-- One point's accumulating payload over what the scratch held, at an index. -/
theorem payAt5 (c : Dev nD) (t : Fin cfg5.N) (prev : Vec Ideal S2048x64 .f32) (r : Fin 2048) (f : Fin 64) :
    k5_pay2 (F := Ideal) (grid5.coords t) (iblk5 V c 1 t) (iblk5 V c 0 t) prev (ix2 r f)
      = prev (ix2 r f) + blkSum5 (V c main_v42 : S1701888x64.Idx → EReal) (V c main_v34 : S1x1701888.Idx → BitVec 32) (BitVec.ofNat 32 (t.val / 831) * 2048#32 + BitVec.ofNat 32 r.val) f (t.val % 831) := by
  refine (pay2_apply5 _ _ _ _ r f).trans ?_
  rw [coord5_outer]
  unfold blkSum5
  refine congrArg (prev (ix2 r f) + ·) (Finset.sum_congr rfl fun k _ => ?_)
  rw [iblk5_1_N V c t k, iblk5_0_N V c t k f]

/-- A point whose inner coordinate is zero resets the scratch: it then holds that point's block's contribution alone. -/
theorem accA5 (c : Dev nD) (n : ℕ) (hn : n < cfg5.N) (h0 : n % 831 = 0) (r : Fin 2048) (f : Fin 64) :
    (outsAt5 V c n hn).2 (ix2 r f) = ∑ e' ∈ Finset.range (n % 831 + 1),
      blkSum5 (V c main_v42 : S1701888x64.Idx → EReal) (V c main_v34 : S1x1701888.Idx → BitVec 32) (BitVec.ofNat 32 (n / 831) * 2048#32 + BitVec.ofNat 32 r.val) f e' := by
  have e := outsAt5_A V c ⟨n, hn⟩ h0
  rw [show outsAt5 V c n hn = _ from e]
  dsimp only
  rw [sout5_A_eq]
  refine (payAt5 V c ⟨n, hn⟩ _ r f).trans ?_
  rw [pay1_apply5, zero_add]
  dsimp only
  rw [h0, Nat.zero_add, Finset.sum_range_one]

/-- Any other point adds its block's contribution to what the point before left. -/
theorem accB5 (c : Dev nD) (n : ℕ) (hn : n + 1 < cfg5.N) (h0 : ¬(n + 1) % 831 = 0) (r : Fin 2048) (f : Fin 64) :
    (outsAt5 V c (n + 1) hn).2 (ix2 r f) = (outsAt5 V c n (Nat.lt_of_succ_lt hn)).2 (ix2 r f)
      + blkSum5 (V c main_v42 : S1701888x64.Idx → EReal) (V c main_v34 : S1x1701888.Idx → BitVec 32) (BitVec.ofNat 32 ((n + 1) / 831) * 2048#32 + BitVec.ofNat 32 r.val) f ((n + 1) % 831) := by
  have e := outsAt5_B V c ⟨n + 1, hn⟩ h0
  rw [show outsAt5 V c (n + 1) hn = _ from e]
  dsimp only
  rw [sout5_B_eq]
  exact payAt5 V c ⟨n + 1, hn⟩ _ r f

/-- After point `n` the scratch holds, at row `r`, the contributions of the edge blocks `0 … n mod 831` to node
    `(n / 831)·2048 + r`. -/
theorem acc5_eq (c : Dev nD) : ∀ (n : ℕ) (hn : n < cfg5.N) (r : Fin 2048) (f : Fin 64),
    (outsAt5 V c n hn).2 (ix2 r f) = ∑ e' ∈ Finset.range (n % 831 + 1),
      blkSum5 (V c main_v42 : S1701888x64.Idx → EReal) (V c main_v34 : S1x1701888.Idx → BitVec 32) (BitVec.ofNat 32 (n / 831) * 2048#32 + BitVec.ofNat 32 r.val) f e' := by
  intro n
  induction n with
  | zero => intro hn r f; exact accA5 V c 0 hn (Nat.zero_mod _) r f
  | succ n ih =>
    intro hn r f
    by_cases h0 : (n + 1) % 831 = 0
    · exact accA5 V c (n + 1) hn h0 r f
    · have hm : (n + 1) % 831 = n % 831 + 1 := by omega
      have hd : (n + 1) / 831 = n / 831 := by omega
      rw [accB5 V c n hn h0 r f, ih (Nat.lt_of_succ_lt hn) r f, hd, hm, Finset.sum_range_succ (n := n % 831 + 1)]

/-- The output block after a point is the output payload of the scratch after it and the bias block. -/
theorem outAt5_eq (c : Dev nD) (t : Fin cfg5.N) :
    (outsAt5 V c t.val t.isLt).1 = k5_pay3 (F := Ideal) (outsAt5 V c t.val t.isLt).2 (iblk5 V c 2 t) := by
  by_cases h0 : t.val % 831 = 0
  · rw [outsAt5_A V c t h0]
    dsimp only
    rw [out5_A_eq, sout5_A_eq]
  · rw [outsAt5_B V c t h0]
    dsimp only
    rw [out5_B_eq, sout5_B_eq]

/-! ## From the blocks to the array -/

theorem eq_ix2_5 (j : S2048x64.Idx) : j = ix2 (⟨(j 0).val, idx2_lt0 j⟩ : Fin 2048) (⟨(j 1).val, idx2_lt1 j⟩ : Fin 64) := by
  funext a
  match a with
  | ⟨0, _⟩ => rfl
  | ⟨1, _⟩ => rfl

/-- What the output's staging buffer holds after the last point of a row of the grid, at an index, is the result
    function at the array index the block puts there. -/
theorem afterAt5 (c : Dev nD) (t : Fin cfg5.N) (h830 : t.val % 831 = 830) (r : Fin 2048) (f : Fin 64) (i : S100352x64.Idx)
    (hi0 : (i 0).val = t.val / 831 * 2048 + r.val) (hi1 : (i 1).val = f.val) :
    (outsAt5 V c t.val t.isLt).1 (ix2 r f) = G5 (V c main_v42 : S1701888x64.Idx → EReal) (V c main_v34 : S1x1701888.Idx → BitVec 32) (V c main_v43 : S1x64.Idx → EReal) i := by
  rw [outAt5_eq]
  refine (pay3_apply5 _ _ r f).trans ?_
  rw [acc5_eq V c t.val t.isLt r f, h830, show (830 + 1 : ℕ) = 831 from rfl, scatter_sum5, iblk5_2_at V c t (ix2 0 f)]
  have hi : i = ix2 (⟨t.val / 831 * 2048 + r.val, hi0 ▸ idx2_lt0 i⟩ : Fin 100352) f := by
    funext a
    match a with
    | ⟨0, _⟩ => exact Fin.ext hi0
    | ⟨1, _⟩ => exact Fin.ext hi1
  rw [hi, G5_apply]

/-- An element of the output block at point `t` sits at row `(t / 831)·2048 + r` of the output array. -/
theorem emb5_3 (t : Fin cfg5.N) (r : Fin 2048) (f : Fin 64) (n : Fin 100352) (hn : n.val = t.val / 831 * 2048 + r.val) :
    ((cfg5.win 3).blk t).view.emb (ix2 r f) = (ix2 n f : S100352x64.Idx) := by
  funext a
  apply Fin.ext
  match a with
  | ⟨0, _⟩ => show win5_3.index t 0 * 2048 + 1 * r.val = n.val; rw [widx5_3, hn]; omega
  | ⟨1, _⟩ => show win5_3.index t 1 * 64 + 1 * f.val = f.val; rw [widx5_3']; omega

/-- The part of the block the write-back moves is the whole block: reading it at an index reads the block there. -/
theorem cut5_3_apply (t : Fin cfg5.N) (X : Vec Ideal S2048x64 .f32) (r : Fin 2048) (f : Fin 64) :
    (cfg5.win 3).cut (grid5.coords t) X (ix2 r f) = X (ix2 r f) := rfl

/-- What point `t` writes back is block `t` of the result function of the operand arrays as the region finds them. -/
theorem flushed5_eq (c : Dev nD) (t : Fin cfg5.N) (hf : (cfg5.win 3).flush t = true) :
    (dat5 V c).flushed 3 t = ((cfg5.win 3).blk t).view.read (Elt Ideal) (G5 (V c main_v42 : S1701888x64.Idx → EReal) (V c main_v34 : S1x1701888.Idx → BitVec 32) (V c main_v43 : S1x64.Idx → EReal)) := by
  have h830 := (flushAt5 t).mp hf
  have ht : t.val < 40719 := lt_of_lt_of_eq t.isLt (show cfg5.N = 40719 from N_5)
  show (cfg5.win 3).cut (grid5.coords t) ((dat5 V c).after 3 t) = _
  rw [after5_3]
  funext j
  obtain ⟨r, f, rfl⟩ : ∃ (r : Fin 2048) (f : Fin 64), j = ix2 r f := ⟨j 0, j 1, eq_ix2 j⟩
  have hlt : t.val / 831 * 2048 + r.val < 100352 := by have := r.isLt; omega
  refine (cut5_3_apply t _ r f).trans ?_
  rw [View.read_apply, emb5_3 t r f ⟨t.val / 831 * 2048 + r.val, hlt⟩ rfl]
  rw [← afterAt5 V c t h830 r f (ix2 ⟨t.val / 831 * 2048 + r.val, hlt⟩ f) rfl rfl]
  exact (cast_eq _ _).symm

/-- An index of the array is in point `t`'s block iff each coordinate is in the block's range on its axis. -/
theorem mem_blk5 (t : Fin cfg5.N) (i : S100352x64.Idx) :
    i ∈ ((cfg5.win 3).blk t).view.set ↔ ∀ a : Fin 2, win5_3.index t a * S2048x64.size a ≤ (i a).val ∧ (i a).val < win5_3.index t a * S2048x64.size a + S2048x64.size a := by
  show i ∈ ((View.whole main_v44).slice (win5_3.rect t)).set ↔ _
  rw [View.set_slice_whole, Rect.mem_set_unit]
  exact Iff.rfl

/-- Every index of the output array is in the block of a point that writes back. -/
theorem cover5 (i : S100352x64.Idx) : ∃ t : Fin cfg5.N, (cfg5.win 3).flush t = true ∧ i ∈ ((cfg5.win 3).blk t).view.set := by
  have hi0 : (i 0).val < 100352 := idx2_lt0 i
  have hi1 : (i 1).val < 64 := idx2_lt1 i
  have hN : cfg5.N = 40719 := N_5
  refine ⟨⟨(i 0).val / 2048 * 831 + 830, by omega⟩, (flushAt5 _).mpr (by show ((i 0).val / 2048 * 831 + 830) % 831 = 830; omega), ?_⟩
  rw [mem_blk5]
  intro a
  match a with
  | ⟨0, _⟩ =>
    show win5_3.index _ 0 * 2048 ≤ (i 0).val ∧ (i 0).val < win5_3.index _ 0 * 2048 + 2048
    rw [widx5_3]
    show ((i 0).val / 2048 * 831 + 830) / 831 * 2048 ≤ (i 0).val ∧ (i 0).val < ((i 0).val / 2048 * 831 + 830) / 831 * 2048 + 2048
    omega
  | ⟨1, _⟩ =>
    show win5_3.index _ 1 * 64 ≤ (i 1).val ∧ (i 1).val < win5_3.index _ 1 * 64 + 64
    rw [widx5_3']
    omega

/-- THE OUTPUT ARRAY after the region: the result function of the operand arrays as the region finds them. -/
theorem final5_fun (c : Dev nD) : (dat5 V c).arrAt 3 cfg5.N = G5 (V c main_v42 : S1701888x64.Idx → EReal) (V c main_v34 : S1x1701888.Idx → BitVec 32) (V c main_v43 : S1x64.Idx → EReal) :=
  (dat5 V c).arrAt_eq_of_cover 3 _ (flushed5_eq V c) (cover5)

end Cert.KernelIdeal.Hand

end
-- ==== Proof.Spec.lean ====
/-
  The function both programs compute, over the extended reals, stated over plain finite index types.

  A graph-convolution layer on 100000 nodes and 1700000 edges (the given edges followed by one self-loop per node):
  each node's row is first multiplied by the weight matrix; each edge `e` carries the message
  `(h W)[s e] · nrm e` from its source node `s e`; node `n` receives the sum of the messages of the edges whose
  destination word `d e` is the word of `n`; the bias is added and the result clipped below at zero.
  The destination is compared as a 32-bit word: an edge whose destination word is the word of no node contributes
  to no row, on both sides.
-/
import Idealize.ShloMosaic.PureOps.Ideal
import Idealize.ShloMosaic.Lib.ValueIdx

noncomputable section

namespace Cert.Spec

open Idealize.ShloMosaic

/-- The number of nodes and of edges (given edges plus self-loops). -/
abbrev NN : ℕ := 100000
abbrev NE : ℕ := 1700000

/-- The dense product of a node-feature table with a weight matrix: `(h W)[n, f] = ∑ k, h[n, k] · W[k, f]`. -/
def proj {D Do : ℕ} (h : Fin NN → Fin D → EReal) (W : Fin D → Fin Do → EReal) (n : Fin NN) (f : Fin Do) : EReal :=
  ∑ k : Fin D, h n k * W k f

/-- The message of edge `e`: its source's projected row, scaled by the edge's normalisation. -/
def msg {Do : ℕ} (y : Fin NN → Fin Do → EReal) (s : Fin NE → Fin NN) (nrm : Fin NE → EReal) (e : Fin NE) (f : Fin Do) : EReal :=
  y (s e) f * nrm e

/-- The sum of the messages arriving at node `n`: over the edges whose destination word is `n`'s. -/
def agg {Do : ℕ} (mg : Fin NE → Fin Do → EReal) (d : Fin NE → BitVec 32) (n : Fin NN) (f : Fin Do) : EReal :=
  ∑ e ∈ Finset.univ.filter (fun e : Fin NE => d e = BitVec.ofNat 32 n.val), mg e f

/-- One layer: project, send along the edges, sum at the destinations, add the bias, clip at zero. -/
def layer {D Do : ℕ} (h : Fin NN → Fin D → EReal) (W : Fin D → Fin Do → EReal) (b : Fin Do → EReal)
    (s : Fin NE → Fin NN) (d : Fin NE → BitVec 32) (nrm : Fin NE → EReal) (n : Fin NN) (f : Fin Do) : EReal :=
  max (agg (msg (proj h W) s nrm) d n f + b f) 0

/-- The two layers, widths 128 → 128 → 64. -/
def net (x : Fin NN → Fin 128 → EReal) (W1 : Fin 128 → Fin 128 → EReal) (b1 : Fin 128 → EReal)
    (W2 : Fin 128 → Fin 64 → EReal) (b2 : Fin 64 → EReal)
    (s : Fin NE → Fin NN) (d : Fin NE → BitVec 32) (nrm : Fin NE → EReal) : Fin NN → Fin 64 → EReal :=
  layer (layer x W1 b1 s d nrm) W2 b2 s d nrm

end Cert.Spec

end
-- ==== Proof.SpecBridge.lean ====
/-
  One layer, as the kernel side produces it, is the specification's layer.

  The kernel works on padded tables: 100352 node rows (the rows past 100000 unused) and 1701888 edges, the edges past
  1700000 carrying source word 0 and normalisation 0. It forms `y = hp · W` on all padded rows, the message of edge `e` as
  `nrmp e · y[s']` for the row `s'` its source word names, and row `n` as the sum over ALL padded edges of the messages
  whose destination word is `n`'s, plus the bias, clipped at zero. A padded edge's message is `0 · y[0] = 0` on the
  extended reals, so the sum over the padded edges is the sum over the true ones, which is the specification's
  filtered sum; the message itself differs from the specification's only by the order of a product.
-/
import proofs.«101950_j12489764897128_2_alg».proof.Proof.Spec

noncomputable section

namespace Cert.Spec

/-- The padded numbers of node rows and of edges. -/
abbrev NP : ℕ := 100352
abbrev EP : ℕ := 1701888

/-- A node, and an edge, among the padded ones. -/
def upN (n : Fin NN) : Fin NP := Fin.castLE (by decide) n
def upE (e : Fin NE) : Fin EP := Fin.castLE (by decide) e

theorem upN_val (n : Fin NN) : (upN n).val = n.val := rfl
theorem upE_val (e : Fin NE) : (upE e).val = e.val := rfl

theorem upE_injective : Function.Injective upE := fun a b h => Fin.ext (by have := congrArg Fin.val h; simpa [upE_val] using this)

/-- A sum over the padded edges of a function that vanishes past the true ones is the sum over the true ones. -/
theorem sum_padded (g : Fin EP → EReal) (hg : ∀ e : Fin EP, NE ≤ e.val → g e = 0) :
    ∑ e : Fin EP, g e = ∑ e : Fin NE, g (upE e) := by
  have h1 : ∑ e ∈ Finset.univ.map ⟨upE, upE_injective⟩, g e = ∑ e : Fin NE, g (upE e) := Finset.sum_map _ _ _
  rw [← h1]
  refine (Finset.sum_subset (Finset.subset_univ _) fun e _ hne => hg e ?_).symm
  by_contra hlt
  exact hne (Finset.mem_map.mpr ⟨⟨e.val, by omega⟩, Finset.mem_univ _, Fin.ext rfl⟩)

theorem layer_bridge {D Do : ℕ}
    (hp : Fin NP → Fin D → EReal) (h : Fin NN → Fin D → EReal) (W : Fin D → Fin Do → EReal) (b : Fin Do → EReal)
    (s : Fin NE → Fin NN) (d : Fin NE → BitVec 32) (nrm : Fin NE → EReal)
    (srcp dstp : Fin EP → BitVec 32) (nrmp : Fin EP → EReal)
    (y : Fin NP → Fin Do → EReal) (mg : Fin EP → Fin Do → EReal) (out : Fin NP → Fin Do → EReal)
    (hh : ∀ r k, hp (upN r) k = h r k)
    (hsrc : ∀ e, srcp (upE e) = BitVec.ofNat 32 (s e).val)
    (hdst : ∀ e, dstp (upE e) = d e)
    (hnrm : ∀ e, nrmp (upE e) = nrm e)
    (hsrc0 : ∀ e : Fin EP, NE ≤ e.val → srcp e = 0#32)
    (hnrm0 : ∀ e : Fin EP, NE ≤ e.val → nrmp e = 0)
    (hy : ∀ r f, y r f = ∑ k : Fin D, hp r k * W k f)
    (hmg : ∀ e f (s' : Fin NP), srcp e = BitVec.ofNat 32 s'.val → mg e f = nrmp e * y s' f)
    (hout : ∀ n f, out n f = max ((∑ e : Fin EP, if dstp e = BitVec.ofNat 32 n.val then mg e f else 0) + b f) 0)
    (n : Fin NN) (f : Fin Do) : out (upN n) f = layer h W b s d nrm n f := by
  rw [hout, upN_val]
  unfold layer
  refine congrArg (fun z => max (z + b f) 0) ?_
  -- the padded edges contribute nothing
  rw [sum_padded _ (fun e he => by
    have h0 : mg e f = 0 := by
      rw [hmg e f ⟨0, by decide⟩ (by rw [hsrc0 e he]), hnrm0 e he, zero_mul]
    rw [h0, ite_self])]
  unfold agg
  rw [Finset.sum_filter]
  refine Finset.sum_congr rfl fun e _ => ?_
  rw [hdst e]
  refine if_congr Iff.rfl ?_ rfl
  -- one true edge's message
  rw [hmg (upE e) f (upN (s e)) (by rw [hsrc e, upN_val]), hnrm e, hy]
  unfold msg proj
  rw [mul_comm]
  refine congrArg (fun z => z * nrm e) ?_
  exact Finset.sum_congr rfl fun k _ => by rw [hh]

end Cert.Spec

end
-- ==== Proof.KI.HostOps.lean ====
/-
  What the host operations of the program leave in the buffers the kernels read, index by index, at the ideal values.

  The node table is padded with 352 zero rows; the source, destination and normalisation tables of the edges are each
  padded with 1888 entries (the word 0, the word 0, the real 0) and viewed as one row; the bias vectors are viewed as one
  row; the result is the first 100000 rows of the last kernel's output. Each stretch of host operations is read over an
  arbitrary valuation of the buffers it starts from; the edge tables before padding are, operation for operation, the
  reference program's own stage functions.
-/
import proofs.«101950_j12489764897128_2_alg».proof.Proof.Gen.KernelIdeal.Launch
import proofs.«101950_j12489764897128_2_alg».proof.Proof.Gen.KernelIdeal.Regions
import proofs.«101950_j12489764897128_2_alg».proof.Proof.RefRead
import proofs.«101950_j12489764897128_2_alg».proof.Proof.SpecBridge
import Idealize.ShloMosaic.Lib.Pipeline.Value
import Idealize.ShloMosaic.Lib.KernelVsHost
import Idealize.ShloMosaic.Lib.ValueIdx
import Idealize.ShloMosaic.PureOps.Ideal.Laws
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.ValueIdx (ix1 ix2 eq_ix2 idx2_lt0 idx2_lt1)
open Cert.ReferenceIdeal.Read

/-! ## The operations as typed functions -/

/-- The node table padded below with 352 rows of the value `v` holds. -/
def xpadOf (x : S100000x128.Idx → EReal) (v : S_.Idx → EReal) : S100352x128.Idx → EReal :=
  pad S100352x128 ![0, 0] ![352, 0] ![0, 0] x v pads_S100000x128_S100352x128_03520_000 h_S_

/-- An integer scalar as a real. -/
def realOf (z : S_.Idx → BitVec 32) : S_.Idx → EReal := sitofp (F := Ideal) .f32 z

/-- An edge table of words padded at the end with 1888 entries of the word `v` holds, -/
def epadI (s : S1700000.Idx → BitVec 32) (v : S_.Idx → BitVec 32) : S1701888.Idx → BitVec 32 :=
  pad S1701888 ![0] ![1888] ![0] s v pads_S1700000_S1701888_018880 h_S_
/-- and one of reals. -/
def epadF (s : S1700000.Idx → EReal) (v : S_.Idx → EReal) : S1701888.Idx → EReal :=
  pad S1701888 ![0] ![1888] ![0] s v pads_S1700000_S1701888_018880 h_S_

/-- A padded edge table viewed as one row. -/
def rowI (a : S1701888.Idx → BitVec 32) : S1x1701888.Idx → BitVec 32 := shapeCast S1x1701888 a shapeCasts_S1701888_S1x1701888
def rowF (a : S1701888.Idx → EReal) : S1x1701888.Idx → EReal := shapeCast S1x1701888 a shapeCasts_S1701888_S1x1701888

/-- A bias vector viewed as one row. -/
def row128 (a : S128.Idx → EReal) : S1x128.Idx → EReal := shapeCast S1x128 a shapeCasts_S128_S1x128
def row64 (a : S64.Idx → EReal) : S1x64.Idx → EReal := shapeCast S1x64 a shapeCasts_S64_S1x64

/-- The first 100000 rows of a table of 100352. -/
def top64 (y : S100352x64.Idx → EReal) : S100000x64.Idx → EReal :=
  extractStridedSlice S100000x64 ![0, 0] y slices_S100352x64_S100000x64_0_0

/-- The inverse square root of the degree where the degree is positive, else the scalar `z`. -/
def dinvOf (a : (⟨S100000, .i1⟩ : BufTy).Contents (Elt Ideal)) (b : (⟨S100000, .f32⟩ : BufTy).Contents (Elt Ideal))
    (z : (⟨S_, .f32⟩ : BufTy).Contents (Elt Ideal)) : (⟨S100000, .f32⟩ : BufTy).Contents (Elt Ideal) :=
  select a b (broadcastInDim S100000 ![] bcast_S_S100000 (id z))

/-- A table of node words with the negative ones moved up by 100000, as a column of indices. -/
def wrapOf (s : (⟨S1700000, .i32⟩ : BufTy).Contents (Elt Ideal)) : (⟨S1700000x1, .i32⟩ : BufTy).Contents (Elt Ideal) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The edge normalisation: the product of the two end nodes' entries of `g`. -/
def nrmOf (s d : (⟨S1700000, .i32⟩ : BufTy).Contents (Elt Ideal)) (g : (⟨S100000, .f32⟩ : BufTy).Contents (Elt Ideal)) :
    (⟨S1700000, .f32⟩ : BufTy).Contents (Elt Ideal) :=
  mulf (F := Ideal) (φ := .f32) (Host.gather (α := Ideal .f32) gather_S100000_S1700000x1_S1700000_n_0_n_n_0_1_1 g (wrapOf s))
    (Host.gather (α := Ideal .f32) gather_S100000_S1700000x1_S1700000_n_0_n_n_0_1_1 g (wrapOf d))

/-! ## The operations at an index -/

theorem xpadOf_apply_lt (x : S100000x128.Idx → EReal) (v : S_.Idx → EReal) (r : Fin 100000) (k : Fin 128) :
    xpadOf x v (ix2 (Cert.Spec.upN r) k) = x (ix2 r k) := by
  unfold xpadOf
  exact pad_apply_of_inside ![0, 0] ![352, 0] ![0, 0] x v pads_S100000x128_S100352x128_03520_000 h_S_ (ix2 (Cert.Spec.upN r) k) (ix2 r k) (fun a => match a with
    | ⟨0, _⟩ => by show (Cert.Spec.upN r).val = 0 + r.val * (0 + 1); rw [Cert.Spec.upN_val]; omega
    | ⟨1, _⟩ => by show k.val = 0 + k.val * (0 + 1); omega)

/-- A padded edge table at a true edge is the table there, -/
theorem epad_apply_lt {α : Type} (s : S1700000.Idx → α) (v : S_.Idx → α) (e : Fin 1700000) :
    pad S1701888 ![0] ![1888] ![0] s v pads_S1700000_S1701888_018880 h_S_ (ix1 (Cert.Spec.upE e)) = s (ix1 e) :=
  pad_apply_of_inside ![0] ![1888] ![0] s v pads_S1700000_S1701888_018880 h_S_ (ix1 (Cert.Spec.upE e)) (ix1 e) (fun a => match a with
    | ⟨0, _⟩ => by show (Cert.Spec.upE e).val = 0 + e.val * (0 + 1); rw [Cert.Spec.upE_val]; omega)

/-- and past the true edges the padding value. -/
theorem epad_apply_ge {α : Type} (s : S1700000.Idx → α) (v : S_.Idx → α) (e : Fin 1701888) (he : 1700000 ≤ e.val) :
    pad S1701888 ![0] ![1888] ![0] s v pads_S1700000_S1701888_018880 h_S_ (ix1 e) = v (Shape.Idx.first h_S_) :=
  pad_apply_of_not_inside ![0] ![1888] ![0] s v pads_S1700000_S1701888_018880 h_S_ (ix1 e) ⟨0, by decide⟩ (by
    rintro ⟨-, -, h3⟩
    have h3' : (e.val - 0) / (0 + 1) < 1700000 := h3
    omega)

/-- A vector viewed as one row, at column `e` of row 0, is the vector at `e`. -/
theorem row_apply {α : Type} {n : Nat} (a : (⟨1, ![n]⟩ : Shape).Idx → α) (h : (⟨1, ![n]⟩ : Shape).ShapeCasts ⟨2, ![1, n]⟩) (e : Fin n) :
    shapeCast (⟨2, ![1, n]⟩ : Shape) a h (ix2 (0 : Fin 1) e) = a (ix1 e) :=
  (shapeCast_addUnit_apply ![n] a h (ix2 (0 : Fin 1) e)).trans (congrArg a (funext fun b => by
    match b with
    | ⟨0, _⟩ => rfl))

theorem top64_apply (y : S100352x64.Idx → EReal) (n : Fin 100000) (f : Fin 64) :
    top64 y (ix2 n f) = y (ix2 (Cert.Spec.upN n) f) := by
  unfold top64
  exact extractStridedSlice_apply ![0, 0] y slices_S100352x64_S100000x64_0_0 (ix2 n f) (ix2 (Cert.Spec.upN n) f) (fun a => match a with
    | ⟨0, _⟩ => by show (Cert.Spec.upN n).val = 0 + n.val; rw [Cert.Spec.upN_val]; omega
    | ⟨1, _⟩ => by show f.val = 0 + f.val; omega)

/-- The integer scalar 0 as a real is 0. -/
theorem realOf_zero (i : S_.Idx) : realOf (constantI S_ 32 0#32) i = 0 := by
  show (((0#32 : BitVec 32).toInt : ℝ) : EReal) = 0
  simp

/-! ## The edge tables before padding are the reference's stage functions -/

set_option maxHeartbeats 1000000 in
theorem after0_v3 (X : Valuation τ sig (Elt Ideal)) :
    StableHlo.after hostOps0 X (Proc.devRef .tc main_v3) = val_main_v3 (F := Ideal) (X (Proc.devRef .tc main_arg1)) := by
  after_results_simp
  rfl
set_option maxHeartbeats 1000000 in
theorem after0_v6 (X : Valuation τ sig (Elt Ideal)) :
    StableHlo.after hostOps0 X (Proc.devRef .tc main_v6) = val_main_v6 (F := Ideal) (X (Proc.devRef .tc main_arg1)) := by
  after_results_simp
  rfl
set_option maxHeartbeats 1000000 in
theorem after0_v12 (X : Valuation τ sig (Elt Ideal)) :
    StableHlo.after hostOps0 X (Proc.devRef .tc main_v12) = val_main_v12 (F := Ideal) (X (Proc.devRef .tc main_arg1)) := by
  after_results_simp
  rfl
set_option maxHeartbeats 1000000 in
theorem after0_v13 (X : Valuation τ sig (Elt Ideal)) :
    StableHlo.after hostOps0 X (Proc.devRef .tc main_v13) = val_main_v13 (F := Ideal) (X (Proc.devRef .tc main_arg1)) := by
  after_results_simp
  rfl
set_option maxHeartbeats 1000000 in
theorem after0_cst_2 (X : Valuation τ sig (Elt Ideal)) :
    StableHlo.after hostOps0 X (Proc.devRef .tc main_cst_2) = val_main_cst_2 (F := Ideal) := by
  after_results_simp
  rfl

set_option maxHeartbeats 1000000 in
theorem after0_1_v14 (X : Valuation τ sig (Elt Ideal)) :
    StableHlo.after hostOps0_1 X (Proc.devRef .tc main_v14) = dinvOf (X (Proc.devRef .tc main_v12)) (X (Proc.devRef .tc main_v13)) (X (Proc.devRef .tc main_cst_2)) := by
  after_results_simp
  rfl

theorem dinvOf_ref (x1 : (⟨Cert.ReferenceIdeal.S2x1600000, .i32⟩ : BufTy).Contents (Elt Ideal)) :
    dinvOf (val_main_v12 (F := Ideal) x1) (val_main_v13 (F := Ideal) x1) (val_main_cst_2 (F := Ideal)) = val_main_v14 (F := Ideal) x1 := rfl

set_option maxHeartbeats 2000000 in
theorem after0_2_v29 (X : Valuation τ sig (Elt Ideal)) :
    StableHlo.after hostOps0_2 X (Proc.devRef .tc main_v29) = nrmOf (X (Proc.devRef .tc main_v3)) (X (Proc.devRef .tc main_v6)) (X (Proc.devRef .tc main_v14)) := by
  after_results_simp
  rfl

set_option maxRecDepth 200000 in
theorem nrmOf_ref (x1 : (⟨Cert.ReferenceIdeal.S2x1600000, .i32⟩ : BufTy).Contents (Elt Ideal)) :
    nrmOf (val_main_v3 (F := Ideal) x1) (val_main_v6 (F := Ideal) x1) (val_main_v14 (F := Ideal) x1) = val_main_v29 (F := Ideal) x1 := by
  unfold nrmOf wrapOf val_main_v29 val_main_v21 val_main_v28 val_main_v20 val_main_v27 val_main_v19 val_main_v26 val_main_v16 val_main_v18
    val_main_v23 val_main_v25 val_main_v15 val_main_v17 val_main_v22 val_main_v24 val_main_c val_main_c_3 val_main_c_4 val_main_c_5
  rfl

set_option maxHeartbeats 1000000 in
theorem after0_2_c_6 (X : Valuation τ sig (Elt Ideal)) :
    StableHlo.after hostOps0_2 X (Proc.devRef .tc main_c_6) = (constantI S_ 32 0#32 : S_.Idx → BitVec 32) := by
  after_results_simp

/-! ## The padding stretches -/

theorem after0_3_v30 (X : Valuation τ sig (Elt Ideal)) :
    StableHlo.after hostOps0_3 X (Proc.devRef .tc main_v30) = epadI (X (Proc.devRef .tc main_v3)) (id (X (Proc.devRef .tc main_c_6))) := by
  after_results
  rfl
theorem after0_4_c_7 (X : Valuation τ sig (Elt Ideal)) :
    StableHlo.after hostOps0_4 X (Proc.devRef .tc main_c_7) = (constantI S_ 32 0#32 : S_.Idx → BitVec 32) := by
  after_results
theorem after0_5_v31 (X : Valuation τ sig (Elt Ideal)) :
    StableHlo.after hostOps0_5 X (Proc.devRef .tc main_v31) = epadI (X (Proc.devRef .tc main_v6)) (id (X (Proc.devRef .tc main_c_7))) := by
  after_results
  rfl
theorem after0_6_c_8 (X : Valuation τ sig (Elt Ideal)) :
    StableHlo.after hostOps0_6 X (Proc.devRef .tc main_c_8) = (constantI S_ 32 0#32 : S_.Idx → BitVec 32) := by
  after_results
theorem after0_7_v32 (X : Valuation τ sig (Elt Ideal)) :
    StableHlo.after hostOps0_7 X (Proc.devRef .tc main_v32) = epadF (X (Proc.devRef .tc main_v29)) (realOf (X (Proc.devRef .tc main_c_8))) := by
  after_results
  rfl
theorem after0_8_v33 (X : Valuation τ sig (Elt Ideal)) :
    StableHlo.after hostOps0_8 X (Proc.devRef .tc main_v33) = rowI (X (Proc.devRef .tc main_v30)) := by
  after_results
  rfl
theorem after0_8_v34 (X : Valuation τ sig (Elt Ideal)) :
    StableHlo.after hostOps0_8 X (Proc.devRef .tc main_v34) = rowI (X (Proc.devRef .tc main_v31)) := by
  after_results
  rfl
theorem after0_8_v35 (X : Valuation τ sig (Elt Ideal)) :
    StableHlo.after hostOps0_8 X (Proc.devRef .tc main_v35) = rowF (X (Proc.devRef .tc main_v32)) := by
  after_results
  rfl
theorem after0_8_c_9 (X : Valuation τ sig (Elt Ideal)) :
    StableHlo.after hostOps0_8 X (Proc.devRef .tc main_c_9) = (constantI S_ 32 0#32 : S_.Idx → BitVec 32) := by
  after_results
theorem after0_9_v36 (X : Valuation τ sig (Elt Ideal)) :
    StableHlo.after hostOps0_9 X (Proc.devRef .tc main_v36) = xpadOf (X (Proc.devRef .tc main_arg0)) (realOf (X (Proc.devRef .tc main_c_9))) := by
  after_results
  rfl

/-! ## The bias rows and the result -/

theorem after2_v39 (X : Valuation τ sig (Elt Ideal)) :
    StableHlo.after hostOps2 X (Proc.devRef .tc main_v39) = row128 (X (Proc.devRef .tc main_arg3)) := by
  after_results
  rfl
theorem after5_v43 (X : Valuation τ sig (Elt Ideal)) :
    StableHlo.after hostOps5 X (Proc.devRef .tc main_v43) = row64 (X (Proc.devRef .tc main_arg5)) := by
  after_results
  rfl
theorem after6_v45 (X : Valuation τ sig (Elt Ideal)) :
    StableHlo.after hostOps6 X (Proc.devRef .tc main_v45) = top64 (X (Proc.devRef .tc main_v44)) := by
  after_results
  rfl

/-! ## The tables as the kernels find them -/

/-- The node table padded with 352 rows of zeros. -/
def xpad (x : S100000x128.Idx → EReal) : S100352x128.Idx → EReal := xpadOf x (realOf (constantI S_ 32 0#32))

theorem xpad_apply_lt (x : S100000x128.Idx → EReal) (r : Fin 100000) (k : Fin 128) :
    xpad x (ix2 (Cert.Spec.upN r) k) = x (ix2 r k) := xpadOf_apply_lt x _ r k

/-- An edge table of words padded with the word 0, as one row: the true edges keep their entries, the padded ones hold 0. -/
def srcRow (s : S1700000.Idx → BitVec 32) : S1x1701888.Idx → BitVec 32 := rowI (epadI s (id (constantI S_ 32 0#32)))

theorem srcRow_lt (s : S1700000.Idx → BitVec 32) (e : Fin 1700000) : srcRow s (ix2 (0 : Fin 1) (Cert.Spec.upE e)) = s (ix1 e) := by
  unfold srcRow rowI epadI
  exact (row_apply _ shapeCasts_S1701888_S1x1701888 (Cert.Spec.upE e)).trans (epad_apply_lt s _ e)

theorem srcRow_ge (s : S1700000.Idx → BitVec 32) (e : Fin 1701888) (he : 1700000 ≤ e.val) : srcRow s (ix2 (0 : Fin 1) e) = 0#32 := by
  unfold srcRow rowI epadI
  exact (row_apply _ shapeCasts_S1701888_S1x1701888 e).trans ((epad_apply_ge s _ e he).trans rfl)

/-- The edge normalisations padded with the real 0, as one row. -/
def nrmRow (n : S1700000.Idx → EReal) : S1x1701888.Idx → EReal := rowF (epadF n (realOf (constantI S_ 32 0#32)))

theorem nrmRow_lt (n : S1700000.Idx → EReal) (e : Fin 1700000) : nrmRow n (ix2 (0 : Fin 1) (Cert.Spec.upE e)) = n (ix1 e) := by
  unfold nrmRow rowF epadF
  exact (row_apply _ shapeCasts_S1701888_S1x1701888 (Cert.Spec.upE e)).trans (epad_apply_lt n _ e)

theorem nrmRow_ge (n : S1700000.Idx → EReal) (e : Fin 1701888) (he : 1700000 ≤ e.val) : nrmRow n (ix2 (0 : Fin 1) e) = 0 := by
  unfold nrmRow rowF epadF
  exact (row_apply _ shapeCasts_S1701888_S1x1701888 e).trans ((epad_apply_ge n _ e he).trans (realOf_zero _))

theorem row128_apply (a : S128.Idx → EReal) (f : Fin 128) : row128 a (ix2 (0 : Fin 1) f) = a (ix1 f) := by
  unfold row128
  exact row_apply a shapeCasts_S128_S1x128 f

theorem row64_apply (a : S64.Idx → EReal) (f : Fin 64) : row64 a (ix2 (0 : Fin 1) f) = a (ix1 f) := by
  unfold row64
  exact row_apply a shapeCasts_S64_S1x64 f

/-! ## A stretch leaves every buffer it does not write as it was -/
theorem keep0 (X : Valuation τ sig (Elt Ideal)) (r : Ref sig .tc) (h : r ∉ hostOps0_W) :
    StableHlo.after hostOps0 X (Proc.devRef .tc r) = X (Proc.devRef .tc r) := StableHlo.after_of_writes_sub hostOps0 X hostOps0_writes h
theorem keep0_1 (X : Valuation τ sig (Elt Ideal)) (r : Ref sig .tc) (h : r ∉ hostOps0_1_W) :
    StableHlo.after hostOps0_1 X (Proc.devRef .tc r) = X (Proc.devRef .tc r) := StableHlo.after_of_writes_sub hostOps0_1 X hostOps0_1_writes h
theorem keep0_2 (X : Valuation τ sig (Elt Ideal)) (r : Ref sig .tc) (h : r ∉ hostOps0_2_W) :
    StableHlo.after hostOps0_2 X (Proc.devRef .tc r) = X (Proc.devRef .tc r) := StableHlo.after_of_writes_sub hostOps0_2 X hostOps0_2_writes h
theorem keep0_3 (X : Valuation τ sig (Elt Ideal)) (r : Ref sig .tc) (h : r ∉ hostOps0_3_W) :
    StableHlo.after hostOps0_3 X (Proc.devRef .tc r) = X (Proc.devRef .tc r) := StableHlo.after_of_writes_sub hostOps0_3 X hostOps0_3_writes h
theorem keep0_4 (X : Valuation τ sig (Elt Ideal)) (r : Ref sig .tc) (h : r ∉ hostOps0_4_W) :
    StableHlo.after hostOps0_4 X (Proc.devRef .tc r) = X (Proc.devRef .tc r) := StableHlo.after_of_writes_sub hostOps0_4 X hostOps0_4_writes h
theorem keep0_5 (X : Valuation τ sig (Elt Ideal)) (r : Ref sig .tc) (h : r ∉ hostOps0_5_W) :
    StableHlo.after hostOps0_5 X (Proc.devRef .tc r) = X (Proc.devRef .tc r) := StableHlo.after_of_writes_sub hostOps0_5 X hostOps0_5_writes h
theorem keep0_6 (X : Valuation τ sig (Elt Ideal)) (r : Ref sig .tc) (h : r ∉ hostOps0_6_W) :
    StableHlo.after hostOps0_6 X (Proc.devRef .tc r) = X (Proc.devRef .tc r) := StableHlo.after_of_writes_sub hostOps0_6 X hostOps0_6_writes h
theorem keep0_7 (X : Valuation τ sig (Elt Ideal)) (r : Ref sig .tc) (h : r ∉ hostOps0_7_W) :
    StableHlo.after hostOps0_7 X (Proc.devRef .tc r) = X (Proc.devRef .tc r) := StableHlo.after_of_writes_sub hostOps0_7 X hostOps0_7_writes h
theorem keep0_8 (X : Valuation τ sig (Elt Ideal)) (r : Ref sig .tc) (h : r ∉ hostOps0_8_W) :
    StableHlo.after hostOps0_8 X (Proc.devRef .tc r) = X (Proc.devRef .tc r) := StableHlo.after_of_writes_sub hostOps0_8 X hostOps0_8_writes h
theorem keep0_9 (X : Valuation τ sig (Elt Ideal)) (r : Ref sig .tc) (h : r ∉ hostOps0_9_W) :
    StableHlo.after hostOps0_9 X (Proc.devRef .tc r) = X (Proc.devRef .tc r) := StableHlo.after_of_writes_sub hostOps0_9 X hostOps0_9_writes h

end Cert.KernelIdeal.Hand

end
-- ==== Proof.KI.HostVals.lean ====
/-
  The buffers the kernels read, at the boundaries of the run where they read them, as functions of the launch memory:
  the padded node table, the padded source, destination and normalisation rows of the edges (the reference program's
  own stage functions, padded), the two bias rows, and the result as the first 100000 rows of the last kernel's output.
-/
import proofs.«101950_j12489764897128_2_alg».proof.Proof.KI.Run
import proofs.«101950_j12489764897128_2_alg».proof.Proof.KI.HostOps

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.ValueIdx (ix1 ix2)
open Cert.ReferenceIdeal.Read (val_main_v3 val_main_v6 val_main_v12 val_main_v13 val_main_cst_2 val_main_v14 val_main_v29)

variable (m : (ℓ : Loc nD τ sig) → Buf (Elt Ideal) ℓ) (ρ : Dev nD → PrngReg)

/-! ## The edge tables before padding -/

theorem W1_v3 (c : Dev nD) : W1 m ρ c (Proc.devRef .tc main_v3) = val_main_v3 (F := Ideal) (m ((c : Thread nD τ).loc main_arg1)) := after0_v3 (W0 m ρ c)
theorem W1_v6 (c : Dev nD) : W1 m ρ c (Proc.devRef .tc main_v6) = val_main_v6 (F := Ideal) (m ((c : Thread nD τ).loc main_arg1)) := after0_v6 (W0 m ρ c)
theorem W1_v12 (c : Dev nD) : W1 m ρ c (Proc.devRef .tc main_v12) = val_main_v12 (F := Ideal) (m ((c : Thread nD τ).loc main_arg1)) := after0_v12 (W0 m ρ c)
theorem W1_v13 (c : Dev nD) : W1 m ρ c (Proc.devRef .tc main_v13) = val_main_v13 (F := Ideal) (m ((c : Thread nD τ).loc main_arg1)) := after0_v13 (W0 m ρ c)
theorem W1_cst_2 (c : Dev nD) : W1 m ρ c (Proc.devRef .tc main_cst_2) = val_main_cst_2 (F := Ideal) := after0_cst_2 (W0 m ρ c)

theorem W2_v3 (c : Dev nD) : W2 m ρ c (Proc.devRef .tc main_v3) = val_main_v3 (F := Ideal) (m ((c : Thread nD τ).loc main_arg1)) :=
  (keep0_1 (W1 m ρ c) main_v3 (by decide)).trans <|
  W1_v3 m ρ c
theorem W2_v6 (c : Dev nD) : W2 m ρ c (Proc.devRef .tc main_v6) = val_main_v6 (F := Ideal) (m ((c : Thread nD τ).loc main_arg1)) :=
  (keep0_1 (W1 m ρ c) main_v6 (by decide)).trans <|
  W1_v6 m ρ c
theorem W2_v14 (c : Dev nD) : W2 m ρ c (Proc.devRef .tc main_v14) = val_main_v14 (F := Ideal) (m ((c : Thread nD τ).loc main_arg1)) :=
  (after0_1_v14 (W1 m ρ c)).trans (by rw [W1_v12, W1_v13, W1_cst_2]; exact dinvOf_ref _)

theorem W3_v3 (c : Dev nD) : W3 m ρ c (Proc.devRef .tc main_v3) = val_main_v3 (F := Ideal) (m ((c : Thread nD τ).loc main_arg1)) :=
  (keep0_2 (W2 m ρ c) main_v3 (by decide)).trans <|
  W2_v3 m ρ c
theorem W3_v6 (c : Dev nD) : W3 m ρ c (Proc.devRef .tc main_v6) = val_main_v6 (F := Ideal) (m ((c : Thread nD τ).loc main_arg1)) :=
  (keep0_2 (W2 m ρ c) main_v6 (by decide)).trans <|
  W2_v6 m ρ c
theorem W3_v29 (c : Dev nD) : W3 m ρ c (Proc.devRef .tc main_v29) = val_main_v29 (F := Ideal) (m ((c : Thread nD τ).loc main_arg1)) :=
  (after0_2_v29 (W2 m ρ c)).trans (by rw [W2_v3, W2_v6, W2_v14]; exact nrmOf_ref _)
theorem W3_c_6 (c : Dev nD) : W3 m ρ c (Proc.devRef .tc main_c_6) = (constantI S_ 32 0#32 : S_.Idx → BitVec 32) := after0_2_c_6 (W2 m ρ c)

/-! ## The source row -/

theorem W4_v30 (c : Dev nD) : W4 m ρ c (Proc.devRef .tc main_v30) = epadI (val_main_v3 (F := Ideal) (m ((c : Thread nD τ).loc main_arg1))) (id (constantI S_ 32 0#32)) :=
  (after0_3_v30 (W3 m ρ c)).trans (by rw [W3_v3, W3_c_6])
theorem W8_v30 (c : Dev nD) : W8 m ρ c (Proc.devRef .tc main_v30) = epadI (val_main_v3 (F := Ideal) (m ((c : Thread nD τ).loc main_arg1))) (id (constantI S_ 32 0#32)) :=
  (keep0_7 (W7 m ρ c) main_v30 (by decide)).trans <|
  (keep0_6 (W6 m ρ c) main_v30 (by decide)).trans <|
  (keep0_5 (W5 m ρ c) main_v30 (by decide)).trans <|
  (keep0_4 (W4 m ρ c) main_v30 (by decide)).trans <|
  W4_v30 m ρ c
/-- The source row the gather kernels read. -/
theorem W10_v33 (c : Dev nD) : W10 m ρ c (Proc.devRef .tc main_v33) = srcRow (val_main_v3 (F := Ideal) (m ((c : Thread nD τ).loc main_arg1))) :=
  (keep0_9 (W9 m ρ c) main_v33 (by decide)).trans <| (after0_8_v33 (W8 m ρ c)).trans (by rw [W8_v30]; rfl)

/-! ## The destination row -/

theorem W5_v6 (c : Dev nD) : W5 m ρ c (Proc.devRef .tc main_v6) = val_main_v6 (F := Ideal) (m ((c : Thread nD τ).loc main_arg1)) :=
  (keep0_4 (W4 m ρ c) main_v6 (by decide)).trans <|
  (keep0_3 (W3 m ρ c) main_v6 (by decide)).trans <|
  W3_v6 m ρ c
theorem W5_c_7 (c : Dev nD) : W5 m ρ c (Proc.devRef .tc main_c_7) = (constantI S_ 32 0#32 : S_.Idx → BitVec 32) := after0_4_c_7 (W4 m ρ c)
theorem W6_v31 (c : Dev nD) : W6 m ρ c (Proc.devRef .tc main_v31) = epadI (val_main_v6 (F := Ideal) (m ((c : Thread nD τ).loc main_arg1))) (id (constantI S_ 32 0#32)) :=
  (after0_5_v31 (W5 m ρ c)).trans (by rw [W5_v6, W5_c_7])
theorem W8_v31 (c : Dev nD) : W8 m ρ c (Proc.devRef .tc main_v31) = epadI (val_main_v6 (F := Ideal) (m ((c : Thread nD τ).loc main_arg1))) (id (constantI S_ 32 0#32)) :=
  (keep0_7 (W7 m ρ c) main_v31 (by decide)).trans <|
  (keep0_6 (W6 m ρ c) main_v31 (by decide)).trans <|
  W6_v31 m ρ c
/-- The destination row the scatter kernels read. -/
theorem W10_v34 (c : Dev nD) : W10 m ρ c (Proc.devRef .tc main_v34) = srcRow (val_main_v6 (F := Ideal) (m ((c : Thread nD τ).loc main_arg1))) :=
  (keep0_9 (W9 m ρ c) main_v34 (by decide)).trans <| (after0_8_v34 (W8 m ρ c)).trans (by rw [W8_v31]; rfl)

/-! ## The normalisation row -/

theorem W7_v29 (c : Dev nD) : W7 m ρ c (Proc.devRef .tc main_v29) = val_main_v29 (F := Ideal) (m ((c : Thread nD τ).loc main_arg1)) :=
  (keep0_6 (W6 m ρ c) main_v29 (by decide)).trans <|
  (keep0_5 (W5 m ρ c) main_v29 (by decide)).trans <|
  (keep0_4 (W4 m ρ c) main_v29 (by decide)).trans <|
  (keep0_3 (W3 m ρ c) main_v29 (by decide)).trans <|
  W3_v29 m ρ c
theorem W7_c_8 (c : Dev nD) : W7 m ρ c (Proc.devRef .tc main_c_8) = (constantI S_ 32 0#32 : S_.Idx → BitVec 32) := after0_6_c_8 (W6 m ρ c)
theorem W8_v32 (c : Dev nD) : W8 m ρ c (Proc.devRef .tc main_v32) = epadF (val_main_v29 (F := Ideal) (m ((c : Thread nD τ).loc main_arg1))) (realOf (constantI S_ 32 0#32)) :=
  (after0_7_v32 (W7 m ρ c)).trans (by rw [W7_v29, W7_c_8])
/-- The normalisation row the gather kernels read. -/
theorem W10_v35 (c : Dev nD) : W10 m ρ c (Proc.devRef .tc main_v35) = nrmRow (val_main_v29 (F := Ideal) (m ((c : Thread nD τ).loc main_arg1))) :=
  (keep0_9 (W9 m ρ c) main_v35 (by decide)).trans <| (after0_8_v35 (W8 m ρ c)).trans (by rw [W8_v32]; rfl)

/-! ## The padded node table -/

theorem W9_arg0 (c : Dev nD) : W9 m ρ c (Proc.devRef .tc main_arg0) = (m ((c : Thread nD τ).loc main_arg0)) :=
  (keep0_8 (W8 m ρ c) main_arg0 (by decide)).trans <|
  (keep0_7 (W7 m ρ c) main_arg0 (by decide)).trans <|
  (keep0_6 (W6 m ρ c) main_arg0 (by decide)).trans <|
  (keep0_5 (W5 m ρ c) main_arg0 (by decide)).trans <|
  (keep0_4 (W4 m ρ c) main_arg0 (by decide)).trans <|
  (keep0_3 (W3 m ρ c) main_arg0 (by decide)).trans <|
  (keep0_2 (W2 m ρ c) main_arg0 (by decide)).trans <|
  (keep0_1 (W1 m ρ c) main_arg0 (by decide)).trans <|
  (keep0 (W0 m ρ c) main_arg0 (by decide)).trans <|
  rfl
theorem W9_c_9 (c : Dev nD) : W9 m ρ c (Proc.devRef .tc main_c_9) = (constantI S_ 32 0#32 : S_.Idx → BitVec 32) := after0_8_c_9 (W8 m ρ c)
/-- The node table the first projection reads. -/
theorem W10_v36 (c : Dev nD) : W10 m ρ c (Proc.devRef .tc main_v36) = xpad (m ((c : Thread nD τ).loc main_arg0)) :=
  (after0_9_v36 (W9 m ρ c)).trans (by rw [W9_arg0, W9_c_9]; rfl)

/-! ## The bias rows and the result -/

theorem W13_v39 (c : Dev nD) : W13 m ρ c (Proc.devRef .tc main_v39) = row128 (m ((c : Thread nD τ).loc main_arg3)) :=
  (after2_v39 (W12 m ρ c)).trans (by rw [W12_arg3])
theorem W17_v43 (c : Dev nD) : W17 m ρ c (Proc.devRef .tc main_v43) = row64 (m ((c : Thread nD τ).loc main_arg5)) :=
  (after5_v43 (W16 m ρ c)).trans (by rw [W16_arg5])
theorem W19_v45 (c : Dev nD) : W19 m ρ c (Proc.devRef .tc main_v45) = top64 (W18 m ρ c (Proc.devRef .tc main_v44)) := after6_v45 (W18 m ρ c)

/-! ## The same, index by index -/

theorem xP_lt (c : Dev nD) (r : Fin 100000) (k : Fin 128) :
    W10 m ρ c (Proc.devRef .tc main_v36) (ix2 (Cert.Spec.upN r) k) = (m ((c : Thread nD τ).loc main_arg0)) (ix2 r k) :=
  (congrFun (W10_v36 m ρ c) _).trans (xpad_apply_lt _ r k)

theorem srcP_lt (c : Dev nD) (e : Fin 1700000) :
    W10 m ρ c (Proc.devRef .tc main_v33) (ix2 (0 : Fin 1) (Cert.Spec.upE e)) = val_main_v3 (F := Ideal) (m ((c : Thread nD τ).loc main_arg1)) (ix1 e) :=
  (congrFun (W10_v33 m ρ c) _).trans (srcRow_lt _ e)
theorem srcP_ge (c : Dev nD) (e : Fin 1701888) (he : 1700000 ≤ e.val) :
    W10 m ρ c (Proc.devRef .tc main_v33) (ix2 (0 : Fin 1) e) = 0#32 :=
  (congrFun (W10_v33 m ρ c) _).trans (srcRow_ge _ e he)
theorem dstP_lt (c : Dev nD) (e : Fin 1700000) :
    W10 m ρ c (Proc.devRef .tc main_v34) (ix2 (0 : Fin 1) (Cert.Spec.upE e)) = val_main_v6 (F := Ideal) (m ((c : Thread nD τ).loc main_arg1)) (ix1 e) :=
  (congrFun (W10_v34 m ρ c) _).trans (srcRow_lt _ e)
theorem dstP_ge (c : Dev nD) (e : Fin 1701888) (he : 1700000 ≤ e.val) :
    W10 m ρ c (Proc.devRef .tc main_v34) (ix2 (0 : Fin 1) e) = 0#32 :=
  (congrFun (W10_v34 m ρ c) _).trans (srcRow_ge _ e he)
theorem nrmP_lt (c : Dev nD) (e : Fin 1700000) :
    W10 m ρ c (Proc.devRef .tc main_v35) (ix2 (0 : Fin 1) (Cert.Spec.upE e)) = val_main_v29 (F := Ideal) (m ((c : Thread nD τ).loc main_arg1)) (ix1 e) :=
  (congrFun (W10_v35 m ρ c) _).trans (nrmRow_lt _ e)
theorem nrmP_ge (c : Dev nD) (e : Fin 1701888) (he : 1700000 ≤ e.val) :
    W10 m ρ c (Proc.devRef .tc main_v35) (ix2 (0 : Fin 1) e) = (0 : EReal) :=
  (congrFun (W10_v35 m ρ c) _).trans (nrmRow_ge _ e he)

theorem bias1P (c : Dev nD) (f : Fin 128) : W13 m ρ c (Proc.devRef .tc main_v39) (ix2 (0 : Fin 1) f) = (m ((c : Thread nD τ).loc main_arg3)) (ix1 f) :=
  (congrFun (W13_v39 m ρ c) _).trans (row128_apply _ f)
theorem bias2P (c : Dev nD) (f : Fin 64) : W17 m ρ c (Proc.devRef .tc main_v43) (ix2 (0 : Fin 1) f) = (m ((c : Thread nD τ).loc main_arg5)) (ix1 f) :=
  (congrFun (W17_v43 m ρ c) _).trans (row64_apply _ f)
theorem outP (c : Dev nD) (n : Fin 100000) (f : Fin 64) :
    W19 m ρ c (Proc.devRef .tc main_v45) (ix2 n f) = W18 m ρ c (Proc.devRef .tc main_v44) (ix2 (Cert.Spec.upN n) f) :=
  (congrFun (W19_v45 m ρ c) _).trans (top64_apply _ n f)

end Cert.KernelIdeal.Hand

end
-- ==== Proof.KI.Value.lean ====
import proofs.«101950_j12489764897128_2_alg».proof.Proof.Gen.KernelIdeal.Launch
import proofs.«101950_j12489764897128_2_alg».proof.Proof.Gen.KernelIdeal.Skeleton
import proofs.«101950_j12489764897128_2_alg».proof.Proof.KI.Sched
import proofs.«101950_j12489764897128_2_alg».proof.Proof.KI.Run
import proofs.«101950_j12489764897128_2_alg».proof.Proof.KI.Proj0Val
import proofs.«101950_j12489764897128_2_alg».proof.Proof.KI.Gather1Val
import proofs.«101950_j12489764897128_2_alg».proof.Proof.KI.Scatter2Val
import proofs.«101950_j12489764897128_2_alg».proof.Proof.KI.Proj3Val
import proofs.«101950_j12489764897128_2_alg».proof.Proof.KI.Gather4Val
import proofs.«101950_j12489764897128_2_alg».proof.Proof.KI.Scatter5Val
import proofs.«101950_j12489764897128_2_alg».proof.Proof.KI.HostVals
import proofs.«101950_j12489764897128_2_alg».proof.Proof.SpecBridge
import proofs.«101950_j12489764897128_2_alg».proof.Proof.RefRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen Cert.Spec Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- An array of extended reals, and one of words, at its literal shape. -/
def tf {S : Shape} (g : S.Idx → EReal) : S.Idx → EReal := g
def tw {S : Shape} (g : S.Idx → BitVec 32) : S.Idx → BitVec 32 := g

/-! ## Layer 1: regions 0, 1, 2 -/

/-- Region 0 leaves the projected rows. -/
theorem y1_eq (c : Dev nD) : tf (S := S100352x128) (W11 m ρ c (Proc.devRef .tc main_v37)) = G0 (tf (S := S100352x128) (W10 m ρ c (Proc.devRef .tc main_v36))) (tf (S := S128x128) (m ((c : Thread nD τ).loc main_arg2))) := by
  unfold tf
  refine (W11_arr m ρ c 2).trans ((final0_fun (V10 m ρ) c).trans ?_)
  exact congrArg (G0 _) ((W10_arg2 m ρ c).trans rfl)

/-- Region 1 leaves the messages, from the source words and normalisations the host prefix computed. -/
theorem msg1_eq (c : Dev nD) : tf (S := S1701888x128) (W12 m ρ c (Proc.devRef .tc main_v38)) = G1 (tf (S := S100352x128) (W11 m ρ c (Proc.devRef .tc main_v37))) (tw (S := S1x1701888) (W10 m ρ c (Proc.devRef .tc main_v33))) (tf (S := S1x1701888) (W10 m ρ c (Proc.devRef .tc main_v35))) := by
  unfold tf tw
  refine (W12_arr m ρ c 3).trans ((final1_fun (V11 m ρ) c).trans ?_)
  have e1 := W11_v33 m ρ c
  have e2 := W11_v35 m ρ c
  exact congrArg₂ (G1 _) e1 e2

/-- Region 2 leaves the layer's rows. -/
theorem out1_eq (c : Dev nD) : tf (S := S100352x128) (W14 m ρ c (Proc.devRef .tc main_v40)) = G2 (tf (S := S1701888x128) (W12 m ρ c (Proc.devRef .tc main_v38))) (tw (S := S1x1701888) (W10 m ρ c (Proc.devRef .tc main_v34))) (tf (S := S1x128) (W13 m ρ c (Proc.devRef .tc main_v39))) := by
  unfold tf tw
  refine (W14_arr m ρ c 3).trans ((final2_fun (V13 m ρ) c).trans ?_)
  have e1 := W13_v38 m ρ c
  have e2 := W13_v34 m ρ c
  exact congrArg₂ (fun a b => G2 a b _) e1 e2

/-- Layer 1 of the kernel program is the specification's layer, given what the host operations leave. -/
theorem layer1_val (c : Dev nD) (h : Fin NN → Fin 128 → EReal) (s : Fin NE → Fin NN) (d : Fin NE → BitVec 32) (nr : Fin NE → EReal)
    (hh : ∀ (r : Fin NN) (k : Fin 128), tf (S := S100352x128) (W10 m ρ c (Proc.devRef .tc main_v36)) (ix2 (upN r) k) = h r k)
    (hsrc : ∀ e : Fin NE, tw (S := S1x1701888) (W10 m ρ c (Proc.devRef .tc main_v33)) (ix2 0 (upE e)) = BitVec.ofNat 32 (s e).val)
    (hdst : ∀ e : Fin NE, tw (S := S1x1701888) (W10 m ρ c (Proc.devRef .tc main_v34)) (ix2 0 (upE e)) = d e)
    (hnrm : ∀ e : Fin NE, tf (S := S1x1701888) (W10 m ρ c (Proc.devRef .tc main_v35)) (ix2 0 (upE e)) = nr e)
    (hsrc0 : ∀ e : Fin EP, NE ≤ e.val → tw (S := S1x1701888) (W10 m ρ c (Proc.devRef .tc main_v33)) (ix2 0 e) = 0#32)
    (hnrm0 : ∀ e : Fin EP, NE ≤ e.val → tf (S := S1x1701888) (W10 m ρ c (Proc.devRef .tc main_v35)) (ix2 0 e) = 0)
    (hb : ∀ g : Fin 128, tf (S := S1x128) (W13 m ρ c (Proc.devRef .tc main_v39)) (ix2 0 g) = tf (S := S128) (m ((c : Thread nD τ).loc main_arg3)) (ix1 g))
    (n : Fin NN) (f : Fin 128) :
    tf (S := S100352x128) (W14 m ρ c (Proc.devRef .tc main_v40)) (ix2 (upN n) f)
      = layer h (fun k g => tf (S := S128x128) (m ((c : Thread nD τ).loc main_arg2)) (ix2 k g)) (fun g => tf (S := S128) (m ((c : Thread nD τ).loc main_arg3)) (ix1 g)) s d nr n f :=
  layer_bridge (hp := fun r k => tf (S := S100352x128) (W10 m ρ c (Proc.devRef .tc main_v36)) (ix2 r k)) (h := h)
    (srcp := fun e => tw (S := S1x1701888) (W10 m ρ c (Proc.devRef .tc main_v33)) (ix2 0 e)) (dstp := fun e => tw (S := S1x1701888) (W10 m ρ c (Proc.devRef .tc main_v34)) (ix2 0 e)) (nrmp := fun e => tf (S := S1x1701888) (W10 m ρ c (Proc.devRef .tc main_v35)) (ix2 0 e))
    (y := fun r g => tf (S := S100352x128) (W11 m ρ c (Proc.devRef .tc main_v37)) (ix2 r g)) (mg := fun e g => tf (S := S1701888x128) (W12 m ρ c (Proc.devRef .tc main_v38)) (ix2 e g)) (out := fun r g => tf (S := S100352x128) (W14 m ρ c (Proc.devRef .tc main_v40)) (ix2 r g))
    (W := fun k g => tf (S := S128x128) (m ((c : Thread nD τ).loc main_arg2)) (ix2 k g)) (b := fun g => tf (S := S128) (m ((c : Thread nD τ).loc main_arg3)) (ix1 g))
    (s := s) (d := d) (nrm := nr)
    (hh := hh) (hsrc := hsrc) (hdst := hdst) (hnrm := hnrm) (hsrc0 := hsrc0) (hnrm0 := hnrm0)
    (hy := fun r g => by rw [y1_eq, G0_apply])
    (hmg := fun e g s' hs' => by rw [msg1_eq, G1_apply _ _ _ e g s' hs'])
    (hout := fun r g => by rw [out1_eq, G2_apply, hb])
    n f

/-! ## Layer 2: regions 3, 4, 5 -/

/-- Region 3 leaves the projected rows. -/
theorem y2_eq (c : Dev nD) : tf (S := S100352x64) (W15 m ρ c (Proc.devRef .tc main_v41)) = G3 (tf (S := S100352x128) (W14 m ρ c (Proc.devRef .tc main_v40))) (tf (S := S128x64) (m ((c : Thread nD τ).loc main_arg4))) := by
  unfold tf
  refine (W15_arr m ρ c 2).trans ((final3_fun (V14 m ρ) c).trans ?_)
  exact congrArg (G3 _) ((W14_arg4 m ρ c).trans rfl)

/-- Region 4 leaves the messages, from the source words and normalisations the host prefix computed. -/
theorem msg2_eq (c : Dev nD) : tf (S := S1701888x64) (W16 m ρ c (Proc.devRef .tc main_v42)) = G4 (tf (S := S100352x64) (W15 m ρ c (Proc.devRef .tc main_v41))) (tw (S := S1x1701888) (W10 m ρ c (Proc.devRef .tc main_v33))) (tf (S := S1x1701888) (W10 m ρ c (Proc.devRef .tc main_v35))) := by
  unfold tf tw
  refine (W16_arr m ρ c 3).trans ((final4_fun (V15 m ρ) c).trans ?_)
  have e1 := W15_v33 m ρ c
  have e2 := W15_v35 m ρ c
  exact congrArg₂ (G4 _) e1 e2

/-- Region 5 leaves the layer's rows. -/
theorem out2_eq (c : Dev nD) : tf (S := S100352x64) (W18 m ρ c (Proc.devRef .tc main_v44)) = G5 (tf (S := S1701888x64) (W16 m ρ c (Proc.devRef .tc main_v42))) (tw (S := S1x1701888) (W10 m ρ c (Proc.devRef .tc main_v34))) (tf (S := S1x64) (W17 m ρ c (Proc.devRef .tc main_v43))) := by
  unfold tf tw
  refine (W18_arr m ρ c 3).trans ((final5_fun (V17 m ρ) c).trans ?_)
  have e1 := W17_v42 m ρ c
  have e2 := W17_v34 m ρ c
  exact congrArg₂ (fun a b => G5 a b _) e1 e2

/-- Layer 2 of the kernel program is the specification's layer, given what the host operations leave. -/
theorem layer2_val (c : Dev nD) (h : Fin NN → Fin 128 → EReal) (s : Fin NE → Fin NN) (d : Fin NE → BitVec 32) (nr : Fin NE → EReal)
    (hh : ∀ (r : Fin NN) (k : Fin 128), tf (S := S100352x128) (W14 m ρ c (Proc.devRef .tc main_v40)) (ix2 (upN r) k) = h r k)
    (hsrc : ∀ e : Fin NE, tw (S := S1x1701888) (W10 m ρ c (Proc.devRef .tc main_v33)) (ix2 0 (upE e)) = BitVec.ofNat 32 (s e).val)
    (hdst : ∀ e : Fin NE, tw (S := S1x1701888) (W10 m ρ c (Proc.devRef .tc main_v34)) (ix2 0 (upE e)) = d e)
    (hnrm : ∀ e : Fin NE, tf (S := S1x1701888) (W10 m ρ c (Proc.devRef .tc main_v35)) (ix2 0 (upE e)) = nr e)
    (hsrc0 : ∀ e : Fin EP, NE ≤ e.val → tw (S := S1x1701888) (W10 m ρ c (Proc.devRef .tc main_v33)) (ix2 0 e) = 0#32)
    (hnrm0 : ∀ e : Fin EP, NE ≤ e.val → tf (S := S1x1701888) (W10 m ρ c (Proc.devRef .tc main_v35)) (ix2 0 e) = 0)
    (hb : ∀ g : Fin 64, tf (S := S1x64) (W17 m ρ c (Proc.devRef .tc main_v43)) (ix2 0 g) = tf (S := S64) (m ((c : Thread nD τ).loc main_arg5)) (ix1 g))
    (n : Fin NN) (f : Fin 64) :
    tf (S := S100352x64) (W18 m ρ c (Proc.devRef .tc main_v44)) (ix2 (upN n) f)
      = layer h (fun k g => tf (S := S128x64) (m ((c : Thread nD τ).loc main_arg4)) (ix2 k g)) (fun g => tf (S := S64) (m ((c : Thread nD τ).loc main_arg5)) (ix1 g)) s d nr n f :=
  layer_bridge (hp := fun r k => tf (S := S100352x128) (W14 m ρ c (Proc.devRef .tc main_v40)) (ix2 r k)) (h := h)
    (srcp := fun e => tw (S := S1x1701888) (W10 m ρ c (Proc.devRef .tc main_v33)) (ix2 0 e)) (dstp := fun e => tw (S := S1x1701888) (W10 m ρ c (Proc.devRef .tc main_v34)) (ix2 0 e)) (nrmp := fun e => tf (S := S1x1701888) (W10 m ρ c (Proc.devRef .tc main_v35)) (ix2 0 e))
    (y := fun r g => tf (S := S100352x64) (W15 m ρ c (Proc.devRef .tc main_v41)) (ix2 r g)) (mg := fun e g => tf (S := S1701888x64) (W16 m ρ c (Proc.devRef .tc main_v42)) (ix2 e g)) (out := fun r g => tf (S := S100352x64) (W18 m ρ c (Proc.devRef .tc main_v44)) (ix2 r g))
    (W := fun k g => tf (S := S128x64) (m ((c : Thread nD τ).loc main_arg4)) (ix2 k g)) (b := fun g => tf (S := S64) (m ((c : Thread nD τ).loc main_arg5)) (ix1 g))
    (s := s) (d := d) (nrm := nr)
    (hh := hh) (hsrc := hsrc) (hdst := hdst) (hnrm := hnrm) (hsrc0 := hsrc0) (hnrm0 := hnrm0)
    (hy := fun r g => by rw [y2_eq, G3_apply])
    (hmg := fun e g s' hs' => by rw [msg2_eq, G4_apply _ _ _ e g s' hs'])
    (hout := fun r g => by rw [out2_eq, G5_apply, hb])
    n f

/-! ## The two layers and the final slice -/

/-- The kernel program's result is the specification's network, given what the host operations leave. -/
theorem net_val (c : Dev nD) (s : Fin NE → Fin NN) (d : Fin NE → BitVec 32) (nr : Fin NE → EReal)
    (hx : ∀ (r : Fin NN) (k : Fin 128), tf (S := S100352x128) (W10 m ρ c (Proc.devRef .tc main_v36)) (ix2 (upN r) k) = tf (S := S100000x128) (m ((c : Thread nD τ).loc main_arg0)) (ix2 r k))
    (hsrc : ∀ e : Fin NE, tw (S := S1x1701888) (W10 m ρ c (Proc.devRef .tc main_v33)) (ix2 0 (upE e)) = BitVec.ofNat 32 (s e).val)
    (hdst : ∀ e : Fin NE, tw (S := S1x1701888) (W10 m ρ c (Proc.devRef .tc main_v34)) (ix2 0 (upE e)) = d e)
    (hnrm : ∀ e : Fin NE, tf (S := S1x1701888) (W10 m ρ c (Proc.devRef .tc main_v35)) (ix2 0 (upE e)) = nr e)
    (hsrc0 : ∀ e : Fin EP, NE ≤ e.val → tw (S := S1x1701888) (W10 m ρ c (Proc.devRef .tc main_v33)) (ix2 0 e) = 0#32)
    (hnrm0 : ∀ e : Fin EP, NE ≤ e.val → tf (S := S1x1701888) (W10 m ρ c (Proc.devRef .tc main_v35)) (ix2 0 e) = 0)
    (hb1 : ∀ g : Fin 128, tf (S := S1x128) (W13 m ρ c (Proc.devRef .tc main_v39)) (ix2 0 g) = tf (S := S128) (m ((c : Thread nD τ).loc main_arg3)) (ix1 g))
    (hb2 : ∀ g : Fin 64, tf (S := S1x64) (W17 m ρ c (Proc.devRef .tc main_v43)) (ix2 0 g) = tf (S := S64) (m ((c : Thread nD τ).loc main_arg5)) (ix1 g))
    (hsl : ∀ (n : Fin NN) (f : Fin 64), tf (S := S100000x64) (W19 m ρ c (Proc.devRef .tc main_v45)) (ix2 n f) = tf (S := S100352x64) (W18 m ρ c (Proc.devRef .tc main_v44)) (ix2 (upN n) f))
    (n : Fin NN) (f : Fin 64) :
    tf (S := S100000x64) (W19 m ρ c (Proc.devRef .tc main_v45)) (ix2 n f)
      = net (fun a k => tf (S := S100000x128) (m ((c : Thread nD τ).loc main_arg0)) (ix2 a k)) (fun k g => tf (S := S128x128) (m ((c : Thread nD τ).loc main_arg2)) (ix2 k g))
          (fun g => tf (S := S128) (m ((c : Thread nD τ).loc main_arg3)) (ix1 g)) (fun k g => tf (S := S128x64) (m ((c : Thread nD τ).loc main_arg4)) (ix2 k g))
          (fun g => tf (S := S64) (m ((c : Thread nD τ).loc main_arg5)) (ix1 g)) s d nr n f := by
  rw [hsl]
  unfold net
  exact layer2_val m ρ c _ s d nr
    (fun r k => layer1_val m ρ c (fun a k => tf (S := S100000x128) (m ((c : Thread nD τ).loc main_arg0)) (ix2 a k)) s d nr hx hsrc hdst hnrm hsrc0 hnrm0 hb1 r k)
    hsrc hdst hnrm hsrc0 hnrm0 hb2 n f

/-- The kernel program's result is the specification's network of the arguments, the edges' sources, destinations and
    normalisations being what the host prefix — the reference's own first operations — computes from the edge list. -/
theorem kernel_net (c : Dev nD) (s : Fin NE → Fin NN)
    (hs : ∀ e, Cert.ReferenceIdeal.Read.val_main_v3 (F := Ideal) (m ((c : Thread nD τ).loc main_arg1)) (ix1 e) = BitVec.ofNat 32 (s e).val) (n : Fin 100000) (f : Fin 64) :
    tf (S := S100000x64) (W19 m ρ c (Proc.devRef .tc main_v45)) (ix2 n f)
      = net (fun a k => tf (S := S100000x128) (m ((c : Thread nD τ).loc main_arg0)) (ix2 a k)) (fun k g => tf (S := S128x128) (m ((c : Thread nD τ).loc main_arg2)) (ix2 k g))
          (fun g => tf (S := S128) (m ((c : Thread nD τ).loc main_arg3)) (ix1 g)) (fun k g => tf (S := S128x64) (m ((c : Thread nD τ).loc main_arg4)) (ix2 k g))
          (fun g => tf (S := S64) (m ((c : Thread nD τ).loc main_arg5)) (ix1 g)) s
          (fun e => Cert.ReferenceIdeal.Read.val_main_v6 (F := Ideal) (m ((c : Thread nD τ).loc main_arg1)) (ix1 e))
          (fun e => Cert.ReferenceIdeal.Read.val_main_v29 (F := Ideal) (m ((c : Thread nD τ).loc main_arg1)) (ix1 e)) n f :=
  net_val m ρ c s _ _ (fun r k => xP_lt m ρ c r k) (fun e => (srcP_lt m ρ c e).trans (hs e)) (fun e => dstP_lt m ρ c e) (fun e => nrmP_lt m ρ c e)
    (fun e he => srcP_ge m ρ c e he) (fun e he => nrmP_ge m ρ c e he) (fun g => bias1P m ρ c g) (fun g => bias2P m ρ c g)
    (fun n f => outP m ρ c n f) n f

end Cert.KernelIdeal.Hand

end
-- ==== Proof.RefIsSpec.lean ====
/-
  The reference program computes the two-layer network of the specification.

  Each layer of the reference is: a dense product, a row gather at the (wrapped) source words, a product with the
  broadcast edge normalisation, a scatter-add into zeros at the destination words, the bias and the clip at zero.
  Under the hypothesis that the source word of every edge is the word of a node, the gather reads that node's row,
  and the scatter-add's sum over the update positions landing at (n, f) is the sum over the edges whose destination
  word is the word of n: the specification's layer.
-/
import proofs.«101950_j12489764897128_2_alg».proof.Proof.RefRead
import proofs.«101950_j12489764897128_2_alg».proof.Proof.Spec
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.Read Cert.Spec

/-! ## A row gather read at an index -/

section Generic
variable {α : Type}

/-- The dimension numbers of a row gather: operand `[N, D]`, start indices `[E, 1]`, result `[E, D]`; row `e` of the
    result is the operand's row at start index `e`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at `(e, f)`: the operand at row "start index `e`, read signed and clamped into `[0, N − 1]`",
    column `f`. -/
theorem gather_row_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGather N E D wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowGather N E D wf).start (ix2 e f) idx 0 + (rowGather N E D wf).batchCoord (ix2 e f) 0
      + (rowGather N E D wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e f) ⟨List.idxOf (0 : Fin 2) (rowGather N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E D wf).start (ix2 e f) idx 1 + (rowGather N E D wf).batchCoord (ix2 e f) 1
      + (rowGather N E D wf).offCoord (ix2 e f) 1 = _
    rw [GatherDims.batchCoord_eq_zero _ _ _ List.not_mem_nil]
    unfold GatherDims.start
    rw [dif_neg (by decide : ¬ (1 : Fin 2) ∈ ([0] : List (Fin 2)))]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

end Generic

/-! ## A row scatter-add read at an index -/

/-- The dimension numbers of a row scatter: operand `[N, D]`, scatter indices `[E, 1]`, updates `[E, D]`; row `e` of the
    updates lands on the operand's row "scatter index `e`, read signed", when that is a row. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (idx : IVec ⟨2, ![E, 1]⟩ w) (e : Fin E) (f' : Fin D)

/-- On the row axis the window starts at the scatter index, read signed. -/
theorem rowScatter_start0 :
    (rowScatter N E D wf).start (ix2 e f') idx 0 = (idx (ix2 e (0 : Fin 1))).toInt := by
  unfold ScatterDims.start
  rw [dif_pos (show (0 : Fin 2) ∈ (rowScatter N E D wf).scatterDimsToOperandDims from List.mem_singleton.mpr rfl)]
  have hsi : (rowScatter N E D wf).siIdx (ix2 e f') ⟨List.idxOf (0 : Fin 2) (rowScatter N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero. -/
theorem rowScatter_start1 : (rowScatter N E D wf).start (ix2 e f') idx 1 = 0 := by
  unfold ScatterDims.start
  rw [dif_neg (by decide : ¬ (1 : Fin 2) ∈ ([0] : List (Fin 2)))]

/-- The row axis is inserted: no window coordinate. -/
theorem rowScatter_window0 : (rowScatter N E D wf).window (ix2 e f') 0 = 0 := by
  unfold ScatterDims.window
  rw [dif_neg (fun h => by
    have h2 := (List.mem_filter.mp h).2
    simp at h2)]

/-- The column axis carries the update's column. -/
theorem rowScatter_window1 : (rowScatter N E D wf).window (ix2 e f') 1 = f'.val := by
  unfold ScatterDims.window
  rw [dif_pos (show (1 : Fin 2) ∈ (rowScatter N E D wf).sKept from List.mem_filter.mpr ⟨List.mem_finRange _,
    (by decide : decide ((1 : Fin 2) ∉ ([0] : List (Fin 2))) = true)⟩)]
  rfl

/-- An update whose scatter index is the number of a row lands on that row, same column. -/
theorem rowScatter_resultIdx_some (n : Fin N) (h : (idx (ix2 e (0 : Fin 1))).toInt = (n.val : Int)) :
    (rowScatter N E D wf).resultIdx? (ix2 e f') idx = some (ix2 n f') := by
  have hn := n.isLt
  have hf := f'.isLt
  have hall : ∀ a, 0 ≤ (rowScatter N E D wf).start (ix2 e f') idx a + ((rowScatter N E D wf).window (ix2 e f') a : Int)
      ∧ (rowScatter N E D wf).start (ix2 e f') idx a + ((rowScatter N E D wf).window (ix2 e f') a : Int)
        < ((⟨2, ![N, D]⟩ : Shape).size a : Int) := by
    intro a
    match a with
    | ⟨0, _⟩ =>
      show 0 ≤ (rowScatter N E D wf).start (ix2 e f') idx 0 + ((rowScatter N E D wf).window (ix2 e f') 0 : Int)
        ∧ (rowScatter N E D wf).start (ix2 e f') idx 0 + ((rowScatter N E D wf).window (ix2 e f') 0 : Int) < (N : Int)
      rw [rowScatter_start0, rowScatter_window0, h]; omega
    | ⟨1, _⟩ =>
      show 0 ≤ (rowScatter N E D wf).start (ix2 e f') idx 1 + ((rowScatter N E D wf).window (ix2 e f') 1 : Int)
        ∧ (rowScatter N E D wf).start (ix2 e f') idx 1 + ((rowScatter N E D wf).window (ix2 e f') 1 : Int) < (D : Int)
      rw [rowScatter_start1, rowScatter_window1]; omega
  unfold ScatterDims.resultIdx?
  rw [dif_pos hall]
  congr 1
  funext a
  refine Fin.ext ?_
  match a with
  | ⟨0, _⟩ =>
    show ((rowScatter N E D wf).start (ix2 e f') idx 0 + ((rowScatter N E D wf).window (ix2 e f') 0 : Int)).toNat = n.val
    rw [rowScatter_start0, rowScatter_window0, h]; omega
  | ⟨1, _⟩ =>
    show ((rowScatter N E D wf).start (ix2 e f') idx 1 + ((rowScatter N E D wf).window (ix2 e f') 1 : Int)).toNat = f'.val
    rw [rowScatter_start1, rowScatter_window1]; omega

/-- An update whose scatter index is the number of no row is dropped. -/
theorem rowScatter_resultIdx_none
    (h : ¬ (0 ≤ (idx (ix2 e (0 : Fin 1))).toInt ∧ (idx (ix2 e (0 : Fin 1))).toInt < (N : Int))) :
    (rowScatter N E D wf).resultIdx? (ix2 e f') idx = none := by
  unfold ScatterDims.resultIdx?
  rw [dif_neg]
  intro hall
  have h0 := hall 0
  have e0 : (rowScatter N E D wf).start (ix2 e f') idx 0 + ((rowScatter N E D wf).window (ix2 e f') 0 : Int)
      = (idx (ix2 e (0 : Fin 1))).toInt := by
    rw [rowScatter_start0, rowScatter_window0]; omega
  rw [e0] at h0
  exact h h0

/-- The update at `(e, f')` lands at `(n, f)` exactly when `f' = f` and edge `e`'s scatter index, read signed, is `n`. -/
theorem rowScatter_resultIdx_iff (n : Fin N) (f : Fin D) :
    (rowScatter N E D wf).resultIdx? (ix2 e f') idx = some (ix2 n f)
      ↔ (idx (ix2 e (0 : Fin 1))).toInt = (n.val : Int) ∧ f' = f := by
  constructor
  · intro h
    by_cases hr : 0 ≤ (idx (ix2 e (0 : Fin 1))).toInt ∧ (idx (ix2 e (0 : Fin 1))).toInt < (N : Int)
    · have hm : (idx (ix2 e (0 : Fin 1))).toInt = ((⟨(idx (ix2 e (0 : Fin 1))).toInt.toNat, by omega⟩ : Fin N).val : Int) := by
        show _ = (((idx (ix2 e (0 : Fin 1))).toInt.toNat : Nat) : Int); omega
      rw [rowScatter_resultIdx_some wf idx e f' _ hm] at h
      have hg := Option.some.inj h
      have g0 : (⟨(idx (ix2 e (0 : Fin 1))).toInt.toNat, by omega⟩ : Fin N) = n := congrFun hg 0
      have g1 : f' = f := congrFun hg 1
      refine ⟨?_, g1⟩
      rw [hm, g0]
    · rw [rowScatter_resultIdx_none wf idx e f' hr] at h
      exact absurd h (by simp)
  · rintro ⟨h, rfl⟩
    exact rowScatter_resultIdx_some wf idx e f' n h

/-- THE SCATTER-ADD READ AT `(n, f)`: the operand there plus the sum, over the edges whose scatter index read signed is
    `n`, of the updates' column `f`. -/
theorem scatter_row_apply (x : (⟨2, ![N, D]⟩ : Shape).Idx → EReal) (upd : (⟨2, ![E, D]⟩ : Shape).Idx → EReal)
    (n : Fin N) (f : Fin D) :
    Ideal.hostScatterAdd (rowScatter N E D wf) x idx upd (ix2 n f)
      = x (ix2 n f) + ∑ e ∈ Finset.univ.filter (fun e : Fin E => (idx (ix2 e (0 : Fin 1))).toInt = (n.val : Int)),
          upd (ix2 e f) := by
  unfold Ideal.hostScatterAdd
  congr 1
  rw [Finset.sum_filter, sum_idx2, Finset.sum_filter]
  refine Finset.sum_congr rfl fun e _ => ?_
  simp only [rowScatter_resultIdx_iff]
  by_cases hc : (idx (ix2 e (0 : Fin 1))).toInt = (n.val : Int)
  · simp [hc]
  · simp [hc]

end Scatter

/-! ## Words -/

/-- A word read signed is the number `n` of a node exactly when it is the word of `n`. -/
theorem toInt_eq_natCast_iff (w : BitVec 32) (n : Nat) (hn : n < 100000) :
    w.toInt = (n : Int) ↔ w = BitVec.ofNat 32 n := by
  constructor
  · intro h
    apply BitVec.eq_of_toNat_eq
    rw [BitVec.toNat_ofNat]
    have := w.isLt
    rw [BitVec.toInt_eq_toNat_cond] at h
    split at h <;> omega
  · rintro rfl
    rw [BitVec.toInt_eq_toNat_cond, BitVec.toNat_ofNat]
    have : n % 2 ^ 32 = n := Nat.mod_eq_of_lt (by omega)
    rw [this]; split <;> omega

/-- The gather's start index for an edge whose source word is the word of node `k`: the wrap of a negative index does
    not fire, and the clamp into `[0, 99999]` leaves `k`. -/
theorem gather_word (k : Nat) (hk : k < 100000) :
    min (Scalar.select (IntOp.cmpi .slt (BitVec.ofNat 32 k) 0#32) (IntOp.addi (BitVec.ofNat 32 k) 100000#32)
      (BitVec.ofNat 32 k)).toInt.toNat (100000 - 1) = k := by
  have ht : (BitVec.ofNat 32 k).toInt = (k : Int) := (toInt_eq_natCast_iff _ k hk).mpr rfl
  have hs : (BitVec.ofNat 32 k).slt 0#32 = false := by
    unfold BitVec.slt
    rw [ht]
    simp
  have hc : IntOp.cmpi .slt (BitVec.ofNat 32 k) 0#32 = 0#1 := by
    unfold IntOp.cmpi
    simp only [hs]
    rfl
  rw [hc, select_zero, ht]
  omega

/-! ## Indices by their coordinates -/

/-- Two rank-1 indices with the same coordinate are equal. -/
theorem idx1_ext {n : Nat} (i j : (⟨1, ![n]⟩ : Shape).Idx) (h : i 0 = j 0) : i = j := by
  funext a; match a with | ⟨0, _⟩ => exact h

/-- Two rank-2 indices with the same coordinates are equal. -/
theorem idx2_ext {n0 n1 : Nat} (i j : (⟨2, ![n0, n1]⟩ : Shape).Idx) (h0 : i 0 = j 0) (h1 : i 1 = j 1) : i = j := by
  funext a; match a with | ⟨0, _⟩ => exact h0 | ⟨1, _⟩ => exact h1

/-! ## One layer's gather and scatter-add, in the specification's terms -/

/-- The row gather at the wrapped source words reads the source node's row, when every source word is a node's. -/
theorem layer_gather {D : Nat}
    (wfG : GatherDims.WF ⟨2, ![100000, D]⟩ ⟨2, ![1700000, 1]⟩ ⟨2, ![1700000, D]⟩ [1] [0] [] [0] [] 1 ![1, D])
    (y : (⟨2, ![100000, D]⟩ : Shape).Idx → EReal) (gi : IVec ⟨2, ![1700000, 1]⟩ 32)
    (s : Fin NE → Fin NN) (w : Fin NE → BitVec 32) (hw : ∀ e, w e = BitVec.ofNat 32 (s e).val)
    (hgi : ∀ e : Fin 1700000, gi (ix2 e (0 : Fin 1))
      = Scalar.select (IntOp.cmpi .slt (w e) 0#32) (IntOp.addi (w e) 100000#32) (w e))
    (e : Fin 1700000) (f : Fin D) :
    Host.gather (rowGather 100000 1700000 D wfG) y gi (ix2 e f) = y (ix2 (s e) f) := by
  rw [gather_row_apply (by decide)]
  refine congrArg (fun r : Fin 100000 => y (ix2 r f)) (Fin.ext ?_)
  show min (gi (ix2 e (0 : Fin 1))).toInt.toNat (100000 - 1) = (s e).val
  rw [hgi, hw]
  exact gather_word _ (s e).isLt

/-- The scatter-add into zeros at the destination words is the specification's sum of the messages. -/
theorem layer_scatter {D : Nat}
    (wfS : ScatterDims.WF ⟨2, ![100000, D]⟩ ⟨2, ![1700000, 1]⟩ ⟨2, ![1700000, D]⟩ [1] [0] [0] 1)
    (z : (⟨2, ![100000, D]⟩ : Shape).Idx → EReal) (si : IVec ⟨2, ![1700000, 1]⟩ 32)
    (upd : (⟨2, ![1700000, D]⟩ : Shape).Idx → EReal)
    (y : Fin NN → Fin D → EReal) (s : Fin NE → Fin NN) (d : Fin NE → BitVec 32) (ν : Fin NE → EReal)
    (hz : ∀ i, z i = 0) (hsi : ∀ e : Fin 1700000, si (ix2 e (0 : Fin 1)) = d e)
    (hupd : ∀ (e : Fin 1700000) (f : Fin D), upd (ix2 e f) = y (s e) f * ν e) (n : Fin 100000) (f : Fin D) :
    Ideal.hostScatterAdd (rowScatter 100000 1700000 D wfS) z si upd (ix2 n f) = agg (msg y s ν) d n f := by
  rw [scatter_row_apply, hz, zero_add]
  unfold agg msg
  refine Finset.sum_congr ?_ (fun e _ => hupd e f)
  refine Finset.filter_congr (fun e _ => ?_)
  rw [hsi, toInt_eq_natCast_iff _ _ n.isLt]

/-- The same, for the host's scatter-add at the ideal values with dimension numbers `d` that are the row scatter's. -/
theorem layer_scatter' {D : Nat}
    (wfS : ScatterDims.WF ⟨2, ![100000, D]⟩ ⟨2, ![1700000, 1]⟩ ⟨2, ![1700000, D]⟩ [1] [0] [0] 1)
    (d : ScatterDims ⟨2, ![100000, D]⟩ ⟨2, ![1700000, 1]⟩ ⟨2, ![1700000, D]⟩) (hd : d = rowScatter 100000 1700000 D wfS)
    (z : (⟨2, ![100000, D]⟩ : Shape).Idx → EReal) (si : IVec ⟨2, ![1700000, 1]⟩ 32)
    (upd : (⟨2, ![1700000, D]⟩ : Shape).Idx → EReal)
    (y : Fin NN → Fin D → EReal) (s : Fin NE → Fin NN) (dw : Fin NE → BitVec 32) (ν : Fin NE → EReal)
    (hz : ∀ i, z i = 0) (hsi : ∀ e : Fin 1700000, si (ix2 e (0 : Fin 1)) = dw e)
    (hupd : ∀ (e : Fin 1700000) (f : Fin D), upd (ix2 e f) = y (s e) f * ν e) (n : Fin 100000) (f : Fin D) :
    Host.scatterAdd (F := Ideal) (φ := .f32) d z si upd (ix2 n f) = agg (msg y s ν) dw n f := by
  subst hd
  exact layer_scatter wfS z si upd y s dw ν hz hsi hupd n f

/-! ## The edge list -/

/-- the edge list's source words, destination words and normalisation, as the host operations shared by both programs
    compute them from edge_index -/
def srcW (x1 : (⟨S2x1600000, .i32⟩ : BufTy).Contents (Elt Ideal)) : Fin NE → BitVec 32 :=
  fun e => val_main_v3 (F := Ideal) x1 (ix1 e)
def dstW (x1 : (⟨S2x1600000, .i32⟩ : BufTy).Contents (Elt Ideal)) : Fin NE → BitVec 32 :=
  fun e => val_main_v6 (F := Ideal) x1 (ix1 e)
def nrm (x1 : (⟨S2x1600000, .i32⟩ : BufTy).Contents (Elt Ideal)) : Fin NE → EReal :=
  fun e => val_main_v29 (F := Ideal) x1 (ix1 e)

section Layers
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (s : Fin NE → Fin NN)

/-! ## The first layer -/

/-- The first layer's gather reads the source node's row of the first dense product. -/
theorem v37_apply (hs : ∀ e, srcW x1 e = BitVec.ofNat 32 (s e).val) (e : Fin 1700000) (f : Fin 128) :
    val_main_v37 (F := Ideal) x0 x1 x2 (ix2 e f) = val_main_v30 (F := Ideal) x0 x2 (ix2 (s e) f) := by
  show Host.gather gather_S100000x128_S1700000x1_S1700000x128_1_0_n_n_0_1_1128 (val_main_v30 (F := Ideal) x0 x2)
    (val_main_v36 (F := Ideal) x1) (ix2 e f) = _
  refine layer_gather _ _ _ s (srcW x1) hs ?_ e f
  intro e'
  rw [val_main_v36_apply, val_main_v35_apply, val_main_v32_apply, val_main_v34_apply, val_main_v31_apply,
    val_main_v33_apply, val_main_c_6_apply, val_main_c_7_apply,
    idx1_ext (idx_main_v36 (ix2 e' (0 : Fin 1))) (ix1 e') rfl]
  rfl

/-- The first layer's scatter-add is the specification's sum of messages of the first dense product. -/
theorem v43_apply (hs : ∀ e, srcW x1 e = BitVec.ofNat 32 (s e).val) (n : Fin 100000) (f : Fin 128) :
    val_main_v43 (F := Ideal) x0 x1 x2 (ix2 n f)
      = agg (msg (fun a g => val_main_v30 (F := Ideal) x0 x2 (ix2 a g)) s (nrm x1)) (dstW x1) n f := by
  have hrec : scatter_S100000x128_S1700000x1_S1700000x128_1_0_0_1
      = rowScatter 100000 1700000 128 Facts₀.scatter_S100000x128_S1700000x1_S1700000x128_1_0_0_1_wf := rfl
  unfold val_main_v43
  refine layer_scatter' _ _ hrec _ _ _ _ s (dstW x1) (nrm x1) ?_ ?_ ?_ n f
  · intro i
    rw [val_main_v41_apply, val_main_cst_8_apply]
    exact Ideal.ofBits_zero_f32
  · intro e
    rw [val_main_v42_apply, idx1_ext (idx_main_v42 (ix2 e (0 : Fin 1))) (ix1 e) rfl]
    rfl
  · intro e f
    rw [val_main_v40_apply]
    show val_main_v37 (F := Ideal) x0 x1 x2 (ix2 e f) * val_main_v39 (F := Ideal) x1 (ix2 e f) = _
    rw [v37_apply x0 x1 x2 s hs, val_main_v39_apply, val_main_v38_apply,
      idx1_ext (idx_main_v38 (idx_main_v39 (ix2 e f))) (ix1 e) rfl]
    rfl

/-- The first dense product is the specification's. -/
theorem v30_eq_proj :
    (fun (a : Fin NN) (g : Fin 128) => val_main_v30 (F := Ideal) x0 x2 (ix2 a g))
      = proj (fun a k => x0 (ix2 a k)) (fun k g => x2 (ix2 k g)) := by
  funext a g
  rw [val_main_v30_apply]
  unfold proj
  refine Finset.sum_congr rfl fun k _ => ?_
  rw [idx2_ext (lidx_main_v30 (ix2 a g) k) (ix2 a k) rfl rfl, idx2_ext (ridx_main_v30 (ix2 a g) k) (ix2 k g) rfl rfl]

/-- The first layer of the reference is the specification's. -/
theorem v47_apply (hs : ∀ e, srcW x1 e = BitVec.ofNat 32 (s e).val) (n : Fin 100000) (f : Fin 128) :
    val_main_v47 (F := Ideal) x0 x1 x2 x3 (ix2 n f)
      = layer (fun a k => x0 (ix2 a k)) (fun k g => x2 (ix2 k g)) (fun g => x3 (ix1 g)) s (dstW x1) (nrm x1) n f := by
  rw [val_main_v47_apply, val_main_v46_apply, val_main_call1_v0_apply, val_main_call1_cst_apply,
    v43_apply x0 x1 x2 s hs, v30_eq_proj, val_main_v45_apply, val_main_v44_apply,
    idx1_ext (idx_main_v44 (idx_main_v45 (ix2 n f))) (ix1 f) rfl]
  show max (_ + _) (Ideal.ofBits .f32 0x00000000#32) = _
  rw [Ideal.ofBits_zero_f32]
  rfl

/-! ## The second layer -/

/-- The second layer's gather reads the source node's row of the second dense product. -/
theorem v55_apply (hs : ∀ e, srcW x1 e = BitVec.ofNat 32 (s e).val) (e : Fin 1700000) (f : Fin 64) :
    val_main_v55 (F := Ideal) x0 x1 x2 x3 x4 (ix2 e f) = val_main_v48 (F := Ideal) x0 x1 x2 x3 x4 (ix2 (s e) f) := by
  show Host.gather gather_S100000x64_S1700000x1_S1700000x64_1_0_n_n_0_1_164 (val_main_v48 (F := Ideal) x0 x1 x2 x3 x4)
    (val_main_v54 (F := Ideal) x1) (ix2 e f) = _
  refine layer_gather _ _ _ s (srcW x1) hs ?_ e f
  intro e'
  rw [val_main_v54_apply, val_main_v53_apply, val_main_v50_apply, val_main_v52_apply, val_main_v49_apply,
    val_main_v51_apply, val_main_c_9_apply, val_main_c_10_apply,
    idx1_ext (idx_main_v54 (ix2 e' (0 : Fin 1))) (ix1 e') rfl]
  rfl

/-- The second layer's scatter-add is the specification's sum of messages of the second dense product. -/
theorem v61_apply (hs : ∀ e, srcW x1 e = BitVec.ofNat 32 (s e).val) (n : Fin 100000) (f : Fin 64) :
    val_main_v61 (F := Ideal) x0 x1 x2 x3 x4 (ix2 n f)
      = agg (msg (fun a g => val_main_v48 (F := Ideal) x0 x1 x2 x3 x4 (ix2 a g)) s (nrm x1)) (dstW x1) n f := by
  have hrec : scatter_S100000x64_S1700000x1_S1700000x64_1_0_0_1
      = rowScatter 100000 1700000 64 Facts₀.scatter_S100000x64_S1700000x1_S1700000x64_1_0_0_1_wf := rfl
  unfold val_main_v61
  refine layer_scatter' _ _ hrec _ _ _ _ s (dstW x1) (nrm x1) ?_ ?_ ?_ n f
  · intro i
    rw [val_main_v59_apply, val_main_cst_11_apply]
    exact Ideal.ofBits_zero_f32
  · intro e
    rw [val_main_v60_apply, idx1_ext (idx_main_v60 (ix2 e (0 : Fin 1))) (ix1 e) rfl]
    rfl
  · intro e f
    rw [val_main_v58_apply]
    show val_main_v55 (F := Ideal) x0 x1 x2 x3 x4 (ix2 e f) * val_main_v57 (F := Ideal) x1 (ix2 e f) = _
    rw [v55_apply x0 x1 x2 x3 x4 s hs, val_main_v57_apply, val_main_v56_apply,
      idx1_ext (idx_main_v56 (idx_main_v57 (ix2 e f))) (ix1 e) rfl]
    rfl

/-- The second dense product is the specification's, of the first layer. -/
theorem v48_eq_proj (hs : ∀ e, srcW x1 e = BitVec.ofNat 32 (s e).val) :
    (fun (a : Fin NN) (g : Fin 64) => val_main_v48 (F := Ideal) x0 x1 x2 x3 x4 (ix2 a g))
      = proj (layer (fun a k => x0 (ix2 a k)) (fun k g => x2 (ix2 k g)) (fun g => x3 (ix1 g)) s (dstW x1) (nrm x1))
          (fun k g => x4 (ix2 k g)) := by
  funext a g
  rw [val_main_v48_apply]
  unfold proj
  refine Finset.sum_congr rfl fun k _ => ?_
  rw [idx2_ext (lidx_main_v48 (ix2 a g) k) (ix2 a k) rfl rfl, idx2_ext (ridx_main_v48 (ix2 a g) k) (ix2 k g) rfl rfl,
    v47_apply x0 x1 x2 x3 s hs]

end Layers

/-! ## The reference is the network -/

/-- When every edge's source word is the word of a node `s e`, the reference's result at `(n, f)` is the two-layer
    network of the specification on the arguments read by their coordinates, with the reference's own destination
    words and normalisation. -/
theorem ref_is_net (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (s : Fin NE → Fin NN) (hs : ∀ e, srcW x1 e = BitVec.ofNat 32 (s e).val) (n : Fin 100000) (f : Fin 64) :
    val_main_v65 (F := Ideal) x0 x1 x2 x3 x4 x5 (ix2 n f)
      = net (fun a k => x0 (ix2 a k)) (fun k g => x2 (ix2 k g)) (fun g => x3 (ix1 g)) (fun k g => x4 (ix2 k g))
          (fun g => x5 (ix1 g)) s (dstW x1) (nrm x1) n f := by
  rw [val_main_v65_apply, val_main_v64_apply, val_main_call2_v0_apply, val_main_call2_cst_apply,
    v61_apply x0 x1 x2 x3 x4 s hs, v48_eq_proj x0 x1 x2 x3 x4 s hs, val_main_v63_apply, val_main_v62_apply,
    idx1_ext (idx_main_v62 (idx_main_v63 (ix2 n f))) (ix1 f) rfl]
  show max (_ + _) (Ideal.ofBits .f32 0x00000000#32) = _
  rw [Ideal.ofBits_zero_f32]
  rfl

end Cert.RefSide

end
-- ==== Proof.PreDecode.lean ====
/-
  The added domain conjuncts of the precondition, read back: every source word of the given edge list (row 0 of
  `edge_index`) is, as a signed integer, at least 0 and below 100000 — it names a node.
-/
import proofs.«101950_j12489764897128_2_alg».proof.Pre_finite_inputs
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Cert.Pre_finite_inputs

variable [Cert.Pre_finite_inputs.Facts]
open Cert.Pre_finite_inputs.Facts

variable {F : FTy → Type} [FloatOps F]

instance : Subsingleton S_.Idx := ⟨fun a b => funext fun d => d.elim0⟩

/-- Row 0 of the edge list, flattened: element `j` is `edge_index[0, j]`. -/
theorem row0_apply (a1 : IVec S2x1600000 32) (j : Fin 1600000) :
    shapeCast S1600000 ((extractStridedSlice S1x1600000 ![0, 0] · slices_S2x1600000_S1x1600000_0_0) a1) shapeCasts_S1x1600000_S1600000 (ix1 j)
      = a1 (ix2 0 j) := by
  have e1 := shapeCast_apply ((extractStridedSlice S1x1600000 ![0, 0] · slices_S2x1600000_S1x1600000_0_0) a1) shapeCasts_S1x1600000_S1600000 (ix1 j) (ix2 0 j)
    (by rewrite [Shape.rowMajor_val_two, Shape.rowMajor_val_one]; show 0 * 1600000 + j.val = j.val; omega)
  refine e1.trans ?_
  exact extractStridedSlice_apply ![0, 0] a1 slices_S2x1600000_S1x1600000_0_0 (ix2 0 j) (ix2 0 j) (fun a => match a with
    | ⟨0, _⟩ => by show (0 : ℕ) = 0 + 0; omega
    | ⟨1, _⟩ => by show j.val = 0 + j.val; omega)

/-- Under the precondition every given edge's source word is a node's number. -/
theorem src_range (a0 : FVec F S100000x128 .f32) (a1 : IVec S2x1600000 32) (a2 : FVec F S128x128 .f32) (a3 : FVec F S128 .f32)
    (a4 : FVec F S128x64 .f32) (a5 : FVec F S64 .f32)
    (h : fn (F := F) a0 a1 a2 a3 a4 a5 = fun _ => 1#1) (j : Fin 1600000) :
    0 ≤ (a1 (ix2 0 j)).toInt ∧ (a1 (ix2 0 j)).toInt < 100000 := by
  have h0 := congrFun h ix0
  dsimp only [fn, fn_part1, fn_part2] at h0
  obtain ⟨h29, h34⟩ := IntOp.andi_eq_one.1 h0
  obtain ⟨-, h28⟩ := IntOp.andi_eq_one.1 h29
  have hge := Host.reduce_andi_all _ _ _ _ _ h28 (ix1 j)
  have hlt := Host.reduce_andi_all _ _ _ _ _ h34 (ix1 j)
  have hge' := IntOp.cmpi_sge.1 hge
  have hlt' := IntOp.cmpi_slt.1 hlt
  rw [row0_apply] at hge' hlt'
  constructor
  · exact hge'
  · exact hlt'

end Cert.PreDecode

end
-- ==== Proof.SrcNode.lean ====
/-
  Under the precondition every edge's source word names a node: a given edge's by the precondition's range conjuncts, a
  self-loop's because it is the loop's own node number.
-/
import proofs.«101950_j12489764897128_2_alg».proof.Proof.RefRead
import proofs.«101950_j12489764897128_2_alg».proof.Proof.Spec

noncomputable section

namespace Cert.RefSide

open Idealize.ShloMosaic Idealize.ShloMosaic.ValueIdx Cert.ReferenceIdeal Cert.ReferenceIdeal.Gen Cert.ReferenceIdeal.Read Cert.Spec

/-- A 32-bit word that is, read signed, at least 0 and below 100000 is the word of that natural number. -/
theorem word_of_range (w : BitVec 32) (h0 : 0 ≤ w.toInt) (h1 : w.toInt < 100000) :
    w.toNat < 100000 ∧ w = BitVec.ofNat 32 w.toNat := by
  have hlt := w.isLt
  rw [BitVec.toInt_eq_toNat_cond] at h0 h1
  refine ⟨?_, by rw [BitVec.ofNat_toNat, BitVec.setWidth_eq]⟩
  split at h1 <;> omega

/-- The source word of a given edge is the edge list's entry. -/
theorem src_given (x1 : (⟨S2x1600000, .i32⟩ : BufTy).Contents (Elt Ideal)) (e : Fin NE) (he : e.val < 1600000) :
    val_main_v3 (F := Ideal) x1 (ix1 e) = x1 (ix2 0 ⟨e.val, he⟩) := by
  unfold val_main_v3
  refine (concatenate_pair_apply_left (0 : Fin 1) (val_main_v2 (F := Ideal) x1) (val_main_v0 (F := Ideal))
    concatenates_S1600000_S100000_S1700000_d0 (ix1 e) rfl (ix1 ⟨e.val, he⟩) (fun b => by
      match b with
      | ⟨0, _⟩ => rfl)).trans ?_
  rw [val_main_v2_apply, val_main_v1_apply]
  refine congrArg x1 (funext fun a => Fin.ext ?_)
  match a with
  | ⟨0, _⟩ => rfl
  | ⟨1, _⟩ => show e.val % 1600000 = e.val; omega

/-- The source word of a self-loop is its node's number. -/
theorem src_loop (x1 : (⟨S2x1600000, .i32⟩ : BufTy).Contents (Elt Ideal)) (e : Fin NE) (he : 1600000 ≤ e.val) :
    val_main_v3 (F := Ideal) x1 (ix1 e) = BitVec.ofNat 32 (e.val - 1600000) := by
  unfold val_main_v3
  have hE : e.val < 1700000 := e.isLt
  have hlt : e.val - 1600000 < 100000 := by omega
  refine (concatenate_pair_apply_right (0 : Fin 1) (val_main_v2 (F := Ideal) x1) (val_main_v0 (F := Ideal))
    concatenates_S1600000_S100000_S1700000_d0 (ix1 e) rfl rfl (ix1 ⟨e.val - 1600000, hlt⟩) (fun b hb => absurd (Subsingleton.elim _ _) hb) (by show e.val - 1600000 + 1600000 = e.val; omega)).trans ?_
  exact val_main_v0_apply _

/-- Every edge has a source node: its word is that node's number. -/
theorem exists_src (x1 : (⟨S2x1600000, .i32⟩ : BufTy).Contents (Elt Ideal))
    (hpre : ∀ j : Fin 1600000, 0 ≤ (x1 (ix2 0 j)).toInt ∧ (x1 (ix2 0 j)).toInt < 100000) :
    ∃ s : Fin NE → Fin NN, ∀ e : Fin NE, val_main_v3 (F := Ideal) x1 (ix1 e) = BitVec.ofNat 32 (s e).val := by
  have key : ∀ e : Fin NE, ∃ n : Fin NN, val_main_v3 (F := Ideal) x1 (ix1 e) = BitVec.ofNat 32 n.val := by
    intro e
    by_cases he : e.val < 1600000
    · obtain ⟨h0, h1⟩ := hpre ⟨e.val, he⟩
      obtain ⟨hn, hw⟩ := word_of_range _ h0 h1
      exact ⟨⟨_, hn⟩, (src_given x1 e he).trans hw⟩
    · have hge : 1600000 ≤ e.val := Nat.le_of_not_lt he
      exact ⟨⟨e.val - 1600000, by have hE : e.val < 1700000 := e.isLt; show e.val - 1600000 < 100000; omega⟩, src_loop x1 e hge⟩
  exact ⟨fun e => (key e).choose, fun e => (key e).choose_spec⟩

end Cert.RefSide

end
-- ==== Proof.Algebraic.lean ====
/-
  The algebraic claim: on the extended reals the kernel program and the reference end with the same result, from
  memories that agree on the six arguments.

  Both results are the two-layer network of the specification. The kernel's result array is that network of the
  arguments read by their coordinates, with the reference's own destination words and edge normalisation (the kernel
  side's value theorem); the reference's result is the same network (the reference side's theorem). Both need every
  edge's source word to be the word of a node: for a given edge that is the precondition's range conjunct on the edge
  list's first row, for a self-loop it is the loop's own node number.
-/
import proofs.«101950_j12489764897128_2_alg».proof.Defs
import proofs.«101950_j12489764897128_2_alg».proof.Proof.Gen.Kernel
import proofs.«101950_j12489764897128_2_alg».proof.Proof.Gen.KernelIdeal
import proofs.«101950_j12489764897128_2_alg».proof.Proof.Gen.ReferenceIdeal
import proofs.«101950_j12489764897128_2_alg».proof.Proof.Gen.Pre_finite_inputs
import proofs.«101950_j12489764897128_2_alg».proof.Proof.KI.Run
import proofs.«101950_j12489764897128_2_alg».proof.Proof.KI.Value
import proofs.«101950_j12489764897128_2_alg».proof.Proof.RefIsSpec
import proofs.«101950_j12489764897128_2_alg».proof.Proof.PreDecode
import proofs.«101950_j12489764897128_2_alg».proof.Proof.SrcNode
import Idealize.ShloMosaic.Lib.ValueIdx

noncomputable section

namespace Cert.Proof

open Idealize.ShloMosaic Idealize.ShloMosaic.TcCoe Idealize.SL.Sem Idealize.ShloMosaic.ValueIdx

section KernelSide
open Cert.KernelIdeal Cert.KernelIdeal.Gen Cert.KernelIdeal.Hand

/-- The kernel program runs, ends with its result array at the composed value of the regions and host stretches, and
    leaves the six arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45) = W19 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    h c _ (mem_uc main_v45 (by decide)),
    (h c _ (mem_uc main_arg0 (by decide))).trans (W19_main_arg0 m ρ c),
    (h c _ (mem_uc main_arg1 (by decide))).trans (W19_main_arg1 m ρ c),
    (h c _ (mem_uc main_arg2 (by decide))).trans (W19_main_arg2 m ρ c),
    (h c _ (mem_uc main_arg3 (by decide))).trans (W19_main_arg3 m ρ c),
    (h c _ (mem_uc main_arg4 (by decide))).trans (W19_main_arg4 m ρ c),
    (h c _ (mem_uc main_arg5 (by decide))).trans (W19_main_arg5 m ρ c)⟩) (run_all m ρ)

end KernelSide

/-- The reference's result, on arguments that are the kernel's, is the kernel's result array: both are the network of
    the specification, element by element. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.Read.val_main_v65 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Hand.W19 m ρ c (Proc.devRef .tc Cert.KernelIdeal.main_v45) := by
  have hrange := fun j : Fin 1600000 => Cert.PreDecode.src_range (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (hpre c) j
  obtain ⟨s, hs⟩ := Cert.RefSide.exists_src
    (m ((c.tc : Thread Cert.KernelIdeal.nD Cert.KernelIdeal.τ).loc Cert.KernelIdeal.main_arg1)) hrange
  funext i
  obtain ⟨n, f, rfl⟩ : ∃ (n : Fin 100000) (f : Fin 64), i = ix2 n f := ⟨i 0, i 1, eq_ix2 i⟩
  refine (Cert.RefSide.ref_is_net _ _ _ _ _ _ s hs n f).trans ?_
  exact (Cert.KernelIdeal.Hand.kernel_net m ρ c s hs n f).symm

/-- At the ideal values, from memories agreeing on the arguments, both programs run and end with equal results and
    unchanged arguments. -/
theorem algebraic : Cert.algebraic_KernelIdeal_ReferenceIdeal := by
  intro m ρ m' ρ' hpre hagree
  refine ⟨fun c => Cert.KernelIdeal.Hand.W19 m ρ c (Proc.devRef .tc Cert.KernelIdeal.main_v45), kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v65_eq, h0, h1, h2, h3, h4, h5]
  exact result_eq m ρ hpre c

end Cert.Proof

end
-- ==== Proof.lean ====
/-
  The certificate of the two-layer graph convolution: the kernel program (six pallas_calls: a dense projection, a gather
  of the projected source rows scaled by the edge normalisation, and a scatter-add to the destination rows with bias and
  clipping at zero, twice) against its reference.

  The three frames. Each kernel region's body is run at a symbolic grid point (the gather and scatter bodies in their two
  control cases, the accumulator scratch carried from point to point in the region's invariant), the regions and the host
  stretches between them are composed in order, and the argument arrays are read back through the boundaries: no host
  operation writes one and a region either bypasses it or stages it as an input. The reference's frame is its run with the
  result dropped.

  The idealization rewrote nothing, so `preserves` is trivial.

  The algebraic claim: on the extended reals both programs compute `Cert.Spec.net` — per layer, row `n` is
  `max (∑ over the edges into n of (h W)[src] · norm + b) 0`. The kernel forms the gather and the scatter as products with
  one-hot matrices built from the node numbers, block by block; `0 · x = 0` and `0 + x = x` hold for every extended real,
  so each product collapses to the one surviving term and the blocked sums are the plain sums, the padded edges (source 0,
  normalisation 0) and padded rows contributing nothing. Under the precondition every source word names a node, which is
  where the one-hot gather and the reference's clamped gather agree.
-/
import proofs.«101950_j12489764897128_2_alg».proof.Defs
import proofs.«101950_j12489764897128_2_alg».proof.Proof.Gen.Kernel
import proofs.«101950_j12489764897128_2_alg».proof.Proof.Gen.KernelIdeal
import proofs.«101950_j12489764897128_2_alg».proof.Proof.Gen.ReferenceIdeal
import proofs.«101950_j12489764897128_2_alg».proof.Proof.Gen.Pre_finite_inputs
import proofs.«101950_j12489764897128_2_alg».proof.Proof.K.Run
import proofs.«101950_j12489764897128_2_alg».proof.Proof.KI.Run
import proofs.«101950_j12489764897128_2_alg».proof.Proof.RefRead
import proofs.«101950_j12489764897128_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
